-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x1200000 : Shape := ⟨2, ![2, 1200000]⟩
abbrev S1200000 : Shape := ⟨1, ![1200000]⟩
abbrev S1x20x32 : Shape := ⟨3, ![1, 20, 32]⟩
abbrev S32 : Shape := ⟨1, ![32]⟩
abbrev S2x32x64 : Shape := ⟨3, ![2, 32, 64]⟩
abbrev S64 : Shape := ⟨1, ![64]⟩
abbrev S2x64x2 : Shape := ⟨3, ![2, 64, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S1x20x32 : S_.BroadcastsInDim S1x20x32 (![] : Fin 0 → Fin S1x20x32.rank)
  reducesTo_S1x20x32_S_d0_1_2 : S1x20x32.ReducesTo [0, 1, 2] S_
  bcast_S_S32 : S_.BroadcastsInDim S32 (![] : Fin 0 → Fin S32.rank)
  reducesTo_S32_S_d0 : S32.ReducesTo [0] S_
  bcast_S_S2x32x64 : S_.BroadcastsInDim S2x32x64 (![] : Fin 0 → Fin S2x32x64.rank)
  reducesTo_S2x32x64_S_d0_1_2 : S2x32x64.ReducesTo [0, 1, 2] S_
  bcast_S_S64 : S_.BroadcastsInDim S64 (![] : Fin 0 → Fin S64.rank)
  reducesTo_S64_S_d0 : S64.ReducesTo [0] S_
  bcast_S_S2x64x2 : S_.BroadcastsInDim S2x64x2 (![] : Fin 0 → Fin S2x64x2.rank)
  reducesTo_S2x64x2_S_d0_1_2 : S2x64x2.ReducesTo [0, 1, 2] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S2 .f32) (main_arg9 : FVec F S2x1 .f32) (main_arg10 : FVec F S1 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S2x1 .f32 := Host.absf main_arg9
  let main_cst_14 : FVec F S_ .f32 := constant S_ .f32 0x7F800000#32
  let main_v40 : FVec F S2x1 .f32 := broadcastInDim S2x1 ![] bcast_S_S2x1 main_cst_14
  let main_v41 : IVec S2x1 1 := cmpf .olt main_v39 main_v40
  let main_c_15 : IVec S_ 1 := constantI S_ 1 1#1
  let main_v42 : IVec S_ 1 := (fun x v => Host.reduce IntOp.andi x v reducesTo_S2x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S2x32x64 .f32) (main_arg6 : FVec F S64 .f32) (main_arg7 : FVec F S2x64x2 .f32) (main_arg8 : FVec F S2 .f32) (main_arg9 : FVec F S2x1 .f32) (main_arg10 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S2x32x64 .f32 := Host.absf main_arg5
  let main_cst_6 : FVec F S_ .f32 := constant S_ .f32 0x7F800000#32
  let main_v20 : FVec F S2x32x64 .f32 := broadcastInDim S2x32x64 ![] bcast_S_S2x32x64 main_cst_6
  let main_v21 : IVec S2x32x64 1 := cmpf .olt main_v19 main_v20
  let main_c_7 : IVec S_ 1 := constantI S_ 1 1#1
  let main_v22 : IVec S_ 1 := (fun x v => Host.reduce IntOp.andi x v reducesTo_S2x32x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x2 .f32 := Host.absf main_arg7
  let main_cst_10 : FVec F S_ .f32 := constant S_ .f32 0x7F800000#32
  let main_v30 : FVec F S2x64x2 .f32 := broadcastInDim S2x64x2 ![] bcast_S_S2x64x2 main_cst_10
  let main_v31 : IVec S2x64x2 1 := cmpf .olt main_v29 main_v30
  let main_c_11 : IVec S_ 1 := constantI S_ 1 1#1
  let main_v32 : IVec S_ 1 := (fun x v => Host.reduce IntOp.andi x v reducesTo_S2x64x2_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S100000x20 .f32) (main_arg1 : IVec S2x1200000 32) (main_arg2 : FVec F S1200000 .f32) (main_arg3 : FVec F S1x20x32 .f32) (main_arg4 : FVec F S32 .f32) (main_arg5 : FVec F S2x32x64 .f32) (main_arg6 : FVec F S64 .f32) (main_arg7 : FVec F S2x64x2 .f32) (main_arg8 : FVec F S2 .f32) (main_arg9 : FVec F S2x1 .f32) (main_arg10 : FVec F S1 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S1x20x32 .f32 := Host.absf main_arg3
  let main_cst_2 : FVec F S_ .f32 := constant S_ .f32 0x7F800000#32
  let main_v10 : FVec F S1x20x32 .f32 := broadcastInDim S1x20x32 ![] bcast_S_S1x20x32 main_cst_2
  let main_v11 : IVec S1x20x32 1 := cmpf .olt main_v9 main_v10
  let main_c_3 : IVec S_ 1 := constantI S_ 1 1#1
  let main_v12 : IVec S_ 1 := (fun x v => Host.reduce IntOp.andi x v reducesTo_S1x20x32_S_d0_1_2 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x20 : Shape := ⟨2, ![100000, 20]⟩
abbrev S2x1200000 : Shape := ⟨2, ![2, 1200000]⟩
abbrev S1200000 : Shape := ⟨1, ![1200000]⟩
abbrev S1x20x32 : Shape := ⟨3, ![1, 20, 32]⟩
abbrev S32 : Shape := ⟨1, ![32]⟩
abbrev S2x32x64 : Shape := ⟨3, ![2, 32, 64]⟩
abbrev S64 : Shape := ⟨1, ![64]⟩
abbrev S2x64x2 : Shape := ⟨3, ![2, 64, 2]⟩
abbrev S2 : Shape := ⟨1, ![2]⟩
abbrev S2x1 : Shape := ⟨2, ![2, 1]⟩
abbrev S1 : Shape := ⟨1, ![1]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S20x32 : Shape := ⟨2, ![20, 32]⟩
abbrev S1x32 : Shape := ⟨2, ![1, 32]⟩
abbrev S100000x32 : Shape := ⟨2, ![100000, 32]⟩
abbrev S10000x20 : Shape := ⟨2, ![10000, 20]⟩
abbrev S10000x32 : Shape := ⟨2, ![10000, 32]⟩
abbrev S1200000x32 : Shape := ⟨2, ![1200000, 32]⟩
abbrev S1x32x64 : Shape := ⟨3, ![1, 32, 64]⟩
abbrev S32x64 : Shape := ⟨2, ![32, 64]⟩
abbrev S1x64x2 : Shape := ⟨3, ![1, 64, 2]⟩
abbrev S64x2 : Shape := ⟨2, ![64, 2]⟩
abbrev S1x64 : Shape := ⟨2, ![1, 64]⟩
abbrev S100000x64 : Shape := ⟨2, ![100000, 64]⟩
abbrev S100000x2 : Shape := ⟨2, ![100000, 2]⟩
abbrev S5000x32 : Shape := ⟨2, ![5000, 32]⟩
abbrev S5000x64 : Shape := ⟨2, ![5000, 64]⟩
abbrev S5000x2 : Shape := ⟨2, ![5000, 2]⟩
abbrev S1200000x2 : Shape := ⟨2, ![1200000, 2]⟩
abbrev S1x2 : Shape := ⟨2, ![1, 2]⟩
abbrev S10000x64 : Shape := ⟨2, ![10000, 64]⟩
abbrev S10000x2 : Shape := ⟨2, ![10000, 2]⟩
abbrev S1x1 : Shape := ⟨2, ![1, 1]⟩
abbrev S10000x1 : Shape := ⟨2, ![10000, 1]⟩

abbrev nBuf : Space → Nat
  | .hbm => 124
  | .vmem => 34
  | .smem => 0
  | _ => 0

abbrev bufTy : (tb : Table) → Fin (tcTables nBuf tb) → BufTy
  | .hbm, ⟨0, _⟩ => ⟨S100000x20, .f32⟩
  | .hbm, ⟨1, _⟩ => ⟨S2x1200000, .i32⟩
  | .hbm, ⟨2, _⟩ => ⟨S1200000, .f32⟩
  | .hbm, ⟨3, _⟩ => ⟨S1x20x32, .f32⟩
  | .hbm, ⟨4, _⟩ => ⟨S32, .f32⟩
  | .hbm, ⟨5, _⟩ => ⟨S2x32x64, .f32⟩
  | .hbm, ⟨6, _⟩ => ⟨S64, .f32⟩
  | .hbm, ⟨7, _⟩ => ⟨S2x64x2, .f32⟩
  | .hbm, ⟨8, _⟩ => ⟨S2, .f32⟩
  | .hbm, ⟨9, _⟩ => ⟨S2x1, .f32⟩
  | .hbm, ⟨10, _⟩ => ⟨S1, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000, .f32⟩
  | .hbm, ⟨46, _⟩ => ⟨S1200000, .f32⟩
  | .hbm, ⟨47, _⟩ => ⟨S_, .i32⟩
  | .hbm, ⟨48, _⟩ => ⟨S1200000, .i32⟩
  | .hbm, ⟨49, _⟩ => ⟨S1200000, .i1⟩
  | .hbm, ⟨50, _⟩ => ⟨S_, .i32⟩
  | .hbm, ⟨51, _⟩ => ⟨S1200000, .i32⟩
  | .hbm, ⟨52, _⟩ => ⟨S1200000, .i32⟩
  | .hbm, ⟨53, _⟩ => ⟨S1200000, .i32⟩
  | .hbm, ⟨54, _⟩ => ⟨S1200000x1, .i32⟩
  | .hbm, ⟨55, _⟩ => ⟨S1200000, .f32⟩
  | .hbm, ⟨56, _⟩ => ⟨S1200000, .f32⟩
  | .hbm, ⟨57, _⟩ => ⟨S1200000, .f32⟩
  | .hbm, ⟨58, _⟩ => ⟨S20x32, .f32⟩
  | .hbm, ⟨59, _⟩ => ⟨S1x32, .f32⟩
  | .hbm, ⟨60, _⟩ => ⟨S100000x32, .bf16⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x32, .bf16⟩
  | .hbm, ⟨70, _⟩ => ⟨S1200000x32, .f32⟩
  | .hbm, ⟨71, _⟩ => ⟨S1200000x1, .f32⟩
  | .hbm, ⟨72, _⟩ => ⟨S1200000x32, .f32⟩
  | .hbm, ⟨73, _⟩ => ⟨S1200000x32, .f32⟩
  | .hbm, ⟨74, _⟩ => ⟨S_, .f32⟩
  | .hbm, ⟨75, _⟩ => ⟨S100000x32, .f32⟩
  | .hbm, ⟨76, _⟩ => ⟨S_, .i32⟩
  | .hbm, ⟨77, _⟩ => ⟨S1200000, .i32⟩
  | .hbm, ⟨78, _⟩ => ⟨S1200000, .i1⟩
  | .hbm, ⟨79, _⟩ => ⟨S_, .i32⟩
  | .hbm, ⟨80, _⟩ => ⟨S1200000, .i32⟩
  | .hbm, ⟨81, _⟩ => ⟨S1200000, .i32⟩
  | .hbm, ⟨82, _⟩ => ⟨S1200000, .i32⟩
  | .hbm, ⟨83, _⟩ => ⟨S1200000x1, .i32⟩
  | .hbm, ⟨84, _⟩ => ⟨S100000x32, .f32⟩
  | .hbm, ⟨85, _⟩ => ⟨S100000x32, .bf16⟩
  | .hbm, ⟨86, _⟩ => ⟨S1x32x64, .f32⟩
  | .hbm, ⟨87, _⟩ => ⟨S32x64, .f32⟩
  | .hbm, ⟨88, _⟩ => ⟨S1x32x64, .f32⟩
  | .hbm, ⟨89, _⟩ => ⟨S32x64, .f32⟩
  | .hbm, ⟨90, _⟩ => ⟨S1x64x2, .f32⟩
  | .hbm, ⟨91, _⟩ => ⟨S64x2, .f32⟩
  | .hbm, ⟨92, _⟩ => ⟨S1x64, .f32⟩
  | .hbm, ⟨93, _⟩ => ⟨S100000x64, .bf16⟩
  | .hbm, ⟨94, _⟩ => ⟨S100000x2, .f32⟩
  | .hbm, ⟨95, _⟩ => ⟨S_, .i32⟩
  | .hbm, ⟨96, _⟩ => ⟨S1200000, .i32⟩
  | .hbm, ⟨97, _⟩ => ⟨S1200000, .i1⟩
  | .hbm, ⟨98, _⟩ => ⟨S_, .i32⟩
  | .hbm, ⟨99, _⟩ => ⟨S1200000, .i32⟩
  | .hbm, ⟨100, _⟩ => ⟨S1200000, .i32⟩
  | .hbm, ⟨101, _⟩ => ⟨S1200000, .i32⟩
  | .hbm, ⟨102, _⟩ => ⟨S1200000x1, .i32⟩
  | .hbm, ⟨103, _⟩ => ⟨S1200000x2, .f32⟩
  | .hbm, ⟨104, _⟩ => ⟨S1200000x1, .f32⟩
  | .hbm, ⟨105, _⟩ => ⟨S1200000x2, .f32⟩
  | .hbm, ⟨106, _⟩ => ⟨S1200000x2, .f32⟩
  | .hbm, ⟨107, _⟩ => ⟨S_, .f32⟩
  | .hbm, ⟨108, _⟩ => ⟨S100000x2, .f32⟩
  | .hbm, ⟨109, _⟩ => ⟨S_, .i32⟩
  | .hbm, ⟨110, _⟩ => ⟨S1200000, .i32⟩
  | .hbm, ⟨111, _⟩ => ⟨S1200000, .i1⟩
  | .hbm, ⟨112, _⟩ => ⟨S_, .i32⟩
  | .hbm, ⟨113, _⟩ => ⟨S1200000, .i32⟩
  | .hbm, ⟨114, _⟩ => ⟨S1200000, .i32⟩
  | .hbm, ⟨115, _⟩ => ⟨S1200000, .i32⟩
  | .hbm, ⟨116, _⟩ => ⟨S1200000x1, .i32⟩
  | .hbm, ⟨117, _⟩ => ⟨S100000x2, .f32⟩
  | .hbm, ⟨118, _⟩ => ⟨S1x64x2, .f32⟩
  | .hbm, ⟨119, _⟩ => ⟨S64x2, .f32⟩
  | .hbm, ⟨120, _⟩ => ⟨S1x2, .f32⟩
  | .hbm, ⟨121, _⟩ => ⟨S100000x2, .f32⟩
  | .hbm, ⟨122, _⟩ => ⟨S1x1, .f32⟩
  | .hbm, ⟨123, _⟩ => ⟨S1x2, .f32⟩
  | .local _ .vmem, ⟨0, _⟩ => ⟨S10000x20, .f32⟩
  | .local _ .vmem, ⟨1, _⟩ => ⟨S10000x20, .f32⟩
  | .local _ .vmem, ⟨2, _⟩ => ⟨S20x32, .f32⟩
  | .local _ .vmem, ⟨3, _⟩ => ⟨S1x32, .f32⟩
  | .local _ .vmem, ⟨4, _⟩ => ⟨S10000x32, .bf16⟩
  | .local _ .vmem, ⟨5, _⟩ => ⟨S10000x32, .bf16⟩
  | .local _ .vmem, ⟨6, _⟩ => ⟨S5000x32, .bf16⟩
  | .local _ .vmem, ⟨7, _⟩ => ⟨S5000x32, .bf16⟩
  | .local _ .vmem, ⟨8, _⟩ => ⟨S5000x32, .bf16⟩
  | .local _ .vmem, ⟨9, _⟩ => ⟨S5000x32, .bf16⟩
  | .local _ .vmem, ⟨10, _⟩ => ⟨S32x64, .f32⟩
  | .local _ .vmem, ⟨11, _⟩ => ⟨S32x64, .f32⟩
  | .local _ .vmem, ⟨12, _⟩ => ⟨S1x64, .f32⟩
  | .local _ .vmem, ⟨13, _⟩ => ⟨S64x2, .f32⟩
  | .local _ .vmem, ⟨14, _⟩ => ⟨S5000x64, .bf16⟩
  | .local _ .vmem, ⟨15, _⟩ => ⟨S5000x64, .bf16⟩
  | .local _ .vmem, ⟨16, _⟩ => ⟨S5000x2, .f32⟩
  | .local _ .vmem, ⟨17, _⟩ => ⟨S5000x2, .f32⟩
  | .local _ .vmem, ⟨18, _⟩ => ⟨S10000x64, .bf16⟩
  | .local _ .vmem, ⟨19, _⟩ => ⟨S10000x64, .bf16⟩
  | .local _ .vmem, ⟨20, _⟩ => ⟨S10000x2, .f32⟩
  | .local _ .vmem, ⟨21, _⟩ => ⟨S10000x2, .f32⟩
  | .local _ .vmem, ⟨22, _⟩ => ⟨S64x2, .f32⟩
  | .local _ .vmem, ⟨23, _⟩ => ⟨S1x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S10000x2, .f32⟩
  | .local _ .vmem, ⟨28, _⟩ => ⟨S2x1, .f32⟩
  | .local _ .vmem, ⟨29, _⟩ => ⟨S1x1, .f32⟩
  | .local _ .vmem, ⟨30, _⟩ => ⟨S1x2, .f32⟩
  | .local _ .vmem, ⟨31, _⟩ => ⟨S1x1, .f32⟩
  | .local _ .vmem, ⟨32, _⟩ => ⟨S1x1, .f32⟩
  | .local _ .vmem, ⟨33, _⟩ => ⟨S1x2, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65_0 : Ref sig .tc := ⟨.hbm, 93, rfl⟩
abbrev main_v65_1 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_scratch0 : Ref sig .tc := ⟨.vmem, 31, rfl⟩
abbrev cc3_scratch1 : Ref sig .tc := ⟨.vmem, 32, rfl⟩
abbrev cc3_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v52 : BitVec 1 := Scalar.cmpi .eq arg0 c9_i32
  let v53 : BitVec 32 := Scalar.extui v52
  let c0_i32_24 : BitVec 32 := 0#32
  let v54 : BitVec 1 := Scalar.cmpi .ne v53 c0_i32_24
  v54

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1x20x32_S20x32 : S1x20x32.ShapeCasts S20x32
  shapeCasts_S32_S1x32 : S32.ShapeCasts S1x32
  inb_S10000x20_S10000x20_0_0 : ∀ a, (![0, 0] : Fin 2 → Nat) a + S10000x20.size a ≤ S10000x20.size a
  h_S10000x20 : 0 < S10000x20.numel
  bitsLt_bf16_f32 : FTy.bits .bf16 < FTy.bits .f32
  inb_S20x32_S20x32_0_0 : ∀ a, (![0, 0] : Fin 2 → Nat) a + S20x32.size a ≤ S20x32.size a
  h_S20x32 : 0 < S20x32.numel
  shapeCasts_S20x32_S20x32 : S20x32.ShapeCasts S20x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S1200000x1_S1200000x32_0_1 : S1200000x1.BroadcastsInDim S1200000x32 (![0, 1] : Fin 2 → Fin S1200000x32.rank)
  bcast_S_S100000x32 : S_.BroadcastsInDim S100000x32 (![] : Fin 0 → Fin S100000x32.rank)
  slices_S2x32x64_S1x32x64_0_0_0 : S2x32x64.Slices ![0, 0, 0] S1x32x64
  shapeCasts_S1x32x64_S32x64 : S1x32x64.ShapeCasts S32x64
  slices_S2x32x64_S1x32x64_1_0_0 : S2x32x64.Slices ![1, 0, 0] S1x32x64
  slices_S2x64x2_S1x64x2_1_0_0 : S2x64x2.Slices ![1, 0, 0] S1x64x2
  shapeCasts_S1x64x2_S64x2 : S1x64x2.ShapeCasts S64x2
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S5000x2_S5000x2_0_0 : ∀ a, (![0, 0] : Fin 2 → Nat) a + S5000x2.size a ≤ S5000x2.size a
  h_S5000x2 : 0 < S5000x2.numel
  bcast_S1200000x1_S1200000x2_0_1 : S1200000x1.BroadcastsInDim S1200000x2 (![0, 1] : Fin 2 → Fin S1200000x2.rank)
  bcast_S_S100000x2 : S_.BroadcastsInDim S100000x2 (![] : Fin 0 → Fin S100000x2.rank)
  slices_S2x64x2_S1x64x2_0_0_0 : S2x64x2.Slices ![0, 0, 0] S1x64x2
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x1_S2x1_0_0 : ∀ a, (![0, 0] : Fin 2 → Nat) a + S2x1.size a ≤ S2x1.size a
  h_S2x1 : 0 < S2x1.numel
  broadcasts_S1x1_S10000x1 : S1x1.Broadcasts S10000x1
  iota_S10000x1_d0_w32 : S10000x1.Iotas .tc 32 [0]
  reduces_S10000x1_S1 : S10000x1.Reduces [0] S1
  broadcasts_S10000x1_S10000x2 : S10000x1.Broadcasts S10000x2
  broadcasts_S1x1_S1x2 : S1x1.Broadcasts S1x2
  reduces_S10000x2_S2 : S10000x2.Reduces [0] S2
  reduces_S1x2_S1 : S1x2.Reduces [1] S1
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x20_S20x32_S10000x32_1_0_0_1_n_n_wf : DotDims.WF S10000x20 S20x32 S10000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S5000x32_S32x64_S5000x64_1_0_0_1_n_n_wf : DotDims.WF S5000x32 S32x64 S5000x64 [1] [0] [0] [1] [] []
  dot_S5000x64_S64x2_S5000x2_1_0_0_1_n_n_wf : DotDims.WF S5000x64 S64x2 S5000x2 [1] [0] [0] [1] [] []
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  dot_S10000x64_S64x2_S10000x2_1_0_0_1_n_n_wf : DotDims.WF S10000x64 S64x2 S10000x2 [1] [0] [0] [1] [] []
  dot_S10000x2_S2x1_S10000x1_1_0_0_1_n_n_wf : DotDims.WF S10000x2 S2x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S100000x20.size a
  hwx0_0 : ∀ i : grid0.Coords, EltTy.bits .f32 = 32 ∨ (Rect.block (s := S100000x20) S10000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x32.size a ≤ S20x32.size a
  hwx0_1 : ∀ i : grid0.Coords, EltTy.bits .f32 = 32 ∨ (Rect.block (s := S20x32) S20x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .bf16 = 32 ∨ (Rect.block (s := S100000x32) S10000x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .bf16 = 32 ∨ (Rect.block (s := S100000x32) S5000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .bf16 = 32 ∨ (Rect.block (s := S100000x32) S5000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S100000x2.size a
  hwx2_1 : ∀ i : grid2.Coords, EltTy.bits .f32 = 32 ∨ (Rect.block (s := S100000x2) S10000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x1.size a ≤ S2x1.size a
  hwx3_1 : ∀ i : grid3.Coords, EltTy.bits .f32 = 32 ∨ (Rect.block (s := S2x1) S2x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x20_S20x32_S10000x32_1_0_0_1_n_n : DotDims S10000x20 S20x32 S10000x32 where
  lhsContracting := [1]
  rhsContracting := [0]
  lhsNonContracting := [0]
  rhsNonContracting := [1]
  lhsBatch := []
  rhsBatch := []
  wf := dot_S10000x20_S20x32_S10000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def dot_S10000x2_S2x1_S10000x1_1_0_0_1_n_n : DotDims S10000x2 S2x1 S10000x1 where
  lhsContracting := [1]
  rhsContracting := [0]
  lhsNonContracting := [0]
  rhsNonContracting := [1]
  lhsBatch := []
  rhsBatch := []
  wf := dot_S10000x2_S2x1_S10000x1_1_0_0_1_n_n_wf

abbrev win0_0 : Pipeline.Window sig grid0 :=
  Pipeline.Window.ofSpec (Memref.whole main_arg0) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S20x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v65_1) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v65_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S10000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v87) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S2x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S100000x20 : Shape := ⟨2, ![100000, 20]⟩
abbrev S2x1200000 : Shape := ⟨2, ![2, 1200000]⟩
abbrev S1200000 : Shape := ⟨1, ![1200000]⟩
abbrev S1x20x32 : Shape := ⟨3, ![1, 20, 32]⟩
abbrev S32 : Shape := ⟨1, ![32]⟩
abbrev S2x32x64 : Shape := ⟨3, ![2, 32, 64]⟩
abbrev S64 : Shape := ⟨1, ![64]⟩
abbrev S2x64x2 : Shape := ⟨3, ![2, 64, 2]⟩
abbrev S2 : Shape := ⟨1, ![2]⟩
abbrev S2x1 : Shape := ⟨2, ![2, 1]⟩
abbrev S1 : Shape := ⟨1, ![1]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S20x32 : Shape := ⟨2, ![20, 32]⟩
abbrev S100000x32 : Shape := ⟨2, ![100000, 32]⟩
abbrev S1x32 : Shape := ⟨2, ![1, 32]⟩
abbrev S1x32x64 : Shape := ⟨3, ![1, 32, 64]⟩
abbrev S32x64 : Shape := ⟨2, ![32, 64]⟩
abbrev S100000x64 : Shape := ⟨2, ![100000, 64]⟩
abbrev S1200000x32 : Shape := ⟨2, ![1200000, 32]⟩
abbrev S1x64 : Shape := ⟨2, ![1, 64]⟩
abbrev S1x64x2 : Shape := ⟨3, ![1, 64, 2]⟩
abbrev S64x2 : Shape := ⟨2, ![64, 2]⟩
abbrev S100000x2 : Shape := ⟨2, ![100000, 2]⟩
abbrev S1200000x64 : Shape := ⟨2, ![1200000, 64]⟩
abbrev S1x2 : Shape := ⟨2, ![1, 2]⟩
abbrev S100000x1 : Shape := ⟨2, ![100000, 1]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S100000x20, .f32⟩
  | 1 => ⟨S2x1200000, .i32⟩
  | 2 => ⟨S1200000, .f32⟩
  | 3 => ⟨S1x20x32, .f32⟩
  | 4 => ⟨S32, .f32⟩
  | 5 => ⟨S2x32x64, .f32⟩
  | 6 => ⟨S64, .f32⟩
  | 7 => ⟨S2x64x2, .f32⟩
  | 8 => ⟨S2, .f32⟩
  | 9 => ⟨S2x1, .f32⟩
  | 10 => ⟨S1, .f32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S100000, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000, .f32⟩
  | 46 => ⟨S1200000, .f32⟩
  | 47 => ⟨S_, .i32⟩
  | 48 => ⟨S1200000, .i32⟩
  | 49 => ⟨S1200000, .i1⟩
  | 50 => ⟨S_, .i32⟩
  | 51 => ⟨S1200000, .i32⟩
  | 52 => ⟨S1200000, .i32⟩
  | 53 => ⟨S1200000, .i32⟩
  | 54 => ⟨S1200000x1, .i32⟩
  | 55 => ⟨S1200000, .f32⟩
  | 56 => ⟨S1200000, .f32⟩
  | 57 => ⟨S1200000, .f32⟩
  | 58 => ⟨S20x32, .f32⟩
  | 59 => ⟨S100000x32, .f32⟩
  | 60 => ⟨S1x32, .f32⟩
  | 61 => ⟨S100000x32, .f32⟩
  | 62 => ⟨S100000x32, .f32⟩
  | 63 => ⟨S_, .f32⟩
  | 64 => ⟨S100000x32, .f32⟩
  | 65 => ⟨S100000x32, .i1⟩
  | 66 => ⟨S_, .f32⟩
  | 67 => ⟨S100000x32, .f32⟩
  | 68 => ⟨S100000x32, .f32⟩
  | 69 => ⟨S100000x32, .f32⟩
  | 70 => ⟨S1x32x64, .f32⟩
  | 71 => ⟨S32x64, .f32⟩
  | 72 => ⟨S100000x64, .f32⟩
  | 73 => ⟨S_, .f32⟩
  | 74 => ⟨S100000x32, .f32⟩
  | 75 => ⟨S1200000x1, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x32, .f32⟩
  | 85 => ⟨S1200000x32, .f32⟩
  | 86 => ⟨S1200000x32, .f32⟩
  | 87 => ⟨S_, .i32⟩
  | 88 => ⟨S1200000, .i32⟩
  | 89 => ⟨S1200000, .i1⟩
  | 90 => ⟨S_, .i32⟩
  | 91 => ⟨S1200000, .i32⟩
  | 92 => ⟨S1200000, .i32⟩
  | 93 => ⟨S1200000, .i32⟩
  | 94 => ⟨S1200000x1, .i32⟩
  | 95 => ⟨S100000x32, .f32⟩
  | 96 => ⟨S1x32x64, .f32⟩
  | 97 => ⟨S32x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .i1⟩
  | 106 => ⟨S_, .f32⟩
  | 107 => ⟨S100000x64, .f32⟩
  | 108 => ⟨S100000x64, .f32⟩
  | 109 => ⟨S100000x64, .f32⟩
  | 110 => ⟨S1x64x2, .f32⟩
  | 111 => ⟨S64x2, .f32⟩
  | 112 => ⟨S100000x2, .f32⟩
  | 113 => ⟨S_, .f32⟩
  | 114 => ⟨S100000x64, .f32⟩
  | 115 => ⟨S1200000x1, .f32⟩
  | 116 => ⟨S_, .i32⟩
  | 117 => ⟨S1200000, .i32⟩
  | 118 => ⟨S1200000, .i1⟩
  | 119 => ⟨S_, .i32⟩
  | 120 => ⟨S1200000, .i32⟩
  | 121 => ⟨S1200000, .i32⟩
  | 122 => ⟨S1200000, .i32⟩
  | 123 => ⟨S1200000x1, .i32⟩
  | 124 => ⟨S1200000x64, .f32⟩
  | 125 => ⟨S1200000x64, .f32⟩
  | 126 => ⟨S1200000x64, .f32⟩
  | 127 => ⟨S_, .i32⟩
  | _ => ⟨S100000x20, .f32⟩

abbrev hbmTy0_1 (i : Nat) : BufTy := match i % 128 with
  | 0 => ⟨S1200000, .i32⟩
  | 1 => ⟨S1200000, .i1⟩
  | 2 => ⟨S_, .i32⟩
  | 3 => ⟨S1200000, .i32⟩
  | 4 => ⟨S1200000, .i32⟩
  | 5 => ⟨S1200000, .i32⟩
  | 6 => ⟨S1200000x1, .i32⟩
  | 7 => ⟨S100000x64, .f32⟩
  | 8 => ⟨S1x64x2, .f32⟩
  | 9 => ⟨S64x2, .f32⟩
  | 10 => ⟨S100000x2, .f32⟩
  | 11 => ⟨S100000x2, .f32⟩
  | 12 => ⟨S1x2, .f32⟩
  | 13 => ⟨S100000x2, .f32⟩
  | 14 => ⟨S100000x2, .f32⟩
  | 15 => ⟨S100000x1, .f32⟩
  | 16 => ⟨S1x1, .f32⟩
  | 17 => ⟨S100000x1, .f32⟩
  | 18 => ⟨S100000x1, .f32⟩
  | 19 => ⟨S_, .f32⟩
  | 20 => ⟨S1, .f32⟩
  | 21 => ⟨S_, .f32⟩
  | 22 => ⟨S1, .f32⟩
  | 23 => ⟨S1, .f32⟩
  | 24 => ⟨S1x1, .f32⟩
  | 25 => ⟨S100000x1, .f32⟩
  | 26 => ⟨S100000x1, .f32⟩
  | 27 => ⟨S100000x1, .f32⟩
  | 28 => ⟨S_, .f32⟩
  | 29 => ⟨S1, .f32⟩
  | 30 => ⟨S1x1, .f32⟩
  | 31 => ⟨S100000x1, .f32⟩
  | 32 => ⟨S100000x1, .f32⟩
  | 33 => ⟨S100000x2, .f32⟩
  | 34 => ⟨S100000x2, .f32⟩
  | 35 => ⟨S_, .f32⟩
  | 36 => ⟨S2, .f32⟩
  | 37 => ⟨S1x2, .f32⟩
  | 38 => ⟨S_, .f32⟩
  | 39 => ⟨S1, .f32⟩
  | 40 => ⟨S_, .f32⟩
  | 41 => ⟨S1, .f32⟩
  | 42 => ⟨S1, .f32⟩
  | 43 => ⟨S1x1, .f32⟩
  | 44 => ⟨S1x2, .f32⟩
  | 45 => ⟨S1x2, .f32⟩
  | 46 => ⟨S1x2, .f32⟩
  | 47 => ⟨S_, .f32⟩
  | 48 => ⟨S1, .f32⟩
  | 49 => ⟨S1x1, .f32⟩
  | 50 => ⟨S1x1, .f32⟩
  | 51 => ⟨S1x2, .f32⟩
  | 52 => ⟨S1x2, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_11 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_13 : Ref sig .tc := ⟨.hbm, 113, rfl⟩
abbrev main_v73 : Ref sig .tc := ⟨.hbm, 114, rfl⟩
abbrev main_v74 : Ref sig .tc := ⟨.hbm, 115, rfl⟩
abbrev main_c_14 : Ref sig .tc := ⟨.hbm, 116, rfl⟩
abbrev main_v75 : Ref sig .tc := ⟨.hbm, 117, rfl⟩
abbrev main_v76 : Ref sig .tc := ⟨.hbm, 118, rfl⟩
abbrev main_c_15 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_16 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_cst_19 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_21 : Ref sig .tc := ⟨.hbm, 163, rfl⟩
abbrev main_v115 : Ref sig .tc := ⟨.hbm, 164, rfl⟩
abbrev main_v116 : Ref sig .tc := ⟨.hbm, 165, rfl⟩
abbrev main_call3_cst : Ref sig .tc := ⟨.hbm, 166, rfl⟩
abbrev main_call3_v0 : Ref sig .tc := ⟨.hbm, 167, rfl⟩
abbrev main_call3_cst_0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_cst_1 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_v117 : Ref sig .tc := ⟨.hbm, 180, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1x20x32_S20x32 : S1x20x32.ShapeCasts S20x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x32x64_S1x32x64_0_0_0 : S2x32x64.Slices ![0, 0, 0] S1x32x64
  shapeCasts_S1x32x64_S32x64 : S1x32x64.ShapeCasts S32x64
  bcast_S1200000x1_S1200000x32_0_1 : S1200000x1.BroadcastsInDim S1200000x32 (![0, 1] : Fin 2 → Fin S1200000x32.rank)
  slices_S2x32x64_S1x32x64_1_0_0 : S2x32x64.Slices ![1, 0, 0] S1x32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x64x2_S1x64x2_0_0_0 : S2x64x2.Slices ![0, 0, 0] S1x64x2
  shapeCasts_S1x64x2_S64x2 : S1x64x2.ShapeCasts S64x2
  bcast_S1200000x1_S1200000x64_0_1 : S1200000x1.BroadcastsInDim S1200000x64 (![0, 1] : Fin 2 → Fin S1200000x64.rank)
  slices_S2x64x2_S1x64x2_1_0_0 : S2x64x2.Slices ![1, 0, 0] S1x64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  bcast_S100000x1_S100000x2_0_1 : S100000x1.BroadcastsInDim S100000x2 (![0, 1] : Fin 2 → Fin S100000x2.rank)
  reducesTo_S100000x2_S2_d0 : S100000x2.ReducesTo [0] S2
  reducesTo_S1x2_S1_d1 : S1x2.ReducesTo [1] S1
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x20_S20x32_S100000x32_1_0_0_1_n_n_wf : DotDims.WF S100000x20 S20x32 S100000x32 [1] [0] [0] [1] [] []
  dot_S100000x32_S32x64_S100000x64_1_0_0_1_n_n_wf : DotDims.WF S100000x32 S32x64 S100000x64 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S100000x64_S64x2_S100000x2_1_0_0_1_n_n_wf : DotDims.WF S100000x64 S64x2 S100000x2 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x2_S2x1_S100000x1_1_0_0_1_n_n_wf : DotDims.WF S100000x2 S2x1 S100000x1 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x20_S20x32_S100000x32_1_0_0_1_n_n : DotDims S100000x20 S20x32 S100000x32 where
  lhsContracting := [1]
  rhsContracting := [0]
  lhsNonContracting := [0]
  rhsNonContracting := [1]
  lhsBatch := []
  rhsBatch := []
  wf := dot_S100000x20_S20x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf

class Facts : Prop extends Facts₀ where

variable [Facts]
-- ==== Proof.KRegion0.lean ====
import proofs.«171083_j730144440440_2_alg».proof.Proof.Gen.Kernel.Launch
import proofs.«171083_j730144440440_2_alg».proof.Proof.Gen.Kernel.Skeleton
import proofs.«171083_j730144440440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The first layer's region: at grid point t the body reads rows [10000 t, 10000 t + 10000) of the node features, the 20 x 32 weights and the bias row, and stores the block leaky (x W + b) of the output, whole -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S10000x20 := Rect.unit (s := S10000x20) ![0, 0] S10000x20.size inb_S10000x20_S10000x20_0_0
abbrev r0_1 : Rect S20x32 := Rect.unit (s := S20x32) ![0, 0] S20x32.size inb_S20x32_S20x32_0_0
abbrev r0_2 : Rect S1x32 := Rect.unit (s := S1x32) ![0, 0] S1x32.size inb_S1x32_S1x32_0_0
abbrev r0_3 : Rect S10000x32 := Rect.unit (s := S10000x32) ![0, 0] S10000x32.size inb_S10000x32_S10000x32_0_0

/-- Output window 3's block after the body: its one whole store, of the layer's value of the input blocks. -/
def out0_3 (x0 : Vec F S10000x20 .f32) (x1 : Vec F S20x32 .f32) (x2 : Vec F S1x32 .f32) : Vec F S10000x32 .bf16 :=
  View.canon [⟨r0_3, k0_pay1 (View.ld x0 r0_0) (View.ld x1 r0_1) (View.ld x2 r0_2)⟩]
/-- The one store covers the block. -/
theorem cover0_3 (p0 : Vec F S10000x32 .bf16) (y : S10000x32.Idx) :
    ∃ pc ∈ ([⟨r0_3, p0⟩] : List (View.Piece (Elt F) S10000x32 .bf16)), y ∈ pc.1.set :=
  View.cover_of_tiled [⟨r0_3, p0⟩] S10000x32.size (by rfl) y

set_option maxHeartbeats 4000000 in
/-- The body on whole staging memrefs: the inputs keep their contents, each output ends at its one store's value. -/
theorem sound_kernel0 (c : Dev nD) (E : Set ℕ) (i : grid0.Coords) (arg1 : Memref sig .tc .vmem S10000x20 .f32) (harg1 : arg1.IsWhole) (arg2 : Memref sig .tc .vmem S20x32 .f32) (harg2 : arg2.IsWhole) (arg3 : Memref sig .tc .vmem S1x32 .f32) (harg3 : arg3.IsWhole) (arg4 : Memref sig .tc .vmem S10000x32 .bf16) (harg4 : arg4.IsWhole)
    (x0 : Vec F S10000x20 .f32) (x1 : Vec F S20x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__cheb_kernel_layer1 i arg1 harg1 arg2 harg2 arg3 harg3 arg4 harg4) K := by
  simp only [cc0__cheb_kernel_layer1_eq_skeleton]; unfold cc0__cheb_kernel_layer1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer at its block and
    each output's at its store's value of the input blocks; the class invariant (the scoped rest and the generator
    register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«171083_j730144440440_2_alg».proof.Proof.Gen.Kernel.Launch
import proofs.«171083_j730144440440_2_alg».proof.Proof.Gen.Kernel.Skeleton
import proofs.«171083_j730144440440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The second layer's region: at grid point t the body reads rows [5000 t, 5000 t + 5000) of the first layer's output and of its propagation, the two 32 x 64 weights, the bias row and the 64 x 2 projection, and stores the block leaky (h W0 + p W1 + b) and that block's projection, each whole -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S5000x32 := Rect.unit (s := S5000x32) ![0, 0] S5000x32.size inb_S5000x32_S5000x32_0_0
abbrev r1_1 : Rect S5000x32 := Rect.unit (s := S5000x32) ![0, 0] S5000x32.size inb_S5000x32_S5000x32_0_0
abbrev r1_2 : Rect S32x64 := Rect.unit (s := S32x64) ![0, 0] S32x64.size inb_S32x64_S32x64_0_0
abbrev r1_3 : Rect S32x64 := Rect.unit (s := S32x64) ![0, 0] S32x64.size inb_S32x64_S32x64_0_0
abbrev r1_4 : Rect S1x64 := Rect.unit (s := S1x64) ![0, 0] S1x64.size inb_S1x64_S1x64_0_0
abbrev r1_5 : Rect S64x2 := Rect.unit (s := S64x2) ![0, 0] S64x2.size inb_S64x2_S64x2_0_0
abbrev r1_6 : Rect S5000x64 := Rect.unit (s := S5000x64) ![0, 0] S5000x64.size inb_S5000x64_S5000x64_0_0
abbrev r1_7 : Rect S5000x2 := Rect.unit (s := S5000x2) ![0, 0] S5000x2.size inb_S5000x2_S5000x2_0_0

/-- Output window 6's block after the body: its one whole store, of the layer's value of the input blocks. -/
def out1_6 (x0 : Vec F S5000x32 .bf16) (x1 : Vec F S5000x32 .bf16) (x2 : Vec F S32x64 .f32) (x3 : Vec F S32x64 .f32) (x4 : Vec F S1x64 .f32) (x5 : Vec F S64x2 .f32) : Vec F S5000x64 .bf16 :=
  View.canon [⟨r1_6, k1_pay2 (View.ld x0 r1_0) (View.ld x1 r1_1) (View.ld x2 r1_2) (View.ld x3 r1_3) (View.ld x4 r1_4)⟩]
/-- The one store covers the block. -/
theorem cover1_6 (p0 : Vec F S5000x64 .bf16) (y : S5000x64.Idx) :
    ∃ pc ∈ ([⟨r1_6, p0⟩] : List (View.Piece (Elt F) S5000x64 .bf16)), y ∈ pc.1.set :=
  View.cover_of_tiled [⟨r1_6, p0⟩] S5000x64.size (by rfl) y

/-- Output window 7's block after the body: its one whole store, of the layer's value of the input blocks. -/
def out1_7 (x0 : Vec F S5000x32 .bf16) (x1 : Vec F S5000x32 .bf16) (x2 : Vec F S32x64 .f32) (x3 : Vec F S32x64 .f32) (x4 : Vec F S1x64 .f32) (x5 : Vec F S64x2 .f32) : Vec F S5000x2 .f32 :=
  View.canon [⟨r1_7, k1_pay3 (View.ld x0 r1_0) (View.ld x1 r1_1) (View.ld x2 r1_2) (View.ld x3 r1_3) (View.ld x4 r1_4) (View.ld x5 r1_5)⟩]
/-- The one store covers the block. -/
theorem cover1_7 (p0 : Vec F S5000x2 .f32) (y : S5000x2.Idx) :
    ∃ pc ∈ ([⟨r1_7, p0⟩] : List (View.Piece (Elt F) S5000x2 .f32)), y ∈ pc.1.set :=
  View.cover_of_tiled [⟨r1_7, p0⟩] S5000x2.size (by rfl) y

set_option maxHeartbeats 4000000 in
/-- The body on whole staging memrefs: the inputs keep their contents, each output ends at its one store's value. -/
theorem sound_kernel1 (c : Dev nD) (E : Set ℕ) (i : grid1.Coords) (arg1 : Memref sig .tc .vmem S5000x32 .bf16) (harg1 : arg1.IsWhole) (arg2 : Memref sig .tc .vmem S5000x32 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S5000x64 .bf16) (harg7 : arg7.IsWhole) (arg8 : Memref sig .tc .vmem S5000x2 .f32) (harg8 : arg8.IsWhole)
    (x0 : Vec F S5000x32 .bf16) (x1 : Vec F S5000x32 .bf16) (x2 : Vec F S32x64 .f32) (x3 : Vec F S32x64 .f32) (x4 : Vec F S1x64 .f32) (x5 : Vec F S64x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__cheb_kernel_layer2 i arg1 harg1 arg2 harg2 arg3 harg3 arg4 harg4 arg5 harg5 arg6 harg6 arg7 harg7 arg8 harg8) K := by
  simp only [cc1__cheb_kernel_layer2_eq_skeleton]; unfold cc1__cheb_kernel_layer2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-- The region's proof data: the arrays as the region finds them; after the body each input's buffer at its block and
    each output's at its store's value of the input blocks; the class invariant (the scoped rest and the generator
    register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«171083_j730144440440_2_alg».proof.Proof.Gen.Kernel.Launch
import proofs.«171083_j730144440440_2_alg».proof.Proof.Gen.Kernel.Skeleton
import proofs.«171083_j730144440440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The third layer's region: at grid point t the body reads rows [10000 t, 10000 t + 10000) of the second layer's output and of the propagated projection, the 64 x 2 weights and the bias row, and stores the block h W0 + q + b, whole -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S10000x64 := Rect.unit (s := S10000x64) ![0, 0] S10000x64.size inb_S10000x64_S10000x64_0_0
abbrev r2_1 : Rect S10000x2 := Rect.unit (s := S10000x2) ![0, 0] S10000x2.size inb_S10000x2_S10000x2_0_0
abbrev r2_2 : Rect S64x2 := Rect.unit (s := S64x2) ![0, 0] S64x2.size inb_S64x2_S64x2_0_0
abbrev r2_3 : Rect S1x2 := Rect.unit (s := S1x2) ![0, 0] S1x2.size inb_S1x2_S1x2_0_0
abbrev r2_4 : Rect S10000x2 := Rect.unit (s := S10000x2) ![0, 0] S10000x2.size inb_S10000x2_S10000x2_0_0

/-- Output window 4's block after the body: its one whole store, of the layer's value of the input blocks. -/
def out2_4 (x0 : Vec F S10000x64 .bf16) (x1 : Vec F S10000x2 .f32) (x2 : Vec F S64x2 .f32) (x3 : Vec F S1x2 .f32) : Vec F S10000x2 .f32 :=
  View.canon [⟨r2_4, k2_pay1 (View.ld x0 r2_0) (View.ld x2 r2_2) (View.ld x1 r2_1) (View.ld x3 r2_3)⟩]
/-- The one store covers the block. -/
theorem cover2_4 (p0 : Vec F S10000x2 .f32) (y : S10000x2.Idx) :
    ∃ pc ∈ ([⟨r2_4, p0⟩] : List (View.Piece (Elt F) S10000x2 .f32)), y ∈ pc.1.set :=
  View.cover_of_tiled [⟨r2_4, p0⟩] S10000x2.size (by rfl) y

set_option maxHeartbeats 4000000 in
/-- The body on whole staging memrefs: the inputs keep their contents, each output ends at its one store's value. -/
theorem sound_kernel2 (c : Dev nD) (E : Set ℕ) (i : grid2.Coords) (arg1 : Memref sig .tc .vmem S10000x64 .bf16) (harg1 : arg1.IsWhole) (arg2 : Memref sig .tc .vmem S10000x2 .f32) (harg2 : arg2.IsWhole) (arg3 : Memref sig .tc .vmem S64x2 .f32) (harg3 : arg3.IsWhole) (arg4 : Memref sig .tc .vmem S1x2 .f32) (harg4 : arg4.IsWhole) (arg5 : Memref sig .tc .vmem S10000x2 .f32) (harg5 : arg5.IsWhole)
    (x0 : Vec F S10000x64 .bf16) (x1 : Vec F S10000x2 .f32) (x2 : Vec F S64x2 .f32) (x3 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__cheb_kernel_layer3 i arg1 harg1 arg2 harg2 arg3 harg3 arg4 harg4 arg5 harg5) K := by
  simp only [cc2__cheb_kernel_layer3_eq_skeleton]; unfold cc2__cheb_kernel_layer3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data: the arrays as the region finds them; after the body each input's buffer at its block and
    each output's at its store's value of the input blocks; the class invariant (the scoped rest and the generator
    register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3Base.lean ====
/- Region 3 (the attention-pool kernel): what its three whole-body runs share — the body's two branch
   conditions in closed form over the grid, where the output window is idle and where it is written back,
   the staging and scratch memrefs the body is called on. -/
import proofs.«171083_j730144440440_2_alg».proof.Proof.Gen.Kernel.Launch
import proofs.«171083_j730144440440_2_alg».proof.Proof.Gen.Kernel.Skeleton
import proofs.«171083_j730144440440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions -/

/-- The condition of the body's first `scf.if` (the reset of the running maximum, the running sum and the
    accumulator), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second `scf.if` (the normalisation and the log-softmax written to the output). -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the output window is idle: the body stores nothing into it, -/
theorem idleAt3_3 : ∀ t : Fin cfg3.N, ¬cond3_1 (grid3.coords t) → cfg3.idle 3 (grid3.coords t) = true := by decide +kernel
/-- and the pipeline does not write its block back. -/
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The memrefs the body is called on -/

/-- Each window's current staging memref at point `t`, and its wholeness. -/
abbrev ms3_0 (t : Fin cfg3.N) : Memref sig .tc .vmem S10000x2 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2 .f32 := win3_3.stage (cfg3.slots t 3)
abbrev hs3_3 (t : Fin cfg3.N) : (ms3_3 t).IsWhole := hstage3_3 ((cfg3.slots t 3).cast nbuf3_3)
/-- The scratch operands (running maximum, running sum, accumulator): whole scoped buffers of the kernel's own. -/
abbrev scM3_0 : Memref sig .tc .vmem S1x1 .f32 := Memref.whole cc3_scratch0
abbrev scM3_1 : Memref sig .tc .vmem S1x1 .f32 := Memref.whole cc3_scratch1
abbrev scM3_2 : Memref sig .tc .vmem S1x2 .f32 := Memref.whole cc3_scratch2
/-- The scratch operands as views: what they hold is stated through these. -/
abbrev VS3_0 : View sig .tc .vmem S1x1 .f32 := scM3_0.view
abbrev VS3_1 : View sig .tc .vmem S1x1 .f32 := scM3_1.view
abbrev VS3_2 : View sig .tc .vmem S1x2 .f32 := scM3_2.view

end Cert.Kernel.Hand

end
-- ==== Proof.KRegion3RunA.lean ====
/- Region 3 (the attention-pool kernel): the whole body run symbolically in control case A. -/
import proofs.«171083_j730144440440_2_alg».proof.Proof.KRegion3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case A (first point: the reset runs, the final normalisation does not): on whole memrefs — the three inputs at their contents,
    the output at contents handed back untouched, the three scratch buffers at anything (the reset overwrites them before any use) — the body runs to the continuation
    holding the inputs as they were and each stored buffer with its pieces written (last first): the pieces are the
    witness the symbolic run finds. -/
noncomputable def kernelRun3_A (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) :
    Σ' (LS0 : List (View.Piece (Elt F) S1x1 .f32)) (LS1 : List (View.Piece (Elt F) S1x1 .f32)), { LS2 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, fun xi3 E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.Kernel.Hand

end
-- ==== Proof.KRegion3RunB.lean ====
/- Region 3 (the attention-pool kernel): the whole body run symbolically in control case B. -/
import proofs.«171083_j730144440440_2_alg».proof.Proof.KRegion3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case B (an inner point: neither conditional runs): on whole memrefs — the three inputs at their contents,
    the output at contents handed back untouched, the three scratch buffers at what the point before left — the body runs to the continuation
    holding the inputs as they were and each stored buffer with its pieces written (last first): the pieces are the
    witness the symbolic run finds. -/
noncomputable def kernelRun3_B (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    Σ' (LS0 : List (View.Piece (Elt F) S1x1 .f32)) (LS1 : List (View.Piece (Elt F) S1x1 .f32)), { LS2 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1 ∗ owns (c : Thread nD τ) arg7 fullShare xs2
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, fun xi3 E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.Kernel.Hand

end
-- ==== Proof.KRegion3RunC.lean ====
/- Region 3 (the attention-pool kernel): the whole body run symbolically in control case C. -/
import proofs.«171083_j730144440440_2_alg».proof.Proof.KRegion3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case C (last point: the final normalisation runs and stores the output block): on whole memrefs — the three inputs at their contents,
    the output at anything, the three scratch buffers at what the point before left — the body runs to the continuation
    holding the inputs as they were and each stored buffer with its pieces written (last first): the pieces are the
    witness the symbolic run finds. -/
noncomputable def kernelRun3_C (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    Σ' (L3 : List (View.Piece (Elt F) S1x2 .f32)) (LS0 : List (View.Piece (Elt F) S1x1 .f32)) (LS1 : List (View.Piece (Elt F) S1x1 .f32)), { LS2 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, ?_, fun E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion3.lean ====
/- Region 3 (the attention-pool kernel) of the frame: its proof data and its body obligation.
   The kernel carries three scratch buffers (running maximum, running sum, accumulator) across its ten grid points,
   resets them at the first point, updates them at every point, and writes the output block at the last point only.
   Three control cases: A (first point), B (inner points), C (last point). -/
import proofs.«171083_j730144440440_2_alg».proof.Proof.Gen.Kernel.Launch
import proofs.«171083_j730144440440_2_alg».proof.Proof.Gen.Kernel.Skeleton
import proofs.«171083_j730144440440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171083_j730144440440_2_alg».proof.Proof.KRegion3RunA
import proofs.«171083_j730144440440_2_alg».proof.Proof.KRegion3RunB
import proofs.«171083_j730144440440_2_alg».proof.Proof.KRegion3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the scratch buffers and in the output block -/

/-- One staging buffer of the output window, through which its contents are stated (the choice does not matter). -/
abbrev VO3_3 : View sig .tc .vmem S1x2 .f32 := (Memref.whole cc3_stg3_0 : Memref sig .tc .vmem S1x2 .f32).view

/-- Case A's pieces for scratch 0 tile it, so they cover it. -/
theorem scover3_A_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x1.Idx) :
    ∃ pc ∈ (kernelRun3_A c i arg1 harg1 arg2 harg2 arg3 harg3 arg4 harg4 arg5 harg5 arg6 harg6 arg7 harg7 hc0 hc1 x0 x1 x2).1, y ∈ pc.1.set :=
  View.cover_of_tiledL (kernelRun3_A c i arg1 harg1 arg2 harg2 arg3 harg3 arg4 harg4 arg5 harg5 arg6 harg6 arg7 harg7 hc0 hc1 x0 x1 x2).1 S1x1.size (by sl_kernel_rfl) y

/-- What case A leaves in scratch 0: its pieces read back. -/
def sout3_A_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x1 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2).1)

/-- Case A's pieces for scratch 1 tile it, so they cover it. -/
theorem scover3_A_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x1.Idx) :
    ∃ pc ∈ (kernelRun3_A c i arg1 harg1 arg2 harg2 arg3 harg3 arg4 harg4 arg5 harg5 arg6 harg6 arg7 harg7 hc0 hc1 x0 x1 x2).2.1, y ∈ pc.1.set :=
  View.cover_of_tiledL (kernelRun3_A c i arg1 harg1 arg2 harg2 arg3 harg3 arg4 harg4 arg5 harg5 arg6 harg6 arg7 harg7 hc0 hc1 x0 x1 x2).2.1 S1x1.size (by sl_kernel_rfl) y

/-- What case A leaves in scratch 1: its pieces read back. -/
def sout3_A_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x1 .f32 :=
  VS3_1.read (Elt F) (VS3_1.writes (Elt F) VS3_1.junk (kernelRun3_A c i arg1 harg1 arg2 harg2 arg3 harg3 arg4 harg4 arg5 harg5 arg6 harg6 arg7 harg7 hc0 hc1 x0 x1 x2).2.1)

/-- Case A's pieces for scratch 2 tile it, so they cover it. -/
theorem scover3_A_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x2.Idx) :
    ∃ pc ∈ (kernelRun3_A c i arg1 harg1 arg2 harg2 arg3 harg3 arg4 harg4 arg5 harg5 arg6 harg6 arg7 harg7 hc0 hc1 x0 x1 x2).2.2.1, y ∈ pc.1.set :=
  View.cover_of_tiledL (kernelRun3_A c i arg1 harg1 arg2 harg2 arg3 harg3 arg4 harg4 arg5 harg5 arg6 harg6 arg7 harg7 hc0 hc1 x0 x1 x2).2.2.1 S1x2.size (by sl_kernel_rfl) y

/-- What case A leaves in scratch 2: its pieces read back. -/
def sout3_A_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x2 .f32 :=
  VS3_2.read (Elt F) (VS3_2.writes (Elt F) VS3_2.junk (kernelRun3_A c i arg1 harg1 arg2 harg2 arg3 harg3 arg4 harg4 arg5 harg5 arg6 harg6 arg7 harg7 hc0 hc1 x0 x1 x2).2.2.1)

/-- Case B's pieces for scratch 0 tile it, so they cover it. -/
theorem scover3_B_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_B c i arg1 harg1 arg2 harg2 arg3 harg3 arg4 harg4 arg5 harg5 arg6 harg6 arg7 harg7 hc0 hc1 x0 x1 x2 xs0 xs1 xs2).1, y ∈ pc.1.set :=
  View.cover_of_tiledL (kernelRun3_B c i arg1 harg1 arg2 harg2 arg3 harg3 arg4 harg4 arg5 harg5 arg6 harg6 arg7 harg7 hc0 hc1 x0 x1 x2 xs0 xs1 xs2).1 S1x1.size (by sl_kernel_rfl) y

/-- What case B leaves in scratch 0: its pieces read back. -/
def sout3_B_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 xs0 xs1 xs2).1)

/-- Case B's pieces for scratch 1 tile it, so they cover it. -/
theorem scover3_B_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_B c i arg1 harg1 arg2 harg2 arg3 harg3 arg4 harg4 arg5 harg5 arg6 harg6 arg7 harg7 hc0 hc1 x0 x1 x2 xs0 xs1 xs2).2.1, y ∈ pc.1.set :=
  View.cover_of_tiledL (kernelRun3_B c i arg1 harg1 arg2 harg2 arg3 harg3 arg4 harg4 arg5 harg5 arg6 harg6 arg7 harg7 hc0 hc1 x0 x1 x2 xs0 xs1 xs2).2.1 S1x1.size (by sl_kernel_rfl) y

/-- What case B leaves in scratch 1: its pieces read back. -/
def sout3_B_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_1.read (Elt F) (VS3_1.writes (Elt F) VS3_1.junk (kernelRun3_B c i arg1 harg1 arg2 harg2 arg3 harg3 arg4 harg4 arg5 harg5 arg6 harg6 arg7 harg7 hc0 hc1 x0 x1 x2 xs0 xs1 xs2).2.1)

/-- Case B's pieces for scratch 2 tile it, so they cover it. -/
theorem scover3_B_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_B c i arg1 harg1 arg2 harg2 arg3 harg3 arg4 harg4 arg5 harg5 arg6 harg6 arg7 harg7 hc0 hc1 x0 x1 x2 xs0 xs1 xs2).2.2.1, y ∈ pc.1.set :=
  View.cover_of_tiledL (kernelRun3_B c i arg1 harg1 arg2 harg2 arg3 harg3 arg4 harg4 arg5 harg5 arg6 harg6 arg7 harg7 hc0 hc1 x0 x1 x2 xs0 xs1 xs2).2.2.1 S1x2.size (by sl_kernel_rfl) y

/-- What case B leaves in scratch 2: its pieces read back. -/
def sout3_B_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VS3_2.read (Elt F) (VS3_2.writes (Elt F) VS3_2.junk (kernelRun3_B c i arg1 harg1 arg2 harg2 arg3 harg3 arg4 harg4 arg5 harg5 arg6 harg6 arg7 harg7 hc0 hc1 x0 x1 x2 xs0 xs1 xs2).2.2.1)

/-- Case C's pieces for the output block tile it, so they cover it. -/
theorem cover3_C_3 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_C c i arg1 harg1 arg2 harg2 arg3 harg3 arg4 harg4 arg5 harg5 arg6 harg6 arg7 harg7 hc0 hc1 x0 x1 x2 xs0 xs1 xs2).1, y ∈ pc.1.set :=
  View.cover_of_tiledL (kernelRun3_C c i arg1 harg1 arg2 harg2 arg3 harg3 arg4 harg4 arg5 harg5 arg6 harg6 arg7 harg7 hc0 hc1 x0 x1 x2 xs0 xs1 xs2).1 S1x2.size (by sl_kernel_rfl) y

/-- What case C leaves in the output's staging buffer: its pieces read back. -/
def out3_C_3 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VO3_3.read (Elt F) (VO3_3.writes (Elt F) VO3_3.junk (kernelRun3_C c i arg1 harg1 arg2 harg2 arg3 harg3 arg4 harg4 arg5 harg5 arg6 harg6 arg7 harg7 hc0 hc1 x0 x1 x2 xs0 xs1 xs2).1)

/-- Case C's pieces for scratch 0 tile it, so they cover it. -/
theorem scover3_C_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_C c i arg1 harg1 arg2 harg2 arg3 harg3 arg4 harg4 arg5 harg5 arg6 harg6 arg7 harg7 hc0 hc1 x0 x1 x2 xs0 xs1 xs2).2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.1 S1x1.size (by sl_kernel_rfl) y

/-- What case C leaves in scratch 0: its pieces read back. -/
def sout3_C_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 xs0 xs1 xs2).2.1)

/-- Case C's pieces for scratch 1 tile it, so they cover it. -/
theorem scover3_C_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_C c i arg1 harg1 arg2 harg2 arg3 harg3 arg4 harg4 arg5 harg5 arg6 harg6 arg7 harg7 hc0 hc1 x0 x1 x2 xs0 xs1 xs2).2.2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.2.1 S1x1.size (by sl_kernel_rfl) y

/-- What case C leaves in scratch 1: its pieces read back. -/
def sout3_C_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_1.read (Elt F) (VS3_1.writes (Elt F) VS3_1.junk (kernelRun3_C c i arg1 harg1 arg2 harg2 arg3 harg3 arg4 harg4 arg5 harg5 arg6 harg6 arg7 harg7 hc0 hc1 x0 x1 x2 xs0 xs1 xs2).2.2.1)

/-- Case C's pieces for scratch 2 tile it, so they cover it. -/
theorem scover3_C_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_C c i arg1 harg1 arg2 harg2 arg3 harg3 arg4 harg4 arg5 harg5 arg6 harg6 arg7 harg7 hc0 hc1 x0 x1 x2 xs0 xs1 xs2).2.2.2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.2.2.1 S1x2.size (by sl_kernel_rfl) y

/-- What case C leaves in scratch 2: its pieces read back. -/
def sout3_C_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VS3_2.read (Elt F) (VS3_2.writes (Elt F) VS3_2.junk (kernelRun3_C c i arg1 harg1 arg2 harg2 arg3 harg3 arg4 harg4 arg5 harg5 arg6 harg6 arg7 harg7 hc0 hc1 x0 x1 x2 xs0 xs1 xs2).2.2.2.1)

/-- Where the body stores nothing into the output block (every point but the last) the proof data names no contents
    for it: the window is idle there and not written back, so nothing consults this value. -/
def ph3_3 : Vec F S1x2 .f32 := VO3_3.read (Elt F) VO3_3.junk

/-! ## The conditions at a point, from its position -/

theorem cond3_0_of_zero (t : Fin cfg3.N) (h : t.val = 0) : cond3_0 (grid3.coords t) :=
  (hcond3_0 t).mpr (by rw [h])
theorem ncond3_0_of_pos (t : Fin cfg3.N) (h : t.val ≠ 0) : ¬cond3_0 (grid3.coords t) := fun hc => by
  have h' := (hcond3_0 t).mp hc
  have hN : t.val < 10 := lt_of_lt_of_eq t.isLt (show cfg3.N = 10 from N_3)
  omega
theorem cond3_1_of (t : Fin cfg3.N) (h : t.val % 10 = 9) : cond3_1 (grid3.coords t) := (hcond3_1 t).mpr h
theorem ncond3_1_of (t : Fin cfg3.N) (h : ¬t.val % 10 = 9) : ¬cond3_1 (grid3.coords t) := fun hc => h ((hcond3_1 t).mp hc)

/-! ## What the output block and the scratch buffers hold after each point -/

/-- THE ACCUMULATION. What the output's staging buffer and the three scratch buffers hold after the body at position
    `n` (output, running maximum, running sum, accumulator): the case the position selects, run at the point's memrefs
    and input blocks, over what the position before left in the scratch buffers. -/
def outsAt3 (c : Dev nD) : (n : ℕ) → n < cfg3.N → Vec F S1x2 .f32 × Vec F S1x1 .f32 × Vec F S1x1 .f32 × Vec F S1x2 .f32
  | 0, hn => (ph3_3, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩))
  | n + 1, hn =>
    if h1 : (n + 1) % 10 = 9 then
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)
    else
      (ph3_3, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at the first point: case A's contents. -/
theorem outsAt3_A (c : Dev nD) (t : Fin cfg3.N) (h0 : t.val = 0) (h1 : ¬t.val % 10 = 9) :
    outsAt3 V c t.val t.isLt = (ph3_3, sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t)) := by
  obtain ⟨n, hn⟩ := t
  cases n with
  | zero => exact rfl
  | succ n => exact absurd h0 (Nat.succ_ne_zero n)

/-- `outsAt3` at an inner point: case B's contents, over what the point before left. -/
theorem outsAt3_B (c : Dev nD) (t : Fin cfg3.N) (h0 : t.val ≠ 0) (h1 : ¬t.val % 10 = 9) :
    outsAt3 V c t.val t.isLt = (ph3_3, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt3` at the last point: case C's contents, over what the point before left. -/
theorem outsAt3_C (c : Dev nD) (t : Fin cfg3.N) (h0 : t.val ≠ 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- The scoped buffers no window stages, other than the kernel's three scratch operands: carried unopened. -/
abbrev rest3 (c : Dev nD) : sProp 𝕄 :=
  Pipeline.scopedRestBut (Ix := Unit) (Name := ℕ) (U := Pipeline.UD sig nD τ) (Lvl := ℕ) (Val := Elt F) spec3 c [cc3_scratch0, cc3_scratch1, cc3_scratch2]

/-- What the launch hands the region — the generator register at some state and the scoped buffers no window
    stages — with the three scratch operands as memrefs owned at some contents. -/
theorem PhiZ3_eq (c : Dev nD) :
    (iprop((∃ r, prngReg c r) ∗ Pipeline.scopedRest (Ix := Unit) (Name := ℕ) (U := Pipeline.UD sig nD τ) (Lvl := ℕ) spec3 c) : sProp 𝕄)
      = iprop((∃ r, prngReg c r) ∗ iprop((∃ d, owns (c : Thread nD τ) scM3_0 fullShare d) ∗ (∃ d, owns (c : Thread nD τ) scM3_1 fullShare d) ∗ (∃ d, owns (c : Thread nD τ) scM3_2 fullShare d)) ∗ rest3 c) := by
  rw [scopedRest3_split]; simp only [scM3_0, scM3_1, scM3_2, owns_whole]; try rfl

/-- The region invariant before position `n`: before the first point what the launch hands over (every scratch buffer
    at anything: the first point resets them before any use); afterwards the three scratch buffers at what the point
    before left in them (`outsAt3`'s scratch components), the other scoped buffers unopened, the generator register at
    some state. -/
def PhiS3 (c : Dev nD) : (n : ℕ) → n ≤ cfg3.N → sProp 𝕄
  | 0, _ => iprop((∃ r, prngReg c r) ∗ Pipeline.scopedRest (Ix := Unit) (Name := ℕ) (U := Pipeline.UD sig nD τ) (Lvl := ℕ) spec3 c)
  | n + 1, hn => iprop((∃ r, prngReg c r) ∗ iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ rest3 c)

theorem PhiS3_zero (c : Dev nD) (n : ℕ) (h : n ≤ cfg3.N) (hz : n = 0) :
    PhiS3 V c n h = iprop((∃ r, prngReg c r) ∗ Pipeline.scopedRest (Ix := Unit) (Name := ℕ) (U := Pipeline.UD sig nD τ) (Lvl := ℕ) spec3 c) := by
  subst hz; rfl

theorem PhiS3_succ (c : Dev nD) (n : ℕ) (hn : n < cfg3.N) :
    PhiS3 V c (n + 1) hn = iprop((∃ r, prngReg c r) ∗ iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ rest3 c) := rfl

theorem PhiS3_pos (c : Dev nD) (n : ℕ) (h : n ≤ cfg3.N) (hz : n ≠ 0) :
    PhiS3 V c n h = iprop((∃ r, prngReg c r) ∗ iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ rest3 c) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem share3 (c : Dev nD) (w : Fin cfg3.W) : (dat3 V c).q w = fullShare := rfl
theorem owed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the position says which case the point is in; the
    invariant hands the body the three scratch buffers at what the point before left (at anything at the first point,
    where the reset overwrites them before any use) and takes them back at this point's contents; the output's buffer is
    handed back untouched at every point but the last, where the body stores the whole block; nothing is owed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  by_cases hz : t.val = 0
  · have h1 : ¬t.val % 10 = 9 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [Dat.leavesExact_idle (dat3 V c) 3 t (idleAt3_3 t (ncond3_1_of t h1)) (noFlush3_3 t (ncond3_1_of t h1))]
    rw [outsAt3_A V c t hz h1]
    unfold sout3_A_0 sout3_A_1 sout3_A_2; (try dsimp only)
    rw [PhiS3_castSucc V c t, PhiS3_zero V c _ _ hz, PhiZ3_eq]
    iintro ⟨⟨Hg, ⟨HS0, HS1, HS2⟩, HR⟩, Ho, ⟨%d0, H0⟩, ⟨%d1, H1⟩, ⟨%d2, H2⟩, ⟨%d3, H3⟩⟩
    iapply ((kernelRun3_A c (grid3.coords t) _ _ _ _ _ _ _ _ _ _ _ _ _ _ (cond3_0_of_zero t hz) (ncond3_1_of t h1) (iblk3 V c 0 t) (iblk3 V c 1 t) (iblk3 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Hg HS0 HS1 HS2 HR]
    · isplitl [Hg]; · iexact Hg
      isplitl [HS0 HS1 HS2]
      · isplitl [HS0]
        · unfold owns; iexists _; isplitr
          swap; · iexact HS0
          ipureintro; exact View.read_writes_of_cover _ _ _ _ _ (scover3_A_0 c _ _ _ _ _ _ _ _ _ _ _ _ _ _ _ _ _ _ _ _)
        isplitl [HS1]
        · unfold owns; iexists _; isplitr
          swap; · iexact HS1
          ipureintro; exact View.read_writes_of_cover _ _ _ _ _ (scover3_A_1 c _ _ _ _ _ _ _ _ _ _ _ _ _ _ _ _ _ _ _ _)
        unfold owns; iexists _; isplitr
        swap; · iexact HS2
        ipureintro; exact View.read_writes_of_cover _ _ _ _ _ (scover3_A_2 c _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3
  · by_cases h1 : t.val % 10 = 9
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t (cond3_1_of t h1)], after3_3]
      rw [outsAt3_C V c t hz h1]
      unfold out3_C_3 sout3_C_0 sout3_C_1 sout3_C_2; (try dsimp only)
      rw [PhiS3_castSucc V c t, PhiS3_pos V c _ _ hz]
      iintro ⟨⟨Hg, ⟨HS0, HS1, HS2⟩, HR⟩, Ho, ⟨%d0, H0⟩, ⟨%d1, H1⟩, ⟨%d2, H2⟩, ⟨%d3, H3⟩⟩
      iapply ((kernelRun3_C c (grid3.coords t) _ _ _ _ _ _ _ _ _ _ _ _ _ _ (ncond3_0_of_pos t hz) (cond3_1_of t h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hg HS0 HS1 HS2 HR]
      · isplitl [Hg]; · iexact Hg
        isplitl [HS0 HS1 HS2]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _)
          unfold owns; iexists _; isplitr
          swap; · iexact HS2
          ipureintro; exact View.read_writes_of_cover _ _ _ _ _ (scover3_C_2 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (ncond3_1_of t h1)) (noFlush3_3 t (ncond3_1_of t h1))]
      rw [outsAt3_B V c t hz h1]
      unfold sout3_B_0 sout3_B_1 sout3_B_2; (try dsimp only)
      rw [PhiS3_castSucc V c t, PhiS3_pos V c _ _ hz]
      iintro ⟨⟨Hg, ⟨HS0, HS1, HS2⟩, HR⟩, Ho, ⟨%d0, H0⟩, ⟨%d1, H1⟩, ⟨%d2, H2⟩, ⟨%d3, H3⟩⟩
      iapply ((kernelRun3_B c (grid3.coords t) _ _ _ _ _ _ _ _ _ _ _ _ _ _ (ncond3_0_of_pos t hz) (ncond3_1_of t h1) (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hg HS0 HS1 HS2 HR]
      · isplitl [Hg]; · iexact Hg
        isplitl [HS0 HS1 HS2]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region is the invariant before the first point. -/
theorem hin3 (c : Dev nD) :
    iprop((∃ r, prngReg c r) ∗ Pipeline.scopedRest (Ix := Unit) (Name := ℕ) (U := Pipeline.UD sig nD τ) (Lvl := ℕ) spec3 c) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the same back: the scratch buffers' named contents are forgotten. -/
theorem Phi_out3 (c : Dev nD) (t : Fin (cfg3.N + 1)) (ht : t.val ≠ 0) :
    (dat3 V c).Φ t ⊢ iprop((∃ r, prngReg c r) ∗ Pipeline.scopedRest (Ix := Unit) (Name := ℕ) (U := Pipeline.UD sig nD τ) (Lvl := ℕ) spec3 c) := by
  rw [show (dat3 V c).Φ t = PhiS3 V c t.val (Nat.le_of_lt_succ t.isLt) from rfl, PhiS3_pos V c _ _ ht, PhiZ3_eq]
  iintro ⟨Hg, ⟨HS0, HS1, HS2⟩, HR⟩
  isplitl [Hg]; · iexact Hg
  isplitl [HS0 HS1 HS2]
  · isplitl [HS0]; · iexists _; iexact HS0
    isplitl [HS1]; · iexists _; iexact HS1
    iexists _; iexact HS2
  iexact HR

/-- The same after the last point. -/
theorem hout3 (c : Dev nD) :
    (dat3 V c).Φ (Fin.last cfg3.N) ⊢ iprop((∃ r, prngReg c r) ∗ Pipeline.scopedRest (Ix := Unit) (Name := ℕ) (U := Pipeline.UD sig nD τ) (Lvl := ℕ) spec3 c) :=
  Phi_out3 V c _ (by rw [Fin.val_last]; have : cfg3.N = 10 := N_3; omega)

end Cert.Kernel.Hand

end
-- ==== Proof.KFrame.lean ====
import proofs.«171083_j730144440440_2_alg».proof.Proof.KRegion0
import proofs.«171083_j730144440440_2_alg».proof.Proof.KRegion1
import proofs.«171083_j730144440440_2_alg».proof.Proof.KRegion2
import proofs.«171083_j730144440440_2_alg».proof.Proof.KRegion3
import proofs.«171083_j730144440440_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The buffers' contents at every boundary between two items of the program, folded from the launch memory:
    a stretch of host operations applies them in order; a kernel region leaves its arrays at what its write-backs
    leave and every other buffer as entered. -/

/-- Core c's buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host stretch hostOps0. -/
def W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) := by
  unfold W1; exact StableHlo.after_of_writes_sub hostOps0 _ hostOps0_writes h
/-- After the host stretch hostOps0_1. -/
def W2 (c : Dev nD) : Valuation τ sig (Elt F) := StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) := by
  unfold W2; exact StableHlo.after_of_writes_sub hostOps0_1 _ hostOps0_1_writes h
/-- After the host stretch hostOps0_2. -/
def W3 (c : Dev nD) : Valuation τ sig (Elt F) := StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) := by
  unfold W3; exact StableHlo.after_of_writes_sub hostOps0_2 _ hostOps0_2_writes h
/-- After region 0: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the host stretch hostOps1. -/
def W5 (c : Dev nD) : Valuation τ sig (Elt F) := StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) := by
  unfold W5; exact StableHlo.after_of_writes_sub hostOps1 _ hostOps1_writes h
/-- After region 1: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host stretch hostOps2. -/
def W7 (c : Dev nD) : Valuation τ sig (Elt F) := StableHlo.after hostOps2 (W6 m c)
abbrev V7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) := by
  unfold W7; exact StableHlo.after_of_writes_sub hostOps2 _ hostOps2_writes h
/-- After region 2: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch hostOps3. -/
def W9 (c : Dev nD) : Valuation τ sig (Elt F) := StableHlo.after hostOps3 (W8 m c)
abbrev V9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) := by
  unfold W9; exact StableHlo.after_of_writes_sub hostOps3 _ hostOps3_writes h
/-- After region 3: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched: no host operation writes one, a region reads one through an input window or bypasses it -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (V3 m) c).arrAt_in 0 rfl _).trans (A_eq0 (V3 m) c 0))
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_of_ne m c main_arg7 (by decide)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl
theorem W10_main_arg9 (c : Dev nD) : W10 m c (Proc.devRef .tc main_arg9) = m ((c : Thread nD τ).loc main_arg9) :=
  calc W10 m c (Proc.devRef .tc main_arg9)
    _ = W9 m c (Proc.devRef .tc main_arg9) := (W10_arr m c 1).trans (((dat3 (V9 m) c).arrAt_in 1 rfl _).trans (A_eq3 (V9 m) c 1))
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of m c main_arg9 (by decide)
    _ = W0 m c (Proc.devRef .tc main_arg9) := W1_of m c main_arg9 (by decide)
    _ = m ((c : Thread nD τ).loc main_arg9) := rfl
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_of_ne m c main_arg10 (by decide)
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of m c main_arg10 (by decide)
    _ = W0 m c (Proc.devRef .tc main_arg10) := W1_of m c main_arg10 (by decide)
    _ = m ((c : Thread nD τ).loc main_arg10) := rfl

/-- The result buffer ends at what the last region's write-backs leave in its output array. -/
theorem W10_main_v89 (c : Dev nD) : W10 m c (Proc.devRef .tc main_v89) = (dat3 (V9 m) c).arrAt 3 cfg3.N := W10_arr m c 3

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as items -/

set_option backward.isDefEq.respectTransparency.types false in
/-- Region 0: entered from every unscoped buffer at the contents before it, left at those after it; its arrays
    split out of the unscoped buffers and put back at their exit contents; the generator register into the class
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at those after it; its arrays
    split out of the unscoped buffers and put back at their exit contents; the generator register into the class
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at those after it; its arrays
    split out of the unscoped buffers and put back at their exit contents; the generator register into the class
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at those after it; its arrays
    split out of the unscoped buffers and put back at their exit contents; the generator register into the class
    invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => owed3 (V9 m) _ _
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => share3 (V9 m) c _) (V9 m c) fun _ => A_eq3 (V9 m) c _
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V9 m) c).Φ 0 from rfl]
    iintro ⟨Hp, -, Hr⟩
    iapply (hin3 (V9 m) c)
    isplitl [Hp]; · iexact Hp
    iexact Hr
  hout c := by
    rw [Pipeline.ownSems0_none, show (pdats m 3 c).Φ (Fin.last _) = (dat3 (V9 m) c).Φ (Fin.last cfg3.N) from rfl]
    iintro HΦ
    ihave H := (hout3 (V9 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => share3 (V9 m) c _)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
theorem main_run (c : Dev nD) : main (F := F) c = Pipeline.Seg.run (segs m) := (main_chain c).trans (by chain_rfl)

set_option backward.isDefEq.respectTransparency.types false in
/-- Every weakly fair execution of the program from memory m with zero counters terminates, nothing faulting, in a
    memory that holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c)⟩) (run_all m ρ)

/-- The same run with the result buffer named: it ends at what the last region's write-backs leave in its output array. -/
theorem run_result : θ_run defs (onTc (τ := τ) (main (F := F))) ⟨m, fun _ => 0, ρ⟩ (fun r => ∀ c : Dev nD,
      r.2.mem ((c.tc : Thread nD τ).loc main_v89) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v89 (by decide))).trans (W10_main_v89 m c),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c)⟩) (run_all m ρ)

end Cert.Kernel.Hand

end
-- ==== Proof.KIRegion0.lean ====
import proofs.«171083_j730144440440_2_alg».proof.Proof.Gen.KernelIdeal.Launch
import proofs.«171083_j730144440440_2_alg».proof.Proof.Gen.KernelIdeal.Skeleton
import proofs.«171083_j730144440440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The first layer's region: at grid point t the body reads rows [10000 t, 10000 t + 10000) of the node features, the 20 x 32 weights and the bias row, and stores the block leaky (x W + b) of the output, whole -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S10000x20 := Rect.unit (s := S10000x20) ![0, 0] S10000x20.size inb_S10000x20_S10000x20_0_0
abbrev r0_1 : Rect S20x32 := Rect.unit (s := S20x32) ![0, 0] S20x32.size inb_S20x32_S20x32_0_0
abbrev r0_2 : Rect S1x32 := Rect.unit (s := S1x32) ![0, 0] S1x32.size inb_S1x32_S1x32_0_0
abbrev r0_3 : Rect S10000x32 := Rect.unit (s := S10000x32) ![0, 0] S10000x32.size inb_S10000x32_S10000x32_0_0

/-- Output window 3's block after the body: its one whole store, of the layer's value of the input blocks. -/
def out0_3 (x0 : Vec F S10000x20 .f32) (x1 : Vec F S20x32 .f32) (x2 : Vec F S1x32 .f32) : Vec F S10000x32 .bf16 :=
  View.canon [⟨r0_3, k0_pay1 (View.ld x0 r0_0) (View.ld x1 r0_1) (View.ld x2 r0_2)⟩]
/-- The one store covers the block. -/
theorem cover0_3 (p0 : Vec F S10000x32 .bf16) (y : S10000x32.Idx) :
    ∃ pc ∈ ([⟨r0_3, p0⟩] : List (View.Piece (Elt F) S10000x32 .bf16)), y ∈ pc.1.set :=
  View.cover_of_tiled [⟨r0_3, p0⟩] S10000x32.size (by rfl) y

set_option maxHeartbeats 4000000 in
/-- The body on whole staging memrefs: the inputs keep their contents, each output ends at its one store's value. -/
theorem sound_kernel0 (c : Dev nD) (E : Set ℕ) (i : grid0.Coords) (arg1 : Memref sig .tc .vmem S10000x20 .f32) (harg1 : arg1.IsWhole) (arg2 : Memref sig .tc .vmem S20x32 .f32) (harg2 : arg2.IsWhole) (arg3 : Memref sig .tc .vmem S1x32 .f32) (harg3 : arg3.IsWhole) (arg4 : Memref sig .tc .vmem S10000x32 .bf16) (harg4 : arg4.IsWhole)
    (x0 : Vec F S10000x20 .f32) (x1 : Vec F S20x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__cheb_kernel_layer1 i arg1 harg1 arg2 harg2 arg3 harg3 arg4 harg4) K := by
  simp only [cc0__cheb_kernel_layer1_eq_skeleton]; unfold cc0__cheb_kernel_layer1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer at its block and
    each output's at its store's value of the input blocks; the class invariant (the scoped rest and the generator
    register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
import proofs.«171083_j730144440440_2_alg».proof.Proof.Gen.KernelIdeal.Launch
import proofs.«171083_j730144440440_2_alg».proof.Proof.Gen.KernelIdeal.Skeleton
import proofs.«171083_j730144440440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The second layer's region: at grid point t the body reads rows [5000 t, 5000 t + 5000) of the first layer's output and of its propagation, the two 32 x 64 weights, the bias row and the 64 x 2 projection, and stores the block leaky (h W0 + p W1 + b) and that block's projection, each whole -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S5000x32 := Rect.unit (s := S5000x32) ![0, 0] S5000x32.size inb_S5000x32_S5000x32_0_0
abbrev r1_1 : Rect S5000x32 := Rect.unit (s := S5000x32) ![0, 0] S5000x32.size inb_S5000x32_S5000x32_0_0
abbrev r1_2 : Rect S32x64 := Rect.unit (s := S32x64) ![0, 0] S32x64.size inb_S32x64_S32x64_0_0
abbrev r1_3 : Rect S32x64 := Rect.unit (s := S32x64) ![0, 0] S32x64.size inb_S32x64_S32x64_0_0
abbrev r1_4 : Rect S1x64 := Rect.unit (s := S1x64) ![0, 0] S1x64.size inb_S1x64_S1x64_0_0
abbrev r1_5 : Rect S64x2 := Rect.unit (s := S64x2) ![0, 0] S64x2.size inb_S64x2_S64x2_0_0
abbrev r1_6 : Rect S5000x64 := Rect.unit (s := S5000x64) ![0, 0] S5000x64.size inb_S5000x64_S5000x64_0_0
abbrev r1_7 : Rect S5000x2 := Rect.unit (s := S5000x2) ![0, 0] S5000x2.size inb_S5000x2_S5000x2_0_0

/-- Output window 6's block after the body: its one whole store, of the layer's value of the input blocks. -/
def out1_6 (x0 : Vec F S5000x32 .bf16) (x1 : Vec F S5000x32 .bf16) (x2 : Vec F S32x64 .f32) (x3 : Vec F S32x64 .f32) (x4 : Vec F S1x64 .f32) (x5 : Vec F S64x2 .f32) : Vec F S5000x64 .bf16 :=
  View.canon [⟨r1_6, k1_pay2 (View.ld x0 r1_0) (View.ld x1 r1_1) (View.ld x2 r1_2) (View.ld x3 r1_3) (View.ld x4 r1_4)⟩]
/-- The one store covers the block. -/
theorem cover1_6 (p0 : Vec F S5000x64 .bf16) (y : S5000x64.Idx) :
    ∃ pc ∈ ([⟨r1_6, p0⟩] : List (View.Piece (Elt F) S5000x64 .bf16)), y ∈ pc.1.set :=
  View.cover_of_tiled [⟨r1_6, p0⟩] S5000x64.size (by rfl) y

/-- Output window 7's block after the body: its one whole store, of the layer's value of the input blocks. -/
def out1_7 (x0 : Vec F S5000x32 .bf16) (x1 : Vec F S5000x32 .bf16) (x2 : Vec F S32x64 .f32) (x3 : Vec F S32x64 .f32) (x4 : Vec F S1x64 .f32) (x5 : Vec F S64x2 .f32) : Vec F S5000x2 .f32 :=
  View.canon [⟨r1_7, k1_pay3 (View.ld x0 r1_0) (View.ld x1 r1_1) (View.ld x2 r1_2) (View.ld x3 r1_3) (View.ld x4 r1_4) (View.ld x5 r1_5)⟩]
/-- The one store covers the block. -/
theorem cover1_7 (p0 : Vec F S5000x2 .f32) (y : S5000x2.Idx) :
    ∃ pc ∈ ([⟨r1_7, p0⟩] : List (View.Piece (Elt F) S5000x2 .f32)), y ∈ pc.1.set :=
  View.cover_of_tiled [⟨r1_7, p0⟩] S5000x2.size (by rfl) y

set_option maxHeartbeats 4000000 in
/-- The body on whole staging memrefs: the inputs keep their contents, each output ends at its one store's value. -/
theorem sound_kernel1 (c : Dev nD) (E : Set ℕ) (i : grid1.Coords) (arg1 : Memref sig .tc .vmem S5000x32 .bf16) (harg1 : arg1.IsWhole) (arg2 : Memref sig .tc .vmem S5000x32 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S5000x64 .bf16) (harg7 : arg7.IsWhole) (arg8 : Memref sig .tc .vmem S5000x2 .f32) (harg8 : arg8.IsWhole)
    (x0 : Vec F S5000x32 .bf16) (x1 : Vec F S5000x32 .bf16) (x2 : Vec F S32x64 .f32) (x3 : Vec F S32x64 .f32) (x4 : Vec F S1x64 .f32) (x5 : Vec F S64x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__cheb_kernel_layer2 i arg1 harg1 arg2 harg2 arg3 harg3 arg4 harg4 arg5 harg5 arg6 harg6 arg7 harg7 arg8 harg8) K := by
  simp only [cc1__cheb_kernel_layer2_eq_skeleton]; unfold cc1__cheb_kernel_layer2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-- The region's proof data: the arrays as the region finds them; after the body each input's buffer at its block and
    each output's at its store's value of the input blocks; the class invariant (the scoped rest and the generator
    register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«171083_j730144440440_2_alg».proof.Proof.Gen.KernelIdeal.Launch
import proofs.«171083_j730144440440_2_alg».proof.Proof.Gen.KernelIdeal.Skeleton
import proofs.«171083_j730144440440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The third layer's region: at grid point t the body reads rows [10000 t, 10000 t + 10000) of the second layer's output and of the propagated projection, the 64 x 2 weights and the bias row, and stores the block h W0 + q + b, whole -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S10000x64 := Rect.unit (s := S10000x64) ![0, 0] S10000x64.size inb_S10000x64_S10000x64_0_0
abbrev r2_1 : Rect S10000x2 := Rect.unit (s := S10000x2) ![0, 0] S10000x2.size inb_S10000x2_S10000x2_0_0
abbrev r2_2 : Rect S64x2 := Rect.unit (s := S64x2) ![0, 0] S64x2.size inb_S64x2_S64x2_0_0
abbrev r2_3 : Rect S1x2 := Rect.unit (s := S1x2) ![0, 0] S1x2.size inb_S1x2_S1x2_0_0
abbrev r2_4 : Rect S10000x2 := Rect.unit (s := S10000x2) ![0, 0] S10000x2.size inb_S10000x2_S10000x2_0_0

/-- Output window 4's block after the body: its one whole store, of the layer's value of the input blocks. -/
def out2_4 (x0 : Vec F S10000x64 .bf16) (x1 : Vec F S10000x2 .f32) (x2 : Vec F S64x2 .f32) (x3 : Vec F S1x2 .f32) : Vec F S10000x2 .f32 :=
  View.canon [⟨r2_4, k2_pay1 (View.ld x0 r2_0) (View.ld x2 r2_2) (View.ld x1 r2_1) (View.ld x3 r2_3)⟩]
/-- The one store covers the block. -/
theorem cover2_4 (p0 : Vec F S10000x2 .f32) (y : S10000x2.Idx) :
    ∃ pc ∈ ([⟨r2_4, p0⟩] : List (View.Piece (Elt F) S10000x2 .f32)), y ∈ pc.1.set :=
  View.cover_of_tiled [⟨r2_4, p0⟩] S10000x2.size (by rfl) y

set_option maxHeartbeats 4000000 in
/-- The body on whole staging memrefs: the inputs keep their contents, each output ends at its one store's value. -/
theorem sound_kernel2 (c : Dev nD) (E : Set ℕ) (i : grid2.Coords) (arg1 : Memref sig .tc .vmem S10000x64 .bf16) (harg1 : arg1.IsWhole) (arg2 : Memref sig .tc .vmem S10000x2 .f32) (harg2 : arg2.IsWhole) (arg3 : Memref sig .tc .vmem S64x2 .f32) (harg3 : arg3.IsWhole) (arg4 : Memref sig .tc .vmem S1x2 .f32) (harg4 : arg4.IsWhole) (arg5 : Memref sig .tc .vmem S10000x2 .f32) (harg5 : arg5.IsWhole)
    (x0 : Vec F S10000x64 .bf16) (x1 : Vec F S10000x2 .f32) (x2 : Vec F S64x2 .f32) (x3 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__cheb_kernel_layer3 i arg1 harg1 arg2 harg2 arg3 harg3 arg4 harg4 arg5 harg5) K := by
  simp only [cc2__cheb_kernel_layer3_eq_skeleton]; unfold cc2__cheb_kernel_layer3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data: the arrays as the region finds them; after the body each input's buffer at its block and
    each output's at its store's value of the input blocks; the class invariant (the scoped rest and the generator
    register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3Base.lean ====
/- Region 3 (the attention-pool kernel): what its three whole-body runs share — the body's two branch
   conditions in closed form over the grid, where the output window is idle and where it is written back,
   the staging and scratch memrefs the body is called on. -/
import proofs.«171083_j730144440440_2_alg».proof.Proof.Gen.KernelIdeal.Launch
import proofs.«171083_j730144440440_2_alg».proof.Proof.Gen.KernelIdeal.Skeleton
import proofs.«171083_j730144440440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions -/

/-- The condition of the body's first `scf.if` (the reset of the running maximum, the running sum and the
    accumulator), from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second `scf.if` (the normalisation and the log-softmax written to the output). -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the output window is idle: the body stores nothing into it, -/
theorem idleAt3_3 : ∀ t : Fin cfg3.N, ¬cond3_1 (grid3.coords t) → cfg3.idle 3 (grid3.coords t) = true := by decide +kernel
/-- and the pipeline does not write its block back. -/
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The memrefs the body is called on -/

/-- Each window's current staging memref at point `t`, and its wholeness. -/
abbrev ms3_0 (t : Fin cfg3.N) : Memref sig .tc .vmem S10000x2 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2 .f32 := win3_3.stage (cfg3.slots t 3)
abbrev hs3_3 (t : Fin cfg3.N) : (ms3_3 t).IsWhole := hstage3_3 ((cfg3.slots t 3).cast nbuf3_3)
/-- The scratch operands (running maximum, running sum, accumulator): whole scoped buffers of the kernel's own. -/
abbrev scM3_0 : Memref sig .tc .vmem S1x1 .f32 := Memref.whole cc3_scratch0
abbrev scM3_1 : Memref sig .tc .vmem S1x1 .f32 := Memref.whole cc3_scratch1
abbrev scM3_2 : Memref sig .tc .vmem S1x2 .f32 := Memref.whole cc3_scratch2
/-- The scratch operands as views: what they hold is stated through these. -/
abbrev VS3_0 : View sig .tc .vmem S1x1 .f32 := scM3_0.view
abbrev VS3_1 : View sig .tc .vmem S1x1 .f32 := scM3_1.view
abbrev VS3_2 : View sig .tc .vmem S1x2 .f32 := scM3_2.view

end Cert.KernelIdeal.Hand

end
-- ==== Proof.KIRegion3RunA.lean ====
/- Region 3 (the attention-pool kernel): the whole body run symbolically in control case A. -/
import proofs.«171083_j730144440440_2_alg».proof.Proof.KIRegion3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case A (first point: the reset runs, the final normalisation does not): on whole memrefs — the three inputs at their contents,
    the output at contents handed back untouched, the three scratch buffers at anything (the reset overwrites them before any use) — the body runs to the continuation
    holding the inputs as they were and each stored buffer with its pieces written (last first): the pieces are the
    witness the symbolic run finds. -/
noncomputable def kernelRun3_A (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) :
    Σ' (LS0 : List (View.Piece (Elt F) S1x1 .f32)) (LS1 : List (View.Piece (Elt F) S1x1 .f32)), { LS2 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, fun xi3 E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.KernelIdeal.Hand

end
-- ==== Proof.KIRegion3RunB.lean ====
/- Region 3 (the attention-pool kernel): the whole body run symbolically in control case B. -/
import proofs.«171083_j730144440440_2_alg».proof.Proof.KIRegion3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case B (an inner point: neither conditional runs): on whole memrefs — the three inputs at their contents,
    the output at contents handed back untouched, the three scratch buffers at what the point before left — the body runs to the continuation
    holding the inputs as they were and each stored buffer with its pieces written (last first): the pieces are the
    witness the symbolic run finds. -/
noncomputable def kernelRun3_B (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    Σ' (LS0 : List (View.Piece (Elt F) S1x1 .f32)) (LS1 : List (View.Piece (Elt F) S1x1 .f32)), { LS2 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1 ∗ owns (c : Thread nD τ) arg7 fullShare xs2
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, fun xi3 E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.KernelIdeal.Hand

end
-- ==== Proof.KIRegion3RunC.lean ====
/- Region 3 (the attention-pool kernel): the whole body run symbolically in control case C. -/
import proofs.«171083_j730144440440_2_alg».proof.Proof.KIRegion3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The whole body in case C (last point: the final normalisation runs and stores the output block): on whole memrefs — the three inputs at their contents,
    the output at anything, the three scratch buffers at what the point before left — the body runs to the continuation
    holding the inputs as they were and each stored buffer with its pieces written (last first): the pieces are the
    witness the symbolic run finds. -/
noncomputable def kernelRun3_C (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    Σ' (L3 : List (View.Piece (Elt F) S1x2 .f32)) (LS0 : List (View.Piece (Elt F) S1x1 .f32)) (LS1 : List (View.Piece (Elt F) S1x1 .f32)), { LS2 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, ?_, ?_, fun E K => ?run⟩
  case run =>
    simp only [cc3__pool_kernel_eq_skeleton]; unfold cc3__pool_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIRegion3.lean ====
/- Region 3 (the attention-pool kernel) of the frame: its proof data and its body obligation.
   The kernel carries three scratch buffers (running maximum, running sum, accumulator) across its ten grid points,
   resets them at the first point, updates them at every point, and writes the output block at the last point only.
   Three control cases: A (first point), B (inner points), C (last point). -/
import proofs.«171083_j730144440440_2_alg».proof.Proof.Gen.KernelIdeal.Launch
import proofs.«171083_j730144440440_2_alg».proof.Proof.Gen.KernelIdeal.Skeleton
import proofs.«171083_j730144440440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171083_j730144440440_2_alg».proof.Proof.KIRegion3RunA
import proofs.«171083_j730144440440_2_alg».proof.Proof.KIRegion3RunB
import proofs.«171083_j730144440440_2_alg».proof.Proof.KIRegion3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the scratch buffers and in the output block -/

/-- One staging buffer of the output window, through which its contents are stated (the choice does not matter). -/
abbrev VO3_3 : View sig .tc .vmem S1x2 .f32 := (Memref.whole cc3_stg3_0 : Memref sig .tc .vmem S1x2 .f32).view

/-- Case A's pieces for scratch 0 tile it, so they cover it. -/
theorem scover3_A_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x1.Idx) :
    ∃ pc ∈ (kernelRun3_A c i arg1 harg1 arg2 harg2 arg3 harg3 arg4 harg4 arg5 harg5 arg6 harg6 arg7 harg7 hc0 hc1 x0 x1 x2).1, y ∈ pc.1.set :=
  View.cover_of_tiledL (kernelRun3_A c i arg1 harg1 arg2 harg2 arg3 harg3 arg4 harg4 arg5 harg5 arg6 harg6 arg7 harg7 hc0 hc1 x0 x1 x2).1 S1x1.size (by sl_kernel_rfl) y

/-- What case A leaves in scratch 0: its pieces read back. -/
def sout3_A_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x1 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2).1)

/-- Case A's pieces for scratch 1 tile it, so they cover it. -/
theorem scover3_A_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x1.Idx) :
    ∃ pc ∈ (kernelRun3_A c i arg1 harg1 arg2 harg2 arg3 harg3 arg4 harg4 arg5 harg5 arg6 harg6 arg7 harg7 hc0 hc1 x0 x1 x2).2.1, y ∈ pc.1.set :=
  View.cover_of_tiledL (kernelRun3_A c i arg1 harg1 arg2 harg2 arg3 harg3 arg4 harg4 arg5 harg5 arg6 harg6 arg7 harg7 hc0 hc1 x0 x1 x2).2.1 S1x1.size (by sl_kernel_rfl) y

/-- What case A leaves in scratch 1: its pieces read back. -/
def sout3_A_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x1 .f32 :=
  VS3_1.read (Elt F) (VS3_1.writes (Elt F) VS3_1.junk (kernelRun3_A c i arg1 harg1 arg2 harg2 arg3 harg3 arg4 harg4 arg5 harg5 arg6 harg6 arg7 harg7 hc0 hc1 x0 x1 x2).2.1)

/-- Case A's pieces for scratch 2 tile it, so they cover it. -/
theorem scover3_A_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) (y : S1x2.Idx) :
    ∃ pc ∈ (kernelRun3_A c i arg1 harg1 arg2 harg2 arg3 harg3 arg4 harg4 arg5 harg5 arg6 harg6 arg7 harg7 hc0 hc1 x0 x1 x2).2.2.1, y ∈ pc.1.set :=
  View.cover_of_tiledL (kernelRun3_A c i arg1 harg1 arg2 harg2 arg3 harg3 arg4 harg4 arg5 harg5 arg6 harg6 arg7 harg7 hc0 hc1 x0 x1 x2).2.2.1 S1x2.size (by sl_kernel_rfl) y

/-- What case A leaves in scratch 2: its pieces read back. -/
def sout3_A_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) : Vec F S1x2 .f32 :=
  VS3_2.read (Elt F) (VS3_2.writes (Elt F) VS3_2.junk (kernelRun3_A c i arg1 harg1 arg2 harg2 arg3 harg3 arg4 harg4 arg5 harg5 arg6 harg6 arg7 harg7 hc0 hc1 x0 x1 x2).2.2.1)

/-- Case B's pieces for scratch 0 tile it, so they cover it. -/
theorem scover3_B_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_B c i arg1 harg1 arg2 harg2 arg3 harg3 arg4 harg4 arg5 harg5 arg6 harg6 arg7 harg7 hc0 hc1 x0 x1 x2 xs0 xs1 xs2).1, y ∈ pc.1.set :=
  View.cover_of_tiledL (kernelRun3_B c i arg1 harg1 arg2 harg2 arg3 harg3 arg4 harg4 arg5 harg5 arg6 harg6 arg7 harg7 hc0 hc1 x0 x1 x2 xs0 xs1 xs2).1 S1x1.size (by sl_kernel_rfl) y

/-- What case B leaves in scratch 0: its pieces read back. -/
def sout3_B_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 xs0 xs1 xs2).1)

/-- Case B's pieces for scratch 1 tile it, so they cover it. -/
theorem scover3_B_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_B c i arg1 harg1 arg2 harg2 arg3 harg3 arg4 harg4 arg5 harg5 arg6 harg6 arg7 harg7 hc0 hc1 x0 x1 x2 xs0 xs1 xs2).2.1, y ∈ pc.1.set :=
  View.cover_of_tiledL (kernelRun3_B c i arg1 harg1 arg2 harg2 arg3 harg3 arg4 harg4 arg5 harg5 arg6 harg6 arg7 harg7 hc0 hc1 x0 x1 x2 xs0 xs1 xs2).2.1 S1x1.size (by sl_kernel_rfl) y

/-- What case B leaves in scratch 1: its pieces read back. -/
def sout3_B_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_1.read (Elt F) (VS3_1.writes (Elt F) VS3_1.junk (kernelRun3_B c i arg1 harg1 arg2 harg2 arg3 harg3 arg4 harg4 arg5 harg5 arg6 harg6 arg7 harg7 hc0 hc1 x0 x1 x2 xs0 xs1 xs2).2.1)

/-- Case B's pieces for scratch 2 tile it, so they cover it. -/
theorem scover3_B_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_B c i arg1 harg1 arg2 harg2 arg3 harg3 arg4 harg4 arg5 harg5 arg6 harg6 arg7 harg7 hc0 hc1 x0 x1 x2 xs0 xs1 xs2).2.2.1, y ∈ pc.1.set :=
  View.cover_of_tiledL (kernelRun3_B c i arg1 harg1 arg2 harg2 arg3 harg3 arg4 harg4 arg5 harg5 arg6 harg6 arg7 harg7 hc0 hc1 x0 x1 x2 xs0 xs1 xs2).2.2.1 S1x2.size (by sl_kernel_rfl) y

/-- What case B leaves in scratch 2: its pieces read back. -/
def sout3_B_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VS3_2.read (Elt F) (VS3_2.writes (Elt F) VS3_2.junk (kernelRun3_B c i arg1 harg1 arg2 harg2 arg3 harg3 arg4 harg4 arg5 harg5 arg6 harg6 arg7 harg7 hc0 hc1 x0 x1 x2 xs0 xs1 xs2).2.2.1)

/-- Case C's pieces for the output block tile it, so they cover it. -/
theorem cover3_C_3 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_C c i arg1 harg1 arg2 harg2 arg3 harg3 arg4 harg4 arg5 harg5 arg6 harg6 arg7 harg7 hc0 hc1 x0 x1 x2 xs0 xs1 xs2).1, y ∈ pc.1.set :=
  View.cover_of_tiledL (kernelRun3_C c i arg1 harg1 arg2 harg2 arg3 harg3 arg4 harg4 arg5 harg5 arg6 harg6 arg7 harg7 hc0 hc1 x0 x1 x2 xs0 xs1 xs2).1 S1x2.size (by sl_kernel_rfl) y

/-- What case C leaves in the output's staging buffer: its pieces read back. -/
def out3_C_3 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VO3_3.read (Elt F) (VO3_3.writes (Elt F) VO3_3.junk (kernelRun3_C c i arg1 harg1 arg2 harg2 arg3 harg3 arg4 harg4 arg5 harg5 arg6 harg6 arg7 harg7 hc0 hc1 x0 x1 x2 xs0 xs1 xs2).1)

/-- Case C's pieces for scratch 0 tile it, so they cover it. -/
theorem scover3_C_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_C c i arg1 harg1 arg2 harg2 arg3 harg3 arg4 harg4 arg5 harg5 arg6 harg6 arg7 harg7 hc0 hc1 x0 x1 x2 xs0 xs1 xs2).2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.1 S1x1.size (by sl_kernel_rfl) y

/-- What case C leaves in scratch 0: its pieces read back. -/
def sout3_C_0 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 xs0 xs1 xs2).2.1)

/-- Case C's pieces for scratch 1 tile it, so they cover it. -/
theorem scover3_C_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x1.Idx) :
    ∃ pc ∈ (kernelRun3_C c i arg1 harg1 arg2 harg2 arg3 harg3 arg4 harg4 arg5 harg5 arg6 harg6 arg7 harg7 hc0 hc1 x0 x1 x2 xs0 xs1 xs2).2.2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.2.1 S1x1.size (by sl_kernel_rfl) y

/-- What case C leaves in scratch 1: its pieces read back. -/
def sout3_C_1 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x1 .f32 :=
  VS3_1.read (Elt F) (VS3_1.writes (Elt F) VS3_1.junk (kernelRun3_C c i arg1 harg1 arg2 harg2 arg3 harg3 arg4 harg4 arg5 harg5 arg6 harg6 arg7 harg7 hc0 hc1 x0 x1 x2 xs0 xs1 xs2).2.2.1)

/-- Case C's pieces for scratch 2 tile it, so they cover it. -/
theorem scover3_C_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) (y : S1x2.Idx) :
    ∃ pc ∈ (kernelRun3_C c i arg1 harg1 arg2 harg2 arg3 harg3 arg4 harg4 arg5 harg5 arg6 harg6 arg7 harg7 hc0 hc1 x0 x1 x2 xs0 xs1 xs2).2.2.2.1, y ∈ pc.1.set :=
  View.cover_of_tiledL (kernelRun3_C c i arg1 harg1 arg2 harg2 arg3 harg3 arg4 harg4 arg5 harg5 arg6 harg6 arg7 harg7 hc0 hc1 x0 x1 x2 xs0 xs1 xs2).2.2.2.1 S1x2.size (by sl_kernel_rfl) y

/-- What case C leaves in scratch 2: its pieces read back. -/
def sout3_C_2 (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) : Vec F S1x2 .f32 :=
  VS3_2.read (Elt F) (VS3_2.writes (Elt F) VS3_2.junk (kernelRun3_C c i arg1 harg1 arg2 harg2 arg3 harg3 arg4 harg4 arg5 harg5 arg6 harg6 arg7 harg7 hc0 hc1 x0 x1 x2 xs0 xs1 xs2).2.2.2.1)

/-- Where the body stores nothing into the output block (every point but the last) the proof data names no contents
    for it: the window is idle there and not written back, so nothing consults this value. -/
def ph3_3 : Vec F S1x2 .f32 := VO3_3.read (Elt F) VO3_3.junk

/-! ## The conditions at a point, from its position -/

theorem cond3_0_of_zero (t : Fin cfg3.N) (h : t.val = 0) : cond3_0 (grid3.coords t) :=
  (hcond3_0 t).mpr (by rw [h])
theorem ncond3_0_of_pos (t : Fin cfg3.N) (h : t.val ≠ 0) : ¬cond3_0 (grid3.coords t) := fun hc => by
  have h' := (hcond3_0 t).mp hc
  have hN : t.val < 10 := lt_of_lt_of_eq t.isLt (show cfg3.N = 10 from N_3)
  omega
theorem cond3_1_of (t : Fin cfg3.N) (h : t.val % 10 = 9) : cond3_1 (grid3.coords t) := (hcond3_1 t).mpr h
theorem ncond3_1_of (t : Fin cfg3.N) (h : ¬t.val % 10 = 9) : ¬cond3_1 (grid3.coords t) := fun hc => h ((hcond3_1 t).mp hc)

/-! ## What the output block and the scratch buffers hold after each point -/

/-- THE ACCUMULATION. What the output's staging buffer and the three scratch buffers hold after the body at position
    `n` (output, running maximum, running sum, accumulator): the case the position selects, run at the point's memrefs
    and input blocks, over what the position before left in the scratch buffers. -/
def outsAt3 (c : Dev nD) : (n : ℕ) → n < cfg3.N → Vec F S1x2 .f32 × Vec F S1x1 .f32 × Vec F S1x1 .f32 × Vec F S1x2 .f32
  | 0, hn => (ph3_3, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) (cond3_0_of_zero ⟨0, hn⟩ rfl) (ncond3_1_of ⟨0, hn⟩ (by show ¬(0 : ℕ) % 10 = 9; decide)) (iblk3 V c 0 ⟨0, hn⟩) (iblk3 V c 1 ⟨0, hn⟩) (iblk3 V c 2 ⟨0, hn⟩))
  | n + 1, hn =>
    if h1 : (n + 1) % 10 = 9 then
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (cond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)
    else
      (ph3_3, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (ncond3_0_of_pos ⟨n + 1, hn⟩ (Nat.succ_ne_zero n)) (ncond3_1_of ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at the first point: case A's contents. -/
theorem outsAt3_A (c : Dev nD) (t : Fin cfg3.N) (h0 : t.val = 0) (h1 : ¬t.val % 10 = 9) :
    outsAt3 V c t.val t.isLt = (ph3_3, sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (cond3_0_of_zero t h0) (ncond3_1_of t h1) (iblk3 V c 0 t) (iblk3 V c 1 t) (iblk3 V c 2 t)) := by
  obtain ⟨n, hn⟩ := t
  cases n with
  | zero => exact rfl
  | succ n => exact absurd h0 (Nat.succ_ne_zero n)

/-- `outsAt3` at an inner point: case B's contents, over what the point before left. -/
theorem outsAt3_B (c : Dev nD) (t : Fin cfg3.N) (h0 : t.val ≠ 0) (h1 : ¬t.val % 10 = 9) :
    outsAt3 V c t.val t.isLt = (ph3_3, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (ncond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt3` at the last point: case C's contents, over what the point before left. -/
theorem outsAt3_C (c : Dev nD) (t : Fin cfg3.N) (h0 : t.val ≠ 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (ncond3_0_of_pos t h0) (cond3_1_of t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- The scoped buffers no window stages, other than the kernel's three scratch operands: carried unopened. -/
abbrev rest3 (c : Dev nD) : sProp 𝕄 :=
  Pipeline.scopedRestBut (Ix := Unit) (Name := ℕ) (U := Pipeline.UD sig nD τ) (Lvl := ℕ) (Val := Elt F) spec3 c [cc3_scratch0, cc3_scratch1, cc3_scratch2]

/-- What the launch hands the region — the generator register at some state and the scoped buffers no window
    stages — with the three scratch operands as memrefs owned at some contents. -/
theorem PhiZ3_eq (c : Dev nD) :
    (iprop((∃ r, prngReg c r) ∗ Pipeline.scopedRest (Ix := Unit) (Name := ℕ) (U := Pipeline.UD sig nD τ) (Lvl := ℕ) spec3 c) : sProp 𝕄)
      = iprop((∃ r, prngReg c r) ∗ iprop((∃ d, owns (c : Thread nD τ) scM3_0 fullShare d) ∗ (∃ d, owns (c : Thread nD τ) scM3_1 fullShare d) ∗ (∃ d, owns (c : Thread nD τ) scM3_2 fullShare d)) ∗ rest3 c) := by
  rw [scopedRest3_split]; simp only [scM3_0, scM3_1, scM3_2, owns_whole]; try rfl

/-- The region invariant before position `n`: before the first point what the launch hands over (every scratch buffer
    at anything: the first point resets them before any use); afterwards the three scratch buffers at what the point
    before left in them (`outsAt3`'s scratch components), the other scoped buffers unopened, the generator register at
    some state. -/
def PhiS3 (c : Dev nD) : (n : ℕ) → n ≤ cfg3.N → sProp 𝕄
  | 0, _ => iprop((∃ r, prngReg c r) ∗ Pipeline.scopedRest (Ix := Unit) (Name := ℕ) (U := Pipeline.UD sig nD τ) (Lvl := ℕ) spec3 c)
  | n + 1, hn => iprop((∃ r, prngReg c r) ∗ iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ rest3 c)

theorem PhiS3_zero (c : Dev nD) (n : ℕ) (h : n ≤ cfg3.N) (hz : n = 0) :
    PhiS3 V c n h = iprop((∃ r, prngReg c r) ∗ Pipeline.scopedRest (Ix := Unit) (Name := ℕ) (U := Pipeline.UD sig nD τ) (Lvl := ℕ) spec3 c) := by
  subst hz; rfl

theorem PhiS3_succ (c : Dev nD) (n : ℕ) (hn : n < cfg3.N) :
    PhiS3 V c (n + 1) hn = iprop((∃ r, prngReg c r) ∗ iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ rest3 c) := rfl

theorem PhiS3_pos (c : Dev nD) (n : ℕ) (h : n ≤ cfg3.N) (hz : n ≠ 0) :
    PhiS3 V c n h = iprop((∃ r, prngReg c r) ∗ iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ rest3 c) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem share3 (c : Dev nD) (w : Fin cfg3.W) : (dat3 V c).q w = fullShare := rfl
theorem owed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the position says which case the point is in; the
    invariant hands the body the three scratch buffers at what the point before left (at anything at the first point,
    where the reset overwrites them before any use) and takes them back at this point's contents; the output's buffer is
    handed back untouched at every point but the last, where the body stores the whole block; nothing is owed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  by_cases hz : t.val = 0
  · have h1 : ¬t.val % 10 = 9 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [Dat.leavesExact_idle (dat3 V c) 3 t (idleAt3_3 t (ncond3_1_of t h1)) (noFlush3_3 t (ncond3_1_of t h1))]
    rw [outsAt3_A V c t hz h1]
    unfold sout3_A_0 sout3_A_1 sout3_A_2; (try dsimp only)
    rw [PhiS3_castSucc V c t, PhiS3_zero V c _ _ hz, PhiZ3_eq]
    iintro ⟨⟨Hg, ⟨HS0, HS1, HS2⟩, HR⟩, Ho, ⟨%d0, H0⟩, ⟨%d1, H1⟩, ⟨%d2, H2⟩, ⟨%d3, H3⟩⟩
    iapply ((kernelRun3_A c (grid3.coords t) _ _ _ _ _ _ _ _ _ _ _ _ _ _ (cond3_0_of_zero t hz) (ncond3_1_of t h1) (iblk3 V c 0 t) (iblk3 V c 1 t) (iblk3 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Hg HS0 HS1 HS2 HR]
    · isplitl [Hg]; · iexact Hg
      isplitl [HS0 HS1 HS2]
      · isplitl [HS0]
        · unfold owns; iexists _; isplitr
          swap; · iexact HS0
          ipureintro; exact View.read_writes_of_cover _ _ _ _ _ (scover3_A_0 c _ _ _ _ _ _ _ _ _ _ _ _ _ _ _ _ _ _ _ _)
        isplitl [HS1]
        · unfold owns; iexists _; isplitr
          swap; · iexact HS1
          ipureintro; exact View.read_writes_of_cover _ _ _ _ _ (scover3_A_1 c _ _ _ _ _ _ _ _ _ _ _ _ _ _ _ _ _ _ _ _)
        unfold owns; iexists _; isplitr
        swap; · iexact HS2
        ipureintro; exact View.read_writes_of_cover _ _ _ _ _ (scover3_A_2 c _ _ _ _ _ _ _ _ _ _ _ _ _ _ _ _ _ _ _ _)
      iexact HR
    isplitl [Ho]; · iexact Ho
    isplitl [H0]; · iexact H0
    isplitl [H1]; · iexact H1
    isplitl [H2]; · iexact H2
    iexists _; iexact H3
  · by_cases h1 : t.val % 10 = 9
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t (cond3_1_of t h1)], after3_3]
      rw [outsAt3_C V c t hz h1]
      unfold out3_C_3 sout3_C_0 sout3_C_1 sout3_C_2; (try dsimp only)
      rw [PhiS3_castSucc V c t, PhiS3_pos V c _ _ hz]
      iintro ⟨⟨Hg, ⟨HS0, HS1, HS2⟩, HR⟩, Ho, ⟨%d0, H0⟩, ⟨%d1, H1⟩, ⟨%d2, H2⟩, ⟨%d3, H3⟩⟩
      iapply ((kernelRun3_C c (grid3.coords t) _ _ _ _ _ _ _ _ _ _ _ _ _ _ (ncond3_0_of_pos t hz) (cond3_1_of t h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hg HS0 HS1 HS2 HR]
      · isplitl [Hg]; · iexact Hg
        isplitl [HS0 HS1 HS2]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _)
          unfold owns; iexists _; isplitr
          swap; · iexact HS2
          ipureintro; exact View.read_writes_of_cover _ _ _ _ _ (scover3_C_2 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (ncond3_1_of t h1)) (noFlush3_3 t (ncond3_1_of t h1))]
      rw [outsAt3_B V c t hz h1]
      unfold sout3_B_0 sout3_B_1 sout3_B_2; (try dsimp only)
      rw [PhiS3_castSucc V c t, PhiS3_pos V c _ _ hz]
      iintro ⟨⟨Hg, ⟨HS0, HS1, HS2⟩, HR⟩, Ho, ⟨%d0, H0⟩, ⟨%d1, H1⟩, ⟨%d2, H2⟩, ⟨%d3, H3⟩⟩
      iapply ((kernelRun3_B c (grid3.coords t) _ _ _ _ _ _ _ _ _ _ _ _ _ _ (ncond3_0_of_pos t hz) (ncond3_1_of t h1) (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hg HS0 HS1 HS2 HR]
      · isplitl [Hg]; · iexact Hg
        isplitl [HS0 HS1 HS2]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region is the invariant before the first point. -/
theorem hin3 (c : Dev nD) :
    iprop((∃ r, prngReg c r) ∗ Pipeline.scopedRest (Ix := Unit) (Name := ℕ) (U := Pipeline.UD sig nD τ) (Lvl := ℕ) spec3 c) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the same back: the scratch buffers' named contents are forgotten. -/
theorem Phi_out3 (c : Dev nD) (t : Fin (cfg3.N + 1)) (ht : t.val ≠ 0) :
    (dat3 V c).Φ t ⊢ iprop((∃ r, prngReg c r) ∗ Pipeline.scopedRest (Ix := Unit) (Name := ℕ) (U := Pipeline.UD sig nD τ) (Lvl := ℕ) spec3 c) := by
  rw [show (dat3 V c).Φ t = PhiS3 V c t.val (Nat.le_of_lt_succ t.isLt) from rfl, PhiS3_pos V c _ _ ht, PhiZ3_eq]
  iintro ⟨Hg, ⟨HS0, HS1, HS2⟩, HR⟩
  isplitl [Hg]; · iexact Hg
  isplitl [HS0 HS1 HS2]
  · isplitl [HS0]; · iexists _; iexact HS0
    isplitl [HS1]; · iexists _; iexact HS1
    iexists _; iexact HS2
  iexact HR

/-- The same after the last point. -/
theorem hout3 (c : Dev nD) :
    (dat3 V c).Φ (Fin.last cfg3.N) ⊢ iprop((∃ r, prngReg c r) ∗ Pipeline.scopedRest (Ix := Unit) (Name := ℕ) (U := Pipeline.UD sig nD τ) (Lvl := ℕ) spec3 c) :=
  Phi_out3 V c _ (by rw [Fin.val_last]; have : cfg3.N = 10 := N_3; omega)

end Cert.KernelIdeal.Hand

end
-- ==== Proof.KIFrame.lean ====
import proofs.«171083_j730144440440_2_alg».proof.Proof.KIRegion0
import proofs.«171083_j730144440440_2_alg».proof.Proof.KIRegion1
import proofs.«171083_j730144440440_2_alg».proof.Proof.KIRegion2
import proofs.«171083_j730144440440_2_alg».proof.Proof.KIRegion3
import proofs.«171083_j730144440440_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The buffers' contents at every boundary between two items of the program, folded from the launch memory:
    a stretch of host operations applies them in order; a kernel region leaves its arrays at what its write-backs
    leave and every other buffer as entered. -/

/-- Core c's buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host stretch hostOps0. -/
def W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) := by
  unfold W1; exact StableHlo.after_of_writes_sub hostOps0 _ hostOps0_writes h
/-- After the host stretch hostOps0_1. -/
def W2 (c : Dev nD) : Valuation τ sig (Elt F) := StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) := by
  unfold W2; exact StableHlo.after_of_writes_sub hostOps0_1 _ hostOps0_1_writes h
/-- After the host stretch hostOps0_2. -/
def W3 (c : Dev nD) : Valuation τ sig (Elt F) := StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) := by
  unfold W3; exact StableHlo.after_of_writes_sub hostOps0_2 _ hostOps0_2_writes h
/-- After region 0: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the host stretch hostOps1. -/
def W5 (c : Dev nD) : Valuation τ sig (Elt F) := StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) := by
  unfold W5; exact StableHlo.after_of_writes_sub hostOps1 _ hostOps1_writes h
/-- After region 1: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host stretch hostOps2. -/
def W7 (c : Dev nD) : Valuation τ sig (Elt F) := StableHlo.after hostOps2 (W6 m c)
abbrev V7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) := by
  unfold W7; exact StableHlo.after_of_writes_sub hostOps2 _ hostOps2_writes h
/-- After region 2: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch hostOps3. -/
def W9 (c : Dev nD) : Valuation τ sig (Elt F) := StableHlo.after hostOps3 (W8 m c)
abbrev V9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) := by
  unfold W9; exact StableHlo.after_of_writes_sub hostOps3 _ hostOps3_writes h
/-- After region 3: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched: no host operation writes one, a region reads one through an input window or bypasses it -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (V3 m) c).arrAt_in 0 rfl _).trans (A_eq0 (V3 m) c 0))
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_of_ne m c main_arg7 (by decide)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl
theorem W10_main_arg9 (c : Dev nD) : W10 m c (Proc.devRef .tc main_arg9) = m ((c : Thread nD τ).loc main_arg9) :=
  calc W10 m c (Proc.devRef .tc main_arg9)
    _ = W9 m c (Proc.devRef .tc main_arg9) := (W10_arr m c 1).trans (((dat3 (V9 m) c).arrAt_in 1 rfl _).trans (A_eq3 (V9 m) c 1))
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of m c main_arg9 (by decide)
    _ = W0 m c (Proc.devRef .tc main_arg9) := W1_of m c main_arg9 (by decide)
    _ = m ((c : Thread nD τ).loc main_arg9) := rfl
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_of_ne m c main_arg10 (by decide)
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of m c main_arg10 (by decide)
    _ = W0 m c (Proc.devRef .tc main_arg10) := W1_of m c main_arg10 (by decide)
    _ = m ((c : Thread nD τ).loc main_arg10) := rfl

/-- The result buffer ends at what the last region's write-backs leave in its output array. -/
theorem W10_main_v89 (c : Dev nD) : W10 m c (Proc.devRef .tc main_v89) = (dat3 (V9 m) c).arrAt 3 cfg3.N := W10_arr m c 3

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as items -/

set_option backward.isDefEq.respectTransparency.types false in
/-- Region 0: entered from every unscoped buffer at the contents before it, left at those after it; its arrays
    split out of the unscoped buffers and put back at their exit contents; the generator register into the class
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at those after it; its arrays
    split out of the unscoped buffers and put back at their exit contents; the generator register into the class
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at those after it; its arrays
    split out of the unscoped buffers and put back at their exit contents; the generator register into the class
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at those after it; its arrays
    split out of the unscoped buffers and put back at their exit contents; the generator register into the class
    invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => owed3 (V9 m) _ _
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => share3 (V9 m) c _) (V9 m c) fun _ => A_eq3 (V9 m) c _
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V9 m) c).Φ 0 from rfl]
    iintro ⟨Hp, -, Hr⟩
    iapply (hin3 (V9 m) c)
    isplitl [Hp]; · iexact Hp
    iexact Hr
  hout c := by
    rw [Pipeline.ownSems0_none, show (pdats m 3 c).Φ (Fin.last _) = (dat3 (V9 m) c).Φ (Fin.last cfg3.N) from rfl]
    iintro HΦ
    ihave H := (hout3 (V9 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => share3 (V9 m) c _)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
theorem main_run (c : Dev nD) : main (F := F) c = Pipeline.Seg.run (segs m) := (main_chain c).trans (by chain_rfl)

set_option backward.isDefEq.respectTransparency.types false in
/-- Every weakly fair execution of the program from memory m with zero counters terminates, nothing faulting, in a
    memory that holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c)⟩) (run_all m ρ)

/-- The same run with the result buffer named: it ends at what the last region's write-backs leave in its output array. -/
theorem run_result : θ_run defs (onTc (τ := τ) (main (F := F))) ⟨m, fun _ => 0, ρ⟩ (fun r => ∀ c : Dev nD,
      r.2.mem ((c.tc : Thread nD τ).loc main_v89) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v89 (by decide))).trans (W10_main_v89 m c),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c)⟩) (run_all m ρ)

end Cert.KernelIdeal.Hand

end
-- ==== Proof.RefRunOps.lean ====
/- The reference program's @main as a list of its 170 host operations, in order, one list per window of the
   printed program. An operation of a function the program calls stands where the call stands, over the buffers that
   call names: the call's operands for the function's parameters, the call's own buffers for the values of its body
   (a call inside a called function likewise, over the inner call's buffers). Each operation reads its operand buffers and
   writes its one result buffer with a pure function of what it read. -/
import proofs.«171083_j730144440440_2_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 68 of 170: the window `main_part0` of @main. -/
abbrev ops0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1200000 ![] bcast_S_S1200000 : (⟨S_, .i32⟩ : BufTy).Contents (Elt F) → (⟨S1200000, .i32⟩ : BufTy).Contents (Elt F)),
    binary main_v1 main_v5 main_v6 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v7 (broadcastInDim S1200000 ![] bcast_S_S1200000 : (⟨S_, .i32⟩ : BufTy).Contents (Elt F) → (⟨S1200000, .i32⟩ : BufTy).Contents (Elt F)),
    binary main_v1 main_v7 main_v8 (addi : (⟨S1200000, .i32⟩ : BufTy).Contents (Elt F) → (⟨S1200000, .i32⟩ : BufTy).Contents (Elt F) → (⟨S1200000, .i32⟩ : BufTy).Contents (Elt F)),
    ternary main_v6 main_v8 main_v1 main_v9 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v9 main_v10 (broadcastInDim S1200000x1 ![0] bcast_S1200000_S1200000x1_0 : (⟨S1200000, .i32⟩ : BufTy).Contents (Elt F) → (⟨S1200000x1, .i32⟩ : BufTy).Contents (Elt F)),
    ternary main_v4 main_v10 main_arg2 main_v11 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c_4 (constantI S_ 32 0#32),
    unary main_c_4 main_v18 (broadcastInDim S1200000 ![] bcast_S_S1200000 : (⟨S_, .i32⟩ : BufTy).Contents (Elt F) → (⟨S1200000, .i32⟩ : BufTy).Contents (Elt F)),
    binary main_v1 main_v18 main_v19 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v20 (broadcastInDim S1200000 ![] bcast_S_S1200000 : (⟨S_, .i32⟩ : BufTy).Contents (Elt F) → (⟨S1200000, .i32⟩ : BufTy).Contents (Elt F)),
    binary main_v1 main_v20 main_v21 (addi : (⟨S1200000, .i32⟩ : BufTy).Contents (Elt F) → (⟨S1200000, .i32⟩ : BufTy).Contents (Elt F) → (⟨S1200000, .i32⟩ : BufTy).Contents (Elt F)),
    ternary main_v19 main_v21 main_v1 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v22 main_v23 (broadcastInDim S1200000x1 ![0] bcast_S1200000_S1200000x1_0 : (⟨S1200000, .i32⟩ : BufTy).Contents (Elt F) → (⟨S1200000x1, .i32⟩ : BufTy).Contents (Elt F)),
    binary main_v17 main_v23 main_v24 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v24 main_arg2 main_v25 (mulf : (⟨S1200000, .f32⟩ : BufTy).Contents (Elt F) → (⟨S1200000, .f32⟩ : BufTy).Contents (Elt F) → (⟨S1200000, .f32⟩ : BufTy).Contents (Elt F)),
    nullary main_c_6 (constantI S_ 32 0#32),
    unary main_c_6 main_v26 (broadcastInDim S1200000 ![] bcast_S_S1200000 : (⟨S_, .i32⟩ : BufTy).Contents (Elt F) → (⟨S1200000, .i32⟩ : BufTy).Contents (Elt F)),
    binary main_v3 main_v26 main_v27 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v28 (broadcastInDim S1200000 ![] bcast_S_S1200000 : (⟨S_, .i32⟩ : BufTy).Contents (Elt F) → (⟨S1200000, .i32⟩ : BufTy).Contents (Elt F)),
    binary main_v3 main_v28 main_v29 (addi : (⟨S1200000, .i32⟩ : BufTy).Contents (Elt F) → (⟨S1200000, .i32⟩ : BufTy).Contents (Elt F) → (⟨S1200000, .i32⟩ : BufTy).Contents (Elt F)),
    ternary main_v27 main_v29 main_v3 main_v30 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v30 main_v31 (broadcastInDim S1200000x1 ![0] bcast_S1200000_S1200000x1_0 : (⟨S1200000, .i32⟩ : BufTy).Contents (Elt F) → (⟨S1200000x1, .i32⟩ : BufTy).Contents (Elt F)),
    binary main_v17 main_v31 main_v32 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v25 main_v32 main_v33 (mulf : (⟨S1200000, .f32⟩ : BufTy).Contents (Elt F) → (⟨S1200000, .f32⟩ : BufTy).Contents (Elt F) → (⟨S1200000, .f32⟩ : BufTy).Contents (Elt F)),
    unary main_v33 main_v34 (Host.negf : (⟨S1200000, .f32⟩ : BufTy).Contents (Elt F) → (⟨S1200000, .f32⟩ : BufTy).Contents (Elt F)),
    reshape main_arg3 main_v35 rfl shapeCasts_S1x20x32_S20x32,
    binary main_arg0 main_v35 main_v36 ((fun l r => Host.dotGeneral dot_S100000x20_S20x32_S100000x32_1_0_0_1_n_n none l r) : (⟨S100000x20, .f32⟩ : BufTy).Contents (Elt F) → (⟨S20x32, .f32⟩ : BufTy).Contents (Elt F) → (⟨S100000x32, .f32⟩ : BufTy).Contents (Elt F)),
    unary main_arg4 main_v37 (broadcastInDim S1x32 ![1] bcast_S32_S1x32_1 : (⟨S32, .f32⟩ : BufTy).Contents (Elt F) → (⟨S1x32, .f32⟩ : BufTy).Contents (Elt F)),
    unary main_v37 main_v38 (broadcastInDim S100000x32 ![0, 1] bcast_S1x32_S100000x32_0_1 : (⟨S1x32, .f32⟩ : BufTy).Contents (Elt F) → (⟨S100000x32, .f32⟩ : BufTy).Contents (Elt F)),
    binary main_v36 main_v38 main_v39 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v39) (TRef.of (T := ⟨S100000x32, .f32⟩) main_call1_v0) (TRef.of (T := ⟨S100000x32, .i1⟩) main_call1_v1) (cmpf .oge),
    TRef.nullary (TRef.of (T := ⟨S_, .f32⟩) main_call1_cst_0) (constant S_ .f32 0x3C23D70A#32),
    TRef.unary (TRef.of (T := ⟨S_, .f32⟩) main_call1_cst_0) (TRef.of (T := ⟨S100000x32, .f32⟩) main_call1_v2) (broadcastInDim S100000x32 ![] bcast_S_S100000x32),
    TRef.binary (TRef.of (T := ⟨S100000x32, .f32⟩) main_call1_v2) (TRef.of (T := ⟨S100000x32, .f32⟩) main_v39) (TRef.of (T := ⟨S100000x32, .f32⟩) main_call1_v3) mulf,
    TRef.ternary (TRef.of (T := ⟨S100000x32, .i1⟩) main_call1_v1) (TRef.of (T := ⟨S100000x32, .f32⟩) main_v39) (TRef.of (T := ⟨S100000x32, .f32⟩) main_call1_v3) (TRef.of (T := ⟨S100000x32, .f32⟩) main_v40) select,
    unary main_arg5 main_v41 ((extractStridedSlice S1x32x64 ![0, 0, 0] · slices_S2x32x64_S1x32x64_0_0_0) : (⟨S2x32x64, .f32⟩ : BufTy).Contents (Elt F) → (⟨S1x32x64, .f32⟩ : BufTy).Contents (Elt F)),
    reshape main_v41 main_v42 rfl shapeCasts_S1x32x64_S32x64,
    binary main_v40 main_v42 main_v43 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_cst_8 (constant S_ .f32 0x00000000#32),
    unary main_cst_8 main_v44 (broadcastInDim S100000x32 ![] bcast_S_S100000x32 : (⟨S_, .f32⟩ : BufTy).Contents (Elt F) → (⟨S100000x32, .f32⟩ : BufTy).Contents (Elt F)),
    unary main_v34 main_v45 (broadcastInDim S1200000x1 ![0] bcast_S1200000_S1200000x1_0 : (⟨S1200000, .f32⟩ : BufTy).Contents (Elt F) → (⟨S1200000x1, .f32⟩ : BufTy).Contents (Elt F)),
    nullary main_c_9 (constantI S_ 32 0#32),
    unary main_c_9 main_v46 (broadcastInDim S1200000 ![] bcast_S_S1200000 : (⟨S_, .i32⟩ : BufTy).Contents (Elt F) → (⟨S1200000, .i32⟩ : BufTy).Contents (Elt F)),
    binary main_v1 main_v46 main_v47 (cmpi .slt : (⟨S1200000, .i32⟩ : BufTy).Contents (Elt F) → (⟨S1200000, .i32⟩ : BufTy).Contents (Elt F) → (⟨S1200000, .i1⟩ : BufTy).Contents (Elt F)) ]

/-- The buffers the operations of `ops0` write, in order. -/
abbrev W0 : List (Ref sig .tc) := [main_v0, main_v1, main_v2, main_v3, main_cst, main_v4, main_c, main_v5, main_v6, main_c_0, main_v7, main_v8, main_v9, main_v10, main_v11, main_cst_1, main_v12, main_v13, main_cst_2, main_v14, main_v15, main_v16, main_cst_3, main_call0_v0, main_call0_v1, main_v17, main_c_4, main_v18, main_v19, main_c_5, main_v20, main_v21, main_v22, main_v23, main_v24, main_v25, main_c_6, main_v26, main_v27, main_c_7, main_v28, main_v29, main_v30, main_v31, main_v32, main_v33, main_v34, main_v35, main_v36, main_v37, main_v38, main_v39, main_call1_cst, main_call1_v0, main_call1_v1, main_call1_cst_0, main_call1_v2, main_call1_v3, main_v40, main_v41, main_v42, main_v43, main_cst_8, main_v44, main_v45, main_c_9, main_v46, main_v47]

/-- Operations 69 … 134 of 170: the window `main_part1` of @main. -/
abbrev ops1 : List (HloOp τ sig (Elt F)) :=
  [ nullary main_c_10 (constantI S_ 32 100000#32),
    unary main_c_10 main_v48 (broadcastInDim S1200000 ![] bcast_S_S1200000 : (⟨S_, .i32⟩ : BufTy).Contents (Elt F) → (⟨S1200000, .i32⟩ : BufTy).Contents (Elt F)),
    binary main_v1 main_v48 main_v49 (addi : (⟨S1200000, .i32⟩ : BufTy).Contents (Elt F) → (⟨S1200000, .i32⟩ : BufTy).Contents (Elt F) → (⟨S1200000, .i32⟩ : BufTy).Contents (Elt F)),
    ternary main_v47 main_v49 main_v1 main_v50 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v50 main_v51 (broadcastInDim S1200000x1 ![0] bcast_S1200000_S1200000x1_0 : (⟨S1200000, .i32⟩ : BufTy).Contents (Elt F) → (⟨S1200000x1, .i32⟩ : BufTy).Contents (Elt F)),
    binary main_v40 main_v51 main_v52 ((fun x i => Host.gather gather_S100000x32_S1200000x1_S1200000x32_1_0_n_n_0_1_132 x i) : (⟨S100000x32, .f32⟩ : BufTy).Contents (Elt F) → (⟨S1200000x1, .i32⟩ : BufTy).Contents (Elt F) → (⟨S1200000x32, .f32⟩ : BufTy).Contents (Elt F)),
    unary main_v45 main_v53 (broadcastInDim S1200000x32 ![0, 1] bcast_S1200000x1_S1200000x32_0_1 : (⟨S1200000x1, .f32⟩ : BufTy).Contents (Elt F) → (⟨S1200000x32, .f32⟩ : BufTy).Contents (Elt F)),
    binary main_v53 main_v52 main_v54 (mulf : (⟨S1200000x32, .f32⟩ : BufTy).Contents (Elt F) → (⟨S1200000x32, .f32⟩ : BufTy).Contents (Elt F) → (⟨S1200000x32, .f32⟩ : BufTy).Contents (Elt F)),
    nullary main_c_11 (constantI S_ 32 0#32),
    unary main_c_11 main_v55 (broadcastInDim S1200000 ![] bcast_S_S1200000 : (⟨S_, .i32⟩ : BufTy).Contents (Elt F) → (⟨S1200000, .i32⟩ : BufTy).Contents (Elt F)),
    binary main_v3 main_v55 main_v56 (cmpi .slt : (⟨S1200000, .i32⟩ : BufTy).Contents (Elt F) → (⟨S1200000, .i32⟩ : BufTy).Contents (Elt F) → (⟨S1200000, .i1⟩ : BufTy).Contents (Elt F)),
    nullary main_c_12 (constantI S_ 32 100000#32),
    unary main_c_12 main_v57 (broadcastInDim S1200000 ![] bcast_S_S1200000 : (⟨S_, .i32⟩ : BufTy).Contents (Elt F) → (⟨S1200000, .i32⟩ : BufTy).Contents (Elt F)),
    binary main_v3 main_v57 main_v58 (addi : (⟨S1200000, .i32⟩ : BufTy).Contents (Elt F) → (⟨S1200000, .i32⟩ : BufTy).Contents (Elt F) → (⟨S1200000, .i32⟩ : BufTy).Contents (Elt F)),
    ternary main_v56 main_v58 main_v3 main_v59 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v59 main_v60 (broadcastInDim S1200000x1 ![0] bcast_S1200000_S1200000x1_0 : (⟨S1200000, .i32⟩ : BufTy).Contents (Elt F) → (⟨S1200000x1, .i32⟩ : BufTy).Contents (Elt F)),
    ternary main_v44 main_v60 main_v54 main_v61 ((fun x i u => Host.scatterAdd scatter_S100000x32_S1200000x1_S1200000x32_1_0_0_1 x i u) : (⟨S100000x32, .f32⟩ : BufTy).Contents (Elt F) → (⟨S1200000x1, .i32⟩ : BufTy).Contents (Elt F) → (⟨S1200000x32, .f32⟩ : BufTy).Contents (Elt F) → (⟨S100000x32, .f32⟩ : BufTy).Contents (Elt F)),
    unary main_arg5 main_v62 ((extractStridedSlice S1x32x64 ![1, 0, 0] · slices_S2x32x64_S1x32x64_1_0_0) : (⟨S2x32x64, .f32⟩ : BufTy).Contents (Elt F) → (⟨S1x32x64, .f32⟩ : BufTy).Contents (Elt F)),
    reshape main_v62 main_v63 rfl shapeCasts_S1x32x64_S32x64,
    binary main_v61 main_v63 main_v64 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v43 main_v64 main_v65 (addf : (⟨S100000x64, .f32⟩ : BufTy).Contents (Elt F) → (⟨S100000x64, .f32⟩ : BufTy).Contents (Elt F) → (⟨S100000x64, .f32⟩ : BufTy).Contents (Elt F)),
    unary main_arg6 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v68) (TRef.of (T := ⟨S100000x64, .f32⟩) main_call2_v0) (TRef.of (T := ⟨S100000x64, .i1⟩) main_call2_v1) (cmpf .oge),
    TRef.nullary (TRef.of (T := ⟨S_, .f32⟩) main_call2_cst_0) (constant S_ .f32 0x3C23D70A#32),
    TRef.unary (TRef.of (T := ⟨S_, .f32⟩) main_call2_cst_0) (TRef.of (T := ⟨S100000x64, .f32⟩) main_call2_v2) (broadcastInDim S100000x64 ![] bcast_S_S100000x64),
    TRef.binary (TRef.of (T := ⟨S100000x64, .f32⟩) main_call2_v2) (TRef.of (T := ⟨S100000x64, .f32⟩) main_v68) (TRef.of (T := ⟨S100000x64, .f32⟩) main_call2_v3) mulf,
    TRef.ternary (TRef.of (T := ⟨S100000x64, .i1⟩) main_call2_v1) (TRef.of (T := ⟨S100000x64, .f32⟩) main_v68) (TRef.of (T := ⟨S100000x64, .f32⟩) main_call2_v3) (TRef.of (T := ⟨S100000x64, .f32⟩) main_v69) select,
    unary main_arg7 main_v70 ((extractStridedSlice S1x64x2 ![0, 0, 0] · slices_S2x64x2_S1x64x2_0_0_0) : (⟨S2x64x2, .f32⟩ : BufTy).Contents (Elt F) → (⟨S1x64x2, .f32⟩ : BufTy).Contents (Elt F)),
    reshape main_v70 main_v71 rfl shapeCasts_S1x64x2_S64x2,
    binary main_v69 main_v71 main_v72 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    unary main_v34 main_v74 (broadcastInDim S1200000x1 ![0] bcast_S1200000_S1200000x1_0 : (⟨S1200000, .f32⟩ : BufTy).Contents (Elt F) → (⟨S1200000x1, .f32⟩ : BufTy).Contents (Elt F)),
    nullary main_c_14 (constantI S_ 32 0#32),
    unary main_c_14 main_v75 (broadcastInDim S1200000 ![] bcast_S_S1200000 : (⟨S_, .i32⟩ : BufTy).Contents (Elt F) → (⟨S1200000, .i32⟩ : BufTy).Contents (Elt F)),
    binary main_v1 main_v75 main_v76 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v77 (broadcastInDim S1200000 ![] bcast_S_S1200000 : (⟨S_, .i32⟩ : BufTy).Contents (Elt F) → (⟨S1200000, .i32⟩ : BufTy).Contents (Elt F)),
    binary main_v1 main_v77 main_v78 (addi : (⟨S1200000, .i32⟩ : BufTy).Contents (Elt F) → (⟨S1200000, .i32⟩ : BufTy).Contents (Elt F) → (⟨S1200000, .i32⟩ : BufTy).Contents (Elt F)),
    ternary main_v76 main_v78 main_v1 main_v79 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v79 main_v80 (broadcastInDim S1200000x1 ![0] bcast_S1200000_S1200000x1_0 : (⟨S1200000, .i32⟩ : BufTy).Contents (Elt F) → (⟨S1200000x1, .i32⟩ : BufTy).Contents (Elt F)),
    binary main_v69 main_v80 main_v81 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v74 main_v82 (broadcastInDim S1200000x64 ![0, 1] bcast_S1200000x1_S1200000x64_0_1 : (⟨S1200000x1, .f32⟩ : BufTy).Contents (Elt F) → (⟨S1200000x64, .f32⟩ : BufTy).Contents (Elt F)),
    binary main_v82 main_v81 main_v83 (mulf : (⟨S1200000x64, .f32⟩ : BufTy).Contents (Elt F) → (⟨S1200000x64, .f32⟩ : BufTy).Contents (Elt F) → (⟨S1200000x64, .f32⟩ : BufTy).Contents (Elt F)),
    nullary main_c_16 (constantI S_ 32 0#32),
    unary main_c_16 main_v84 (broadcastInDim S1200000 ![] bcast_S_S1200000 : (⟨S_, .i32⟩ : BufTy).Contents (Elt F) → (⟨S1200000, .i32⟩ : BufTy).Contents (Elt F)),
    binary main_v3 main_v84 main_v85 (cmpi .slt : (⟨S1200000, .i32⟩ : BufTy).Contents (Elt F) → (⟨S1200000, .i32⟩ : BufTy).Contents (Elt F) → (⟨S1200000, .i1⟩ : BufTy).Contents (Elt F)),
    nullary main_c_17 (constantI S_ 32 100000#32),
    unary main_c_17 main_v86 (broadcastInDim S1200000 ![] bcast_S_S1200000 : (⟨S_, .i32⟩ : BufTy).Contents (Elt F) → (⟨S1200000, .i32⟩ : BufTy).Contents (Elt F)),
    binary main_v3 main_v86 main_v87 (addi : (⟨S1200000, .i32⟩ : BufTy).Contents (Elt F) → (⟨S1200000, .i32⟩ : BufTy).Contents (Elt F) → (⟨S1200000, .i32⟩ : BufTy).Contents (Elt F)),
    ternary main_v85 main_v87 main_v3 main_v88 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v88 main_v89 (broadcastInDim S1200000x1 ![0] bcast_S1200000_S1200000x1_0 : (⟨S1200000, .i32⟩ : BufTy).Contents (Elt F) → (⟨S1200000x1, .i32⟩ : BufTy).Contents (Elt F)),
    ternary main_v73 main_v89 main_v83 main_v90 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v91 ((extractStridedSlice S1x64x2 ![1, 0, 0] · slices_S2x64x2_S1x64x2_1_0_0) : (⟨S2x64x2, .f32⟩ : BufTy).Contents (Elt F) → (⟨S1x64x2, .f32⟩ : BufTy).Contents (Elt F)),
    reshape main_v91 main_v92 rfl shapeCasts_S1x64x2_S64x2,
    binary main_v90 main_v92 main_v93 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    binary main_v72 main_v93 main_v94 (addf : (⟨S100000x2, .f32⟩ : BufTy).Contents (Elt F) → (⟨S100000x2, .f32⟩ : BufTy).Contents (Elt F) → (⟨S100000x2, .f32⟩ : BufTy).Contents (Elt F)),
    unary main_arg8 main_v95 (broadcastInDim S1x2 ![1] bcast_S2_S1x2_1 : (⟨S2, .f32⟩ : BufTy).Contents (Elt F) → (⟨S1x2, .f32⟩ : BufTy).Contents (Elt F)),
    unary main_v95 main_v96 (broadcastInDim S100000x2 ![0, 1] bcast_S1x2_S100000x2_0_1 : (⟨S1x2, .f32⟩ : BufTy).Contents (Elt F) → (⟨S100000x2, .f32⟩ : BufTy).Contents (Elt F)),
    binary main_v94 main_v96 main_v97 (addf : (⟨S100000x2, .f32⟩ : BufTy).Contents (Elt F) → (⟨S100000x2, .f32⟩ : BufTy).Contents (Elt F) → (⟨S100000x2, .f32⟩ : BufTy).Contents (Elt F)),
    binary main_v97 main_arg9 main_v98 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    unary main_arg10 main_v99 (broadcastInDim S1x1 ![1] bcast_S1_S1x1_1 : (⟨S1, .f32⟩ : BufTy).Contents (Elt F) → (⟨S1x1, .f32⟩ : BufTy).Contents (Elt F)) ]

/-- The buffers the operations of `ops1` write, in order. -/
abbrev W1 : List (Ref sig .tc) := [main_c_10, main_v48, main_v49, main_v50, main_v51, main_v52, main_v53, main_v54, main_c_11, main_v55, main_v56, main_c_12, main_v57, main_v58, main_v59, main_v60, main_v61, main_v62, main_v63, main_v64, main_v65, main_v66, main_v67, main_v68, main_call2_cst, main_call2_v0, main_call2_v1, main_call2_cst_0, main_call2_v2, main_call2_v3, main_v69, main_v70, main_v71, main_v72, main_cst_13, main_v73, main_v74, main_c_14, main_v75, main_v76, main_c_15, main_v77, main_v78, main_v79, main_v80, main_v81, main_v82, main_v83, main_c_16, main_v84, main_v85, main_c_17, main_v86, main_v87, main_v88, main_v89, main_v90, main_v91, main_v92, main_v93, main_v94, main_v95, main_v96, main_v97, main_v98, main_v99]

/-- Operations 135 … 170 of 170: the window `main_part2` of @main. -/
abbrev ops2 : List (HloOp τ sig (Elt F)) :=
  [ unary main_v99 main_v100 (broadcastInDim S100000x1 ![0, 1] bcast_S1x1_S100000x1_0_1 : (⟨S1x1, .f32⟩ : BufTy).Contents (Elt F) → (⟨S100000x1, .f32⟩ : BufTy).Contents (Elt F)),
    binary main_v98 main_v100 main_v101 (addf : (⟨S100000x1, .f32⟩ : BufTy).Contents (Elt F) → (⟨S100000x1, .f32⟩ : BufTy).Contents (Elt F) → (⟨S100000x1, .f32⟩ : BufTy).Contents (Elt F)),
    nullary main_cst_18 (constant S_ .f32 0xFF800000#32),
    binary main_v101 main_cst_18 main_v102 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    nullary main_cst_19 (constant S_ .f32 0xFF800000#32),
    unary main_cst_19 main_v103 (broadcastInDim S1 ![] bcast_S_S1 : (⟨S_, .f32⟩ : BufTy).Contents (Elt F) → (⟨S1, .f32⟩ : BufTy).Contents (Elt F)),
    binary main_v103 main_v102 main_v104 (maximumf : (⟨S1, .f32⟩ : BufTy).Contents (Elt F) → (⟨S1, .f32⟩ : BufTy).Contents (Elt F) → (⟨S1, .f32⟩ : BufTy).Contents (Elt F)),
    unary main_v104 main_v105 (broadcastInDim S1x1 ![1] bcast_S1_S1x1_1 : (⟨S1, .f32⟩ : BufTy).Contents (Elt F) → (⟨S1x1, .f32⟩ : BufTy).Contents (Elt F)),
    unary main_v105 main_v106 (broadcastInDim S100000x1 ![0, 1] bcast_S1x1_S100000x1_0_1 : (⟨S1x1, .f32⟩ : BufTy).Contents (Elt F) → (⟨S100000x1, .f32⟩ : BufTy).Contents (Elt F)),
    binary main_v101 main_v106 main_v107 (subf : (⟨S100000x1, .f32⟩ : BufTy).Contents (Elt F) → (⟨S100000x1, .f32⟩ : BufTy).Contents (Elt F) → (⟨S100000x1, .f32⟩ : BufTy).Contents (Elt F)),
    unary main_v107 main_v108 (Host.exp : (⟨S100000x1, .f32⟩ : BufTy).Contents (Elt F) → (⟨S100000x1, .f32⟩ : BufTy).Contents (Elt F)),
    nullary main_cst_20 (constant S_ .f32 0x00000000#32),
    binary main_v108 main_cst_20 main_v109 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)),
    unary main_v109 main_v110 (broadcastInDim S1x1 ![1] bcast_S1_S1x1_1 : (⟨S1, .f32⟩ : BufTy).Contents (Elt F) → (⟨S1x1, .f32⟩ : BufTy).Contents (Elt F)),
    unary main_v110 main_v111 (broadcastInDim S100000x1 ![0, 1] bcast_S1x1_S100000x1_0_1 : (⟨S1x1, .f32⟩ : BufTy).Contents (Elt F) → (⟨S100000x1, .f32⟩ : BufTy).Contents (Elt F)),
    binary main_v108 main_v111 main_v112 (Host.divf : (⟨S100000x1, .f32⟩ : BufTy).Contents (Elt F) → (⟨S100000x1, .f32⟩ : BufTy).Contents (Elt F) → (⟨S100000x1, .f32⟩ : BufTy).Contents (Elt F)),
    unary main_v112 main_v113 (broadcastInDim S100000x2 ![0, 1] bcast_S100000x1_S100000x2_0_1 : (⟨S100000x1, .f32⟩ : BufTy).Contents (Elt F) → (⟨S100000x2, .f32⟩ : BufTy).Contents (Elt F)),
    binary main_v113 main_v97 main_v114 (mulf : (⟨S100000x2, .f32⟩ : BufTy).Contents (Elt F) → (⟨S100000x2, .f32⟩ : BufTy).Contents (Elt F) → (⟨S100000x2, .f32⟩ : BufTy).Contents (Elt F)),
    nullary main_cst_21 (constant S_ .f32 0x00000000#32),
    binary main_v114 main_cst_21 main_v115 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)),
    unary main_v115 main_v116 (broadcastInDim S1x2 ![1] bcast_S2_S1x2_1 : (⟨S2, .f32⟩ : BufTy).Contents (Elt F) → (⟨S1x2, .f32⟩ : BufTy).Contents (Elt F)),
    TRef.nullary (TRef.of (T := ⟨S_, .f32⟩) main_call3_cst) (constant S_ .f32 0xFF800000#32),
    TRef.binary (TRef.of (T := ⟨S1x2, .f32⟩) main_v116) (TRef.of (T := ⟨S_, .f32⟩) main_call3_cst) (TRef.of (T := ⟨S1, .f32⟩) main_call3_v0) (fun x v => Host.reduce FloatOps.maximumf x v reducesTo_S1x2_S1_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S1, .f32⟩) main_call3_v1) (broadcastInDim S1 ![] bcast_S_S1),
    TRef.binary (TRef.of (T := ⟨S1, .f32⟩) main_call3_v1) (TRef.of (T := ⟨S1, .f32⟩) main_call3_v0) (TRef.of (T := ⟨S1, .f32⟩) main_call3_v2) maximumf,
    TRef.unary (TRef.of (T := ⟨S1, .f32⟩) main_call3_v2) (TRef.of (T := ⟨S1x1, .f32⟩) main_call3_v3) (broadcastInDim S1x1 ![0] bcast_S1_S1x1_0),
    TRef.unary (TRef.of (T := ⟨S1x1, .f32⟩) main_call3_v3) (TRef.of (T := ⟨S1x2, .f32⟩) main_call3_v4) (broadcastInDim S1x2 ![0, 1] bcast_S1x1_S1x2_0_1),
    TRef.binary (TRef.of (T := ⟨S1x2, .f32⟩) main_v116) (TRef.of (T := ⟨S1x2, .f32⟩) main_call3_v4) (TRef.of (T := ⟨S1x2, .f32⟩) main_call3_v5) subf,
    TRef.unary (TRef.of (T := ⟨S1x2, .f32⟩) main_call3_v5) (TRef.of (T := ⟨S1x2, .f32⟩) main_call3_v6) Host.exp,
    TRef.nullary (TRef.of (T := ⟨S_, .f32⟩) main_call3_cst_1) (constant S_ .f32 0x00000000#32),
    TRef.binary (TRef.of (T := ⟨S1x2, .f32⟩) main_call3_v6) (TRef.of (T := ⟨S_, .f32⟩) main_call3_cst_1) (TRef.of (T := ⟨S1, .f32⟩) main_call3_v7) (fun x v => Host.reduceAdd x v reducesTo_S1x2_S1_d1 h_S_),
    TRef.unary (TRef.of (T := ⟨S1, .f32⟩) main_call3_v7) (TRef.of (T := ⟨S1x1, .f32⟩) main_call3_v8) (broadcastInDim S1x1 ![0] bcast_S1_S1x1_0),
    TRef.unary (TRef.of (T := ⟨S1x1, .f32⟩) main_call3_v8) (TRef.of (T := ⟨S1x1, .f32⟩) main_call3_v9) Host.log,
    TRef.unary (TRef.of (T := ⟨S1x1, .f32⟩) main_call3_v9) (TRef.of (T := ⟨S1x2, .f32⟩) main_call3_v10) (broadcastInDim S1x2 ![0, 1] bcast_S1x1_S1x2_0_1),
    TRef.binary (TRef.of (T := ⟨S1x2, .f32⟩) main_call3_v5) (TRef.of (T := ⟨S1x2, .f32⟩) main_call3_v10) (TRef.of (T := ⟨S1x2, .f32⟩) main_v117) subf ]

/-- The buffers the operations of `ops2` write, in order. -/
abbrev W2 : List (Ref sig .tc) := [main_v100, main_v101, main_cst_18, main_v102, main_cst_19, main_v103, main_v104, main_v105, main_v106, main_v107, main_v108, main_cst_20, main_v109, main_v110, main_v111, main_v112, main_v113, main_v114, main_cst_21, main_v115, main_v116, main_call3_cst, main_call3_v0, main_call3_cst_0, main_call3_v1, main_call3_v2, main_call3_v3, main_call3_v4, main_call3_v5, main_call3_v6, main_call3_cst_1, main_call3_v7, main_call3_v8, main_call3_v9, main_call3_v10, main_v117]

/-- @main's 170 operations, in order. -/
abbrev ops : List (HloOp τ sig (Elt F)) :=
  ops0 ++ (ops1 ++ (ops2))

end Cert.ReferenceIdeal.RefRun

end
-- ==== Proof.RefRunEq0.lean ====
/- The window `main_part0` of the reference program's @main is the straight line of the operations `ops0`:
   the called functions' definitions unfold at their calls and sequencing reassociates. Beside it, what the run theorem
   asks of a line: every buffer an operation touches is a TensorCore reference, no operation leaves a result
   undetermined, and the buffers the line writes are those listed in `W0`. -/
import proofs.«171083_j730144440440_2_alg».proof.Proof.RefRunOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., nullary_bufs_sub .., unary_bufs_sub .., unary_bufs_sub .., nullary_bufs_sub .., unary_bufs_sub .., binary_bufs_sub ..⟩

set_option maxRecDepth 8192 in
theorem ops0_fresh : (ops0 : List (HloOp τ sig (Elt F))).Forall fun op => op.fresh = ∅ := by
  simp only [List.Forall]; repeat' constructor

set_option maxRecDepth 8192 in
theorem ops0_writes : (ops0 : List (HloOp τ sig (Elt F))).Forall fun op => op.writes ⊆ (W0.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunEq1.lean ====
/- The window `main_part1` of the reference program's @main is the straight line of the operations `ops1`:
   the called functions' definitions unfold at their calls and sequencing reassociates. Beside it, what the run theorem
   asks of a line: every buffer an operation touches is a TensorCore reference, no operation leaves a result
   undetermined, and the buffers the line writes are those listed in `W1`. -/
import proofs.«171083_j730144440440_2_alg».proof.Proof.RefRunOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., binary_bufs_sub .., unary_bufs_sub .., unary_bufs_sub .., binary_bufs_sub .., binary_bufs_sub .., unary_bufs_sub ..⟩

set_option maxRecDepth 8192 in
theorem ops1_fresh : (ops1 : List (HloOp τ sig (Elt F))).Forall fun op => op.fresh = ∅ := by
  simp only [List.Forall]; repeat' constructor

set_option maxRecDepth 8192 in
theorem ops1_writes : (ops1 : List (HloOp τ sig (Elt F))).Forall fun op => op.writes ⊆ (W1.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunEq2.lean ====
/- The window `main_part2` of the reference program's @main is the straight line of the operations `ops2`:
   the called functions' definitions unfold at their calls and sequencing reassociates. Beside it, what the run theorem
   asks of a line: every buffer an operation touches is a TensorCore reference, no operation leaves a result
   undetermined, and the buffers the line writes are those listed in `W2`. -/
import proofs.«171083_j730144440440_2_alg».proof.Proof.RefRunOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem ops2_fresh : (ops2 : List (HloOp τ sig (Elt F))).Forall fun op => op.fresh = ∅ := by
  simp only [List.Forall]; repeat' constructor

set_option maxRecDepth 8192 in
theorem ops2_writes : (ops2 : List (HloOp τ sig (Elt F))).Forall fun op => op.writes ⊆ (W2.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRun.lean ====
/- The reference program's run. Its @main is the straight line of the 170 operations `ops` (the three windows joined), so
   from any memory with zero counters every weakly fair execution terminates without a fault, and each TensorCore buffer
   ends at the fold of the operations' results over its launch contents (`StableHlo.after ops`). The fold is left
   folded here: nothing in this module opens an operation's function. A buffer that no operation writes keeps its
   launch contents — in particular the eleven argument arrays, which is the program's frame. -/
import proofs.«171083_j730144440440_2_alg».proof.Proof.RefRunEq0
import proofs.«171083_j730144440440_2_alg».proof.Proof.RefRunEq1
import proofs.«171083_j730144440440_2_alg».proof.Proof.RefRunEq2
import proofs.«171083_j730144440440_2_alg».proof.Proof.Gen.Pre_finite_inputs
import proofs.«171083_j730144440440_2_alg».proof.Defs
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main runs its three windows in turn, and a line of two lists in a row is the line of their concatenation. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer an operation of the line touches is a TensorCore reference: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- Every operation of the line determines its result: window by window. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-- On every device, for any float values, from any memory with zero counters: every weakly fair execution of @main
    terminates, and every TensorCore buffer ends at the fold of the 170 operations over the device's launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole line is the three windows' folds, one after the other. -/
theorem after_ops (V : Valuation τ sig (Elt F)) : after ops V = after ops2 (after ops1 (after ops0 V)) := by
  simp only [ops, after_append]

/-- A buffer none of the three windows writes keeps its contents through the whole line. -/
theorem kept (V : Valuation τ sig (Elt F)) (r : Ref sig .tc) (h0 : r ∉ W0) (h1 : r ∉ W1) (h2 : r ∉ W2) :
    after ops V (Proc.devRef .tc r) = V (Proc.devRef .tc r) := by
  rw [after_ops]
  exact (after_of_writes_sub ops2 _ ops2_writes h2).trans
    ((after_of_writes_sub ops1 _ ops1_writes h1).trans (after_of_writes_sub ops0 _ ops0_writes h0))

/-- Argument 0 is written by no operation: it ends at its launch contents. -/
theorem args_kept0 (m : (ℓ : Loc nD τ sig) → Buf (Elt F) ℓ) (c : Dev nD) :
    after ops (launchContents m c) (Proc.devRef .tc main_arg0) = m ((c.tc : Thread nD τ).loc main_arg0) :=
  kept _ main_arg0 (by decide) (by decide) (by decide)

/-- Argument 1 is written by no operation: it ends at its launch contents. -/
theorem args_kept1 (m : (ℓ : Loc nD τ sig) → Buf (Elt F) ℓ) (c : Dev nD) :
    after ops (launchContents m c) (Proc.devRef .tc main_arg1) = m ((c.tc : Thread nD τ).loc main_arg1) :=
  kept _ main_arg1 (by decide) (by decide) (by decide)

/-- Argument 2 is written by no operation: it ends at its launch contents. -/
theorem args_kept2 (m : (ℓ : Loc nD τ sig) → Buf (Elt F) ℓ) (c : Dev nD) :
    after ops (launchContents m c) (Proc.devRef .tc main_arg2) = m ((c.tc : Thread nD τ).loc main_arg2) :=
  kept _ main_arg2 (by decide) (by decide) (by decide)

/-- Argument 3 is written by no operation: it ends at its launch contents. -/
theorem args_kept3 (m : (ℓ : Loc nD τ sig) → Buf (Elt F) ℓ) (c : Dev nD) :
    after ops (launchContents m c) (Proc.devRef .tc main_arg3) = m ((c.tc : Thread nD τ).loc main_arg3) :=
  kept _ main_arg3 (by decide) (by decide) (by decide)

/-- Argument 4 is written by no operation: it ends at its launch contents. -/
theorem args_kept4 (m : (ℓ : Loc nD τ sig) → Buf (Elt F) ℓ) (c : Dev nD) :
    after ops (launchContents m c) (Proc.devRef .tc main_arg4) = m ((c.tc : Thread nD τ).loc main_arg4) :=
  kept _ main_arg4 (by decide) (by decide) (by decide)

/-- Argument 5 is written by no operation: it ends at its launch contents. -/
theorem args_kept5 (m : (ℓ : Loc nD τ sig) → Buf (Elt F) ℓ) (c : Dev nD) :
    after ops (launchContents m c) (Proc.devRef .tc main_arg5) = m ((c.tc : Thread nD τ).loc main_arg5) :=
  kept _ main_arg5 (by decide) (by decide) (by decide)

/-- Argument 6 is written by no operation: it ends at its launch contents. -/
theorem args_kept6 (m : (ℓ : Loc nD τ sig) → Buf (Elt F) ℓ) (c : Dev nD) :
    after ops (launchContents m c) (Proc.devRef .tc main_arg6) = m ((c.tc : Thread nD τ).loc main_arg6) :=
  kept _ main_arg6 (by decide) (by decide) (by decide)

/-- Argument 7 is written by no operation: it ends at its launch contents. -/
theorem args_kept7 (m : (ℓ : Loc nD τ sig) → Buf (Elt F) ℓ) (c : Dev nD) :
    after ops (launchContents m c) (Proc.devRef .tc main_arg7) = m ((c.tc : Thread nD τ).loc main_arg7) :=
  kept _ main_arg7 (by decide) (by decide) (by decide)

/-- Argument 8 is written by no operation: it ends at its launch contents. -/
theorem args_kept8 (m : (ℓ : Loc nD τ sig) → Buf (Elt F) ℓ) (c : Dev nD) :
    after ops (launchContents m c) (Proc.devRef .tc main_arg8) = m ((c.tc : Thread nD τ).loc main_arg8) :=
  kept _ main_arg8 (by decide) (by decide) (by decide)

/-- Argument 9 is written by no operation: it ends at its launch contents. -/
theorem args_kept9 (m : (ℓ : Loc nD τ sig) → Buf (Elt F) ℓ) (c : Dev nD) :
    after ops (launchContents m c) (Proc.devRef .tc main_arg9) = m ((c.tc : Thread nD τ).loc main_arg9) :=
  kept _ main_arg9 (by decide) (by decide) (by decide)

/-- Argument 10 is written by no operation: it ends at its launch contents. -/
theorem args_kept10 (m : (ℓ : Loc nD τ sig) → Buf (Elt F) ℓ) (c : Dev nD) :
    after ops (launchContents m c) (Proc.devRef .tc main_arg10) = m ((c.tc : Thread nD τ).loc main_arg10) :=
  kept _ main_arg10 (by decide) (by decide) (by decide)

/-- The eleven argument arrays end unchanged, together. -/
theorem args_kept (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7)
    ∧ after ops (launchContents m c) (Proc.devRef .tc main_arg8) = m ((c.tc : Thread nD τ).loc main_arg8)
    ∧ after ops (launchContents m c) (Proc.devRef .tc main_arg9) = m ((c.tc : Thread nD τ).loc main_arg9)
    ∧ after ops (launchContents m c) (Proc.devRef .tc main_arg10) = m ((c.tc : Thread nD τ).loc main_arg10) :=
  ⟨args_kept0 m c, args_kept1 m c, args_kept2 m c, args_kept3 m c, args_kept4 m c, args_kept5 m c, args_kept6 m c, args_kept7 m c, args_kept8 m c, args_kept9 m c, args_kept10 m c⟩

/-- The reference program's frame: under the precondition (not used: the line runs from any memory) every weakly fair
    execution terminates without a fault and the argument arrays end unchanged. -/
theorem frame_ri : Cert.frame_ReferenceIdeal (hReferenceIdeal := Cert.ReferenceIdeal.Gen.facts)
    (hPre_finite_inputs := Cert.Pre_finite_inputs.Gen.facts) :=
  fun m g _ => (θ_run defs _ _).mono
    (fun _ h c => ⟨(h c main_arg0).trans (args_kept0 m c),
      (h c main_arg1).trans (args_kept1 m c),
      (h c main_arg2).trans (args_kept2 m c),
      (h c main_arg3).trans (args_kept3 m c),
      (h c main_arg4).trans (args_kept4 m c),
      (h c main_arg5).trans (args_kept5 m c),
      (h c main_arg6).trans (args_kept6 m c),
      (h c main_arg7).trans (args_kept7 m c),
      (h c main_arg8).trans (args_kept8 m c),
      (h c main_arg9).trans (args_kept9 m c),
      (h c main_arg10).trans (args_kept10 m c)⟩)
    (run (F := Ideal) m g)

end Cert.ReferenceIdeal.RefRun

end
-- ==== Proof.FiniteInputs.lean ====
/-
  Under the precondition every float argument array holds real numbers: the precondition is the conjunction, over the
  ten float arguments, of "every entry's absolute value is below +inf", and an extended real whose absolute value is
  below +inf is a real.
-/
import proofs.«171083_j730144440440_2_alg».proof.Defs
import proofs.«171083_j730144440440_2_alg».proof.Proof.Gen.Pre_finite_inputs
import Idealize.ShloMosaic.Lib.ReduceAll
import Idealize.ShloMosaic.Lib.ValueIdx
import Idealize.ShloMosaic.Lib.Affine

noncomputable section

namespace Cert.Proof.Finite

open Idealize.ShloMosaic Idealize.ShloMosaic.TcCoe Idealize.SL.Sem

instance : Subsingleton Cert.Pre_finite_inputs.S_.Idx := ⟨fun a b => funext fun d => d.elim0⟩

/-- An extended real whose absolute value is below +inf is a real. -/
theorem real_of_abs_lt (x : EReal) (h : Ideal.cmp .olt (max x (-x)) (Ideal.ofBits .f32 0x7F800000#32) = 1#1) : ∃ r : ℝ, x = (r : EReal) := by
  induction x using EReal.rec with
  | bot => exfalso; revert h; simp [Ideal.cmp, Ideal.ofBits, Ideal.ieee]
  | coe r => exact ⟨r, rfl⟩
  | top => exfalso; revert h; simp [Ideal.cmp, Ideal.ofBits, Ideal.ieee]

/-- One conjunct of the precondition, read at an entry. -/
theorem real_of_all {s : Shape} {axes : List (Fin s.rank)} (x : s.Idx → EReal) (hb : (Cert.Pre_finite_inputs.S_).BroadcastsInDim s (![] : Fin 0 → Fin s.rank))
    (hr : s.ReducesTo axes Cert.Pre_finite_inputs.S_) (hu : 0 < Cert.Pre_finite_inputs.S_.numel)
    (e : Host.reduce IntOp.andi (cmpf (F := Ideal) (φ := .f32) .olt (Host.absf (F := Ideal) (φ := .f32) x)
        (broadcastInDim s ![] hb (constant (F := Ideal) Cert.Pre_finite_inputs.S_ .f32 0x7F800000#32)))
      (constantI Cert.Pre_finite_inputs.S_ 1 1#1) hr hu ValueIdx.ix0 = 1#1) (i : s.Idx) : ∃ r : ℝ, x i = (r : EReal) :=
  real_of_abs_lt (x i) (Host.reduce_andi_all _ _ hr hu ValueIdx.ix0 e i)

/-- Under the precondition every float argument of the kernel program is an array of reals. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i : Cert.KernelIdeal.S100000x20.Idx, ∃ r : ℝ, (m ((c.tc : Thread Cert.KernelIdeal.nD Cert.KernelIdeal.τ).loc Cert.KernelIdeal.main_arg0) : Cert.KernelIdeal.S100000x20.Idx → EReal) i = (r : EReal))
    ∧ (∀ i : Cert.KernelIdeal.S1200000.Idx, ∃ r : ℝ, (m ((c.tc : Thread Cert.KernelIdeal.nD Cert.KernelIdeal.τ).loc Cert.KernelIdeal.main_arg2) : Cert.KernelIdeal.S1200000.Idx → EReal) i = (r : EReal))
    ∧ (∀ i : Cert.KernelIdeal.S1x20x32.Idx, ∃ r : ℝ, (m ((c.tc : Thread Cert.KernelIdeal.nD Cert.KernelIdeal.τ).loc Cert.KernelIdeal.main_arg3) : Cert.KernelIdeal.S1x20x32.Idx → EReal) i = (r : EReal))
    ∧ (∀ i : Cert.KernelIdeal.S32.Idx, ∃ r : ℝ, (m ((c.tc : Thread Cert.KernelIdeal.nD Cert.KernelIdeal.τ).loc Cert.KernelIdeal.main_arg4) : Cert.KernelIdeal.S32.Idx → EReal) i = (r : EReal))
    ∧ (∀ i : Cert.KernelIdeal.S2x32x64.Idx, ∃ r : ℝ, (m ((c.tc : Thread Cert.KernelIdeal.nD Cert.KernelIdeal.τ).loc Cert.KernelIdeal.main_arg5) : Cert.KernelIdeal.S2x32x64.Idx → EReal) i = (r : EReal))
    ∧ (∀ i : Cert.KernelIdeal.S64.Idx, ∃ r : ℝ, (m ((c.tc : Thread Cert.KernelIdeal.nD Cert.KernelIdeal.τ).loc Cert.KernelIdeal.main_arg6) : Cert.KernelIdeal.S64.Idx → EReal) i = (r : EReal))
    ∧ (∀ i : Cert.KernelIdeal.S2x64x2.Idx, ∃ r : ℝ, (m ((c.tc : Thread Cert.KernelIdeal.nD Cert.KernelIdeal.τ).loc Cert.KernelIdeal.main_arg7) : Cert.KernelIdeal.S2x64x2.Idx → EReal) i = (r : EReal))
    ∧ (∀ i : Cert.KernelIdeal.S2.Idx, ∃ r : ℝ, (m ((c.tc : Thread Cert.KernelIdeal.nD Cert.KernelIdeal.τ).loc Cert.KernelIdeal.main_arg8) : Cert.KernelIdeal.S2.Idx → EReal) i = (r : EReal))
    ∧ (∀ i : Cert.KernelIdeal.S2x1.Idx, ∃ r : ℝ, (m ((c.tc : Thread Cert.KernelIdeal.nD Cert.KernelIdeal.τ).loc Cert.KernelIdeal.main_arg9) : Cert.KernelIdeal.S2x1.Idx → EReal) i = (r : EReal))
    ∧ (∀ i : Cert.KernelIdeal.S1.Idx, ∃ r : ℝ, (m ((c.tc : Thread Cert.KernelIdeal.nD Cert.KernelIdeal.τ).loc Cert.KernelIdeal.main_arg10) : Cert.KernelIdeal.S1.Idx → EReal) i = (r : EReal)) := by
  have h := congrFun (hpre c) ValueIdx.ix0
  dsimp only [Cert.Pre_finite_inputs.fn, Cert.Pre_finite_inputs.fn_part1, Cert.Pre_finite_inputs.fn_part2] at h
  have hand : ∀ (a b : IVec Cert.Pre_finite_inputs.S_ 1), andi a b ValueIdx.ix0 = IntOp.andi (a ValueIdx.ix0) (b ValueIdx.ix0) := fun _ _ => rfl
  simp only [hand, IntOp.andi_eq_one] at h
  obtain ⟨⟨⟨⟨⟨⟨⟨⟨⟨h0, h2⟩, h3⟩, h4⟩, h5⟩, h6⟩, h7⟩, h8⟩, h9⟩, h10⟩ := h
  exact ⟨real_of_all _ _ _ _ h0, real_of_all _ _ _ _ h2, real_of_all _ _ _ _ h3, real_of_all _ _ _ _ h4, real_of_all _ _ _ _ h5, real_of_all _ _ _ _ h6, real_of_all _ _ _ _ h7, real_of_all _ _ _ _ h8, real_of_all _ _ _ _ h9, real_of_all _ _ _ _ h10⟩

end Cert.Proof.Finite

end
-- ==== Proof.BridgeA0.lean ====
/- What the two programs are run from: launch memories that agree on the eleven argument arrays. -/
import proofs.«171083_j730144440440_2_alg».proof.Proof.KIFrame
import proofs.«171083_j730144440440_2_alg».proof.Proof.RefRun

set_option maxRecDepth 16384

noncomputable section

namespace Cert.Proof.BridgeA

open Idealize.ShloMosaic Idealize.ShloMosaic.TcCoe Idealize.SL.Sem Idealize.ShloMosaic.StableHlo
open Cert.KernelIdeal.Hand

/-- The reference's launch memory holds, in each of its eleven argument arrays, what the kernel program's holds. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

end Cert.Proof.BridgeA

end
-- ==== Proof.SpecLayer.lean ====
/- The first layer of the network as one function of its arrays, index by index, over literal shapes, and the scalar
   function it ends in. A dense layer: entry (r, q) of the output is the leaky rectifier of the inner product of row r of
   the features with column q of the weights, plus entry q of the bias row. Everything is over the extended reals; the
   two float literals (zero and the slope) stay the words they are printed as and are never evaluated. -/
import Idealize.ShloMosaic.PureOps.Ideal
import Idealize.ShloMosaic.Lib.ValueIdx

noncomputable section

open scoped BigOperators

namespace SpecLayer

open Idealize.ShloMosaic Idealize.ShloMosaic.ValueIdx

/-- The leaky rectifier on one extended real: z where 0 ≤ z, the slope times z elsewhere (the comparison against the
    zero word, the choice, the product by the slope word). -/
def leaky (z : EReal) : EReal :=
  Scalar.select (Ideal.cmp .oge z (Ideal.ofBits .f32 0x00000000#32)) z (Ideal.ofBits .f32 0x3C23D70A#32 * z)

/-- Entry (r, q) of a dense layer with leaky rectifier: over n rows, K features in, C features out. -/
def denseAt {n K C : Nat} (x : (⟨2, ![n, K]⟩ : Shape).Idx → EReal) (w : (⟨2, ![K, C]⟩ : Shape).Idx → EReal)
    (b : (⟨2, ![1, C]⟩ : Shape).Idx → EReal) (r : Fin n) (q : Fin C) : EReal :=
  leaky ((∑ k : Fin K, x (ix2 r k) * w (ix2 k q)) + b (ix2 (0 : Fin 1) q))

/-- The first layer's output array: 100000 nodes, 20 features in, 32 out. -/
def layer1 (x : (⟨2, ![100000, 20]⟩ : Shape).Idx → EReal) (w : (⟨2, ![20, 32]⟩ : Shape).Idx → EReal)
    (b : (⟨2, ![1, 32]⟩ : Shape).Idx → EReal) : (⟨2, ![100000, 32]⟩ : Shape).Idx → EReal :=
  fun i => denseAt x w b (i 0) (i 1)

/-- The array at an index given by its two coordinates. -/
theorem layer1_ix2 (x : (⟨2, ![100000, 20]⟩ : Shape).Idx → EReal) (w : (⟨2, ![20, 32]⟩ : Shape).Idx → EReal)
    (b : (⟨2, ![1, 32]⟩ : Shape).Idx → EReal) (r : Fin 100000) (q : Fin 32) :
    layer1 x w b (ix2 r q) = denseAt x w b r q := rfl

end SpecLayer

end
-- ==== Proof.RefValue1.lean ====
/- The reference's first layer, read at an index. Of the run's 170 operations only twelve matter for the buffer that holds
   the first layer's output: the reshape of the weights [1,20,32] → [20,32], the product of the features with them, the bias
   [32] placed as a row [1,32] and repeated down the 100000 rows, the sum, and the outlined leaky rectifier (zero and slope
   constants broadcast, comparison, product, choice). The operations before them leave the three arguments they read
   untouched and the operations after them never write the output buffer, so the buffer ends at those twelve operations'
   composed function of the arguments; at the extended reals that function, index by index, is the dense layer. -/
import proofs.«171083_j730144440440_2_alg».proof.Proof.RefRun
import proofs.«171083_j730144440440_2_alg».proof.Proof.SpecLayer
import Idealize.ShloMosaic.PureOps.Ideal.Laws
import Idealize.ShloMosaic.Lib.ValueIdx
import Idealize.ShloMosaic.Lib.ValueLayout
import Idealize.ShloMosaic.Lib.Pipeline.Value

set_option Elab.async false

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- Operations 48 … 59 of the first window: the first layer. -/
abbrev opsL1 : List (HloOp τ sig (Elt F)) :=
  [ reshape main_arg3 main_v35 rfl shapeCasts_S1x20x32_S20x32,
    binary main_arg0 main_v35 main_v36 ((fun l r => Host.dotGeneral dot_S100000x20_S20x32_S100000x32_1_0_0_1_n_n none l r) : (⟨S100000x20, .f32⟩ : BufTy).Contents (Elt F) → (⟨S20x32, .f32⟩ : BufTy).Contents (Elt F) → (⟨S100000x32, .f32⟩ : BufTy).Contents (Elt F)),
    unary main_arg4 main_v37 (broadcastInDim S1x32 ![1] bcast_S32_S1x32_1 : (⟨S32, .f32⟩ : BufTy).Contents (Elt F) → (⟨S1x32, .f32⟩ : BufTy).Contents (Elt F)),
    unary main_v37 main_v38 (broadcastInDim S100000x32 ![0, 1] bcast_S1x32_S100000x32_0_1 : (⟨S1x32, .f32⟩ : BufTy).Contents (Elt F) → (⟨S100000x32, .f32⟩ : BufTy).Contents (Elt F)),
    binary main_v36 main_v38 main_v39 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v39) (TRef.of (T := ⟨S100000x32, .f32⟩) main_call1_v0) (TRef.of (T := ⟨S100000x32, .i1⟩) main_call1_v1) (cmpf .oge),
    TRef.nullary (TRef.of (T := ⟨S_, .f32⟩) main_call1_cst_0) (constant S_ .f32 0x3C23D70A#32),
    TRef.unary (TRef.of (T := ⟨S_, .f32⟩) main_call1_cst_0) (TRef.of (T := ⟨S100000x32, .f32⟩) main_call1_v2) (broadcastInDim S100000x32 ![] bcast_S_S100000x32),
    TRef.binary (TRef.of (T := ⟨S100000x32, .f32⟩) main_call1_v2) (TRef.of (T := ⟨S100000x32, .f32⟩) main_v39) (TRef.of (T := ⟨S100000x32, .f32⟩) main_call1_v3) mulf,
    TRef.ternary (TRef.of (T := ⟨S100000x32, .i1⟩) main_call1_v1) (TRef.of (T := ⟨S100000x32, .f32⟩) main_v39) (TRef.of (T := ⟨S100000x32, .f32⟩) main_call1_v3) (TRef.of (T := ⟨S100000x32, .f32⟩) main_v40) select ]

/-- Operations 60 … 68 of the first window: what follows the first layer there. -/
abbrev opsL1post : List (HloOp τ sig (Elt F)) :=
  [ unary main_arg5 main_v41 ((extractStridedSlice S1x32x64 ![0, 0, 0] · slices_S2x32x64_S1x32x64_0_0_0) : (⟨S2x32x64, .f32⟩ : BufTy).Contents (Elt F) → (⟨S1x32x64, .f32⟩ : BufTy).Contents (Elt F)),
    reshape main_v41 main_v42 rfl shapeCasts_S1x32x64_S32x64,
    binary main_v40 main_v42 main_v43 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_cst_8 (constant S_ .f32 0x00000000#32),
    unary main_cst_8 main_v44 (broadcastInDim S100000x32 ![] bcast_S_S100000x32 : (⟨S_, .f32⟩ : BufTy).Contents (Elt F) → (⟨S100000x32, .f32⟩ : BufTy).Contents (Elt F)),
    unary main_v34 main_v45 (broadcastInDim S1200000x1 ![0] bcast_S1200000_S1200000x1_0 : (⟨S1200000, .f32⟩ : BufTy).Contents (Elt F) → (⟨S1200000x1, .f32⟩ : BufTy).Contents (Elt F)),
    nullary main_c_9 (constantI S_ 32 0#32),
    unary main_c_9 main_v46 (broadcastInDim S1200000 ![] bcast_S_S1200000 : (⟨S_, .i32⟩ : BufTy).Contents (Elt F) → (⟨S1200000, .i32⟩ : BufTy).Contents (Elt F)),
    binary main_v1 main_v46 main_v47 (cmpi .slt : (⟨S1200000, .i32⟩ : BufTy).Contents (Elt F) → (⟨S1200000, .i32⟩ : BufTy).Contents (Elt F) → (⟨S1200000, .i1⟩ : BufTy).Contents (Elt F)) ]

/-- The buffers those last nine operations write. -/
abbrev WL1post : List (Ref sig .tc) := [main_v41, main_v42, main_v43, main_cst_8, main_v44, main_v45, main_c_9, main_v46, main_v47]

set_option maxRecDepth 8192 in
/-- The first window is its first 47 operations, then the first layer's twelve, then the nine after. -/
theorem ops0_split : (ops0 : List (HloOp τ sig (Elt F))) = ops0.take 47 ++ (opsL1 ++ opsL1post) := rfl

set_option maxRecDepth 8192 in
theorem opsL1post_writes : (opsL1post : List (HloOp τ sig (Elt F))).Forall fun op => op.writes ⊆ (WL1post.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The first 47 operations write only buffers the window writes. -/
theorem ops0pre_writes : ((ops0 : List (HloOp τ sig (Elt F))).take 47).Forall fun op => op.writes ⊆ (W0.map (Proc.devRef (τ := τ) .tc)).toFinset :=
  List.forall_iff_forall_mem.mpr fun op h => List.forall_iff_forall_mem.mp ops0_writes op (List.mem_of_mem_take h)

/-- The leaky rectifier as the outlined function computes it on an array: the comparison against the broadcast zero, the
    product by the broadcast slope, the choice. -/
def lrelu1 (z : (⟨S100000x32, .f32⟩ : BufTy).Contents (Elt F)) : (⟨S100000x32, .f32⟩ : BufTy).Contents (Elt F) :=
  select (cmpf .oge z (broadcastInDim S100000x32 ![] bcast_S_S100000x32 (constant S_ .f32 0x00000000#32)))
    z (mulf (broadcastInDim S100000x32 ![] bcast_S_S100000x32 (constant S_ .f32 0x3C23D70A#32)) z)

/-- The value before the rectifier: features times reshaped weights, plus the bias row repeated down the rows. -/
def pre1 (a0 : (⟨S100000x20, .f32⟩ : BufTy).Contents (Elt F)) (w : (⟨S20x32, .f32⟩ : BufTy).Contents (Elt F))
    (b : (⟨S1x32, .f32⟩ : BufTy).Contents (Elt F)) : (⟨S100000x32, .f32⟩ : BufTy).Contents (Elt F) :=
  addf (Host.dotGeneral dot_S100000x20_S20x32_S100000x32_1_0_0_1_n_n none a0 w) (broadcastInDim S100000x32 ![0, 1] bcast_S1x32_S100000x32_0_1 b)

/-- The twelve operations' composed function of the three arguments they read. -/
def stage40 (a0 : (⟨S100000x20, .f32⟩ : BufTy).Contents (Elt F)) (a3 : (⟨S1x20x32, .f32⟩ : BufTy).Contents (Elt F))
    (a4 : (⟨S32, .f32⟩ : BufTy).Contents (Elt F)) : (⟨S100000x32, .f32⟩ : BufTy).Contents (Elt F) :=
  lrelu1 (pre1 a0 (shapeCast S20x32 a3 shapeCasts_S1x20x32_S20x32) (broadcastInDim S1x32 ![1] bcast_S32_S1x32_1 a4))

set_option maxRecDepth 8192 in
/-- The twelve operations, from any contents, leave the output buffer at that function of the three arguments' contents. -/
theorem opsL1_v40 (Wv : Valuation τ sig (Elt F)) :
    after opsL1 Wv (Proc.devRef .tc main_v40)
      = stage40 (Wv (Proc.devRef .tc main_arg0)) (Wv (Proc.devRef .tc main_arg3)) (Wv (Proc.devRef .tc main_arg4)) := by
  after_results <;> rfl

/-- THE OUTPUT BUFFER OF THE FIRST LAYER after the whole run, from any contents: the twelve operations' function of the
    three arguments' launch contents. -/
theorem v40_eq (V : Valuation τ sig (Elt F)) :
    after ops V (Proc.devRef .tc main_v40)
      = stage40 (V (Proc.devRef .tc main_arg0)) (V (Proc.devRef .tc main_arg3)) (V (Proc.devRef .tc main_arg4)) := by
  rw [after_ops, after_of_writes_sub ops2 _ ops2_writes (by decide : main_v40 ∉ W2),
    after_of_writes_sub ops1 _ ops1_writes (by decide : main_v40 ∉ W1), ops0_split, after_append, after_append,
    after_of_writes_sub opsL1post _ opsL1post_writes (by decide : main_v40 ∉ WL1post)]
  have h0 := after_of_writes_sub ((ops0 : List (HloOp τ sig (Elt F))).take 47) V ops0pre_writes (by decide : main_arg0 ∉ W0)
  have h3 := after_of_writes_sub ((ops0 : List (HloOp τ sig (Elt F))).take 47) V ops0pre_writes (by decide : main_arg3 ∉ W0)
  have h4 := after_of_writes_sub ((ops0 : List (HloOp τ sig (Elt F))).take 47) V ops0pre_writes (by decide : main_arg4 ∉ W0)
  generalize after ((ops0 : List (HloOp τ sig (Elt F))).take 47) V = Wv at h0 h3 h4 ⊢
  rw [opsL1_v40 Wv, h0, h3, h4]

/-! ## At the extended reals, index by index -/

/-- A scalar constant broadcast to the array reads its word everywhere. -/
theorem bcast_const_apply (w : BitVec 32) (i : S100000x32.Idx) :
    (broadcastInDim S100000x32 ![] bcast_S_S100000x32 (constant (F := Ideal) S_ .f32 w) : S100000x32.Idx → EReal) i = Ideal.ofBits .f32 w := by
  rw [broadcastInDim_apply _ bcast_S_S100000x32 _ i ix0 (fun a => a.elim0)]
  rfl

/-- The array rectifier at an index is the scalar one. -/
theorem lrelu1_apply (z : S100000x32.Idx → EReal) (i : S100000x32.Idx) :
    (lrelu1 (F := Ideal) z : S100000x32.Idx → EReal) i = SpecLayer.leaky (z i) := by
  unfold lrelu1 SpecLayer.leaky
  show Scalar.select (Ideal.cmp .oge (z i) ((broadcastInDim S100000x32 ![] bcast_S_S100000x32 (constant (F := Ideal) S_ .f32 0x00000000#32) : S100000x32.Idx → EReal) i)) (z i)
      ((broadcastInDim S100000x32 ![] bcast_S_S100000x32 (constant (F := Ideal) S_ .f32 0x3C23D70A#32) : S100000x32.Idx → EReal) i * z i) = _
  rw [bcast_const_apply, bcast_const_apply]

/-- The left operand's index at output index i and contraction index k: row from i, column from k. -/
theorem lhs1_0 (i : S100000x32.Idx) (k : dot_S100000x20_S20x32_S100000x32_1_0_0_1_n_n.contr.Idx) : (dot_S100000x20_S20x32_S100000x32_1_0_0_1_n_n.lhsIdx i k 0).val = (i 0).val := by
  unfold DotDims.lhsIdx
  rw [dif_neg (show ¬(0 : Fin S100000x20.rank) ∈ dot_S100000x20_S20x32_S100000x32_1_0_0_1_n_n.lhsBatch by decide),
    dif_pos (show (0 : Fin S100000x20.rank) ∈ dot_S100000x20_S20x32_S100000x32_1_0_0_1_n_n.lhsNonContracting by decide)]
  rfl
theorem lhs1_1 (i : S100000x32.Idx) (k : dot_S100000x20_S20x32_S100000x32_1_0_0_1_n_n.contr.Idx) : (dot_S100000x20_S20x32_S100000x32_1_0_0_1_n_n.lhsIdx i k 1).val = (k ⟨0, by decide⟩).val :=
  dot_S100000x20_S20x32_S100000x32_1_0_0_1_n_n.lhsIdx_val_of_single rfl i k
/-- The right operand's: row from k, column from i. -/
theorem rhs1_0 (i : S100000x32.Idx) (k : dot_S100000x20_S20x32_S100000x32_1_0_0_1_n_n.contr.Idx) : (dot_S100000x20_S20x32_S100000x32_1_0_0_1_n_n.rhsIdx i k 0).val = (k ⟨0, by decide⟩).val :=
  dot_S100000x20_S20x32_S100000x32_1_0_0_1_n_n.rhsIdx_val_of_single rfl i k
theorem rhs1_1 (i : S100000x32.Idx) (k : dot_S100000x20_S20x32_S100000x32_1_0_0_1_n_n.contr.Idx) : (dot_S100000x20_S20x32_S100000x32_1_0_0_1_n_n.rhsIdx i k 1).val = (i 1).val := by
  unfold DotDims.rhsIdx
  rw [dif_neg (show ¬(1 : Fin S20x32.rank) ∈ dot_S100000x20_S20x32_S100000x32_1_0_0_1_n_n.rhsBatch by decide),
    dif_pos (show (1 : Fin S20x32.rank) ∈ dot_S100000x20_S20x32_S100000x32_1_0_0_1_n_n.rhsNonContracting by decide)]
  rfl

/-- The host's product at (r, q): the inner product of row r and column q over the 20 features. -/
theorem dot1_apply (a : FVec Ideal S100000x20 .f32) (w : FVec Ideal S20x32 .f32) (r : Fin 100000) (q : Fin 32) :
    (Host.dotGeneral (F := Ideal) dot_S100000x20_S20x32_S100000x32_1_0_0_1_n_n none a w : S100000x32.Idx → EReal) (ix2 r q) = ∑ k : Fin 20, a (ix2 r k) * w (ix2 k q) := by
  simp only [Host.dotGeneral]
  rw [Ideal.dotGeneral_apply, ← Equiv.sum_comp (contrEquiv1 dot_S100000x20_S20x32_S100000x32_1_0_0_1_n_n 20 rfl rfl).symm]
  refine Finset.sum_congr rfl fun k _ => ?_
  have hk := contrEquiv1_symm_val dot_S100000x20_S20x32_S100000x32_1_0_0_1_n_n 20 rfl rfl k
  have el : dot_S100000x20_S20x32_S100000x32_1_0_0_1_n_n.lhsIdx (ix2 r q) ((contrEquiv1 dot_S100000x20_S20x32_S100000x32_1_0_0_1_n_n 20 rfl rfl).symm k) = ix2 r k :=
    funext fun ax => Fin.ext (by
      match ax with
      | ⟨0, _⟩ => exact lhs1_0 _ _
      | ⟨1, _⟩ => exact (lhs1_1 _ _).trans hk)
  have er : dot_S100000x20_S20x32_S100000x32_1_0_0_1_n_n.rhsIdx (ix2 r q) ((contrEquiv1 dot_S100000x20_S20x32_S100000x32_1_0_0_1_n_n 20 rfl rfl).symm k) = ix2 k q :=
    funext fun ax => Fin.ext (by
      match ax with
      | ⟨0, _⟩ => exact (rhs1_0 _ _).trans hk
      | ⟨1, _⟩ => exact rhs1_1 _ _)
  rw [el, er]

/-- A row [1,32] repeated down the 100000 rows reads, at (r, q), the row at q. -/
theorem rows_apply (b : S1x32.Idx → EReal) (r : Fin 100000) (q : Fin 32) :
    (broadcastInDim S100000x32 ![0, 1] bcast_S1x32_S100000x32_0_1 b : S100000x32.Idx → EReal) (ix2 r q) = b (ix2 (0 : Fin 1) q) :=
  broadcastInDim_apply _ bcast_S1x32_S100000x32_0_1 b (ix2 r q) (ix2 (0 : Fin 1) q) (fun ax => match ax with
    | ⟨0, _⟩ => rfl
    | ⟨1, _⟩ => rfl)

/-- The value before the rectifier at (r, q). -/
theorem pre1_apply (a0 : S100000x20.Idx → EReal) (w : S20x32.Idx → EReal) (b : S1x32.Idx → EReal) (r : Fin 100000) (q : Fin 32) :
    (pre1 (F := Ideal) a0 w b : S100000x32.Idx → EReal) (ix2 r q) = (∑ k : Fin 20, a0 (ix2 r k) * w (ix2 k q)) + b (ix2 (0 : Fin 1) q) := by
  unfold pre1
  rw [addf_apply, dot1_apply, rows_apply]

/-- The twelve operations' function at the extended reals IS the dense layer of the features, the reshaped weights and
    the bias placed as a row. -/
theorem stage40_eq_layer1 (a0 : S100000x20.Idx → EReal) (a3 : S1x20x32.Idx → EReal) (a4 : S32.Idx → EReal) :
    (stage40 (F := Ideal) a0 a3 a4 : S100000x32.Idx → EReal)
      = SpecLayer.layer1 a0 (shapeCast S20x32 a3 shapeCasts_S1x20x32_S20x32) (broadcastInDim S1x32 ![1] bcast_S32_S1x32_1 a4) := by
  funext i
  obtain ⟨r, q, rfl⟩ : ∃ (r : Fin 100000) (q : Fin 32), i = ix2 r q := ⟨i 0, i 1, eq_ix2 i⟩
  unfold stage40
  rw [lrelu1_apply, pre1_apply, SpecLayer.layer1_ix2]
  rfl

/-- THE REFERENCE'S FIRST LAYER after the run is the dense layer of the launch contents of its three arguments. -/
theorem ref_layer1 (m : (ℓ : Loc nD τ sig) → Buf (Elt Ideal) ℓ) (c : Dev nD) :
    after ops (launchContents m c) (Proc.devRef .tc main_v40)
      = SpecLayer.layer1 (m ((c.tc : Thread nD τ).loc main_arg0))
          (shapeCast S20x32 (m ((c.tc : Thread nD τ).loc main_arg3)) shapeCasts_S1x20x32_S20x32)
          (broadcastInDim S1x32 ![1] bcast_S32_S1x32_1 (m ((c.tc : Thread nD τ).loc main_arg4))) :=
  (v40_eq (F := Ideal) (launchContents m c)).trans (stage40_eq_layer1 _ _ _)

end Cert.ReferenceIdeal.RefRun

end
-- ==== Proof.RefPre.lean ====
/- The reference's first window up to the first layer. Its first 47 operations compute the two index vectors of the
   edges, the degrees, the normalised edge weights; a buffer they write that nothing later writes ends the whole run at
   what those 47 operations leave in it. -/
import proofs.«171083_j730144440440_2_alg».proof.Proof.RefValue1

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 47 of the first window: the edges' index vectors and weights. -/
abbrev opsPre : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1200000 ![] bcast_S_S1200000 : (⟨S_, .i32⟩ : BufTy).Contents (Elt F) → (⟨S1200000, .i32⟩ : BufTy).Contents (Elt F)),
    binary main_v1 main_v5 main_v6 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v7 (broadcastInDim S1200000 ![] bcast_S_S1200000 : (⟨S_, .i32⟩ : BufTy).Contents (Elt F) → (⟨S1200000, .i32⟩ : BufTy).Contents (Elt F)),
    binary main_v1 main_v7 main_v8 (addi : (⟨S1200000, .i32⟩ : BufTy).Contents (Elt F) → (⟨S1200000, .i32⟩ : BufTy).Contents (Elt F) → (⟨S1200000, .i32⟩ : BufTy).Contents (Elt F)),
    ternary main_v6 main_v8 main_v1 main_v9 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v9 main_v10 (broadcastInDim S1200000x1 ![0] bcast_S1200000_S1200000x1_0 : (⟨S1200000, .i32⟩ : BufTy).Contents (Elt F) → (⟨S1200000x1, .i32⟩ : BufTy).Contents (Elt F)),
    ternary main_v4 main_v10 main_arg2 main_v11 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c_4 (constantI S_ 32 0#32),
    unary main_c_4 main_v18 (broadcastInDim S1200000 ![] bcast_S_S1200000 : (⟨S_, .i32⟩ : BufTy).Contents (Elt F) → (⟨S1200000, .i32⟩ : BufTy).Contents (Elt F)),
    binary main_v1 main_v18 main_v19 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v20 (broadcastInDim S1200000 ![] bcast_S_S1200000 : (⟨S_, .i32⟩ : BufTy).Contents (Elt F) → (⟨S1200000, .i32⟩ : BufTy).Contents (Elt F)),
    binary main_v1 main_v20 main_v21 (addi : (⟨S1200000, .i32⟩ : BufTy).Contents (Elt F) → (⟨S1200000, .i32⟩ : BufTy).Contents (Elt F) → (⟨S1200000, .i32⟩ : BufTy).Contents (Elt F)),
    ternary main_v19 main_v21 main_v1 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v22 main_v23 (broadcastInDim S1200000x1 ![0] bcast_S1200000_S1200000x1_0 : (⟨S1200000, .i32⟩ : BufTy).Contents (Elt F) → (⟨S1200000x1, .i32⟩ : BufTy).Contents (Elt F)),
    binary main_v17 main_v23 main_v24 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v24 main_arg2 main_v25 (mulf : (⟨S1200000, .f32⟩ : BufTy).Contents (Elt F) → (⟨S1200000, .f32⟩ : BufTy).Contents (Elt F) → (⟨S1200000, .f32⟩ : BufTy).Contents (Elt F)),
    nullary main_c_6 (constantI S_ 32 0#32),
    unary main_c_6 main_v26 (broadcastInDim S1200000 ![] bcast_S_S1200000 : (⟨S_, .i32⟩ : BufTy).Contents (Elt F) → (⟨S1200000, .i32⟩ : BufTy).Contents (Elt F)),
    binary main_v3 main_v26 main_v27 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v28 (broadcastInDim S1200000 ![] bcast_S_S1200000 : (⟨S_, .i32⟩ : BufTy).Contents (Elt F) → (⟨S1200000, .i32⟩ : BufTy).Contents (Elt F)),
    binary main_v3 main_v28 main_v29 (addi : (⟨S1200000, .i32⟩ : BufTy).Contents (Elt F) → (⟨S1200000, .i32⟩ : BufTy).Contents (Elt F) → (⟨S1200000, .i32⟩ : BufTy).Contents (Elt F)),
    ternary main_v27 main_v29 main_v3 main_v30 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v30 main_v31 (broadcastInDim S1200000x1 ![0] bcast_S1200000_S1200000x1_0 : (⟨S1200000, .i32⟩ : BufTy).Contents (Elt F) → (⟨S1200000x1, .i32⟩ : BufTy).Contents (Elt F)),
    binary main_v17 main_v31 main_v32 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v25 main_v32 main_v33 (mulf : (⟨S1200000, .f32⟩ : BufTy).Contents (Elt F) → (⟨S1200000, .f32⟩ : BufTy).Contents (Elt F) → (⟨S1200000, .f32⟩ : BufTy).Contents (Elt F)),
    unary main_v33 main_v34 (Host.negf : (⟨S1200000, .f32⟩ : BufTy).Contents (Elt F) → (⟨S1200000, .f32⟩ : BufTy).Contents (Elt F)) ]

/-- The buffers the first layer's twelve operations write. -/
abbrev WL1 : List (Ref sig .tc) := [main_v35, main_v36, main_v37, main_v38, main_v39, main_call1_cst, main_call1_v0, main_call1_v1, main_call1_cst_0, main_call1_v2, main_call1_v3, main_v40]

set_option maxRecDepth 8192 in
theorem ops0_take47 : (ops0 : List (HloOp τ sig (Elt F))).take 47 = opsPre := rfl

set_option maxRecDepth 8192 in
theorem opsL1_writes : (opsL1 : List (HloOp τ sig (Elt F))).Forall fun op => op.writes ⊆ (WL1.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer written by none of the operations after the 47th ends the run at what the first 47 leave in it. -/
theorem after_ops_pre (V : Valuation τ sig (Elt F)) (r : Ref sig .tc) (h1 : r ∉ W1) (h2 : r ∉ W2) (hL : r ∉ WL1) (hP : r ∉ WL1post) :
    after ops V (Proc.devRef .tc r) = after opsPre V (Proc.devRef .tc r) := by
  rw [after_ops, after_of_writes_sub ops2 _ ops2_writes h2, after_of_writes_sub ops1 _ ops1_writes h1, ops0_split,
    after_append, after_append, after_of_writes_sub opsL1post _ opsL1post_writes hP,
    after_of_writes_sub opsL1 _ opsL1_writes hL, ops0_take47]

end Cert.ReferenceIdeal.RefRun

end
-- ==== Proof.BridgeA1.lean ====
/- The edges' data agree between the two programs. Each program slices the edge list into its source and destination rows
   and reshapes them to vectors, wraps negative indices, scatter-adds the edge attributes at the sources into the degrees,
   takes the inverse square root where a degree is positive and zero elsewhere, gathers it at both ends of each edge and
   multiplies: the same operations in the same order on arguments that agree, so the same arrays. -/
import proofs.«171083_j730144440440_2_alg».proof.Proof.BridgeA0
import proofs.«171083_j730144440440_2_alg».proof.Proof.RefPre

set_option maxRecDepth 16384

noncomputable section

namespace Cert.Proof.BridgeA

open Idealize.ShloMosaic Idealize.ShloMosaic.TcCoe Idealize.SL.Sem Idealize.ShloMosaic.StableHlo
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From contents that agree on the edge list and the edge attributes, the reference's first 47 operations and the kernel
    program's three first host stretches leave the same edge weights. -/
theorem edge_weights_of (V' : Valuation Cert.ReferenceIdeal.τ Cert.ReferenceIdeal.sig (Elt Ideal)) (V : Valuation Cert.KernelIdeal.τ Cert.KernelIdeal.sig (Elt Ideal))
    (e1 : V' (Proc.devRef .tc Cert.ReferenceIdeal.main_arg1) = V (Proc.devRef .tc Cert.KernelIdeal.main_arg1))
    (e2 : V' (Proc.devRef .tc Cert.ReferenceIdeal.main_arg2) = V (Proc.devRef .tc Cert.KernelIdeal.main_arg2)) :
    after Cert.ReferenceIdeal.RefRun.opsPre V' (Proc.devRef .tc Cert.ReferenceIdeal.main_v34)
      = after Cert.KernelIdeal.Gen.hostOps0_2 (after Cert.KernelIdeal.Gen.hostOps0_1 (after Cert.KernelIdeal.Gen.hostOps0 V)) (Proc.devRef .tc Cert.KernelIdeal.main_v34) := by
  after_results_simp
  rw [e1, e2]
  rfl

/-- The same for the edges' source index vector -/
theorem src_of (V' : Valuation Cert.ReferenceIdeal.τ Cert.ReferenceIdeal.sig (Elt Ideal)) (V : Valuation Cert.KernelIdeal.τ Cert.KernelIdeal.sig (Elt Ideal))
    (e1 : V' (Proc.devRef .tc Cert.ReferenceIdeal.main_arg1) = V (Proc.devRef .tc Cert.KernelIdeal.main_arg1)) :
    after Cert.ReferenceIdeal.RefRun.opsPre V' (Proc.devRef .tc Cert.ReferenceIdeal.main_v1)
      = after Cert.KernelIdeal.Gen.hostOps0_2 (after Cert.KernelIdeal.Gen.hostOps0_1 (after Cert.KernelIdeal.Gen.hostOps0 V)) (Proc.devRef .tc Cert.KernelIdeal.main_v1) := by
  after_results_simp
  rw [e1]
  rfl

/-- and for their destination index vector. -/
theorem dst_of (V' : Valuation Cert.ReferenceIdeal.τ Cert.ReferenceIdeal.sig (Elt Ideal)) (V : Valuation Cert.KernelIdeal.τ Cert.KernelIdeal.sig (Elt Ideal))
    (e1 : V' (Proc.devRef .tc Cert.ReferenceIdeal.main_arg1) = V (Proc.devRef .tc Cert.KernelIdeal.main_arg1)) :
    after Cert.ReferenceIdeal.RefRun.opsPre V' (Proc.devRef .tc Cert.ReferenceIdeal.main_v3)
      = after Cert.KernelIdeal.Gen.hostOps0_2 (after Cert.KernelIdeal.Gen.hostOps0_1 (after Cert.KernelIdeal.Gen.hostOps0 V)) (Proc.devRef .tc Cert.KernelIdeal.main_v3) := by
  after_results_simp
  rw [e1]
  rfl

/-- S1a. THE EDGE WEIGHTS AGREE: the reference's after its run, the kernel program's as its first region finds them. -/
theorem edge_weights (hagree : Agree m m') (c : Dev Cert.KernelIdeal.nD) :
    after Cert.ReferenceIdeal.RefRun.ops (launchContents m' c) (Proc.devRef .tc Cert.ReferenceIdeal.main_v34) = W3 m c (Proc.devRef .tc Cert.KernelIdeal.main_v34) := by
  rw [Cert.ReferenceIdeal.RefRun.after_ops_pre _ Cert.ReferenceIdeal.main_v34 (by decide) (by decide) (by decide) (by decide)]
  unfold W3 W2 W1
  exact edge_weights_of _ _ (hagree c).2.1 (hagree c).2.2.1

/-- S1a. THE SOURCE INDEX VECTORS AGREE. -/
theorem src_index (hagree : Agree m m') (c : Dev Cert.KernelIdeal.nD) :
    after Cert.ReferenceIdeal.RefRun.ops (launchContents m' c) (Proc.devRef .tc Cert.ReferenceIdeal.main_v1) = W3 m c (Proc.devRef .tc Cert.KernelIdeal.main_v1) := by
  rw [Cert.ReferenceIdeal.RefRun.after_ops_pre _ Cert.ReferenceIdeal.main_v1 (by decide) (by decide) (by decide) (by decide)]
  unfold W3 W2 W1
  exact src_of _ _ (hagree c).2.1

/-- S1a. THE DESTINATION INDEX VECTORS AGREE. -/
theorem dst_index (hagree : Agree m m') (c : Dev Cert.KernelIdeal.nD) :
    after Cert.ReferenceIdeal.RefRun.ops (launchContents m' c) (Proc.devRef .tc Cert.ReferenceIdeal.main_v3) = W3 m c (Proc.devRef .tc Cert.KernelIdeal.main_v3) := by
  rw [Cert.ReferenceIdeal.RefRun.after_ops_pre _ Cert.ReferenceIdeal.main_v3 (by decide) (by decide) (by decide) (by decide)]
  unfold W3 W2 W1
  exact dst_of _ _ (hagree c).2.1

end Cert.Proof.BridgeA

end
-- ==== Proof.KIValue0Pay.lean ====
/- The first layer's body at an index. At the extended reals a change of float format is the identity and a product
   into a zero accumulator is the plain inner product, so the value the body stores at row p, column q of its block is
   the leaky rectifier of (row p of the loaded features) · (column q of the loaded weights) plus entry q of the loaded
   bias row: the dense layer's entry, over the block. -/
import proofs.«171083_j730144440440_2_alg».proof.Proof.Gen.KernelIdeal.Skeleton
import proofs.«171083_j730144440440_2_alg».proof.Proof.SpecLayer
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-- The body's value before the rectifier: the product into the zero accumulator plus the broadcast bias row. -/
def pre0 (x0 : Vec Ideal S10000x20 .f32) (x1 : Vec Ideal S20x32 .f32) (x2 : Vec Ideal S1x32 .f32) : FVec Ideal S10000x32 .f32 :=
  addf (matmul dot_S10000x20_S20x32_S10000x32_1_0_0_1_n_n none (truncf .bf16 x0 bitsLt_bf16_f32)
      (truncf .bf16 (shapeCast S20x32 x1 shapeCasts_S20x32_S20x32) bitsLt_bf16_f32) (constant S10000x32 .f32 0x00000000#32))
    (broadcastTo S10000x32 (shapeCast S1x32 (shapeCast S1x32 x2 shapeCasts_S1x32_S1x32) shapeCasts_S1x32_S1x32) broadcasts_S1x32_S10000x32)

/-- The stored value is the rectifier of that, entry by entry: comparison, product by the slope and choice are pointwise,
    and the last change of format is the identity. -/
theorem pay0_eq_leaky (x0 : Vec Ideal S10000x20 .f32) (x1 : Vec Ideal S20x32 .f32) (x2 : Vec Ideal S1x32 .f32) (j : S10000x32.Idx) :
    (k0_pay1 (F := Ideal) x0 x1 x2 : S10000x32.Idx → EReal) j = SpecLayer.leaky (pre0 x0 x1 x2 j) := rfl

/-- The left operand's index at output index i and contraction index k: row from i, column from k. -/
theorem lhs0_0 (i : S10000x32.Idx) (k : dot_S10000x20_S20x32_S10000x32_1_0_0_1_n_n.contr.Idx) :
    (dot_S10000x20_S20x32_S10000x32_1_0_0_1_n_n.lhsIdx i k 0).val = (i 0).val := by
  unfold DotDims.lhsIdx
  rw [dif_neg (show ¬(0 : Fin S10000x20.rank) ∈ dot_S10000x20_S20x32_S10000x32_1_0_0_1_n_n.lhsBatch by decide),
    dif_pos (show (0 : Fin S10000x20.rank) ∈ dot_S10000x20_S20x32_S10000x32_1_0_0_1_n_n.lhsNonContracting by decide)]
  rfl
theorem lhs0_1 (i : S10000x32.Idx) (k : dot_S10000x20_S20x32_S10000x32_1_0_0_1_n_n.contr.Idx) :
    (dot_S10000x20_S20x32_S10000x32_1_0_0_1_n_n.lhsIdx i k 1).val = (k ⟨0, by decide⟩).val :=
  dot_S10000x20_S20x32_S10000x32_1_0_0_1_n_n.lhsIdx_val_of_single rfl i k
/-- The right operand's: row from k, column from i. -/
theorem rhs0_0 (i : S10000x32.Idx) (k : dot_S10000x20_S20x32_S10000x32_1_0_0_1_n_n.contr.Idx) :
    (dot_S10000x20_S20x32_S10000x32_1_0_0_1_n_n.rhsIdx i k 0).val = (k ⟨0, by decide⟩).val :=
  dot_S10000x20_S20x32_S10000x32_1_0_0_1_n_n.rhsIdx_val_of_single rfl i k
theorem rhs0_1 (i : S10000x32.Idx) (k : dot_S10000x20_S20x32_S10000x32_1_0_0_1_n_n.contr.Idx) :
    (dot_S10000x20_S20x32_S10000x32_1_0_0_1_n_n.rhsIdx i k 1).val = (i 1).val := by
  unfold DotDims.rhsIdx
  rw [dif_neg (show ¬(1 : Fin S20x32.rank) ∈ dot_S10000x20_S20x32_S10000x32_1_0_0_1_n_n.rhsBatch by decide),
    dif_pos (show (1 : Fin S20x32.rank) ∈ dot_S10000x20_S20x32_S10000x32_1_0_0_1_n_n.rhsNonContracting by decide)]
  rfl

/-- The product into the zero accumulator, at (p, q): the inner product of row p and column q over the 20 features. -/
theorem mm0_apply (a : FVec Ideal S10000x20 .bf16) (b : FVec Ideal S20x32 .bf16) (p : Fin 10000) (q : Fin 32) :
    matmul dot_S10000x20_S20x32_S10000x32_1_0_0_1_n_n none a b (constant S10000x32 .f32 0x00000000#32) (ix2 p q)
      = ∑ k : Fin 20, a (ix2 p k) * b (ix2 k q) := by
  simp only [matmul]
  rw [Ideal.matmul_constant_zero_apply,
    ← Equiv.sum_comp (contrEquiv1 dot_S10000x20_S20x32_S10000x32_1_0_0_1_n_n 20 rfl rfl).symm]
  refine Finset.sum_congr rfl fun k _ => ?_
  have hk := contrEquiv1_symm_val dot_S10000x20_S20x32_S10000x32_1_0_0_1_n_n 20 rfl rfl k
  have el : dot_S10000x20_S20x32_S10000x32_1_0_0_1_n_n.lhsIdx (ix2 p q) ((contrEquiv1 dot_S10000x20_S20x32_S10000x32_1_0_0_1_n_n 20 rfl rfl).symm k) = ix2 p k :=
    funext fun ax => Fin.ext (by
      match ax with
      | ⟨0, _⟩ => exact lhs0_0 _ _
      | ⟨1, _⟩ => exact (lhs0_1 _ _).trans hk)
  have er : dot_S10000x20_S20x32_S10000x32_1_0_0_1_n_n.rhsIdx (ix2 p q) ((contrEquiv1 dot_S10000x20_S20x32_S10000x32_1_0_0_1_n_n 20 rfl rfl).symm k) = ix2 k q :=
    funext fun ax => Fin.ext (by
      match ax with
      | ⟨0, _⟩ => exact (rhs0_0 _ _).trans hk
      | ⟨1, _⟩ => exact rhs0_1 _ _)
  rw [el, er]

/-- The value before the rectifier at (p, q). -/
theorem pre0_apply (x0 : Vec Ideal S10000x20 .f32) (x1 : Vec Ideal S20x32 .f32) (x2 : Vec Ideal S1x32 .f32) (p : Fin 10000) (q : Fin 32) :
    pre0 x0 x1 x2 (ix2 p q) = (∑ k : Fin 20, (x0 : S10000x20.Idx → EReal) (ix2 p k) * (x1 : S20x32.Idx → EReal) (ix2 k q)) + (x2 : S1x32.Idx → EReal) (ix2 (0 : Fin 1) q) := by
  unfold pre0
  rw [addf_apply, mm0_apply, shapeCast_self, shapeCast_self, shapeCast_self, broadcastTo_1b_ab_apply]
  rfl

/-- THE BODY'S STORED VALUE AT (p, q) is the dense layer's entry over the loaded blocks. -/
theorem pay0_apply (x0 : Vec Ideal S10000x20 .f32) (x1 : Vec Ideal S20x32 .f32) (x2 : Vec Ideal S1x32 .f32) (p : Fin 10000) (q : Fin 32) :
    (k0_pay1 (F := Ideal) x0 x1 x2 : S10000x32.Idx → EReal) (ix2 p q) = SpecLayer.denseAt (n := 10000) (K := 20) (C := 32) x0 x1 x2 p q := by
  rw [pay0_eq_leaky, pre0_apply]
  rfl

end Cert.KernelIdeal.Hand

end
-- ==== Proof.KIValue0.lean ====
/- The first layer's region, read as one array. At grid point t the body finds rows [10000 t, 10000 t + 10000) of the
   node features, the whole weight matrix and the whole bias row, and stores over those blocks the dense layer's entries;
   the point's block of the output is rows [10000 t, 10000 t + 10000) too, so what it writes back is that block of the
   layer's output array. Row r of the output is covered by point r / 10000, every point writes back: the array ends
   holding the layer's output of the three arrays as the region finds them. -/
import proofs.«171083_j730144440440_2_alg».proof.Proof.KIRegion0
import proofs.«171083_j730144440440_2_alg».proof.Proof.KIValue0Pay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the features' and the output's blocks move down with the point, the weights'
    and the bias row's stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer over blocks is the dense layer over the arrays, T blocks of 10000 rows down: an entry of the stored
    block, given which rows of the feature array the loaded block is and that the other two blocks are their arrays. -/
theorem block_value (X : S100000x20.Idx → EReal) (W : S20x32.Idx → EReal) (B : S1x32.Idx → EReal)
    (x0 : Vec Ideal S10000x20 .f32) (x1 : Vec Ideal S20x32 .f32) (x2 : Vec Ideal S1x32 .f32)
    (j : S10000x32.Idx) (i : S100000x32.Idx) (T : Nat)
    (hi0 : (i 0).val = T * 10000 + (j 0).val) (hi1 : (i 1).val = (j 1).val)
    (h0 : ∀ (y : S10000x20.Idx) (z : S100000x20.Idx), (z 0).val = T * 10000 + (y 0).val → (z 1).val = (y 1).val → x0 y = X z)
    (h1 : x1 = W) (h2 : x2 = B) :
    (k0_pay1 (F := Ideal) x0 x1 x2 : S10000x32.Idx → EReal) j = SpecLayer.layer1 X W B i := by
  obtain ⟨p, q, rfl⟩ : ∃ (p : Fin 10000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hq : q' = q := Fin.ext hi1
  subst hq
  rw [pay0_apply, SpecLayer.layer1_ix2]
  subst h1; subst h2
  unfold SpecLayer.denseAt
  refine congrArg SpecLayer.leaky (congrArg (· + _) (Finset.sum_congr rfl fun k _ => ?_))
  exact congrArg (· * _) (h0 (ix2 p k) (ix2 r k) hi0 rfl)

/-- WHAT POINT t WRITES BACK is block t of the layer's output array of the arrays as the region finds them. -/
theorem flushed0_eq (c : Dev nD) (t : Fin cfg0.N) :
    (dat0 (F := Ideal) V c).flushed 3 t
      = ((cfg0.win 3).blk t).view.read (Elt Ideal) (SpecLayer.layer1 (V c main_arg0) (V c main_v35) (V c main_v36)) := by
  show (cfg0.win 3).cut (grid0.coords t) ((dat0 V c).after 3 t) = _
  rw [after0_3]
  unfold out0_3
  rw [View.canon_unit_zero hz0]
  simp only [View.ld_unit_zero (S := S10000x20) hz0, View.ld_unit_zero (S := S20x32) hz0, View.ld_unit_zero (S := S1x32) hz0]
  obtain ⟨e00, e01, e10, e11, e20, e21, e30, e31⟩ := idx_facts0 t
  funext j
  show (k0_pay1 (F := Ideal) (iblk0 V c 0 t) (iblk0 V c 1 t) (iblk0 V c 2 t) : S10000x32.Idx → EReal) j
    = SpecLayer.layer1 (V c main_arg0) (V c main_v35) (V c main_v36) (((cfg0.win 3).blk t).view.emb j)
  refine block_value (V c main_arg0) (V c main_v35) (V c main_v36) (iblk0 V c 0 t) (iblk0 V c 1 t) (iblk0 V c 2 t)
    j (((cfg0.win 3).blk t).view.emb j) t.val ?_ ?_ ?_ ?_ ?_
  · show win0_3.index t (0 : Fin 2) * 10000 + 1 * (j 0).val = t.val * 10000 + (j 0).val
    rw [e30]; omega
  · show win0_3.index t (1 : Fin 2) * 32 + 1 * (j 1).val = (j 1).val
    rw [e31]; omega
  · intro y z hz0' hz1'
    unfold iblk0
    rw [View.read_apply]
    show V c main_arg0 (((cfg0.win 0).blk t).view.emb y) = V c main_arg0 z
    refine congrArg (V c main_arg0) (funext fun a => Fin.ext ?_)
    match a with
    | ⟨0, _⟩ => show win0_0.index t (0 : Fin 2) * 10000 + 1 * (y 0).val = (z 0).val; rw [e00, hz0']; omega
    | ⟨1, _⟩ => show win0_0.index t (1 : Fin 2) * 20 + 1 * (y 1).val = (z 1).val; rw [e01, hz1']; omega
  · funext y
    unfold iblk0
    rw [View.read_apply]
    show V c main_v35 (((cfg0.win 1).blk t).view.emb y) = V c main_v35 y
    refine congrArg (V c main_v35) (funext fun a => Fin.ext ?_)
    match a with
    | ⟨0, _⟩ => show win0_1.index t (0 : Fin 2) * 20 + 1 * (y 0).val = (y 0).val; rw [e10]; omega
    | ⟨1, _⟩ => show win0_1.index t (1 : Fin 2) * 32 + 1 * (y 1).val = (y 1).val; rw [e11]; omega
  · funext y
    unfold iblk0
    rw [View.read_apply]
    show V c main_v36 (((cfg0.win 2).blk t).view.emb y) = V c main_v36 y
    refine congrArg (V c main_v36) (funext fun a => Fin.ext ?_)
    match a with
    | ⟨0, _⟩ => show win0_2.index t (0 : Fin 2) * 1 + 1 * (y 0).val = (y 0).val; rw [e20]; omega
    | ⟨1, _⟩ => show win0_2.index t (1 : Fin 2) * 32 + 1 * (y 1).val = (y 1).val; rw [e21]; omega

/-- An index of the output array is in point t's block iff each coordinate is in the block's range on its axis. -/
theorem mem_blk0 (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v37).slice (win0_3.rect t)).set ↔ _
  rw [View.set_slice_whole, Rect.mem_set_unit]
  exact Iff.rfl

/-- Every index of the output array is in the block of a point that writes back: row r in point r / 10000's. -/
theorem cover0 (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  have ht : t.val = (i 0).val / 10000 := rfl
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; rw [e30, ht]; omega
  | ⟨1, _⟩ => show win0_3.index t (1 : Fin 2) * 32 ≤ (i 1).val ∧ (i 1).val < win0_3.index t (1 : Fin 2) * 32 + 32; rw [e31]; omega

/-- THE OUTPUT ARRAY after the region is the first layer's output of the three arrays as the region finds them. -/
theorem region0_value (c : Dev nD) :
    (dat0 (F := Ideal) V c).arrAt 3 cfg0.N = SpecLayer.layer1 (V c main_arg0) (V c main_v35) (V c main_v36) :=
  (dat0 V c).arrAt_eq_of_cover 3 (SpecLayer.layer1 (V c main_arg0) (V c main_v35) (V c main_v36))
    (fun t _ => flushed0_eq V c t) cover0

end Cert.KernelIdeal.Hand

end
-- ==== Proof.LibColumnForms.lean ====
/-
  Column and row forms of small layout operations, read at an index, for any extents.

  * a [a,1] column broadcast along the second axis to [a,b] reads the column's entry of the same row;
  * a vector [a] reshaped to a column [a,1], and the same vector placed as a column by a broadcast in
    dimension 0, are one array: entry (p, 0) is the vector's entry p;
  * a vector [a] reshaped to a row [1,a], and the same vector placed as a row by a broadcast in dimension 1,
    are one array: entry (0, p) is the vector's entry p.
  The two "are one array" statements are what joins a program that reshapes a vector before handing it to a
  kernel with a program that broadcasts it on the host.
-/
import Idealize.ShloMosaic.Lib.ValueIdx
import Idealize.ShloMosaic.Lib.ValueLayout
import Idealize.ShloMosaic.Lib.Pipeline.Value

namespace ColumnForms

open Idealize.ShloMosaic Idealize.ShloMosaic.ValueIdx

variable {α : Type}

/-- A [a,1] column broadcast to [a,b] reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] reshaped to a column [a,1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector [a] broadcast in dimension 0 to a column [a,1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x (ix2 p u) (ix1 p) (fun ax => match ax with
    | ⟨0, _⟩ => by
      show p.val = if a = 1 then 0 else p.val
      split
      · have := p.isLt; omega
      · rfl)

/-- The reshape of a vector to a column is its broadcast in dimension 0 to that column. -/
theorem shapeCast_a_a1_eq_broadcastInDim {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨p, u, rfl⟩ : ∃ (p : Fin a) (u : Fin 1), j = ix2 p u := ⟨j 0, j 1, eq_ix2 j⟩
  rw [shapeCast_a_a1_apply, broadcastInDim_a_a1_apply]

/-- A vector [a] broadcast in dimension 1 to a row [1,a] reads, at (u, p), the vector at p. -/
theorem broadcastInDim_a_1a_apply {a : ℕ} (x : (⟨1, ![a]⟩ : Shape).Idx → α)
    (h : (⟨1, ![a]⟩ : Shape).BroadcastsInDim ⟨2, ![1, a]⟩ ![1]) (u : Fin 1) (p : Fin a) :
    broadcastInDim ⟨2, ![1, a]⟩ ![1] h x (ix2 u p) = x (ix1 p) :=
  broadcastInDim_apply _ h x (ix2 u p) (ix1 p) (fun ax => match ax with
    | ⟨0, _⟩ => by
      show p.val = if a = 1 then 0 else p.val
      split
      · have := p.isLt; omega
      · rfl)

/-- The reshape of a vector to a row is its broadcast in dimension 1 to that row. -/
theorem shapeCast_a_1a_eq_broadcastInDim {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, p, rfl⟩ : ∃ (u : Fin 1) (p : Fin a), j = ix2 u p := ⟨j 0, j 1, eq_ix2 j⟩
  rw [shapeCast_a_1a_apply, broadcastInDim_a_1a_apply]

end ColumnForms
-- ==== Proof.BridgeA2.lean ====
/- The first layer's outputs agree between the two programs. The kernel program's first region leaves in its output array
   the dense layer of the three arrays it finds: the node features as launched, and the two host reshapes of the weights
   [1,20,32] → [20,32] and of the bias [32] → [1,32]. The reference's first layer is the dense layer of its features, the
   same reshape of its weights, and its bias placed as a row by a broadcast — which is the reshape. The arguments agree. -/
import proofs.«171083_j730144440440_2_alg».proof.Proof.BridgeA0
import proofs.«171083_j730144440440_2_alg».proof.Proof.KIValue0
import proofs.«171083_j730144440440_2_alg».proof.Proof.RefValue1
import proofs.«171083_j730144440440_2_alg».proof.Proof.LibColumnForms

set_option maxRecDepth 16384

noncomputable section

namespace Cert.Proof.BridgeA

open Idealize.ShloMosaic Idealize.ShloMosaic.TcCoe Idealize.SL.Sem Idealize.ShloMosaic.StableHlo
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The third host stretch leaves in the weights' buffer the reshape of the weights argument, -/
theorem hostOps0_2_v35 (V : Valuation Cert.KernelIdeal.τ Cert.KernelIdeal.sig (Elt Ideal)) :
    after Cert.KernelIdeal.Gen.hostOps0_2 V (Proc.devRef .tc Cert.KernelIdeal.main_v35)
      = shapeCast Cert.KernelIdeal.S20x32 (V (Proc.devRef .tc Cert.KernelIdeal.main_arg3)) Cert.KernelIdeal.Gen.shapeCasts_S1x20x32_S20x32 := by
  after_results_simp <;> rfl

/-- and in the bias row's buffer the reshape of the bias argument. -/
theorem hostOps0_2_v36 (V : Valuation Cert.KernelIdeal.τ Cert.KernelIdeal.sig (Elt Ideal)) :
    after Cert.KernelIdeal.Gen.hostOps0_2 V (Proc.devRef .tc Cert.KernelIdeal.main_v36)
      = shapeCast Cert.KernelIdeal.S1x32 (V (Proc.devRef .tc Cert.KernelIdeal.main_arg4)) Cert.KernelIdeal.Gen.shapeCasts_S32_S1x32 := by
  after_results_simp <;> rfl

/-- The first region finds the features as launched, -/
theorem V3_arg0 (c : Dev Cert.KernelIdeal.nD) : V3 m c Cert.KernelIdeal.main_arg0 = m ((c.tc : Thread Cert.KernelIdeal.nD Cert.KernelIdeal.τ).loc Cert.KernelIdeal.main_arg0) :=
  (W3_of m c Cert.KernelIdeal.main_arg0 (by decide)).trans ((W2_of m c Cert.KernelIdeal.main_arg0 (by decide)).trans (W1_of m c Cert.KernelIdeal.main_arg0 (by decide)))

/-- the weights reshaped, -/
theorem V3_v35 (c : Dev Cert.KernelIdeal.nD) : V3 m c Cert.KernelIdeal.main_v35
    = shapeCast Cert.KernelIdeal.S20x32 (m ((c.tc : Thread Cert.KernelIdeal.nD Cert.KernelIdeal.τ).loc Cert.KernelIdeal.main_arg3)) Cert.KernelIdeal.Gen.shapeCasts_S1x20x32_S20x32 := by
  show W3 m c (Proc.devRef .tc Cert.KernelIdeal.main_v35) = _
  unfold W3
  rw [hostOps0_2_v35, W2_of m c Cert.KernelIdeal.main_arg3 (by decide), W1_of m c Cert.KernelIdeal.main_arg3 (by decide)]

/-- the bias reshaped to a row. -/
theorem V3_v36 (c : Dev Cert.KernelIdeal.nD) : V3 m c Cert.KernelIdeal.main_v36
    = shapeCast Cert.KernelIdeal.S1x32 (m ((c.tc : Thread Cert.KernelIdeal.nD Cert.KernelIdeal.τ).loc Cert.KernelIdeal.main_arg4)) Cert.KernelIdeal.Gen.shapeCasts_S32_S1x32 := by
  show W3 m c (Proc.devRef .tc Cert.KernelIdeal.main_v36) = _
  unfold W3
  rw [hostOps0_2_v36, W2_of m c Cert.KernelIdeal.main_arg4 (by decide), W1_of m c Cert.KernelIdeal.main_arg4 (by decide)]

/-- What the first region leaves in its output array: the dense layer of the launched features, the reshaped weights, the
    bias placed as a row. -/
theorem W4_v37 (c : Dev Cert.KernelIdeal.nD) :
    W4 m c (Proc.devRef .tc Cert.KernelIdeal.main_v37)
      = SpecLayer.layer1 (m ((c.tc : Thread Cert.KernelIdeal.nD Cert.KernelIdeal.τ).loc Cert.KernelIdeal.main_arg0))
          (shapeCast Cert.KernelIdeal.S20x32 (m ((c.tc : Thread Cert.KernelIdeal.nD Cert.KernelIdeal.τ).loc Cert.KernelIdeal.main_arg3)) Cert.KernelIdeal.Gen.shapeCasts_S1x20x32_S20x32)
          (broadcastInDim Cert.KernelIdeal.S1x32 ![1] Cert.ReferenceIdeal.Gen.bcast_S32_S1x32_1 (m ((c.tc : Thread Cert.KernelIdeal.nD Cert.KernelIdeal.τ).loc Cert.KernelIdeal.main_arg4))) := by
  have h4 : W4 m c (Proc.devRef .tc Cert.KernelIdeal.main_v37) = (dat0 (V3 m) c).arrAt 3 Cert.KernelIdeal.cfg0.N := W4_arr m c 3
  rw [h4, region0_value (V3 m) c, V3_arg0, V3_v35, V3_v36,
    ColumnForms.shapeCast_a_1a_eq_broadcastInDim _ Cert.KernelIdeal.Gen.shapeCasts_S32_S1x32 Cert.ReferenceIdeal.Gen.bcast_S32_S1x32_1]

/-- S2. THE FIRST LAYER'S OUTPUTS AGREE: the reference's after its run, the kernel program's after its first region. -/
theorem layer1_agree (hagree : Agree m m') (c : Dev Cert.KernelIdeal.nD) :
    after Cert.ReferenceIdeal.RefRun.ops (launchContents m' c) (Proc.devRef .tc Cert.ReferenceIdeal.main_v40) = W4 m c (Proc.devRef .tc Cert.KernelIdeal.main_v37) := by
  rw [Cert.ReferenceIdeal.RefRun.ref_layer1 m' c, W4_v37 m c, (hagree c).1, (hagree c).2.2.2.1, (hagree c).2.2.2.2.1]

end Cert.Proof.BridgeA

end
-- ==== Proof.LibRowOps.lean ====
/-
  WHOLE ROWS OF A MATRIX, GATHERED AND SCATTER-ADDED, READ AT AN INDEX.

  A table `x : [N, C]` and a column of row numbers `idx : [E, 1]`.

  * The gather of whole rows (offset axis 1, collapsed axis 0, start index map [0], slice sizes [1, C], index vector on
    axis 1) has the element `(e, c)` equal to `x` at row `idx[e, 0]` — read as a signed integer and clamped into
    `[0, N − 1]` — and column `c`.
  * The accumulating scatter of whole rows (update window axis 1, inserted window axis 0, scatter-dims-to-operand-dims
    [0], index vector on axis 1) has the element `(n, c)` equal to `x (n, c)` plus the sum, over the updates' rows
    `e` whose row number `idx[e, 0]`, read signed, is exactly `n`, of `upd (e, c)`. A row number outside `[0, N)`
    equals no `n`, so such an update is dropped.

  Everything is stated for arbitrary extents `N`, `E`, `C`; the dimension numbers' side conditions are taken as a
  hypothesis, to be decided at literal extents by whoever applies the lemmas.
-/
import Idealize.ShloMosaic.PureOps.Ideal
import Idealize.ShloMosaic.Lib.ValueIdx

noncomputable section

open scoped BigOperators

namespace RowOps

open Idealize.ShloMosaic Idealize.ShloMosaic.ValueIdx

/-- An axis of a rank-2 shape is axis 0 or axis 1. -/
theorem fin2_cases (a : Fin 2) : a = 0 ∨ a = 1 := by
  rcases a with ⟨v, hv⟩
  interval_cases v
  · exact Or.inl rfl
  · exact Or.inr rfl

/-! ## The gather of whole rows -/

/-- The dimension numbers of a gather of whole rows: operand `[N, C]`, start indices `[E, 1]`, result `[E, C]`;
    the result's axis 1 is the one offset axis, the operand's axis 0 is collapsed and is the axis the start index
    names, a slice is one whole row (`[1, C]`), and the index vector lies along the start indices' axis 1. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` — read as a signed integer and clamped into
    `[0, N − 1]` — and column `c`. On axis 0 the operand coordinate is the clamped start (no batching, the axis is
    collapsed so no offset); on axis 1 the start is 0 (the start index map does not name it) and the offset is the
    result's coordinate on its one offset axis. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherDims N E C wf) x idx (ix2 e c)
      = x (ix2 (⟨min (idx (ix2 e 0)).toInt.toNat (N - 1), by omega⟩ : Fin N) c) := by
  unfold Host.gather
  congr 1
  funext a
  refine Fin.ext ?_
  show (gatherDims N E C wf).start (ix2 e c) idx a + (gatherDims N E C wf).batchCoord (ix2 e c) a
    + (gatherDims N E C wf).offCoord (ix2 e c) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e c) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have hs : (gatherDims N E C wf).start (ix2 e c) idx (1 : Fin 2) = 0 := by
      unfold GatherDims.start
      exact dif_neg (show (1 : Fin 2) ∉ [(0 : Fin 2)] by decide)
    have ho : (gatherDims N E C wf).offCoord (ix2 e c) (1 : Fin 2) = c.val := by
      unfold GatherDims.offCoord
      rw [dif_pos ((GatherDims.mem_sKept _ _).mpr ⟨show (1 : Fin 2) ∉ [(0 : Fin 2)] by decide, List.not_mem_nil⟩)]
      rfl
    rw [hs, ho]
    simp

/-! ## The accumulating scatter of whole rows -/

/-- The dimension numbers of a scatter of whole rows: operand `[N, C]`, scatter indices `[E, 1]`, updates
    `[E, C]`; the updates' axis 1 is the one window axis, the operand's axis 0 is the inserted one and the axis a
    scatter index names, and the index vector lies along the scatter indices' axis 1. -/
abbrev scatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the operand's axis 0 the window of update `(e, c')` starts at the row number `idx[e, 0]`, read signed. -/
theorem scatter_start0 :
    (scatterDims N E C wf).start (ix2 e c') idx (0 : Fin 2) = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e c')
      ⟨List.idxOf (0 : Fin 2) (scatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which no scatter index names, the window starts at 0. -/
theorem scatter_start1 : (scatterDims N E C wf).start (ix2 e c') idx (1 : Fin 2) = 0 := by
  unfold ScatterDims.start
  exact dif_neg (show (1 : Fin 2) ∉ [(0 : Fin 2)] by decide)

/-- On the operand's axis 0, the inserted one, the window coordinate of update `(e, c')` is 0. -/
theorem scatter_window0 : (scatterDims N E C wf).window (ix2 e c') (0 : Fin 2) = 0 := by
  unfold ScatterDims.window
  exact dif_neg (show (0 : Fin 2) ∉ (List.finRange 2).filter (· ∉ [(0 : Fin 2)]) by decide)

/-- On the operand's axis 1 the window coordinate of update `(e, c')` is its column `c'`. -/
theorem scatter_window1 : (scatterDims N E C wf).window (ix2 e c') (1 : Fin 2) = c'.val := by
  unfold ScatterDims.window
  have hm : (1 : Fin 2) ∈ (scatterDims N E C wf).sKept :=
    show (1 : Fin 2) ∈ (List.finRange 2).filter (· ∉ [(0 : Fin 2)]) by decide
  rw [dif_pos hm]
  rfl

/-- WHERE AN UPDATE LANDS: update `(e, c')` lands on operand element `(n, c)` exactly when its row number
    `idx[e, 0]`, read signed, is `n` and its column `c'` is `c`. (The landing index is start plus window coordinate
    on each axis, `(idx[e, 0] + 0, 0 + c')`, kept only when it lies inside the operand.) -/
theorem resultIdx?_rows_iff (n : Fin N) (c : Fin C) :
    (scatterDims N E C wf).resultIdx? (ix2 e c') idx = some (ix2 n c)
      ↔ (idx (ix2 e 0)).toInt = (n.val : Int) ∧ c' = c := by
  unfold ScatterDims.resultIdx?
  constructor
  · intro h
    split at h
    · rename_i hb
      have hf := Option.some.inj h
      have h0 := congrArg Fin.val (congrFun hf (0 : Fin 2))
      have h1 := congrArg Fin.val (congrFun hf (1 : Fin 2))
      have hb0 := hb (0 : Fin 2)
      have hb1 := hb (1 : Fin 2)
      simp only [scatter_start0, scatter_window0, scatter_start1, scatter_window1] at h0 h1 hb0 hb1
      have e0 : ((ix2 n c (0 : Fin 2)) : Nat) = n.val := rfl
      have e1 : ((ix2 n c (1 : Fin 2)) : Nat) = c.val := rfl
      rw [e0] at h0
      rw [e1] at h1
      refine ⟨?_, Fin.ext ?_⟩
      · omega
      · omega
    · exact absurd h (by simp)
  · rintro ⟨h0, rfl⟩
    have hb : ∀ a, 0 ≤ (scatterDims N E C wf).start (ix2 e c') idx a + (scatterDims N E C wf).window (ix2 e c') a
        ∧ (scatterDims N E C wf).start (ix2 e c') idx a + (scatterDims N E C wf).window (ix2 e c') a
          < (⟨2, ![N, C]⟩ : Shape).size a := by
      intro a
      rcases fin2_cases a with rfl | rfl
      · rw [scatter_start0, scatter_window0, h0]
        have := n.isLt
        refine ⟨by omega, ?_⟩
        show (n.val : Int) + ((0 : Nat) : Int) < ((N : Nat) : Int)
        omega
      · rw [scatter_start1, scatter_window1]
        have := c'.isLt
        refine ⟨by omega, ?_⟩
        show (0 : Int) + ((c'.val : Nat) : Int) < ((C : Nat) : Int)
        omega
    rw [dif_pos hb]
    congr 1
    funext a
    refine Fin.ext ?_
    rcases fin2_cases a with rfl | rfl
    · show ((scatterDims N E C wf).start (ix2 e c') idx (0 : Fin 2)
          + (scatterDims N E C wf).window (ix2 e c') (0 : Fin 2)).toNat = n.val
      rw [scatter_start0, scatter_window0, h0]
      omega
    · show ((scatterDims N E C wf).start (ix2 e c') idx (1 : Fin 2)
          + (scatterDims N E C wf).window (ix2 e c') (1 : Fin 2)).toNat = c'.val
      rw [scatter_start1, scatter_window1]
      omega

end ScatterRows

/-- THE ROW SCATTER-ADD READ AT `(n, c)`: the operand's element plus the sum, over the updates' rows `e` whose row
    number `idx[e, 0]` (read signed) is `n`, of the update's element `(e, c)`. The sum over the updates that land on
    `(n, c)` is a sum over all updates `(e, c')` of an `if`; by `resultIdx?_rows_iff` the condition is
    "`idx[e, 0] = n` and `c' = c`", and the inner sum over `c'` keeps the one term `c' = c`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  by_cases he : (idx (ix2 e 0)).toInt = (n.val : Int)
  · rw [if_pos he]
    have : ∀ c' : Fin C, (if (scatterDims N E C wf).resultIdx? (ix2 e c') idx = some (ix2 n c) then upd (ix2 e c') else 0)
        = if c' = c then upd (ix2 e c') else 0 := fun c' =>
      if_congr ((resultIdx?_rows_iff wf idx e c' n c).trans ⟨fun h => h.2, fun h => ⟨he, h⟩⟩) rfl rfl
    rw [Finset.sum_congr rfl fun c' _ => this c', Finset.sum_ite_eq' Finset.univ c, if_pos (Finset.mem_univ c)]
  · rw [if_neg he]
    refine Finset.sum_eq_zero fun c' _ => if_neg fun h => he ?_
    exact ((resultIdx?_rows_iff wf idx e c' n c).mp h).1

end RowOps

end
-- ==== Proof.LibPropagateRows.lean ====
/-
  MESSAGE PASSING ON WHOLE ROWS, READ AT AN INDEX, OVER THE EXTENDED REALS.

  A table x : [N, C], a column of source row numbers si : [E, 1], a column of destination row numbers di : [E, 1] and a
  column of per-edge weights lwc : [E, 1]. Message passing gathers the rows of x at si, multiplies row e by the weight
  of edge e (the weight column broadcast along the row; the two factors in either order), and scatter-adds the weighted
  rows into an array of zeros at di. Read at (n, c) the result is

      ∑ over the edges e whose destination row number, read signed, is n, of  weight e * x (source row of e, c),

  where the source row of e is si[e, 0] read signed and clamped into [0, N - 1] (what the row gather reads), and an
  edge whose destination row number is no row of the table contributes nothing (what the row scatter drops). The
  leading zero of the scatter's operand is absorbed: 0 + s = s.

  Also here: the [E, 1] column broadcast to [E, C]; the scalar zero broadcast to an array; and the column of row
  numbers made from a vector of row numbers by wrapping the negative ones (v < 0 ? v + K : v) and placing the vector
  as a column.

  Everything is for arbitrary extents N, E, C; the dimension numbers' and broadcasts' side conditions are hypotheses,
  to be decided at literal extents by whoever applies the lemmas.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171083_j730144440440_2_alg».proof.Proof.LibRowOps
import proofs.«171083_j730144440440_2_alg».proof.Proof.LibColumnForms

noncomputable section

open scoped BigOperators

namespace PropagateRows

open Idealize.ShloMosaic Idealize.ShloMosaic.ValueIdx

variable {N E C w : Nat}

/-! ## The pieces -/

/-- A row number read as a signed integer and clamped into [0, N - 1]. -/
def clampRow (hN : 0 < N) (v : BitVec w) : Fin N :=
  ⟨min v.toInt.toNat (N - 1), by omega⟩

/-- The source row of edge e: the row number si[e, 0], read as a signed integer and clamped into [0, N - 1]. -/
def srcRow (hN : 0 < N) (si : IVec ⟨2, ![E, 1]⟩ w) (e : Fin E) : Fin N :=
  clampRow hN (si (ix2 e 0))

/-- A [E, 1] column broadcast in dimensions [0, 1] to [E, C] reads, at (e, c), the column at (e, 0). -/
theorem broadcastInDim_a1_ab_apply {α : Type} (hb : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] hb v (ix2 e c) = v (ix2 e (0 : Fin 1)) :=
  broadcastInDim_apply _ hb v (ix2 e c) (ix2 e (0 : Fin 1)) (fun ax => match ax with
    | ⟨0, _⟩ => by
      show e.val = if E = 1 then 0 else e.val
      split
      · have := e.isLt; omega
      · rfl
    | ⟨1, _⟩ => rfl)

/-- The scalar zero (the bit pattern of +0.0) broadcast to an array is the extended real 0 at every index. -/
theorem zeros_apply {s : Shape} (hz : (⟨0, ![]⟩ : Shape).BroadcastsInDim s ![]) (j : s.Idx) :
    broadcastInDim s ![] hz (constant (F := Ideal) ⟨0, ![]⟩ .f32 0x00000000#32) j = 0 :=
  Ideal.ofBits_zero_f32

/-- The gathered rows times the broadcast weight column, read at (e, c): x (source row of e, c) * weight e. -/
theorem gather_mul_weight_apply {φ : FTy} (hN : 0 < N)
    (gwf : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (x : FVec Ideal ⟨2, ![N, C]⟩ φ) (si : IVec ⟨2, ![E, 1]⟩ w) (lwc : FVec Ideal ⟨2, ![E, 1]⟩ φ) (e : Fin E) (c : Fin C) :
    mulf (Host.gather (RowOps.gatherDims N E C gwf) x si) (broadcastInDim ⟨2, ![E, C]⟩ ![0, 1] hb lwc) (ix2 e c)
      = x (ix2 (srcRow hN si e) c) * lwc (ix2 e 0) := by
  show Host.gather (RowOps.gatherDims N E C gwf) x si (ix2 e c) * broadcastInDim ⟨2, ![E, C]⟩ ![0, 1] hb lwc (ix2 e c) = _
  rw [RowOps.gather_rows_apply hN, broadcastInDim_a1_ab_apply]
  rfl

/-- The broadcast weight column times the gathered rows, read at (e, c): weight e * x (source row of e, c). -/
theorem weight_mul_gather_apply {φ : FTy} (hN : 0 < N)
    (gwf : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (x : FVec Ideal ⟨2, ![N, C]⟩ φ) (si : IVec ⟨2, ![E, 1]⟩ w) (lwc : FVec Ideal ⟨2, ![E, 1]⟩ φ) (e : Fin E) (c : Fin C) :
    mulf (broadcastInDim ⟨2, ![E, C]⟩ ![0, 1] hb lwc) (Host.gather (RowOps.gatherDims N E C gwf) x si) (ix2 e c)
      = lwc (ix2 e 0) * x (ix2 (srcRow hN si e) c) := by
  show broadcastInDim ⟨2, ![E, C]⟩ ![0, 1] hb lwc (ix2 e c) * Host.gather (RowOps.gatherDims N E C gwf) x si (ix2 e c) = _
  rw [RowOps.gather_rows_apply hN, broadcastInDim_a1_ab_apply]
  rfl

/-! ## The composite: gather, weight, scatter-add into zeros -/

section Composite

variable (hN : 0 < N)
  (gwf : GatherDims.WF ⟨2, ![N, C]⟩ ⟨2, ![E, 1]⟩ ⟨2, ![E, C]⟩ [1] [0] [] [0] [] 1 ![1, C])
  (swf : ScatterDims.WF ⟨2, ![N, C]⟩ ⟨2, ![E, 1]⟩ ⟨2, ![E, C]⟩ [1] [0] [0] 1)
  (hb : (⟨2, ![E, 1]⟩ : Shape).BroadcastsInDim ⟨2, ![E, C]⟩ ![0, 1])
  (hz : (⟨0, ![]⟩ : Shape).BroadcastsInDim ⟨2, ![N, C]⟩ ![])
  (x : FVec Ideal ⟨2, ![N, C]⟩ .f32) (si di : IVec ⟨2, ![E, 1]⟩ w) (lwc : FVec Ideal ⟨2, ![E, 1]⟩ .f32)
  (n : Fin N) (c : Fin C)

/-- MESSAGE PASSING, THE GATHERED ROW FIRST: scatter-adding (gathered rows * broadcast weights) into zeros reads, at
    (n, c), the sum over the edges e whose destination row number (read signed) is n of
    x (source row of e, c) * weight e. -/
theorem propagate_rows_apply_xw :
    Host.scatterAdd (RowOps.scatterDims N E C swf)
        (broadcastInDim ⟨2, ![N, C]⟩ ![] hz (constant (F := Ideal) ⟨0, ![]⟩ .f32 0x00000000#32)) di
        (mulf (Host.gather (RowOps.gatherDims N E C gwf) x si) (broadcastInDim ⟨2, ![E, C]⟩ ![0, 1] hb lwc)) (ix2 n c)
      = ∑ e : Fin E, if (di (ix2 e 0)).toInt = (n.val : Int) then x (ix2 (srcRow hN si e) c) * lwc (ix2 e 0) else 0 := by
  show Ideal.hostScatterAdd (RowOps.scatterDims N E C swf) _ di _ (ix2 n c) = _
  rw [RowOps.scatterAdd_rows_apply, zeros_apply, zero_add]
  exact Finset.sum_congr rfl fun e _ => by rw [gather_mul_weight_apply hN]

/-- MESSAGE PASSING, THE WEIGHT FIRST: scatter-adding (broadcast weights * gathered rows) into zeros reads, at
    (n, c), the sum over the edges e whose destination row number (read signed) is n of
    weight e * x (source row of e, c). -/
theorem propagate_rows_apply_wx :
    Host.scatterAdd (RowOps.scatterDims N E C swf)
        (broadcastInDim ⟨2, ![N, C]⟩ ![] hz (constant (F := Ideal) ⟨0, ![]⟩ .f32 0x00000000#32)) di
        (mulf (broadcastInDim ⟨2, ![E, C]⟩ ![0, 1] hb lwc) (Host.gather (RowOps.gatherDims N E C gwf) x si)) (ix2 n c)
      = ∑ e : Fin E, if (di (ix2 e 0)).toInt = (n.val : Int) then lwc (ix2 e 0) * x (ix2 (srcRow hN si e) c) else 0 := by
  show Ideal.hostScatterAdd (RowOps.scatterDims N E C swf) _ di _ (ix2 n c) = _
  rw [RowOps.scatterAdd_rows_apply, zeros_apply, zero_add]
  exact Finset.sum_congr rfl fun e _ => by rw [weight_mul_gather_apply hN]

include hN in
/-- The two factor orders give the same array (the extended reals' product is commutative; nothing need be finite). -/
theorem propagate_rows_xw_eq_wx :
    Host.scatterAdd (RowOps.scatterDims N E C swf)
        (broadcastInDim ⟨2, ![N, C]⟩ ![] hz (constant (F := Ideal) ⟨0, ![]⟩ .f32 0x00000000#32)) di
        (mulf (Host.gather (RowOps.gatherDims N E C gwf) x si) (broadcastInDim ⟨2, ![E, C]⟩ ![0, 1] hb lwc))
      = Host.scatterAdd (RowOps.scatterDims N E C swf)
        (broadcastInDim ⟨2, ![N, C]⟩ ![] hz (constant (F := Ideal) ⟨0, ![]⟩ .f32 0x00000000#32)) di
        (mulf (broadcastInDim ⟨2, ![E, C]⟩ ![0, 1] hb lwc) (Host.gather (RowOps.gatherDims N E C gwf) x si)) := by
  funext j
  obtain ⟨n, c, rfl⟩ : ∃ (n : Fin N) (c : Fin C), j = ix2 n c := ⟨j 0, j 1, eq_ix2 j⟩
  rw [propagate_rows_apply_xw hN, propagate_rows_apply_wx hN]
  exact Finset.sum_congr rfl fun e _ => by rw [mul_comm]

end Composite

/-! ## A column of row numbers from a vector of row numbers, the negative ones wrapped -/

/-- A row number with a negative one wrapped by K: v < 0 ? v + K : v (signed comparison, wrapping addition). -/
def wrapIdx {b : Nat} (K v : BitVec b) : BitVec b :=
  Scalar.select (IntOp.cmpi .slt v 0) (IntOp.addi v K) v

/-- The column [E, 1] made from a vector v : [E] of row numbers by wrapping the negative ones (select (v < 0) (v + K)
    v, the 0 and the K scalar constants broadcast to [E]) and placing the vector as a column reads, at (e, u),
    the wrapped v[e]. -/
theorem wrapped_column_apply {b : Nat} (h0 : (⟨0, ![]⟩ : Shape).BroadcastsInDim ⟨1, ![E]⟩ ![])
    (hc : (⟨1, ![E]⟩ : Shape).BroadcastsInDim ⟨2, ![E, 1]⟩ ![0]) (K : BitVec b) (v : IVec ⟨1, ![E]⟩ b)
    (e : Fin E) (u : Fin 1) :
    broadcastInDim ⟨2, ![E, 1]⟩ ![0] hc
        (select (cmpi .slt v (broadcastInDim ⟨1, ![E]⟩ ![] h0 (constantI ⟨0, ![]⟩ b 0)))
          (addi v (broadcastInDim ⟨1, ![E]⟩ ![] h0 (constantI ⟨0, ![]⟩ b K))) v) (ix2 e u)
      = wrapIdx K (v (ix1 e)) := by
  rw [ColumnForms.broadcastInDim_a_a1_apply]
  rfl

/-- A vector [E] placed as a column [E, 1] reads, at (e, u), the vector at e (any element type). -/
theorem column_apply {α : Type} (hc : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] hc v (ix2 e u) = v (ix1 e) :=
  ColumnForms.broadcastInDim_a_a1_apply v hc e u

end PropagateRows
-- ==== Proof.SpecProp.lean ====
/-
  MESSAGE PASSING AS ONE FUNCTION OF ITS INPUTS.

  A table x : [N, C], a vector of per-edge weights lw : [E], and two vectors of 32-bit row numbers src, dst : [E]. A
  negative row number v counts from the end: it stands for v + N (wrapping 32-bit addition; signed comparison with 0).
  The source row of edge e is the wrapped src[e], read as a signed integer and clamped into [0, N - 1]; edge e arrives
  at row n when the wrapped dst[e], read as a signed integer, is exactly n (an edge whose destination is no row arrives
  nowhere). The propagated table is

      propagate lw src dst x (n, c) = ∑ over the edges e that arrive at n of  lw[e] * x (source row of e, c).

  The definitions are over the raw shapes ⟨1, ![E]⟩ and ⟨2, ![N, C]⟩ with N, E, C natural-number parameters, so that at
  literal extents every program's own name for such a shape unfolds to the shape used here.
-/
import Idealize.ShloMosaic.PureOps.Ideal
import Idealize.ShloMosaic.Lib.ValueIdx

noncomputable section

open scoped BigOperators

namespace SpecProp

open Idealize.ShloMosaic Idealize.ShloMosaic.ValueIdx

/-- A 32-bit row number with a negative one wrapped by K: v < 0 ? v + K : v (signed comparison, wrapping addition). -/
def wrap (K v : BitVec 32) : BitVec 32 :=
  Scalar.select (IntOp.cmpi .slt v 0) (IntOp.addi v K) v

/-- A 32-bit row number read as a signed integer and clamped into [0, N - 1]. -/
def clampRow {N : Nat} (hN : 0 < N) (v : BitVec 32) : Fin N :=
  ⟨min v.toInt.toNat (N - 1), by omega⟩

/-- The propagated table at row n and column c: the sum over the edges e whose wrapped destination, read signed, is
    n of lw[e] * x (clamped wrapped source of e, c). -/
def propagateAt {N E C : Nat} (hN : 0 < N) (lw : (⟨1, ![E]⟩ : Shape).Idx → EReal) (src dst : IVec ⟨1, ![E]⟩ 32)
    (x : (⟨2, ![N, C]⟩ : Shape).Idx → EReal) (n : Fin N) (c : Fin C) : EReal :=
  ∑ e : Fin E, if (wrap (BitVec.ofNat 32 N) (dst (ix1 e))).toInt = (n.val : Int)
    then lw (ix1 e) * x (ix2 (clampRow hN (wrap (BitVec.ofNat 32 N) (src (ix1 e)))) c) else 0

/-- The propagated table, as an array over the raw shape [N, C]. -/
def propagate {N E C : Nat} (hN : 0 < N) (lw : (⟨1, ![E]⟩ : Shape).Idx → EReal) (src dst : IVec ⟨1, ![E]⟩ 32)
    (x : (⟨2, ![N, C]⟩ : Shape).Idx → EReal) : (⟨2, ![N, C]⟩ : Shape).Idx → EReal :=
  fun j => propagateAt hN lw src dst x (j 0) (j 1)

/-- The propagated table read at (n, c). -/
theorem propagate_apply {N E C : Nat} (hN : 0 < N) (lw : (⟨1, ![E]⟩ : Shape).Idx → EReal) (src dst : IVec ⟨1, ![E]⟩ 32)
    (x : (⟨2, ![N, C]⟩ : Shape).Idx → EReal) (n : Fin N) (c : Fin C) :
    propagate hN lw src dst x (ix2 n c) = propagateAt hN lw src dst x n c := rfl

end SpecProp
-- ==== Proof.KIProp.lean ====
/-
  THE TWO MESSAGE-PASSING STRETCHES OF THE HOST PROGRAM, EACH AS THE PROPAGATED TABLE OF ITS INPUTS.

  Between its device calls the program propagates a node table along the graph's edges twice: a [100000, 32] table
  (stored in a narrower float format, widened before the product and narrowed after the sum: at the extended reals a
  change of format is the identity), and a [100000, 2] table. Each time it wraps the negative entries of the source and
  destination row-number vectors, places them as columns, gathers the table's rows at the sources, multiplies row e by the
  weight of edge e (the gathered row first, the weight second), and scatter-adds the products into zeros at the
  destinations. Whatever the contents V of the buffers when the stretch begins, the stretch leaves in its result buffer
  the propagated table SpecProp.propagate of V's weights, row numbers and table.
-/
import proofs.«171083_j730144440440_2_alg».proof.Proof.Gen.KernelIdeal.Launch
import Idealize.ShloMosaic.Lib.StableHlo.Run
import proofs.«171083_j730144440440_2_alg».proof.Proof.LibPropagateRows
import proofs.«171083_j730144440440_2_alg».proof.Proof.SpecProp

noncomputable section

open scoped BigOperators

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- The node table has a row. -/
theorem pos_nodes : 0 < 100000 := by decide

/-- THE FIRST PROPAGATION (width 32): after the stretch, the narrowed result buffer holds the propagated table of
    the weights, the source and destination row numbers and the table the stretch began with. Per edge the program
    multiplies the gathered row by the weight; the definition multiplies the weight by the row; the extended reals'
    product is commutative. -/
theorem hostOps1_v57 (V : Valuation τ sig (Elt Ideal)) :
    StableHlo.after (hostOps1 (F := Ideal)) V (Proc.devRef .tc main_v57)
      = SpecProp.propagate (N := 100000) (E := 1200000) (C := 32) pos_nodes (V (Proc.devRef .tc main_v34))
          (V (Proc.devRef .tc main_v1)) (V (Proc.devRef .tc main_v3)) (V (Proc.devRef .tc main_v37)) := by
  after_results_simp
  funext j
  obtain ⟨n, c, rfl⟩ : ∃ (n : Fin 100000) (c : Fin 32), j = ix2 n c := ⟨j 0, j 1, eq_ix2 j⟩
  rw [SpecProp.propagate_apply]
  refine (PropagateRows.propagate_rows_apply_xw (N := 100000) (E := 1200000) (C := 32) pos_nodes
    gather_S100000x32_S1200000x1_S1200000x32_1_0_n_n_0_1_132.wf scatter_S100000x32_S1200000x1_S1200000x32_1_0_0_1.wf
    bcast_S1200000x1_S1200000x32_0_1 bcast_S_S100000x32 _ _ _ _ n c).trans ?_
  unfold SpecProp.propagateAt PropagateRows.srcRow
  refine Finset.sum_congr rfl fun e _ => ?_
  erw [PropagateRows.wrapped_column_apply, PropagateRows.wrapped_column_apply, PropagateRows.column_apply, mul_comm]
  rfl

/-- THE SECOND PROPAGATION (width 2): after the stretch, the result buffer holds the propagated table of the
    weights, the source and destination row numbers and the table the stretch began with. -/
theorem hostOps2_v83 (V : Valuation τ sig (Elt Ideal)) :
    StableHlo.after (hostOps2 (F := Ideal)) V (Proc.devRef .tc main_v83)
      = SpecProp.propagate (N := 100000) (E := 1200000) (C := 2) pos_nodes (V (Proc.devRef .tc main_v34))
          (V (Proc.devRef .tc main_v1)) (V (Proc.devRef .tc main_v3)) (V (Proc.devRef .tc main_v65_1)) := by
  after_results_simp
  funext j
  obtain ⟨n, c, rfl⟩ : ∃ (n : Fin 100000) (c : Fin 2), j = ix2 n c := ⟨j 0, j 1, eq_ix2 j⟩
  rw [SpecProp.propagate_apply]
  refine (PropagateRows.propagate_rows_apply_xw (N := 100000) (E := 1200000) (C := 2) pos_nodes
    gather_S100000x2_S1200000x1_S1200000x2_1_0_n_n_0_1_12.wf scatter_S100000x2_S1200000x1_S1200000x2_1_0_0_1.wf
    bcast_S1200000x1_S1200000x2_0_1 bcast_S_S100000x2 _ _ _ _ n c).trans ?_
  unfold SpecProp.propagateAt PropagateRows.srcRow
  refine Finset.sum_congr rfl fun e _ => ?_
  erw [PropagateRows.wrapped_column_apply, PropagateRows.wrapped_column_apply, PropagateRows.column_apply, mul_comm]
  rfl

end Cert.KernelIdeal.Hand
-- ==== Proof.RefProp.lean ====
/-
  THE REFERENCE PROGRAM'S TWO MESSAGE-PASSING STAGES, EACH AS THE PROPAGATED TABLE OF ITS INPUTS.

  The reference propagates a node table along the graph's edges twice: the first layer's output [100000, 32] and the
  second layer's output [100000, 64]. Each time it wraps the negative entries of the source and destination row-number
  vectors, places them as columns, gathers the table's rows at the sources, multiplies row e by the weight of edge e
  (the weight first, the gathered row second), and scatter-adds the products into zeros at the destinations. The
  operations of the first propagation straddle the first two windows of the program (the zeros, the weight column and
  the sign test of the sources are the last six operations of the first window); those of the second lie in the second
  window, after the operation that writes the second layer's output. Splitting the windows there and forgetting what
  came before, each stage leaves in its result buffer the propagated table SpecProp.propagate of the weights, the row
  numbers and the table as they stood when the stage began.
-/
import proofs.«171083_j730144440440_2_alg».proof.Proof.RefRun
import proofs.«171083_j730144440440_2_alg».proof.Proof.LibPropagateRows
import proofs.«171083_j730144440440_2_alg».proof.Proof.SpecProp

set_option Elab.async false

noncomputable section

open scoped BigOperators

namespace Cert.ReferenceIdeal.RefProp

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

variable {F : FTy → Type} [FloatOps F]

/-- The node table has a row. -/
theorem pos_nodes : 0 < 100000 := by decide

/-- Operations 63 … 68 of the first window: the zero table, the weight column, and the sign test of the sources. -/
abbrev ops0tail : List (HloOp τ sig (Elt F)) :=
  [ nullary main_cst_8 (constant S_ .f32 0x00000000#32),
    unary main_cst_8 main_v44 (broadcastInDim S100000x32 ![] bcast_S_S100000x32 : (⟨S_, .f32⟩ : BufTy).Contents (Elt F) → (⟨S100000x32, .f32⟩ : BufTy).Contents (Elt F)),
    unary main_v34 main_v45 (broadcastInDim S1200000x1 ![0] bcast_S1200000_S1200000x1_0 : (⟨S1200000, .f32⟩ : BufTy).Contents (Elt F) → (⟨S1200000x1, .f32⟩ : BufTy).Contents (Elt F)),
    nullary main_c_9 (constantI S_ 32 0#32),
    unary main_c_9 main_v46 (broadcastInDim S1200000 ![] bcast_S_S1200000 : (⟨S_, .i32⟩ : BufTy).Contents (Elt F) → (⟨S1200000, .i32⟩ : BufTy).Contents (Elt F)),
    binary main_v1 main_v46 main_v47 (cmpi .slt : (⟨S1200000, .i32⟩ : BufTy).Contents (Elt F) → (⟨S1200000, .i32⟩ : BufTy).Contents (Elt F) → (⟨S1200000, .i1⟩ : BufTy).Contents (Elt F)) ]

/-- Operations 35 … 66 of the second window: from the zero table of the second propagation to the window's end. -/
abbrev ops1tail : List (HloOp τ sig (Elt F)) :=
  [ nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    unary main_v34 main_v74 (broadcastInDim S1200000x1 ![0] bcast_S1200000_S1200000x1_0 : (⟨S1200000, .f32⟩ : BufTy).Contents (Elt F) → (⟨S1200000x1, .f32⟩ : BufTy).Contents (Elt F)),
    nullary main_c_14 (constantI S_ 32 0#32),
    unary main_c_14 main_v75 (broadcastInDim S1200000 ![] bcast_S_S1200000 : (⟨S_, .i32⟩ : BufTy).Contents (Elt F) → (⟨S1200000, .i32⟩ : BufTy).Contents (Elt F)),
    binary main_v1 main_v75 main_v76 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v77 (broadcastInDim S1200000 ![] bcast_S_S1200000 : (⟨S_, .i32⟩ : BufTy).Contents (Elt F) → (⟨S1200000, .i32⟩ : BufTy).Contents (Elt F)),
    binary main_v1 main_v77 main_v78 (addi : (⟨S1200000, .i32⟩ : BufTy).Contents (Elt F) → (⟨S1200000, .i32⟩ : BufTy).Contents (Elt F) → (⟨S1200000, .i32⟩ : BufTy).Contents (Elt F)),
    ternary main_v76 main_v78 main_v1 main_v79 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v79 main_v80 (broadcastInDim S1200000x1 ![0] bcast_S1200000_S1200000x1_0 : (⟨S1200000, .i32⟩ : BufTy).Contents (Elt F) → (⟨S1200000x1, .i32⟩ : BufTy).Contents (Elt F)),
    binary main_v69 main_v80 main_v81 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v74 main_v82 (broadcastInDim S1200000x64 ![0, 1] bcast_S1200000x1_S1200000x64_0_1 : (⟨S1200000x1, .f32⟩ : BufTy).Contents (Elt F) → (⟨S1200000x64, .f32⟩ : BufTy).Contents (Elt F)),
    binary main_v82 main_v81 main_v83 (mulf : (⟨S1200000x64, .f32⟩ : BufTy).Contents (Elt F) → (⟨S1200000x64, .f32⟩ : BufTy).Contents (Elt F) → (⟨S1200000x64, .f32⟩ : BufTy).Contents (Elt F)),
    nullary main_c_16 (constantI S_ 32 0#32),
    unary main_c_16 main_v84 (broadcastInDim S1200000 ![] bcast_S_S1200000 : (⟨S_, .i32⟩ : BufTy).Contents (Elt F) → (⟨S1200000, .i32⟩ : BufTy).Contents (Elt F)),
    binary main_v3 main_v84 main_v85 (cmpi .slt : (⟨S1200000, .i32⟩ : BufTy).Contents (Elt F) → (⟨S1200000, .i32⟩ : BufTy).Contents (Elt F) → (⟨S1200000, .i1⟩ : BufTy).Contents (Elt F)),
    nullary main_c_17 (constantI S_ 32 100000#32),
    unary main_c_17 main_v86 (broadcastInDim S1200000 ![] bcast_S_S1200000 : (⟨S_, .i32⟩ : BufTy).Contents (Elt F) → (⟨S1200000, .i32⟩ : BufTy).Contents (Elt F)),
    binary main_v3 main_v86 main_v87 (addi : (⟨S1200000, .i32⟩ : BufTy).Contents (Elt F) → (⟨S1200000, .i32⟩ : BufTy).Contents (Elt F) → (⟨S1200000, .i32⟩ : BufTy).Contents (Elt F)),
    ternary main_v85 main_v87 main_v3 main_v88 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v88 main_v89 (broadcastInDim S1200000x1 ![0] bcast_S1200000_S1200000x1_0 : (⟨S1200000, .i32⟩ : BufTy).Contents (Elt F) → (⟨S1200000x1, .i32⟩ : BufTy).Contents (Elt F)),
    ternary main_v73 main_v89 main_v83 main_v90 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v91 ((extractStridedSlice S1x64x2 ![1, 0, 0] · slices_S2x64x2_S1x64x2_1_0_0) : (⟨S2x64x2, .f32⟩ : BufTy).Contents (Elt F) → (⟨S1x64x2, .f32⟩ : BufTy).Contents (Elt F)),
    reshape main_v91 main_v92 rfl shapeCasts_S1x64x2_S64x2,
    binary main_v90 main_v92 main_v93 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    binary main_v72 main_v93 main_v94 (addf : (⟨S100000x2, .f32⟩ : BufTy).Contents (Elt F) → (⟨S100000x2, .f32⟩ : BufTy).Contents (Elt F) → (⟨S100000x2, .f32⟩ : BufTy).Contents (Elt F)),
    unary main_arg8 main_v95 (broadcastInDim S1x2 ![1] bcast_S2_S1x2_1 : (⟨S2, .f32⟩ : BufTy).Contents (Elt F) → (⟨S1x2, .f32⟩ : BufTy).Contents (Elt F)),
    unary main_v95 main_v96 (broadcastInDim S100000x2 ![0, 1] bcast_S1x2_S100000x2_0_1 : (⟨S1x2, .f32⟩ : BufTy).Contents (Elt F) → (⟨S100000x2, .f32⟩ : BufTy).Contents (Elt F)),
    binary main_v94 main_v96 main_v97 (addf : (⟨S100000x2, .f32⟩ : BufTy).Contents (Elt F) → (⟨S100000x2, .f32⟩ : BufTy).Contents (Elt F) → (⟨S100000x2, .f32⟩ : BufTy).Contents (Elt F)),
    binary main_v97 main_arg9 main_v98 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    unary main_arg10 main_v99 (broadcastInDim S1x1 ![1] bcast_S1_S1x1_1 : (⟨S1, .f32⟩ : BufTy).Contents (Elt F) → (⟨S1x1, .f32⟩ : BufTy).Contents (Elt F)) ]

set_option maxRecDepth 8192 in
/-- The first window is its first 62 operations followed by those six. -/
theorem ops0_split : (ops0 : List (HloOp τ sig (Elt F))) = ops0.take 62 ++ ops0tail := rfl

set_option maxRecDepth 8192 in
/-- The second window is its first 34 operations followed by those thirty-two. -/
theorem ops1_split : (ops1 : List (HloOp τ sig (Elt F))) = ops1.take 34 ++ ops1tail := rfl

/-- The first 34 operations of the second window write only buffers the window writes. -/
theorem ops1pre_writes : ((ops1 : List (HloOp τ sig (Elt F))).take 34).Forall fun op => op.writes ⊆ (W1.map (Proc.devRef (τ := τ) .tc)).toFinset :=
  List.forall_iff_forall_mem.mpr fun op h => List.forall_iff_forall_mem.mp ops1_writes op (List.mem_of_mem_take h)

set_option maxRecDepth 8192 in
/-- THE FIRST PROPAGATION (width 32), from the contents U reached after the first window's first 62 operations: the
    rest of the first window and the second window leave in the result buffer the propagated table of U's weights,
    row numbers and first-layer output. -/
theorem v61_of_pre (U : Valuation τ sig (Elt Ideal)) :
    after (ops1 (F := Ideal)) (after ops0tail U) (Proc.devRef .tc main_v61)
      = SpecProp.propagate (N := 100000) (E := 1200000) (C := 32) pos_nodes (U (Proc.devRef .tc main_v34))
          (U (Proc.devRef .tc main_v1)) (U (Proc.devRef .tc main_v3)) (U (Proc.devRef .tc main_v40)) := by
  after_results_simp
  funext j
  obtain ⟨n, c, rfl⟩ : ∃ (n : Fin 100000) (c : Fin 32), j = ix2 n c := ⟨j 0, j 1, eq_ix2 j⟩
  rw [SpecProp.propagate_apply]
  refine (PropagateRows.propagate_rows_apply_wx (N := 100000) (E := 1200000) (C := 32) pos_nodes
    gather_S100000x32_S1200000x1_S1200000x32_1_0_n_n_0_1_132.wf scatter_S100000x32_S1200000x1_S1200000x32_1_0_0_1.wf
    bcast_S1200000x1_S1200000x32_0_1 bcast_S_S100000x32 _ _ _ _ n c).trans ?_
  unfold SpecProp.propagateAt PropagateRows.srcRow
  refine Finset.sum_congr rfl fun e _ => ?_
  erw [PropagateRows.wrapped_column_apply, PropagateRows.wrapped_column_apply, PropagateRows.column_apply]
  rfl

set_option maxRecDepth 8192 in
/-- The six operations at the end of the first window write none of the four inputs of the first propagation. -/
theorem ops0tail_keeps (U : Valuation τ sig (Elt Ideal)) :
    after (ops0tail (F := Ideal)) U (Proc.devRef .tc main_v34) = U (Proc.devRef .tc main_v34)
    ∧ after (ops0tail (F := Ideal)) U (Proc.devRef .tc main_v1) = U (Proc.devRef .tc main_v1)
    ∧ after (ops0tail (F := Ideal)) U (Proc.devRef .tc main_v3) = U (Proc.devRef .tc main_v3)
    ∧ after (ops0tail (F := Ideal)) U (Proc.devRef .tc main_v40) = U (Proc.devRef .tc main_v40) := by
  refine ⟨?_, ?_, ?_, ?_⟩ <;> after_results_simp

/-- THE FIRST PROPAGATION (width 32) in the run: after the first two windows, from any contents V, the result buffer
    holds the propagated table of the weights, the row numbers and the first layer's output as the first window
    leaves them. -/
theorem v61_eq (V : Valuation τ sig (Elt Ideal)) :
    after (ops1 (F := Ideal)) (after ops0 V) (Proc.devRef .tc main_v61)
      = SpecProp.propagate (N := 100000) (E := 1200000) (C := 32) pos_nodes (after ops0 V (Proc.devRef .tc main_v34))
          (after ops0 V (Proc.devRef .tc main_v1)) (after ops0 V (Proc.devRef .tc main_v3))
          (after ops0 V (Proc.devRef .tc main_v40)) := by
  rw [ops0_split, after_append]
  generalize after ((ops0 : List (HloOp τ sig (Elt Ideal))).take 62) V = U
  obtain ⟨h34, h1, h3, h40⟩ := ops0tail_keeps U
  rw [v61_of_pre U, h34, h1, h3, h40]

set_option maxRecDepth 8192 in
/-- THE SECOND PROPAGATION (width 64), from the contents U reached after the second window's first 34 operations:
    the rest of the window leaves in the result buffer the propagated table of U's weights, row numbers and
    second-layer output. -/
theorem v90_of_pre (U : Valuation τ sig (Elt Ideal)) :
    after (ops1tail (F := Ideal)) U (Proc.devRef .tc main_v90)
      = SpecProp.propagate (N := 100000) (E := 1200000) (C := 64) pos_nodes (U (Proc.devRef .tc main_v34))
          (U (Proc.devRef .tc main_v1)) (U (Proc.devRef .tc main_v3)) (U (Proc.devRef .tc main_v69)) := by
  after_results_simp
  funext j
  obtain ⟨n, c, rfl⟩ : ∃ (n : Fin 100000) (c : Fin 64), j = ix2 n c := ⟨j 0, j 1, eq_ix2 j⟩
  rw [SpecProp.propagate_apply]
  refine (PropagateRows.propagate_rows_apply_wx (N := 100000) (E := 1200000) (C := 64) pos_nodes
    gather_S100000x64_S1200000x1_S1200000x64_1_0_n_n_0_1_164.wf scatter_S100000x64_S1200000x1_S1200000x64_1_0_0_1.wf
    bcast_S1200000x1_S1200000x64_0_1 bcast_S_S100000x64 _ _ _ _ n c).trans ?_
  unfold SpecProp.propagateAt PropagateRows.srcRow
  refine Finset.sum_congr rfl fun e _ => ?_
  erw [PropagateRows.wrapped_column_apply, PropagateRows.wrapped_column_apply, PropagateRows.column_apply]
  rfl

set_option maxRecDepth 8192 in
/-- The thirty-two operations at the end of the second window do not write the second layer's output. -/
theorem ops1tail_keeps_v69 (U : Valuation τ sig (Elt Ideal)) :
    after (ops1tail (F := Ideal)) U (Proc.devRef .tc main_v69) = U (Proc.devRef .tc main_v69) := by
  after_results_simp

/-- THE SECOND PROPAGATION (width 64) in the run: after the second window, from any contents W at its start, the
    result buffer holds the propagated table of W's weights and row numbers (the window writes none of them) and of
    the second layer's output as the window leaves it. -/
theorem v90_eq (W : Valuation τ sig (Elt Ideal)) :
    after (ops1 (F := Ideal)) W (Proc.devRef .tc main_v90)
      = SpecProp.propagate (N := 100000) (E := 1200000) (C := 64) pos_nodes (W (Proc.devRef .tc main_v34))
          (W (Proc.devRef .tc main_v1)) (W (Proc.devRef .tc main_v3)) (after ops1 W (Proc.devRef .tc main_v69)) := by
  rw [ops1_split, after_append]
  have h34 := after_of_writes_sub ((ops1 : List (HloOp τ sig (Elt Ideal))).take 34) W ops1pre_writes (by decide : main_v34 ∉ W1)
  have h1 := after_of_writes_sub ((ops1 : List (HloOp τ sig (Elt Ideal))).take 34) W ops1pre_writes (by decide : main_v1 ∉ W1)
  have h3 := after_of_writes_sub ((ops1 : List (HloOp τ sig (Elt Ideal))).take 34) W ops1pre_writes (by decide : main_v3 ∉ W1)
  generalize after ((ops1 : List (HloOp τ sig (Elt Ideal))).take 34) W = U at h34 h1 h3 ⊢
  rw [v90_of_pre U, ops1tail_keeps_v69 U, h34, h1, h3]

end Cert.ReferenceIdeal.RefProp
-- ==== Proof.RefPropFull.lean ====
/-
  THE REFERENCE PROGRAM'S TWO MESSAGE-PASSING STAGES, EVERY BUFFER READ OFF THE WHOLE RUN.

  The run is the fold of the program's 170 operations over the contents it starts from. A buffer that the last window
  does not write ends where the first two windows leave it, and one that the last two windows do not write ends where
  the first window leaves it. The propagations' results are written in the second window and never again; their
  weights, row numbers and the first layer's output are written in the first window and never again; the second
  layer's output is written in the second window and never again. So each propagation's result, read at the end of the
  run, is the propagated table of its operands read at the end of the run.
-/
import proofs.«171083_j730144440440_2_alg».proof.Proof.RefProp

set_option Elab.async false

noncomputable section

namespace Cert.ReferenceIdeal.RefProp

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- A buffer the last two windows do not write ends the run where the first window leaves it. -/
theorem after_ops_of_not_W12 (V : Valuation τ sig (Elt F)) (r : Ref sig .tc) (h1 : r ∉ W1) (h2 : r ∉ W2) :
    after ops V (Proc.devRef .tc r) = after ops0 V (Proc.devRef .tc r) := by
  rw [after_ops]
  exact (after_of_writes_sub ops2 _ ops2_writes h2).trans (after_of_writes_sub ops1 _ ops1_writes h1)

/-- A buffer the last window does not write ends the run where the first two windows leave it. -/
theorem after_ops_of_not_W2 (V : Valuation τ sig (Elt F)) (r : Ref sig .tc) (h2 : r ∉ W2) :
    after ops V (Proc.devRef .tc r) = after ops1 (after ops0 V) (Proc.devRef .tc r) := by
  rw [after_ops]
  exact after_of_writes_sub ops2 _ ops2_writes h2

/-- THE FIRST PROPAGATION (width 32), every buffer read at the end of the run, from any contents V. -/
theorem v61_full (V : Valuation τ sig (Elt Ideal)) :
    after (ops (F := Ideal)) V (Proc.devRef .tc main_v61)
      = SpecProp.propagate (N := 100000) (E := 1200000) (C := 32) pos_nodes (after ops V (Proc.devRef .tc main_v34))
          (after ops V (Proc.devRef .tc main_v1)) (after ops V (Proc.devRef .tc main_v3))
          (after ops V (Proc.devRef .tc main_v40)) := by
  rw [after_ops_of_not_W2 V main_v61 (by decide), after_ops_of_not_W12 V main_v34 (by decide) (by decide),
    after_ops_of_not_W12 V main_v1 (by decide) (by decide), after_ops_of_not_W12 V main_v3 (by decide) (by decide),
    after_ops_of_not_W12 V main_v40 (by decide) (by decide), v61_eq]

/-- THE SECOND PROPAGATION (width 64), every buffer read at the end of the run, from any contents V. -/
theorem v90_full (V : Valuation τ sig (Elt Ideal)) :
    after (ops (F := Ideal)) V (Proc.devRef .tc main_v90)
      = SpecProp.propagate (N := 100000) (E := 1200000) (C := 64) pos_nodes (after ops V (Proc.devRef .tc main_v34))
          (after ops V (Proc.devRef .tc main_v1)) (after ops V (Proc.devRef .tc main_v3))
          (after ops V (Proc.devRef .tc main_v69)) := by
  rw [after_ops_of_not_W2 V main_v90 (by decide), after_ops_of_not_W2 V main_v69 (by decide),
    after_ops_of_not_W12 V main_v34 (by decide) (by decide), after_ops_of_not_W12 V main_v1 (by decide) (by decide),
    after_ops_of_not_W12 V main_v3 (by decide) (by decide), v90_eq]

/-- The first propagation over the run from a launch's contents. -/
theorem ref_prop1_full (m : (ℓ : Loc nD τ sig) → Buf (Elt Ideal) ℓ) (c : Dev nD) :
    after (ops (F := Ideal)) (launchContents m c) (Proc.devRef .tc main_v61)
      = SpecProp.propagate (N := 100000) (E := 1200000) (C := 32) pos_nodes
          (after ops (launchContents m c) (Proc.devRef .tc main_v34))
          (after ops (launchContents m c) (Proc.devRef .tc main_v1))
          (after ops (launchContents m c) (Proc.devRef .tc main_v3))
          (after ops (launchContents m c) (Proc.devRef .tc main_v40)) :=
  v61_full _

/-- The second propagation over the run from a launch's contents. -/
theorem ref_prop2_full (m : (ℓ : Loc nD τ sig) → Buf (Elt Ideal) ℓ) (c : Dev nD) :
    after (ops (F := Ideal)) (launchContents m c) (Proc.devRef .tc main_v90)
      = SpecProp.propagate (N := 100000) (E := 1200000) (C := 64) pos_nodes
          (after ops (launchContents m c) (Proc.devRef .tc main_v34))
          (after ops (launchContents m c) (Proc.devRef .tc main_v1))
          (after ops (launchContents m c) (Proc.devRef .tc main_v3))
          (after ops (launchContents m c) (Proc.devRef .tc main_v69)) :=
  v90_full _

end Cert.ReferenceIdeal.RefProp
-- ==== Proof.BridgeA3.lean ====
/- The propagated first layers agree between the two programs. Each program passes its first layer's output along the
   edges: the reference inside its run, the kernel program in the host stretch after its first region. Both are the same
   message passing of the edge weights, the two index vectors and the first layer's output, and those four agree. -/
import proofs.«171083_j730144440440_2_alg».proof.Proof.BridgeA1
import proofs.«171083_j730144440440_2_alg».proof.Proof.BridgeA2
import proofs.«171083_j730144440440_2_alg».proof.Proof.KIProp
import proofs.«171083_j730144440440_2_alg».proof.Proof.RefPropFull

set_option maxRecDepth 16384

noncomputable section

namespace Cert.Proof.BridgeA

open Idealize.ShloMosaic Idealize.ShloMosaic.TcCoe Idealize.SL.Sem Idealize.ShloMosaic.StableHlo
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The first region writes only its output array: the edge weights and the two index vectors pass through it. -/
theorem W4_v34 (c : Dev Cert.KernelIdeal.nD) : W4 m c (Proc.devRef .tc Cert.KernelIdeal.main_v34) = W3 m c (Proc.devRef .tc Cert.KernelIdeal.main_v34) :=
  W4_of_ne m c Cert.KernelIdeal.main_v34 (by decide)
theorem W4_v1 (c : Dev Cert.KernelIdeal.nD) : W4 m c (Proc.devRef .tc Cert.KernelIdeal.main_v1) = W3 m c (Proc.devRef .tc Cert.KernelIdeal.main_v1) :=
  W4_of_ne m c Cert.KernelIdeal.main_v1 (by decide)
theorem W4_v3 (c : Dev Cert.KernelIdeal.nD) : W4 m c (Proc.devRef .tc Cert.KernelIdeal.main_v3) = W3 m c (Proc.devRef .tc Cert.KernelIdeal.main_v3) :=
  W4_of_ne m c Cert.KernelIdeal.main_v3 (by decide)

/-- What the host stretch after the first region leaves in its result buffer: the message passing of the edge weights,
    the index vectors and the first layer's output. -/
theorem W5_v57 (c : Dev Cert.KernelIdeal.nD) :
    W5 m c (Proc.devRef .tc Cert.KernelIdeal.main_v57)
      = SpecProp.propagate (N := 100000) (E := 1200000) (C := 32) Cert.KernelIdeal.Hand.pos_nodes (W3 m c (Proc.devRef .tc Cert.KernelIdeal.main_v34))
          (W3 m c (Proc.devRef .tc Cert.KernelIdeal.main_v1)) (W3 m c (Proc.devRef .tc Cert.KernelIdeal.main_v3)) (W4 m c (Proc.devRef .tc Cert.KernelIdeal.main_v37)) := by
  unfold W5
  rw [hostOps1_v57 (W4 m c), W4_v34, W4_v1, W4_v3]

/-- S3. THE PROPAGATED FIRST LAYERS AGREE. -/
theorem prop1_agree (hagree : Agree m m') (c : Dev Cert.KernelIdeal.nD) :
    after Cert.ReferenceIdeal.RefRun.ops (launchContents m' c) (Proc.devRef .tc Cert.ReferenceIdeal.main_v61) = W5 m c (Proc.devRef .tc Cert.KernelIdeal.main_v57) := by
  rw [Cert.ReferenceIdeal.RefProp.v61_full (launchContents m' c), W5_v57 m c, edge_weights m m' hagree c, src_index m m' hagree c,
    dst_index m m' hagree c, layer1_agree m m' hagree c]

end Cert.Proof.BridgeA

end
-- ==== Proof.SpecReal.lean ====
/- Which extended reals are reals, and that the dense layer and a weighted sum over edges keep it so. A finite sum of
   products of reals is a real; the leaky rectifier of a real is that real or the slope times it, and the slope's float
   word denotes a real; so a dense layer of arrays of reals is an array of reals. -/
import Idealize.ShloMosaic.PureOps.Ideal
import Idealize.ShloMosaic.Lib.ValueIdx
import proofs.«171083_j730144440440_2_alg».proof.Proof.SpecLayer

noncomputable section

open scoped BigOperators

namespace SpecReal

open Idealize.ShloMosaic Idealize.ShloMosaic.ValueIdx

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_ite {p : Prop} [Decidable p] {x y : EReal} (hx : IsReal x) (hy : IsReal y) : IsReal (if p then x else y) := by
  split <;> assumption
/-- A finite sum of reals is a real. -/
theorem isReal_sum {ι : Type*} (s : Finset ι) (f : ι → EReal) (h : ∀ i ∈ s, IsReal (f i)) : IsReal (∑ i ∈ s, f i) :=
  Finset.sum_induction f IsReal (fun _ _ => isReal_add) isReal_zero h

/-- The slope's float word denotes a real. -/
theorem slope_real : IsReal (Ideal.ofBits .f32 0x3C23D70A#32) := by
  unfold Ideal.ofBits Ideal.ieee
  simp only []
  rw [if_neg (by decide), if_neg (by decide)]
  exact ⟨_, rfl⟩

/-- The leaky rectifier of a real is a real. -/
theorem leaky_real {z : EReal} (hz : IsReal z) : IsReal (SpecLayer.leaky z) := by
  unfold SpecLayer.leaky Scalar.select
  exact isReal_ite hz (isReal_mul slope_real hz)

/-- An entry of a dense layer of arrays of reals is a real. -/
theorem denseAt_real {n K C : Nat} (x : (⟨2, ![n, K]⟩ : Shape).Idx → EReal) (w : (⟨2, ![K, C]⟩ : Shape).Idx → EReal)
    (b : (⟨2, ![1, C]⟩ : Shape).Idx → EReal) (hx : ∀ i, IsReal (x i)) (hw : ∀ i, IsReal (w i)) (hb : ∀ i, IsReal (b i))
    (r : Fin n) (q : Fin C) : IsReal (SpecLayer.denseAt x w b r q) := by
  unfold SpecLayer.denseAt
  exact leaky_real (isReal_add (isReal_sum _ _ fun k _ => isReal_mul (hx _) (hw _)) (hb _))

/-- The first layer of arrays of reals is an array of reals. -/
theorem layer1_real (x : (⟨2, ![100000, 20]⟩ : Shape).Idx → EReal) (w : (⟨2, ![20, 32]⟩ : Shape).Idx → EReal)
    (b : (⟨2, ![1, 32]⟩ : Shape).Idx → EReal) (hx : ∀ i, IsReal (x i)) (hw : ∀ i, IsReal (w i)) (hb : ∀ i, IsReal (b i))
    (i : (⟨2, ![100000, 32]⟩ : Shape).Idx) : IsReal (SpecLayer.layer1 x w b i) :=
  denseAt_real x w b hx hw hb (i 0) (i 1)

end SpecReal

end
-- ==== Proof.SpecPropReal.lean ====
/- Message passing keeps reals: with real edge weights, the propagated table of a table of reals is a table of reals —
   each entry is a finite sum of terms that are a product of two reals or zero. -/
import proofs.«171083_j730144440440_2_alg».proof.Proof.SpecProp
import proofs.«171083_j730144440440_2_alg».proof.Proof.SpecReal

noncomputable section

open scoped BigOperators

namespace SpecReal

open Idealize.ShloMosaic Idealize.ShloMosaic.ValueIdx

theorem propagate_real {N E C : Nat} (hN : 0 < N) (lw : (⟨1, ![E]⟩ : Shape).Idx → EReal) (src dst : IVec ⟨1, ![E]⟩ 32)
    (x : (⟨2, ![N, C]⟩ : Shape).Idx → EReal) (hlw : ∀ e, IsReal (lw e)) (hx : ∀ i, IsReal (x i))
    (j : (⟨2, ![N, C]⟩ : Shape).Idx) : IsReal (SpecProp.propagate hN lw src dst x j) := by
  unfold SpecProp.propagate SpecProp.propagateAt
  exact isReal_sum _ _ fun e _ => isReal_ite (isReal_mul (hlw _) (hx _)) isReal_zero

end SpecReal

end
-- ==== Proof.BridgeAReal.lean ====
/- On finite inputs the first layer's output and its propagated table are arrays of reals. The features, the weights and the
   bias are arrays of reals by the precondition; a reshape and a broadcast only re-index; a dense layer of reals is real;
   and with real edge weights message passing keeps reals. -/
import proofs.«171083_j730144440440_2_alg».proof.Proof.BridgeA3
import proofs.«171083_j730144440440_2_alg».proof.Proof.FiniteInputs
import proofs.«171083_j730144440440_2_alg».proof.Proof.SpecPropReal

set_option maxRecDepth 16384

noncomputable section

namespace Cert.Proof.BridgeA

open Idealize.ShloMosaic Idealize.ShloMosaic.TcCoe Idealize.SL.Sem Idealize.ShloMosaic.StableHlo
open Cert.KernelIdeal.Hand

variable (m : (ℓ : Loc Cert.KernelIdeal.nD Cert.KernelIdeal.τ Cert.KernelIdeal.sig) → Buf (Elt Ideal) ℓ)

/-- R2. Under the precondition every entry of the kernel program's first-layer output is a real. -/
theorem W4_v37_real (hpre : Cert.Pre_KernelIdeal (hPre_finite_inputs := Cert.Pre_finite_inputs.Gen.facts) m) (c : Dev Cert.KernelIdeal.nD)
    (i : Cert.KernelIdeal.S100000x32.Idx) : ∃ r : ℝ, (W4 m c (Proc.devRef .tc Cert.KernelIdeal.main_v37) : Cert.KernelIdeal.S100000x32.Idx → EReal) i = (r : EReal) := by
  obtain ⟨h0, -, h3, h4, -⟩ := Cert.Proof.Finite.finite_of_pre m hpre c
  rw [W4_v37 m c]
  refine SpecReal.layer1_real _ _ _ h0 (fun j => ?_) (fun j => ?_) i
  · unfold shapeCast; exact h3 _
  · unfold broadcastInDim; exact h4 _

/-- R3. Under the precondition, and with real edge weights, every entry of the propagated first layer is a real. -/
theorem W5_v57_real (hpre : Cert.Pre_KernelIdeal (hPre_finite_inputs := Cert.Pre_finite_inputs.Gen.facts) m) (c : Dev Cert.KernelIdeal.nD)
    (hlw : ∀ e : Cert.KernelIdeal.S1200000.Idx, ∃ r : ℝ, (W3 m c (Proc.devRef .tc Cert.KernelIdeal.main_v34) : Cert.KernelIdeal.S1200000.Idx → EReal) e = (r : EReal))
    (i : Cert.KernelIdeal.S100000x32.Idx) : ∃ r : ℝ, (W5 m c (Proc.devRef .tc Cert.KernelIdeal.main_v57) : Cert.KernelIdeal.S100000x32.Idx → EReal) i = (r : EReal) := by
  rw [W5_v57 m c]
  exact SpecReal.propagate_real _ _ _ _ _ hlw (W4_v37_real m hpre c) i

end Cert.Proof.BridgeA

end
-- ==== Proof.BridgeA.lean ====
/- The first half of the bridge between the two programs, gathered: the edges' index vectors and weights, the first
   layer's output and its propagated table agree between the reference's run and the kernel program's boundaries, and on
   finite inputs the latter two are arrays of reals. -/
import proofs.«171083_j730144440440_2_alg».proof.Proof.BridgeA1
import proofs.«171083_j730144440440_2_alg».proof.Proof.BridgeA2
import proofs.«171083_j730144440440_2_alg».proof.Proof.BridgeA3
import proofs.«171083_j730144440440_2_alg».proof.Proof.BridgeAReal
-- ==== Proof.KIHostOperands.lean ====
/-
  The small operands of the later regions, as the host computes them from the arguments: slices and reshapes of the
  weight tensors, and bias vectors reshaped to rows.
-/
import proofs.«171083_j730144440440_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
/-- The second layer's first weight matrix is slice 0 of the argument, reshaped. -/
theorem hostOps1_v59 (V : Valuation τ sig (Elt F)) : after hostOps1 V (Proc.devRef .tc main_v59)
    = shapeCast S32x64 (extractStridedSlice S1x32x64 ![0, 0, 0] (V (Proc.devRef .tc main_arg5)) slices_S2x32x64_S1x32x64_0_0_0) shapeCasts_S1x32x64_S32x64 := by
  simp only [hostOps1]; after_results_simp <;> rfl
set_option maxHeartbeats 1000000 in
/-- The second layer's second weight matrix is slice 1 of the argument, reshaped. -/
theorem hostOps1_v61 (V : Valuation τ sig (Elt F)) : after hostOps1 V (Proc.devRef .tc main_v61)
    = shapeCast S32x64 (extractStridedSlice S1x32x64 ![1, 0, 0] (V (Proc.devRef .tc main_arg5)) slices_S2x32x64_S1x32x64_1_0_0) shapeCasts_S1x32x64_S32x64 := by
  simp only [hostOps1]; after_results_simp <;> rfl
set_option maxHeartbeats 1000000 in
/-- The projection applied ahead of the third layer's message passing is slice 1 of the third weight tensor, reshaped. -/
theorem hostOps1_v63 (V : Valuation τ sig (Elt F)) : after hostOps1 V (Proc.devRef .tc main_v63)
    = shapeCast S64x2 (extractStridedSlice S1x64x2 ![1, 0, 0] (V (Proc.devRef .tc main_arg7)) slices_S2x64x2_S1x64x2_1_0_0) shapeCasts_S1x64x2_S64x2 := by
  simp only [hostOps1]; after_results_simp <;> rfl
set_option maxHeartbeats 1000000 in
/-- The second layer's bias as a row. -/
theorem hostOps1_v64 (V : Valuation τ sig (Elt F)) : after hostOps1 V (Proc.devRef .tc main_v64)
    = shapeCast S1x64 (V (Proc.devRef .tc main_arg6)) shapeCasts_S64_S1x64 := by
  simp only [hostOps1]; after_results_simp <;> rfl
set_option maxHeartbeats 1000000 in
/-- The third layer's first weight matrix is slice 0 of the argument, reshaped. -/
theorem hostOps2_v85 (V : Valuation τ sig (Elt F)) : after hostOps2 V (Proc.devRef .tc main_v85)
    = shapeCast S64x2 (extractStridedSlice S1x64x2 ![0, 0, 0] (V (Proc.devRef .tc main_arg7)) slices_S2x64x2_S1x64x2_0_0_0) shapeCasts_S1x64x2_S64x2 := by
  simp only [hostOps2]; after_results_simp <;> rfl
set_option maxHeartbeats 1000000 in
/-- The third layer's bias as a row. -/
theorem hostOps2_v86 (V : Valuation τ sig (Elt F)) : after hostOps2 V (Proc.devRef .tc main_v86)
    = shapeCast S1x2 (V (Proc.devRef .tc main_arg8)) shapeCasts_S2_S1x2 := by
  simp only [hostOps2]; after_results_simp <;> rfl
/-- The gate's bias as a 1 x 1 block. -/
theorem hostOps3_v88 (V : Valuation τ sig (Elt F)) : after hostOps3 V (Proc.devRef .tc main_v88)
    = shapeCast S1x1 (V (Proc.devRef .tc main_arg10)) shapeCasts_S1_S1x1 := by
  simp only [hostOps3]; after_results_simp <;> rfl
/-- The first layer's weight matrix, reshaped, and its bias as a row. -/
theorem hostOps0_2_v35 (V : Valuation τ sig (Elt F)) : after hostOps0_2 V (Proc.devRef .tc main_v35)
    = shapeCast S20x32 (V (Proc.devRef .tc main_arg3)) shapeCasts_S1x20x32_S20x32 := by
  simp only [hostOps0_2]; after_results_simp <;> rfl
theorem hostOps0_2_v36 (V : Valuation τ sig (Elt F)) : after hostOps0_2 V (Proc.devRef .tc main_v36)
    = shapeCast S1x32 (V (Proc.devRef .tc main_arg4)) shapeCasts_S32_S1x32 := by
  simp only [hostOps0_2]; after_results_simp <;> rfl

end Cert.KernelIdeal.Hand

end
-- ==== Proof.SpecLayer2.lean ====
/- The second layer of the network as one function of its arrays, index by index, over literal shapes. Entry (r, q) of the
   layer's output is the leaky rectifier of: the inner product of row r of the first layer's output with column q of the
   first weight matrix, plus the inner product of row r of the propagated first layer with column q of the second weight
   matrix, plus entry q of the bias row — in that association. The projection of an array of 64 features per row onto 2
   is, at (r, q), the inner product of row r with column q of the projection matrix. Everything is over the extended
   reals; the two float literals (zero and the slope) stay the words they are printed as and are never evaluated. -/
import Idealize.ShloMosaic.PureOps.Ideal
import Idealize.ShloMosaic.Lib.ValueIdx

noncomputable section

open scoped BigOperators

namespace GNN.Spec2

open Idealize.ShloMosaic Idealize.ShloMosaic.ValueIdx

/-- The leaky rectifier on one extended real: z where 0 ≤ z, the slope times z elsewhere (the comparison against the
    zero word, the choice, the product by the slope word). -/
def leaky (z : EReal) : EReal :=
  Scalar.select (Ideal.cmp .oge z (Ideal.ofBits .f32 0x00000000#32)) z (Ideal.ofBits .f32 0x3C23D70A#32 * z)

/-- Entry (r, q) of the second layer: the two inner products over the 32 features, summed, then the bias entry added,
    then the rectifier. -/
def layer2At (x p : (⟨2, ![100000, 32]⟩ : Shape).Idx → EReal) (w0 w1 : (⟨2, ![32, 64]⟩ : Shape).Idx → EReal)
    (b : (⟨2, ![1, 64]⟩ : Shape).Idx → EReal) (r : Fin 100000) (q : Fin 64) : EReal :=
  leaky ((∑ k : Fin 32, x (ix2 r k) * w0 (ix2 k q)) + (∑ k : Fin 32, p (ix2 r k) * w1 (ix2 k q)) + b (ix2 (0 : Fin 1) q))

/-- The second layer's output array: 100000 nodes, 32 features in (twice: the nodes' own and the propagated), 64 out. -/
def layer2 (x p : (⟨2, ![100000, 32]⟩ : Shape).Idx → EReal) (w0 w1 : (⟨2, ![32, 64]⟩ : Shape).Idx → EReal)
    (b : (⟨2, ![1, 64]⟩ : Shape).Idx → EReal) : (⟨2, ![100000, 64]⟩ : Shape).Idx → EReal :=
  fun i => layer2At x p w0 w1 b (i 0) (i 1)

/-- The array at an index given by its two coordinates. -/
theorem layer2_ix2 (x p : (⟨2, ![100000, 32]⟩ : Shape).Idx → EReal) (w0 w1 : (⟨2, ![32, 64]⟩ : Shape).Idx → EReal)
    (b : (⟨2, ![1, 64]⟩ : Shape).Idx → EReal) (r : Fin 100000) (q : Fin 64) :
    layer2 x p w0 w1 b (ix2 r q) = layer2At x p w0 w1 b r q := rfl

/-- Entry (r, q) of the projection: the inner product of row r with column q over the 64 features. -/
def projectAt (h : (⟨2, ![100000, 64]⟩ : Shape).Idx → EReal) (wg : (⟨2, ![64, 2]⟩ : Shape).Idx → EReal)
    (r : Fin 100000) (q : Fin 2) : EReal :=
  ∑ k : Fin 64, h (ix2 r k) * wg (ix2 k q)

/-- The projection of an array of 64 features per node onto 2. -/
def project (h : (⟨2, ![100000, 64]⟩ : Shape).Idx → EReal) (wg : (⟨2, ![64, 2]⟩ : Shape).Idx → EReal) :
    (⟨2, ![100000, 2]⟩ : Shape).Idx → EReal :=
  fun i => projectAt h wg (i 0) (i 1)

/-- The array at an index given by its two coordinates. -/
theorem project_ix2 (h : (⟨2, ![100000, 64]⟩ : Shape).Idx → EReal) (wg : (⟨2, ![64, 2]⟩ : Shape).Idx → EReal)
    (r : Fin 100000) (q : Fin 2) :
    project h wg (ix2 r q) = projectAt h wg r q := rfl

end GNN.Spec2

end
-- ==== Proof.SpecLayer3.lean ====
/- The third layer of the network as one function of its arrays, index by index, over literal shapes. The layer has no
   rectifier: entry (r, c) of the output is the inner product of row r of the second layer's output with column c of the
   first weight matrix, plus the propagated term at (r, c), plus entry c of the bias row. The two programs differ in how
   the propagated term arrives. One is handed it already projected onto the two output features (a 100000 x 2 array q);
   the other is handed the propagated 64-feature rows P and projects them itself with the second weight matrix, so its
   propagated term at (r, c) is the inner product of row r of P with column c of that matrix. With q that inner product,
   the two forms are one term, association of the two sums and the bias included. Everything is over the extended reals. -/
import Idealize.ShloMosaic.PureOps.Ideal
import Idealize.ShloMosaic.Lib.ValueIdx

noncomputable section

open scoped BigOperators

namespace GNN.Spec3

open Idealize.ShloMosaic Idealize.ShloMosaic.ValueIdx

/-- Entry (r, c) of the layer, the propagated term handed over already projected:
    ((row r of h) . (column c of w0) + q (r, c)) + b c. -/
def k3At (h : (⟨2, ![100000, 64]⟩ : Shape).Idx → EReal) (q : (⟨2, ![100000, 2]⟩ : Shape).Idx → EReal)
    (w0 : (⟨2, ![64, 2]⟩ : Shape).Idx → EReal) (b : (⟨2, ![1, 2]⟩ : Shape).Idx → EReal) (r : Fin 100000) (c : Fin 2) : EReal :=
  ((∑ k : Fin 64, h (ix2 r k) * w0 (ix2 k c)) + q (ix2 r c)) + b (ix2 (0 : Fin 1) c)

/-- Entry (r, c) of the layer, the propagated rows P projected here with the second weight matrix:
    ((row r of h) . (column c of w0) + (row r of P) . (column c of w1)) + b c. -/
def r3At (h P : (⟨2, ![100000, 64]⟩ : Shape).Idx → EReal) (w0 w1 : (⟨2, ![64, 2]⟩ : Shape).Idx → EReal)
    (b : (⟨2, ![1, 2]⟩ : Shape).Idx → EReal) (r : Fin 100000) (c : Fin 2) : EReal :=
  ((∑ k : Fin 64, h (ix2 r k) * w0 (ix2 k c)) + (∑ k : Fin 64, P (ix2 r k) * w1 (ix2 k c))) + b (ix2 (0 : Fin 1) c)

/-- The projection of the propagated rows onto the two output features: entry (r, c) is (row r of P) . (column c of w1). -/
def proj (P : (⟨2, ![100000, 64]⟩ : Shape).Idx → EReal) (w1 : (⟨2, ![64, 2]⟩ : Shape).Idx → EReal) :
    (⟨2, ![100000, 2]⟩ : Shape).Idx → EReal :=
  fun i => ∑ k : Fin 64, P (ix2 (i 0) k) * w1 (ix2 k (i 1))

/-- The third layer's output array from the second layer's output h, the projected propagated term q, the first weight
    matrix and the bias row. -/
def layer3k (h : (⟨2, ![100000, 64]⟩ : Shape).Idx → EReal) (q : (⟨2, ![100000, 2]⟩ : Shape).Idx → EReal)
    (w0 : (⟨2, ![64, 2]⟩ : Shape).Idx → EReal) (b : (⟨2, ![1, 2]⟩ : Shape).Idx → EReal) : (⟨2, ![100000, 2]⟩ : Shape).Idx → EReal :=
  fun i => k3At h q w0 b (i 0) (i 1)

/-- The third layer's output array from the second layer's output h, the propagated rows P, both weight matrices and the
    bias row. -/
def layer3r (h P : (⟨2, ![100000, 64]⟩ : Shape).Idx → EReal) (w0 w1 : (⟨2, ![64, 2]⟩ : Shape).Idx → EReal)
    (b : (⟨2, ![1, 2]⟩ : Shape).Idx → EReal) : (⟨2, ![100000, 2]⟩ : Shape).Idx → EReal :=
  fun i => r3At h P w0 w1 b (i 0) (i 1)

/-- The arrays at an index given by its two coordinates. -/
theorem layer3k_ix2 (h : (⟨2, ![100000, 64]⟩ : Shape).Idx → EReal) (q : (⟨2, ![100000, 2]⟩ : Shape).Idx → EReal)
    (w0 : (⟨2, ![64, 2]⟩ : Shape).Idx → EReal) (b : (⟨2, ![1, 2]⟩ : Shape).Idx → EReal) (r : Fin 100000) (c : Fin 2) :
    layer3k h q w0 b (ix2 r c) = ((∑ k : Fin 64, h (ix2 r k) * w0 (ix2 k c)) + q (ix2 r c)) + b (ix2 (0 : Fin 1) c) := rfl
theorem layer3r_ix2 (h P : (⟨2, ![100000, 64]⟩ : Shape).Idx → EReal) (w0 w1 : (⟨2, ![64, 2]⟩ : Shape).Idx → EReal)
    (b : (⟨2, ![1, 2]⟩ : Shape).Idx → EReal) (r : Fin 100000) (c : Fin 2) :
    layer3r h P w0 w1 b (ix2 r c)
      = ((∑ k : Fin 64, h (ix2 r k) * w0 (ix2 k c)) + (∑ k : Fin 64, P (ix2 r k) * w1 (ix2 k c))) + b (ix2 (0 : Fin 1) c) := rfl
theorem proj_ix2 (P : (⟨2, ![100000, 64]⟩ : Shape).Idx → EReal) (w1 : (⟨2, ![64, 2]⟩ : Shape).Idx → EReal) (r : Fin 100000) (c : Fin 2) :
    proj P w1 (ix2 r c) = ∑ k : Fin 64, P (ix2 r k) * w1 (ix2 k c) := rfl

/-- Projecting the propagated rows first and handing the result over is the same layer. -/
theorem layer3r_eq_layer3k (h P : (⟨2, ![100000, 64]⟩ : Shape).Idx → EReal) (w0 w1 : (⟨2, ![64, 2]⟩ : Shape).Idx → EReal)
    (b : (⟨2, ![1, 2]⟩ : Shape).Idx → EReal) :
    layer3r h P w0 w1 b = layer3k h (proj P w1) w0 b := by
  funext i
  obtain ⟨r, c, rfl⟩ : ∃ (r : Fin 100000) (c : Fin 2), i = ix2 r c := ⟨i 0, i 1, eq_ix2 i⟩
  rfl

end GNN.Spec3

end
-- ==== Proof.BridgeB0.lean ====
/-
  Preparations for the second half of the comparison of the two programs.

  * Which arrays are arrays of reals: the second layer, the projection, the third layer (projected form) of arrays of
    reals are arrays of reals — every entry is built from entries of the inputs by finitely many sums and products, and
    by the leaky rectifier, which returns its argument or the slope (a real) times it. A slice, a reshape and a
    broadcast only re-index, so they keep arrays of reals.
  * What the program's later boundaries hold in the four weight and bias arguments: the launch contents, since nothing
    writes an argument.
  * The small operands of the second and third layers as the host stretches leave them: slices and reshapes of those
    arguments' launch contents.
-/
import proofs.«171083_j730144440440_2_alg».proof.Proof.KIFrame
import proofs.«171083_j730144440440_2_alg».proof.Proof.KIHostOperands
import proofs.«171083_j730144440440_2_alg».proof.Proof.SpecLayer2
import proofs.«171083_j730144440440_2_alg».proof.Proof.SpecLayer3
import proofs.«171083_j730144440440_2_alg».proof.Proof.SpecProp
import proofs.«171083_j730144440440_2_alg».proof.Proof.SpecReal

set_option maxRecDepth 16384

noncomputable section

open scoped BigOperators

namespace Cert.Proof.BridgeB

open Idealize.ShloMosaic Idealize.ShloMosaic.TcCoe Idealize.SL.Sem Idealize.ShloMosaic.StableHlo
open Idealize.ShloMosaic.ValueIdx
open Cert.KernelIdeal.Hand
open SpecReal (IsReal isReal_add isReal_mul isReal_ite isReal_sum isReal_zero slope_real)

/-! ## Arrays of reals -/

/-- The second layer's rectifier of a real is a real. -/
theorem leaky2_real {z : EReal} (hz : IsReal z) : IsReal (GNN.Spec2.leaky z) := by
  unfold GNN.Spec2.leaky Scalar.select
  exact isReal_ite hz (isReal_mul slope_real hz)

/-- The second layer of arrays of reals is an array of reals. -/
theorem layer2_real (x p : (⟨2, ![100000, 32]⟩ : Shape).Idx → EReal) (w0 w1 : (⟨2, ![32, 64]⟩ : Shape).Idx → EReal)
    (b : (⟨2, ![1, 64]⟩ : Shape).Idx → EReal) (hx : ∀ i, IsReal (x i)) (hp : ∀ i, IsReal (p i))
    (hw0 : ∀ i, IsReal (w0 i)) (hw1 : ∀ i, IsReal (w1 i)) (hb : ∀ i, IsReal (b i))
    (i : (⟨2, ![100000, 64]⟩ : Shape).Idx) : IsReal (GNN.Spec2.layer2 x p w0 w1 b i) := by
  unfold GNN.Spec2.layer2 GNN.Spec2.layer2At
  exact leaky2_real (isReal_add (isReal_add (isReal_sum _ _ fun k _ => isReal_mul (hx _) (hw0 _))
    (isReal_sum _ _ fun k _ => isReal_mul (hp _) (hw1 _))) (hb _))

/-- The projection of an array of reals by a matrix of reals is an array of reals. -/
theorem project_real (h : (⟨2, ![100000, 64]⟩ : Shape).Idx → EReal) (wg : (⟨2, ![64, 2]⟩ : Shape).Idx → EReal)
    (hh : ∀ i, IsReal (h i)) (hw : ∀ i, IsReal (wg i)) (i : (⟨2, ![100000, 2]⟩ : Shape).Idx) :
    IsReal (GNN.Spec2.project h wg i) := by
  unfold GNN.Spec2.project GNN.Spec2.projectAt
  exact isReal_sum _ _ fun k _ => isReal_mul (hh _) (hw _)

/-- The third layer (the propagated term handed over projected) of arrays of reals is an array of reals. -/
theorem layer3k_real (h : (⟨2, ![100000, 64]⟩ : Shape).Idx → EReal) (q : (⟨2, ![100000, 2]⟩ : Shape).Idx → EReal)
    (w0 : (⟨2, ![64, 2]⟩ : Shape).Idx → EReal) (b : (⟨2, ![1, 2]⟩ : Shape).Idx → EReal)
    (hh : ∀ i, IsReal (h i)) (hq : ∀ i, IsReal (q i)) (hw0 : ∀ i, IsReal (w0 i)) (hb : ∀ i, IsReal (b i))
    (i : (⟨2, ![100000, 2]⟩ : Shape).Idx) : IsReal (GNN.Spec3.layer3k h q w0 b i) := by
  unfold GNN.Spec3.layer3k GNN.Spec3.k3At
  exact isReal_add (isReal_add (isReal_sum _ _ fun k _ => isReal_mul (hh _) (hw0 _)) (hq _)) (hb _)

/-- With real edge weights, the propagated table of a table of reals is a table of reals. -/
theorem propagate_real {N E C : Nat} (hN : 0 < N) (lw : (⟨1, ![E]⟩ : Shape).Idx → EReal) (src dst : IVec ⟨1, ![E]⟩ 32)
    (x : (⟨2, ![N, C]⟩ : Shape).Idx → EReal) (hlw : ∀ e, IsReal (lw e)) (hx : ∀ i, IsReal (x i))
    (j : (⟨2, ![N, C]⟩ : Shape).Idx) : IsReal (SpecProp.propagate hN lw src dst x j) := by
  unfold SpecProp.propagate SpecProp.propagateAt
  exact isReal_sum _ _ fun e _ => isReal_ite (isReal_mul (hlw _) (hx _)) isReal_zero

/-- A reshaped slice of an array of reals is an array of reals (the two operations only re-index). -/
theorem slice_reshape_real {s s' t : Shape} (f : s.Idx → EReal) (off : Fin s.rank → Nat) (hs : s.Slices off s')
    (hc : s'.ShapeCasts t) (hf : ∀ i, IsReal (f i)) (j : t.Idx) :
    IsReal (shapeCast t (extractStridedSlice s' off f hs) hc j) := by
  unfold shapeCast extractStridedSlice
  exact hf _

/-- A reshape of an array of reals is an array of reals. -/
theorem reshape_real {s t : Shape} (f : s.Idx → EReal) (hc : s.ShapeCasts t) (hf : ∀ i, IsReal (f i)) (j : t.Idx) :
    IsReal (shapeCast t f hc j) := by
  unfold shapeCast
  exact hf _

/-! ## The weight and bias arguments at the program's later boundaries -/

variable (m : (ℓ : Loc Cert.KernelIdeal.nD Cert.KernelIdeal.τ Cert.KernelIdeal.sig) → Buf (Elt Ideal) ℓ)

/-- No host stretch and no region before the second region's end writes an argument: each of the four weight and
    bias arguments is, at the boundary after the first region, what the launch put there. -/
theorem k4_arg5 (c : Dev Cert.KernelIdeal.nD) : W4 m c (Proc.devRef .tc Cert.KernelIdeal.main_arg5) = m ((c.tc : Thread Cert.KernelIdeal.nD Cert.KernelIdeal.τ).loc Cert.KernelIdeal.main_arg5) :=
  (W4_of_ne m c Cert.KernelIdeal.main_arg5 (by decide)).trans ((W3_of m c Cert.KernelIdeal.main_arg5 (by decide)).trans ((W2_of m c Cert.KernelIdeal.main_arg5 (by decide)).trans (W1_of m c Cert.KernelIdeal.main_arg5 (by decide))))
theorem k4_arg6 (c : Dev Cert.KernelIdeal.nD) : W4 m c (Proc.devRef .tc Cert.KernelIdeal.main_arg6) = m ((c.tc : Thread Cert.KernelIdeal.nD Cert.KernelIdeal.τ).loc Cert.KernelIdeal.main_arg6) :=
  (W4_of_ne m c Cert.KernelIdeal.main_arg6 (by decide)).trans ((W3_of m c Cert.KernelIdeal.main_arg6 (by decide)).trans ((W2_of m c Cert.KernelIdeal.main_arg6 (by decide)).trans (W1_of m c Cert.KernelIdeal.main_arg6 (by decide))))
theorem k4_arg7 (c : Dev Cert.KernelIdeal.nD) : W4 m c (Proc.devRef .tc Cert.KernelIdeal.main_arg7) = m ((c.tc : Thread Cert.KernelIdeal.nD Cert.KernelIdeal.τ).loc Cert.KernelIdeal.main_arg7) :=
  (W4_of_ne m c Cert.KernelIdeal.main_arg7 (by decide)).trans ((W3_of m c Cert.KernelIdeal.main_arg7 (by decide)).trans ((W2_of m c Cert.KernelIdeal.main_arg7 (by decide)).trans (W1_of m c Cert.KernelIdeal.main_arg7 (by decide))))
theorem k4_arg8 (c : Dev Cert.KernelIdeal.nD) : W4 m c (Proc.devRef .tc Cert.KernelIdeal.main_arg8) = m ((c.tc : Thread Cert.KernelIdeal.nD Cert.KernelIdeal.τ).loc Cert.KernelIdeal.main_arg8) :=
  (W4_of_ne m c Cert.KernelIdeal.main_arg8 (by decide)).trans ((W3_of m c Cert.KernelIdeal.main_arg8 (by decide)).trans ((W2_of m c Cert.KernelIdeal.main_arg8 (by decide)).trans (W1_of m c Cert.KernelIdeal.main_arg8 (by decide))))
/-- And at the boundary after the second region. -/
theorem k6_arg7 (c : Dev Cert.KernelIdeal.nD) : W6 m c (Proc.devRef .tc Cert.KernelIdeal.main_arg7) = m ((c.tc : Thread Cert.KernelIdeal.nD Cert.KernelIdeal.τ).loc Cert.KernelIdeal.main_arg7) :=
  (W6_of_ne m c Cert.KernelIdeal.main_arg7 (by decide)).trans ((W5_of m c Cert.KernelIdeal.main_arg7 (by decide)).trans (k4_arg7 m c))
theorem k6_arg8 (c : Dev Cert.KernelIdeal.nD) : W6 m c (Proc.devRef .tc Cert.KernelIdeal.main_arg8) = m ((c.tc : Thread Cert.KernelIdeal.nD Cert.KernelIdeal.τ).loc Cert.KernelIdeal.main_arg8) :=
  (W6_of_ne m c Cert.KernelIdeal.main_arg8 (by decide)).trans ((W5_of m c Cert.KernelIdeal.main_arg8 (by decide)).trans (k4_arg8 m c))

/-! ## The small operands of the second and third layers -/

/-- The second layer's first weight matrix: slice 0 of the stacked weights as launched, reshaped. -/
theorem k5_v59 (c : Dev Cert.KernelIdeal.nD) : W5 m c (Proc.devRef .tc Cert.KernelIdeal.main_v59)
    = shapeCast Cert.KernelIdeal.S32x64 (extractStridedSlice Cert.KernelIdeal.S1x32x64 ![0, 0, 0] (m ((c.tc : Thread Cert.KernelIdeal.nD Cert.KernelIdeal.τ).loc Cert.KernelIdeal.main_arg5)) Cert.KernelIdeal.Gen.slices_S2x32x64_S1x32x64_0_0_0) Cert.KernelIdeal.Gen.shapeCasts_S1x32x64_S32x64 := by
  unfold W5; rw [hostOps1_v59, k4_arg5]
/-- The second layer's second weight matrix: slice 1, reshaped. -/
theorem k5_v61 (c : Dev Cert.KernelIdeal.nD) : W5 m c (Proc.devRef .tc Cert.KernelIdeal.main_v61)
    = shapeCast Cert.KernelIdeal.S32x64 (extractStridedSlice Cert.KernelIdeal.S1x32x64 ![1, 0, 0] (m ((c.tc : Thread Cert.KernelIdeal.nD Cert.KernelIdeal.τ).loc Cert.KernelIdeal.main_arg5)) Cert.KernelIdeal.Gen.slices_S2x32x64_S1x32x64_1_0_0) Cert.KernelIdeal.Gen.shapeCasts_S1x32x64_S32x64 := by
  unfold W5; rw [hostOps1_v61, k4_arg5]
/-- The matrix that projects ahead of the third layer's message passing: slice 1 of the third stacked weights, reshaped. -/
theorem k5_v63 (c : Dev Cert.KernelIdeal.nD) : W5 m c (Proc.devRef .tc Cert.KernelIdeal.main_v63)
    = shapeCast Cert.KernelIdeal.S64x2 (extractStridedSlice Cert.KernelIdeal.S1x64x2 ![1, 0, 0] (m ((c.tc : Thread Cert.KernelIdeal.nD Cert.KernelIdeal.τ).loc Cert.KernelIdeal.main_arg7)) Cert.KernelIdeal.Gen.slices_S2x64x2_S1x64x2_1_0_0) Cert.KernelIdeal.Gen.shapeCasts_S1x64x2_S64x2 := by
  unfold W5; rw [hostOps1_v63, k4_arg7]
/-- The second layer's bias as a row. -/
theorem k5_v64 (c : Dev Cert.KernelIdeal.nD) : W5 m c (Proc.devRef .tc Cert.KernelIdeal.main_v64)
    = shapeCast Cert.KernelIdeal.S1x64 (m ((c.tc : Thread Cert.KernelIdeal.nD Cert.KernelIdeal.τ).loc Cert.KernelIdeal.main_arg6)) Cert.KernelIdeal.Gen.shapeCasts_S64_S1x64 := by
  unfold W5; rw [hostOps1_v64, k4_arg6]
/-- The third layer's first weight matrix: slice 0 of the third stacked weights, reshaped. -/
theorem k7_v85 (c : Dev Cert.KernelIdeal.nD) : W7 m c (Proc.devRef .tc Cert.KernelIdeal.main_v85)
    = shapeCast Cert.KernelIdeal.S64x2 (extractStridedSlice Cert.KernelIdeal.S1x64x2 ![0, 0, 0] (m ((c.tc : Thread Cert.KernelIdeal.nD Cert.KernelIdeal.τ).loc Cert.KernelIdeal.main_arg7)) Cert.KernelIdeal.Gen.slices_S2x64x2_S1x64x2_0_0_0) Cert.KernelIdeal.Gen.shapeCasts_S1x64x2_S64x2 := by
  unfold W7; rw [hostOps2_v85, k6_arg7]
/-- The third layer's bias as a row. -/
theorem k7_v86 (c : Dev Cert.KernelIdeal.nD) : W7 m c (Proc.devRef .tc Cert.KernelIdeal.main_v86)
    = shapeCast Cert.KernelIdeal.S1x2 (m ((c.tc : Thread Cert.KernelIdeal.nD Cert.KernelIdeal.τ).loc Cert.KernelIdeal.main_arg8)) Cert.KernelIdeal.Gen.shapeCasts_S2_S1x2 := by
  unfold W7; rw [hostOps2_v86, k6_arg8]

end Cert.Proof.BridgeB
-- ==== Proof.KIValue1Pay.lean ====
/- The second layer's body at an index. At the extended reals a change of float format is the identity and a product
   into a zero accumulator is the plain inner product, so the value the body stores at row p, column q of its first
   output block is the leaky rectifier of (row p of the loaded first-layer block) · (column q of the first loaded weight
   matrix) + (row p of the loaded propagated block) · (column q of the second) + entry q of the loaded bias row, in that
   association; and the value it stores at (p, q) of its second output block is the inner product, over the 64 features,
   of row p of the first output block with column q of the loaded projection matrix. -/
import proofs.«171083_j730144440440_2_alg».proof.Proof.Gen.KernelIdeal.Skeleton
import proofs.«171083_j730144440440_2_alg».proof.Proof.SpecLayer2
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-- The body's value before the rectifier: the two products into zero accumulators, summed, plus the broadcast bias row. -/
def l2_pre (x0 x1 : Vec Ideal S5000x32 .bf16) (x2 x3 : Vec Ideal S32x64 .f32) (x4 : Vec Ideal S1x64 .f32) : FVec Ideal S5000x64 .f32 :=
  addf
    (addf
      (matmul dot_S5000x32_S32x64_S5000x64_1_0_0_1_n_n none (shapeCast S5000x32 x0 shapeCasts_S5000x32_S5000x32 : FVec Ideal S5000x32 .bf16)
        (truncf .bf16 (shapeCast S32x64 x2 shapeCasts_S32x64_S32x64) bitsLt_bf16_f32) (constant S5000x64 .f32 0x00000000#32))
      (matmul dot_S5000x32_S32x64_S5000x64_1_0_0_1_n_n none (shapeCast S5000x32 x1 shapeCasts_S5000x32_S5000x32 : FVec Ideal S5000x32 .bf16)
        (truncf .bf16 (shapeCast S32x64 x3 shapeCasts_S32x64_S32x64) bitsLt_bf16_f32) (constant S5000x64 .f32 0x00000000#32)))
    (broadcastTo S5000x64 (shapeCast S1x64 (shapeCast S1x64 x4 shapeCasts_S1x64_S1x64) shapeCasts_S1x64_S1x64) broadcasts_S1x64_S5000x64)

/-- The value both stores start from is the rectifier of that, entry by entry: comparison, product by the slope and
    choice are pointwise. -/
theorem l2_pay1_eq_leaky (x0 x1 : Vec Ideal S5000x32 .bf16) (x2 x3 : Vec Ideal S32x64 .f32) (x4 : Vec Ideal S1x64 .f32) (j : S5000x64.Idx) :
    (k1_pay1 (F := Ideal) x0 x1 x2 x3 x4 : S5000x64.Idx → EReal) j = GNN.Spec2.leaky (l2_pre x0 x1 x2 x3 x4 j) := rfl

/-- The first stored value is that one: the change of format is the identity. -/
theorem l2_pay2_eq_pay1 (x0 x1 : Vec Ideal S5000x32 .bf16) (x2 x3 : Vec Ideal S32x64 .f32) (x4 : Vec Ideal S1x64 .f32) (j : S5000x64.Idx) :
    (k1_pay2 (F := Ideal) x0 x1 x2 x3 x4 : S5000x64.Idx → EReal) j = (k1_pay1 (F := Ideal) x0 x1 x2 x3 x4 : S5000x64.Idx → EReal) j := rfl

/-! ## The 5000 x 32 by 32 x 64 product -/

/-- The left operand's index at output index i and contraction index k: row from i, column from k. -/
theorem l2_lhs_0 (i : S5000x64.Idx) (k : dot_S5000x32_S32x64_S5000x64_1_0_0_1_n_n.contr.Idx) :
    (dot_S5000x32_S32x64_S5000x64_1_0_0_1_n_n.lhsIdx i k 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl
theorem l2_lhs_1 (i : S5000x64.Idx) (k : dot_S5000x32_S32x64_S5000x64_1_0_0_1_n_n.contr.Idx) :
    (dot_S5000x32_S32x64_S5000x64_1_0_0_1_n_n.lhsIdx i k 1).val = (k ⟨0, by decide⟩).val :=
  dot_S5000x32_S32x64_S5000x64_1_0_0_1_n_n.lhsIdx_val_of_single rfl i k
/-- The right operand's: row from k, column from i. -/
theorem l2_rhs_0 (i : S5000x64.Idx) (k : dot_S5000x32_S32x64_S5000x64_1_0_0_1_n_n.contr.Idx) :
    (dot_S5000x32_S32x64_S5000x64_1_0_0_1_n_n.rhsIdx i k 0).val = (k ⟨0, by decide⟩).val :=
  dot_S5000x32_S32x64_S5000x64_1_0_0_1_n_n.rhsIdx_val_of_single rfl i k
theorem l2_rhs_1 (i : S5000x64.Idx) (k : dot_S5000x32_S32x64_S5000x64_1_0_0_1_n_n.contr.Idx) :
    (dot_S5000x32_S32x64_S5000x64_1_0_0_1_n_n.rhsIdx i k 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- The product into the zero accumulator, at (p, q): the inner product of row p and column q over the 32 features. -/
theorem l2_mm_apply (a : FVec Ideal S5000x32 .bf16) (b : FVec Ideal S32x64 .bf16) (p : Fin 5000) (q : Fin 64) :
    matmul dot_S5000x32_S32x64_S5000x64_1_0_0_1_n_n none a b (constant S5000x64 .f32 0x00000000#32) (ix2 p q)
      = ∑ k : Fin 32, a (ix2 p k) * b (ix2 k q) := by
  simp only [matmul]
  rw [Ideal.matmul_constant_zero_apply,
    ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun ax => Fin.ext (by
      match ax with
      | ⟨0, _⟩ => exact l2_lhs_0 _ _
      | ⟨1, _⟩ => exact (l2_lhs_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun ax => Fin.ext (by
      match ax with
      | ⟨0, _⟩ => exact (l2_rhs_0 _ _).trans hk
      | ⟨1, _⟩ => exact l2_rhs_1 _ _)
  rw [el, er]

/-- The value before the rectifier at (p, q). -/
theorem l2_pre_apply (x0 x1 : Vec Ideal S5000x32 .bf16) (x2 x3 : Vec Ideal S32x64 .f32) (x4 : Vec Ideal S1x64 .f32) (p : Fin 5000) (q : Fin 64) :
    l2_pre x0 x1 x2 x3 x4 (ix2 p q)
      = (∑ k : Fin 32, (x0 : S5000x32.Idx → EReal) (ix2 p k) * (x2 : S32x64.Idx → EReal) (ix2 k q))
        + (∑ k : Fin 32, (x1 : S5000x32.Idx → EReal) (ix2 p k) * (x3 : S32x64.Idx → EReal) (ix2 k q))
        + (x4 : S1x64.Idx → EReal) (ix2 (0 : Fin 1) q) := by
  unfold l2_pre
  rw [addf_apply, addf_apply, l2_mm_apply, l2_mm_apply, shapeCast_self, shapeCast_self, shapeCast_self, shapeCast_self,
    shapeCast_self, shapeCast_self, broadcastTo_1b_ab_apply]
  rfl

/-- The rectified value at (p, q), over the loaded blocks. -/
theorem l2_pay1_apply (x0 x1 : Vec Ideal S5000x32 .bf16) (x2 x3 : Vec Ideal S32x64 .f32) (x4 : Vec Ideal S1x64 .f32) (p : Fin 5000) (q : Fin 64) :
    (k1_pay1 (F := Ideal) x0 x1 x2 x3 x4 : S5000x64.Idx → EReal) (ix2 p q)
      = GNN.Spec2.leaky ((∑ k : Fin 32, (x0 : S5000x32.Idx → EReal) (ix2 p k) * (x2 : S32x64.Idx → EReal) (ix2 k q))
        + (∑ k : Fin 32, (x1 : S5000x32.Idx → EReal) (ix2 p k) * (x3 : S32x64.Idx → EReal) (ix2 k q))
        + (x4 : S1x64.Idx → EReal) (ix2 (0 : Fin 1) q)) := by
  rw [l2_pay1_eq_leaky, l2_pre_apply]

/-- THE FIRST STORED VALUE AT (p, q): the second layer's entry over the loaded blocks. -/
theorem l2_pay2_apply (x0 x1 : Vec Ideal S5000x32 .bf16) (x2 x3 : Vec Ideal S32x64 .f32) (x4 : Vec Ideal S1x64 .f32) (p : Fin 5000) (q : Fin 64) :
    (k1_pay2 (F := Ideal) x0 x1 x2 x3 x4 : S5000x64.Idx → EReal) (ix2 p q)
      = GNN.Spec2.leaky ((∑ k : Fin 32, (x0 : S5000x32.Idx → EReal) (ix2 p k) * (x2 : S32x64.Idx → EReal) (ix2 k q))
        + (∑ k : Fin 32, (x1 : S5000x32.Idx → EReal) (ix2 p k) * (x3 : S32x64.Idx → EReal) (ix2 k q))
        + (x4 : S1x64.Idx → EReal) (ix2 (0 : Fin 1) q)) := by
  rw [l2_pay2_eq_pay1, l2_pay1_apply]

/-! ## The 5000 x 64 by 64 x 2 product -/

theorem l2g_lhs_0 (i : S5000x2.Idx) (k : dot_S5000x64_S64x2_S5000x2_1_0_0_1_n_n.contr.Idx) :
    (dot_S5000x64_S64x2_S5000x2_1_0_0_1_n_n.lhsIdx i k 0).val = (i 0).val := by
  unfold DotDims.lhsIdx
  rw [dif_neg (show ¬(0 : Fin S5000x64.rank) ∈ dot_S5000x64_S64x2_S5000x2_1_0_0_1_n_n.lhsBatch by decide),
    dif_pos (show (0 : Fin S5000x64.rank) ∈ dot_S5000x64_S64x2_S5000x2_1_0_0_1_n_n.lhsNonContracting by decide)]
  rfl
theorem l2g_lhs_1 (i : S5000x2.Idx) (k : dot_S5000x64_S64x2_S5000x2_1_0_0_1_n_n.contr.Idx) :
    (dot_S5000x64_S64x2_S5000x2_1_0_0_1_n_n.lhsIdx i k 1).val = (k ⟨0, by decide⟩).val :=
  dot_S5000x64_S64x2_S5000x2_1_0_0_1_n_n.lhsIdx_val_of_single rfl i k
theorem l2g_rhs_0 (i : S5000x2.Idx) (k : dot_S5000x64_S64x2_S5000x2_1_0_0_1_n_n.contr.Idx) :
    (dot_S5000x64_S64x2_S5000x2_1_0_0_1_n_n.rhsIdx i k 0).val = (k ⟨0, by decide⟩).val :=
  dot_S5000x64_S64x2_S5000x2_1_0_0_1_n_n.rhsIdx_val_of_single rfl i k
theorem l2g_rhs_1 (i : S5000x2.Idx) (k : dot_S5000x64_S64x2_S5000x2_1_0_0_1_n_n.contr.Idx) :
    (dot_S5000x64_S64x2_S5000x2_1_0_0_1_n_n.rhsIdx i k 1).val = (i 1).val := by
  unfold DotDims.rhsIdx
  rw [dif_neg (show ¬(1 : Fin S64x2.rank) ∈ dot_S5000x64_S64x2_S5000x2_1_0_0_1_n_n.rhsBatch by decide),
    dif_pos (show (1 : Fin S64x2.rank) ∈ dot_S5000x64_S64x2_S5000x2_1_0_0_1_n_n.rhsNonContracting by decide)]
  rfl

/-- The product into the zero accumulator, at (p, q): the inner product of row p and column q over the 64 features. -/
theorem l2g_mm_apply (a : FVec Ideal S5000x64 .bf16) (b : FVec Ideal S64x2 .bf16) (p : Fin 5000) (q : Fin 2) :
    matmul dot_S5000x64_S64x2_S5000x2_1_0_0_1_n_n none a b (constant S5000x2 .f32 0x00000000#32) (ix2 p q)
      = ∑ k : Fin 64, a (ix2 p k) * b (ix2 k q) := by
  simp only [matmul]
  rw [Ideal.matmul_constant_zero_apply,
    ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k :=
    funext fun ax => Fin.ext (by
      match ax with
      | ⟨0, _⟩ => exact l2g_lhs_0 _ _
      | ⟨1, _⟩ => exact (l2g_lhs_1 _ _).trans hk)
  have er : dot_S5000x64_S64x2_S5000x2_1_0_0_1_n_n.rhsIdx (ix2 p q) ((contrEquiv1 dot_S5000x64_S64x2_S5000x2_1_0_0_1_n_n 64 rfl rfl).symm k) = ix2 k q :=
    funext fun ax => Fin.ext (by
      match ax with
      | ⟨0, _⟩ => exact (l2g_rhs_0 _ _).trans hk
      | ⟨1, _⟩ => exact l2g_rhs_1 _ _)
  rw [el, er]

/-- The second stored value is the product of the first stored value (the rectified block, its format changed, which is
    the identity) with the loaded projection matrix into a zero accumulator. -/
theorem l2_pay3_eq_mm (x0 x1 : Vec Ideal S5000x32 .bf16) (x2 x3 : Vec Ideal S32x64 .f32) (x4 : Vec Ideal S1x64 .f32) (x5 : Vec Ideal S64x2 .f32) :
    k1_pay3 (F := Ideal) x0 x1 x2 x3 x4 x5
      = matmul dot_S5000x64_S64x2_S5000x2_1_0_0_1_n_n none (truncf .bf16 (k1_pay1 (F := Ideal) x0 x1 x2 x3 x4) bitsLt_bf16_f32)
          (truncf .bf16 (shapeCast S64x2 x5 shapeCasts_S64x2_S64x2) bitsLt_bf16_f32) (constant S5000x2 .f32 0x00000000#32) := rfl

/-- THE SECOND STORED VALUE AT (p, q): the inner product, over the 64 features, of row p of the first stored value with
    column q of the loaded projection matrix. -/
theorem l2_pay3_apply (x0 x1 : Vec Ideal S5000x32 .bf16) (x2 x3 : Vec Ideal S32x64 .f32) (x4 : Vec Ideal S1x64 .f32) (x5 : Vec Ideal S64x2 .f32) (p : Fin 5000) (q : Fin 2) :
    (k1_pay3 (F := Ideal) x0 x1 x2 x3 x4 x5 : S5000x2.Idx → EReal) (ix2 p q)
      = ∑ k : Fin 64, (k1_pay2 (F := Ideal) x0 x1 x2 x3 x4 : S5000x64.Idx → EReal) (ix2 p k) * (x5 : S64x2.Idx → EReal) (ix2 k q) := by
  rw [l2_pay3_eq_mm]
  refine (l2g_mm_apply _ _ p q).trans ?_
  refine Finset.sum_congr rfl fun k _ => ?_
  rw [shapeCast_self]
  rfl

end Cert.KernelIdeal.Hand

end
-- ==== Proof.KIValue1.lean ====
/- The second layer's region, read as two arrays. At grid point t the body finds rows [5000 t, 5000 t + 5000) of the first
   layer's output and of its propagation, the two whole 32 x 64 weight matrices, the whole bias row and the whole 64 x 2
   projection matrix, and stores over those blocks the second layer's entries and their projection; the point's blocks of
   the two outputs are rows [5000 t, 5000 t + 5000) too, so what it writes back are those blocks of the layer's output
   array and of its projection. Row r of either output is covered by point r / 5000, every point writes both back: the
   arrays end holding the layer's output, and its projection, of the six arrays as the region finds them. -/
import proofs.«171083_j730144440440_2_alg».proof.Proof.KIRegion1
import proofs.«171083_j730144440440_2_alg».proof.Proof.KIValue1Pay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem l2_hz : (![0, 0] : Fin 2 → Nat) = fun _ => 0 := funext fun a => by fin_cases a <;> rfl

/-- The printed index maps over the grid: the blocks of the two row-blocked inputs and of the two outputs move down with
    the point, the weights', the bias row's and the projection's stay. -/
theorem l2_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The layer over blocks is the layer over the arrays, T blocks of 5000 rows down: an entry of the first stored block,
    given which rows of their arrays the two loaded row blocks are and that the other three blocks are their arrays. -/
theorem l2_block_h2 (X P : S100000x32.Idx → EReal) (W0 W1 : S32x64.Idx → EReal) (B : S1x64.Idx → EReal)
    (x0 x1 : Vec Ideal S5000x32 .bf16) (x2 x3 : Vec Ideal S32x64 .f32) (x4 : Vec Ideal S1x64 .f32)
    (j : S5000x64.Idx) (i : S100000x64.Idx) (T : Nat)
    (hi0 : (i 0).val = T * 5000 + (j 0).val) (hi1 : (i 1).val = (j 1).val)
    (h0 : ∀ (y : S5000x32.Idx) (z : S100000x32.Idx), (z 0).val = T * 5000 + (y 0).val → (z 1).val = (y 1).val → x0 y = X z)
    (h1 : ∀ (y : S5000x32.Idx) (z : S100000x32.Idx), (z 0).val = T * 5000 + (y 0).val → (z 1).val = (y 1).val → x1 y = P z)
    (h2 : x2 = W0) (h3 : x3 = W1) (h4 : x4 = B) :
    (k1_pay2 (F := Ideal) x0 x1 x2 x3 x4 : S5000x64.Idx → EReal) j = GNN.Spec2.layer2 X P W0 W1 B i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  rw [l2_pay2_apply, GNN.Spec2.layer2_ix2]
  subst h2; subst h3; subst h4
  unfold GNN.Spec2.layer2At
  refine congrArg GNN.Spec2.leaky (congrArg (· + _) (congrArg₂ (· + ·) (Finset.sum_congr rfl fun k _ => ?_) (Finset.sum_congr rfl fun k _ => ?_)))
  · exact congrArg (· * _) (h0 (ix2 p k) (ix2 r k) hi0 rfl)
  · exact congrArg (· * _) (h1 (ix2 p k) (ix2 r k) hi0 rfl)

/-- The projection over blocks is the projection over the arrays: an entry of the second stored block is the inner
    product of a row of the first stored block, which is a row of the layer's output array, with a column of the
    projection matrix. -/
theorem l2_block_g (X P : S100000x32.Idx → EReal) (W0 W1 : S32x64.Idx → EReal) (B : S1x64.Idx → EReal) (WG : S64x2.Idx → EReal)
    (x0 x1 : Vec Ideal S5000x32 .bf16) (x2 x3 : Vec Ideal S32x64 .f32) (x4 : Vec Ideal S1x64 .f32) (x5 : Vec Ideal S64x2 .f32)
    (j : S5000x2.Idx) (i : S100000x2.Idx) (T : Nat)
    (hi0 : (i 0).val = T * 5000 + (j 0).val) (hi1 : (i 1).val = (j 1).val)
    (h0 : ∀ (y : S5000x32.Idx) (z : S100000x32.Idx), (z 0).val = T * 5000 + (y 0).val → (z 1).val = (y 1).val → x0 y = X z)
    (h1 : ∀ (y : S5000x32.Idx) (z : S100000x32.Idx), (z 0).val = T * 5000 + (y 0).val → (z 1).val = (y 1).val → x1 y = P z)
    (h2 : x2 = W0) (h3 : x3 = W1) (h4 : x4 = B) (h5 : x5 = WG) :
    (k1_pay3 (F := Ideal) x0 x1 x2 x3 x4 x5 : S5000x2.Idx → EReal) j = GNN.Spec2.project (GNN.Spec2.layer2 X P W0 W1 B) WG i := by
  obtain ⟨p, q, rfl⟩ : ∃ (p : Fin 5000) (q : Fin 2), j = ix2 p q := ⟨j 0, j 1, eq_ix2 j⟩
  obtain ⟨r, q', rfl⟩ : ∃ (r : Fin 100000) (q' : Fin 2), i = ix2 r q' := ⟨i 0, i 1, eq_ix2 i⟩
  have hq : q' = q := Fin.ext hi1
  subst hq
  rw [l2_pay3_apply, GNN.Spec2.project_ix2]
  subst h5
  unfold GNN.Spec2.projectAt
  refine Finset.sum_congr rfl fun k _ => ?_
  exact congrArg (· * _) (l2_block_h2 X P W0 W1 B x0 x1 x2 x3 x4 (ix2 p k) (ix2 r k) T hi0 rfl h0 h1 h2 h3 h4)

/-! ## The six input blocks at a point, read off their arrays -/

/-- The first layer's block at point t is rows [5000 t, 5000 t + 5000) of its array. -/
theorem l2_read0 (c : Dev nD) (t : Fin cfg1.N) (y : S5000x32.Idx) (z : S100000x32.Idx)
    (hz0 : (z 0).val = t.val * 5000 + (y 0).val) (hz1 : (z 1).val = (y 1).val) :
    (iblk1 V c 0 t : S5000x32.Idx → EReal) y = V c main_v37 z := by
  obtain ⟨e00, e01, -⟩ := l2_idx_facts t
  unfold iblk1
  rw [View.read_apply]
  show V c main_v37 (((cfg1.win 0).blk t).view.emb y) = V c main_v37 z
  refine congrArg (V c main_v37) (funext fun a => Fin.ext ?_)
  match a with
  | ⟨0, _⟩ => show win1_0.index t (0 : Fin 2) * 5000 + 1 * (y 0).val = (z 0).val; rw [e00, hz0]; omega
  | ⟨1, _⟩ => show win1_0.index t (1 : Fin 2) * 32 + 1 * (y 1).val = (z 1).val; rw [e01, hz1]; omega

/-- The propagated block at point t is rows [5000 t, 5000 t + 5000) of its array. -/
theorem l2_read1 (c : Dev nD) (t : Fin cfg1.N) (y : S5000x32.Idx) (z : S100000x32.Idx)
    (hz0 : (z 0).val = t.val * 5000 + (y 0).val) (hz1 : (z 1).val = (y 1).val) :
    (iblk1 V c 1 t : S5000x32.Idx → EReal) y = V c main_v57 z := by
  obtain ⟨-, -, e10, e11, -⟩ := l2_idx_facts t
  unfold iblk1
  rw [View.read_apply]
  show V c main_v57 (((cfg1.win 1).blk t).view.emb y) = V c main_v57 z
  refine congrArg (V c main_v57) (funext fun a => Fin.ext ?_)
  match a with
  | ⟨0, _⟩ => show win1_1.index t (0 : Fin 2) * 5000 + 1 * (y 0).val = (z 0).val; rw [e10, hz0]; omega
  | ⟨1, _⟩ => show win1_1.index t (1 : Fin 2) * 32 + 1 * (y 1).val = (z 1).val; rw [e11, hz1]; omega

/-- The first weight matrix's block at any point is the whole matrix. -/
theorem l2_read2 (c : Dev nD) (t : Fin cfg1.N) : (iblk1 V c 2 t : S32x64.Idx → EReal) = V c main_v59 := by
  obtain ⟨-, -, -, -, e20, e21, -⟩ := l2_idx_facts t
  funext y
  unfold iblk1
  rw [View.read_apply]
  show V c main_v59 (((cfg1.win 2).blk t).view.emb y) = V c main_v59 y
  refine congrArg (V c main_v59) (funext fun a => Fin.ext ?_)
  match a with
  | ⟨0, _⟩ => show win1_2.index t (0 : Fin 2) * 32 + 1 * (y 0).val = (y 0).val; rw [e20]; omega
  | ⟨1, _⟩ => show win1_2.index t (1 : Fin 2) * 64 + 1 * (y 1).val = (y 1).val; rw [e21]; omega

/-- The second weight matrix's block at any point is the whole matrix. -/
theorem l2_read3 (c : Dev nD) (t : Fin cfg1.N) : (iblk1 V c 3 t : S32x64.Idx → EReal) = V c main_v61 := by
  obtain ⟨-, -, -, -, -, -, e30, e31, -⟩ := l2_idx_facts t
  funext y
  unfold iblk1
  rw [View.read_apply]
  show V c main_v61 (((cfg1.win 3).blk t).view.emb y) = V c main_v61 y
  refine congrArg (V c main_v61) (funext fun a => Fin.ext ?_)
  match a with
  | ⟨0, _⟩ => show win1_3.index t (0 : Fin 2) * 32 + 1 * (y 0).val = (y 0).val; rw [e30]; omega
  | ⟨1, _⟩ => show win1_3.index t (1 : Fin 2) * 64 + 1 * (y 1).val = (y 1).val; rw [e31]; omega

/-- The bias row's block at any point is the whole row. -/
theorem l2_read4 (c : Dev nD) (t : Fin cfg1.N) : (iblk1 V c 4 t : S1x64.Idx → EReal) = V c main_v64 := by
  obtain ⟨-, -, -, -, -, -, -, -, e40, e41, -⟩ := l2_idx_facts t
  funext y
  unfold iblk1
  rw [View.read_apply]
  show V c main_v64 (((cfg1.win 4).blk t).view.emb y) = V c main_v64 y
  refine congrArg (V c main_v64) (funext fun a => Fin.ext ?_)
  match a with
  | ⟨0, _⟩ => show win1_4.index t (0 : Fin 2) * 1 + 1 * (y 0).val = (y 0).val; rw [e40]; omega
  | ⟨1, _⟩ => show win1_4.index t (1 : Fin 2) * 64 + 1 * (y 1).val = (y 1).val; rw [e41]; omega

/-- The projection matrix's block at any point is the whole matrix. -/
theorem l2_read5 (c : Dev nD) (t : Fin cfg1.N) : (iblk1 V c 5 t : S64x2.Idx → EReal) = V c main_v63 := by
  obtain ⟨-, -, -, -, -, -, -, -, -, -, e50, e51, -⟩ := l2_idx_facts t
  funext y
  unfold iblk1
  rw [View.read_apply]
  show V c main_v63 (((cfg1.win 5).blk t).view.emb y) = V c main_v63 y
  refine congrArg (V c main_v63) (funext fun a => Fin.ext ?_)
  match a with
  | ⟨0, _⟩ => show win1_5.index t (0 : Fin 2) * 64 + 1 * (y 0).val = (y 0).val; rw [e50]; omega
  | ⟨1, _⟩ => show win1_5.index t (1 : Fin 2) * 2 + 1 * (y 1).val = (y 1).val; rw [e51]; omega

/-! ## What a point writes back -/

/-- WHAT POINT t WRITES BACK TO THE LAYER'S OUTPUT is block t of the layer's output array of the arrays as the region
    finds them. -/
theorem l2_flushed6_eq (c : Dev nD) (t : Fin cfg1.N) :
    (dat1 (F := Ideal) V c).flushed 6 t
      = ((cfg1.win 6).blk t).view.read (Elt Ideal)
          (GNN.Spec2.layer2 (V c main_v37) (V c main_v57) (V c main_v59) (V c main_v61) (V c main_v64)) := by
  show (cfg1.win 6).cut (grid1.coords t) ((dat1 V c).after 6 t) = _
  rw [after1_6]
  unfold out1_6
  rw [View.canon_unit_zero l2_hz]
  simp only [View.ld_unit_zero (S := S5000x32) l2_hz, View.ld_unit_zero (S := S32x64) l2_hz, View.ld_unit_zero (S := S1x64) l2_hz]
  obtain ⟨-, -, -, -, -, -, -, -, -, -, -, -, e60, e61, -⟩ := l2_idx_facts t
  funext j
  show (k1_pay2 (F := Ideal) (iblk1 V c 0 t) (iblk1 V c 1 t) (iblk1 V c 2 t) (iblk1 V c 3 t) (iblk1 V c 4 t) : S5000x64.Idx → EReal) j
    = GNN.Spec2.layer2 (V c main_v37) (V c main_v57) (V c main_v59) (V c main_v61) (V c main_v64) (((cfg1.win 6).blk t).view.emb j)
  refine l2_block_h2 (V c main_v37) (V c main_v57) (V c main_v59) (V c main_v61) (V c main_v64)
    (iblk1 V c 0 t) (iblk1 V c 1 t) (iblk1 V c 2 t) (iblk1 V c 3 t) (iblk1 V c 4 t)
    j (((cfg1.win 6).blk t).view.emb j) t.val ?_ ?_ (l2_read0 V c t) (l2_read1 V c t) (l2_read2 V c t) (l2_read3 V c t) (l2_read4 V c t)
  · show win1_6.index t (0 : Fin 2) * 5000 + 1 * (j 0).val = t.val * 5000 + (j 0).val
    rw [e60]; omega
  · show win1_6.index t (1 : Fin 2) * 64 + 1 * (j 1).val = (j 1).val
    rw [e61]; omega

/-- WHAT POINT t WRITES BACK TO THE PROJECTION is block t of the projection of the layer's output array. -/
theorem l2_flushed7_eq (c : Dev nD) (t : Fin cfg1.N) :
    (dat1 (F := Ideal) V c).flushed 7 t
      = ((cfg1.win 7).blk t).view.read (Elt Ideal)
          (GNN.Spec2.project (GNN.Spec2.layer2 (V c main_v37) (V c main_v57) (V c main_v59) (V c main_v61) (V c main_v64)) (V c main_v63)) := by
  show (cfg1.win 7).cut (grid1.coords t) ((dat1 V c).after 7 t) = _
  rw [after1_7]
  unfold out1_7
  rw [View.canon_unit_zero l2_hz]
  simp only [View.ld_unit_zero (S := S5000x32) l2_hz, View.ld_unit_zero (S := S32x64) l2_hz, View.ld_unit_zero (S := S1x64) l2_hz,
    View.ld_unit_zero (S := S64x2) l2_hz]
  obtain ⟨-, -, -, -, -, -, -, -, -, -, -, -, -, -, e70, e71⟩ := l2_idx_facts t
  funext j
  show (k1_pay3 (F := Ideal) (iblk1 V c 0 t) (iblk1 V c 1 t) (iblk1 V c 2 t) (iblk1 V c 3 t) (iblk1 V c 4 t) (iblk1 V c 5 t) : S5000x2.Idx → EReal) j
    = GNN.Spec2.project (GNN.Spec2.layer2 (V c main_v37) (V c main_v57) (V c main_v59) (V c main_v61) (V c main_v64)) (V c main_v63)
        (((cfg1.win 7).blk t).view.emb j)
  refine l2_block_g (V c main_v37) (V c main_v57) (V c main_v59) (V c main_v61) (V c main_v64) (V c main_v63)
    (iblk1 V c 0 t) (iblk1 V c 1 t) (iblk1 V c 2 t) (iblk1 V c 3 t) (iblk1 V c 4 t) (iblk1 V c 5 t)
    j (((cfg1.win 7).blk t).view.emb j) t.val ?_ ?_ (l2_read0 V c t) (l2_read1 V c t) (l2_read2 V c t) (l2_read3 V c t) (l2_read4 V c t) (l2_read5 V c t)
  · show win1_7.index t (0 : Fin 2) * 5000 + 1 * (j 0).val = t.val * 5000 + (j 0).val
    rw [e70]; omega
  · show win1_7.index t (1 : Fin 2) * 2 + 1 * (j 1).val = (j 1).val
    rw [e71]; omega

/-! ## The cover -/

/-- An index of the layer's output array is in point t's block iff each coordinate is in the block's range on its axis. -/
theorem l2_mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v65_0).slice (win1_6.rect t)).set ↔ _
  rw [View.set_slice_whole, Rect.mem_set_unit]
  exact Iff.rfl

/-- An index of the projection array is in point t's block iff each coordinate is in the block's range on its axis. -/
theorem l2_mem_blk7 (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v65_1).slice (win1_7.rect t)).set ↔ _
  rw [View.set_slice_whole, Rect.mem_set_unit]
  exact Iff.rfl

/-- Every index of the layer's output array is in the block of a point that writes back: row r in point r / 5000's. -/
theorem l2_cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, -, -, e60, e61, -⟩ := l2_idx_facts t
  refine ⟨t, flush1_6 t, ?_⟩
  rw [l2_mem_blk6]
  intro a
  match a with
  | ⟨0, _⟩ => show win1_6.index t (0 : Fin 2) * 5000 ≤ (i 0).val ∧ (i 0).val < win1_6.index t (0 : Fin 2) * 5000 + 5000; rw [e60, ht]; omega
  | ⟨1, _⟩ => show win1_6.index t (1 : Fin 2) * 64 ≤ (i 1).val ∧ (i 1).val < win1_6.index t (1 : Fin 2) * 64 + 64; rw [e61]; omega

/-- Every index of the projection array is in the block of a point that writes back: row r in point r / 5000's. -/
theorem l2_cover7 (i : S100000x2.Idx) : ∃ t : Fin cfg1.N, (cfg1.win 7).flush t = true ∧ i ∈ ((cfg1.win 7).blk t).view.set := by
  have hi0 : (i 0).val < 100000 := (i 0).isLt
  have hi1 : (i 1).val < 2 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, -, -, -, -, e70, e71⟩ := l2_idx_facts t
  refine ⟨t, flush1_7 t, ?_⟩
  rw [l2_mem_blk7]
  intro a
  match a with
  | ⟨0, _⟩ => show win1_7.index t (0 : Fin 2) * 5000 ≤ (i 0).val ∧ (i 0).val < win1_7.index t (0 : Fin 2) * 5000 + 5000; rw [e70, ht]; omega
  | ⟨1, _⟩ => show win1_7.index t (1 : Fin 2) * 2 ≤ (i 1).val ∧ (i 1).val < win1_7.index t (1 : Fin 2) * 2 + 2; rw [e71]; omega

/-! ## The two arrays after the region -/

/-- THE LAYER'S OUTPUT ARRAY after the region is the second layer's output of the five arrays as the region finds them. -/
theorem region1_value_h2 (c : Dev nD) :
    (dat1 (F := Ideal) V c).arrAt 6 cfg1.N
      = GNN.Spec2.layer2 (V c main_v37) (V c main_v57) (V c main_v59) (V c main_v61) (V c main_v64) :=
  (dat1 V c).arrAt_eq_of_cover 6 (GNN.Spec2.layer2 (V c main_v37) (V c main_v57) (V c main_v59) (V c main_v61) (V c main_v64))
    (fun t _ => l2_flushed6_eq V c t) l2_cover6

/-- THE PROJECTION ARRAY after the region is the projection, by the sixth array, of that layer's output. -/
theorem region1_value_g (c : Dev nD) :
    (dat1 (F := Ideal) V c).arrAt 7 cfg1.N
      = GNN.Spec2.project (GNN.Spec2.layer2 (V c main_v37) (V c main_v57) (V c main_v59) (V c main_v61) (V c main_v64)) (V c main_v63) :=
  (dat1 V c).arrAt_eq_of_cover 7
    (GNN.Spec2.project (GNN.Spec2.layer2 (V c main_v37) (V c main_v57) (V c main_v59) (V c main_v61) (V c main_v64)) (V c main_v63))
    (fun t _ => l2_flushed7_eq V c t) l2_cover7

end Cert.KernelIdeal.Hand

end
-- ==== Proof.KIValue2Pay.lean ====
/- The third layer's body at an index. At the extended reals a change of float format is the identity and a product
   into a zero accumulator is the plain inner product, so the value the body stores at row p, column c of its block is
   (row p of the loaded second-layer block) . (column c of the loaded weights), plus entry (p, c) of the loaded block of
   the propagated projection, plus entry c of the loaded bias row, the two sums associated in that order. -/
import proofs.«171083_j730144440440_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-- The body's stored value as one term of its four loads: the product into the zero accumulator, plus the propagated
    block, plus the broadcast bias row. -/
def val2 (h : Vec Ideal S10000x64 .bf16) (w : Vec Ideal S64x2 .f32) (q : Vec Ideal S10000x2 .f32) (b : Vec Ideal S1x2 .f32) : FVec Ideal S10000x2 .f32 :=
  addf (addf (matmul dot_S10000x64_S64x2_S10000x2_1_0_0_1_n_n none (shapeCast S10000x64 h shapeCasts_S10000x64_S10000x64 : FVec Ideal S10000x64 .bf16)
        (truncf .bf16 (shapeCast S64x2 w shapeCasts_S64x2_S64x2) bitsLt_bf16_f32) (constant S10000x2 .f32 0x00000000#32))
      (shapeCast S10000x2 q shapeCasts_S10000x2_S10000x2))
    (broadcastTo S10000x2 (shapeCast S1x2 (shapeCast S1x2 b shapeCasts_S1x2_S1x2) shapeCasts_S1x2_S1x2) broadcasts_S1x2_S10000x2)

/-- The payload is that term. -/
theorem pay2_eq_val (h : Vec Ideal S10000x64 .bf16) (w : Vec Ideal S64x2 .f32) (q : Vec Ideal S10000x2 .f32) (b : Vec Ideal S1x2 .f32) :
    k2_pay1 (F := Ideal) h w q b = val2 h w q b := rfl

/-- The left operand's index at output index i and contraction index k: row from i, column from k. -/
theorem lhs2_0 (i : S10000x2.Idx) (k : dot_S10000x64_S64x2_S10000x2_1_0_0_1_n_n.contr.Idx) :
    (dot_S10000x64_S64x2_S10000x2_1_0_0_1_n_n.lhsIdx i k 0).val = (i 0).val := by
  unfold DotDims.lhsIdx
  rw [dif_neg (show ¬(0 : Fin S10000x64.rank) ∈ dot_S10000x64_S64x2_S10000x2_1_0_0_1_n_n.lhsBatch by decide),
    dif_pos (show (0 : Fin S10000x64.rank) ∈ dot_S10000x64_S64x2_S10000x2_1_0_0_1_n_n.lhsNonContracting by decide)]
  rfl
theorem lhs2_1 (i : S10000x2.Idx) (k : dot_S10000x64_S64x2_S10000x2_1_0_0_1_n_n.contr.Idx) :
    (dot_S10000x64_S64x2_S10000x2_1_0_0_1_n_n.lhsIdx i k 1).val = (k ⟨0, by decide⟩).val :=
  dot_S10000x64_S64x2_S10000x2_1_0_0_1_n_n.lhsIdx_val_of_single rfl i k
/-- The right operand's: row from k, column from i. -/
theorem rhs2_0 (i : S10000x2.Idx) (k : dot_S10000x64_S64x2_S10000x2_1_0_0_1_n_n.contr.Idx) :
    (dot_S10000x64_S64x2_S10000x2_1_0_0_1_n_n.rhsIdx i k 0).val = (k ⟨0, by decide⟩).val :=
  dot_S10000x64_S64x2_S10000x2_1_0_0_1_n_n.rhsIdx_val_of_single rfl i k
theorem rhs2_1 (i : S10000x2.Idx) (k : dot_S10000x64_S64x2_S10000x2_1_0_0_1_n_n.contr.Idx) :
    (dot_S10000x64_S64x2_S10000x2_1_0_0_1_n_n.rhsIdx i k 1).val = (i 1).val := by
  unfold DotDims.rhsIdx
  rw [dif_neg (show ¬(1 : Fin S64x2.rank) ∈ dot_S10000x64_S64x2_S10000x2_1_0_0_1_n_n.rhsBatch by decide),
    dif_pos (show (1 : Fin S64x2.rank) ∈ dot_S10000x64_S64x2_S10000x2_1_0_0_1_n_n.rhsNonContracting by decide)]
  rfl

/-- The product into the zero accumulator, at (p, c): the inner product of row p and column c over the 64 features. -/
theorem mm2_apply (a : FVec Ideal S10000x64 .bf16) (w : FVec Ideal S64x2 .bf16) (p : Fin 10000) (c : Fin 2) :
    matmul dot_S10000x64_S64x2_S10000x2_1_0_0_1_n_n none a w (constant S10000x2 .f32 0x00000000#32) (ix2 p c)
      = ∑ k : Fin 64, a (ix2 p k) * w (ix2 k c) := by
  simp only [matmul]
  rw [Ideal.matmul_constant_zero_apply,
    ← Equiv.sum_comp (contrEquiv1 dot_S10000x64_S64x2_S10000x2_1_0_0_1_n_n 64 rfl rfl).symm]
  refine Finset.sum_congr rfl fun k _ => ?_
  have hk := contrEquiv1_symm_val dot_S10000x64_S64x2_S10000x2_1_0_0_1_n_n 64 rfl rfl k
  have el : dot_S10000x64_S64x2_S10000x2_1_0_0_1_n_n.lhsIdx (ix2 p c) ((contrEquiv1 dot_S10000x64_S64x2_S10000x2_1_0_0_1_n_n 64 rfl rfl).symm k) = ix2 p k :=
    funext fun ax => Fin.ext (by
      match ax with
      | ⟨0, _⟩ => exact lhs2_0 _ _
      | ⟨1, _⟩ => exact (lhs2_1 _ _).trans hk)
  have er : dot_S10000x64_S64x2_S10000x2_1_0_0_1_n_n.rhsIdx (ix2 p c) ((contrEquiv1 dot_S10000x64_S64x2_S10000x2_1_0_0_1_n_n 64 rfl rfl).symm k) = ix2 k c :=
    funext fun ax => Fin.ext (by
      match ax with
      | ⟨0, _⟩ => exact (rhs2_0 _ _).trans hk
      | ⟨1, _⟩ => exact rhs2_1 _ _)
  rw [el, er]

/-- That term at (p, c). -/
theorem val2_apply (h : Vec Ideal S10000x64 .bf16) (w : Vec Ideal S64x2 .f32) (q : Vec Ideal S10000x2 .f32) (b : Vec Ideal S1x2 .f32) (p : Fin 10000) (c : Fin 2) :
    val2 h w q b (ix2 p c)
      = ((∑ k : Fin 64, (h : S10000x64.Idx → EReal) (ix2 p k) * (w : S64x2.Idx → EReal) (ix2 k c)) + (q : S10000x2.Idx → EReal) (ix2 p c))
        + (b : S1x2.Idx → EReal) (ix2 (0 : Fin 1) c) := by
  unfold val2
  rw [addf_apply, addf_apply, mm2_apply, shapeCast_self, shapeCast_self, shapeCast_self, shapeCast_self, shapeCast_self, broadcastTo_1b_ab_apply]
  rfl

/-- THE BODY'S STORED VALUE AT (p, c), over the loaded blocks. -/
theorem pay2_apply (h : Vec Ideal S10000x64 .bf16) (w : Vec Ideal S64x2 .f32) (q : Vec Ideal S10000x2 .f32) (b : Vec Ideal S1x2 .f32) (p : Fin 10000) (c : Fin 2) :
    (k2_pay1 (F := Ideal) h w q b : S10000x2.Idx → EReal) (ix2 p c)
      = ((∑ k : Fin 64, (h : S10000x64.Idx → EReal) (ix2 p k) * (w : S64x2.Idx → EReal) (ix2 k c)) + (q : S10000x2.Idx → EReal) (ix2 p c))
        + (b : S1x2.Idx → EReal) (ix2 (0 : Fin 1) c) := by
  rw [pay2_eq_val, val2_apply]

end Cert.KernelIdeal.Hand

end
-- ==== Proof.KIValue2.lean ====
/- The third layer's region, read as one array. At grid point t the body finds rows [10000 t, 10000 t + 10000) of the
   second layer's output and of the propagated projection, the whole 64 x 2 weight matrix and the whole bias row, and
   stores over those blocks the layer's entries; the point's block of the output is rows [10000 t, 10000 t + 10000) too,
   so what it writes back is that block of the layer's output array. Row r of the output is covered by point r / 10000,
   every point writes back: the array ends holding the layer's output of the four arrays as the region finds them. -/
import proofs.«171083_j730144440440_2_alg».proof.Proof.KIRegion2
import proofs.«171083_j730144440440_2_alg».proof.Proof.KIValue2Pay
import proofs.«171083_j730144440440_2_alg».proof.Proof.SpecLayer3
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz_l3 : (![0, 0] : Fin 2 → Nat) = fun _ => 0 := funext fun a => by fin_cases a <;> rfl

/-- The printed index maps over the grid: the blocks of the second layer's output, of the propagated projection and of
    the output move down with the point, the weights' and the bias row's stay. -/
theorem idx_facts_l3 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer over blocks is the layer over the arrays, T blocks of 10000 rows down: an entry of the stored block, given
    which rows of their arrays the two loaded row blocks are and that the other two blocks are their arrays. -/
theorem block_value_l3 (H : S100000x64.Idx → EReal) (Q : S100000x2.Idx → EReal) (W : S64x2.Idx → EReal) (B : S1x2.Idx → EReal)
    (x0 : Vec Ideal S10000x64 .bf16) (x1 : Vec Ideal S10000x2 .f32) (x2 : Vec Ideal S64x2 .f32) (x3 : Vec Ideal S1x2 .f32)
    (j : S10000x2.Idx) (i : S100000x2.Idx) (T : Nat)
    (hi0 : (i 0).val = T * 10000 + (j 0).val) (hi1 : (i 1).val = (j 1).val)
    (h0 : ∀ (y : S10000x64.Idx) (z : S100000x64.Idx), (z 0).val = T * 10000 + (y 0).val → (z 1).val = (y 1).val → x0 y = H z)
    (h1 : ∀ (y : S10000x2.Idx) (z : S100000x2.Idx), (z 0).val = T * 10000 + (y 0).val → (z 1).val = (y 1).val → x1 y = Q z)
    (h2 : x2 = W) (h3 : x3 = B) :
    (k2_pay1 (F := Ideal) x0 x2 x1 x3 : S10000x2.Idx → EReal) j = GNN.Spec3.layer3k H Q W B i := by
  obtain ⟨p, c, rfl⟩ : ∃ (p : Fin 10000) (c : Fin 2), j = ix2 p c := ⟨j 0, j 1, eq_ix2 j⟩
  obtain ⟨r, c', rfl⟩ : ∃ (r : Fin 100000) (c' : Fin 2), i = ix2 r c' := ⟨i 0, i 1, eq_ix2 i⟩
  have hc : c' = c := Fin.ext hi1
  subst hc
  rw [pay2_apply, GNN.Spec3.layer3k_ix2]
  subst h2; subst h3
  refine congrArg (· + _) ?_
  refine congrArg₂ (· + ·) (Finset.sum_congr rfl fun k _ => ?_) (h1 (ix2 p c') (ix2 r c') hi0 rfl)
  exact congrArg (· * _) (h0 (ix2 p k) (ix2 r k) hi0 rfl)

/-- The loaded block of the second layer's output at point t is rows [10000 t, 10000 t + 10000) of its array. -/
theorem blk_l3_0 (c : Dev nD) (t : Fin cfg2.N) (y : S10000x64.Idx) (z : S100000x64.Idx)
    (hz0' : (z 0).val = t.val * 10000 + (y 0).val) (hz1' : (z 1).val = (y 1).val) :
    (iblk2 V c 0 t : S10000x64.Idx → EReal) y = V c main_v65_0 z := by
  obtain ⟨e00, e01, e10, e11, e20, e21, e30, e31, e40, e41⟩ := idx_facts_l3 t
  unfold iblk2
  rw [View.read_apply]
  show V c main_v65_0 (((cfg2.win 0).blk t).view.emb y) = V c main_v65_0 z
  refine congrArg (V c main_v65_0) (funext fun a => Fin.ext ?_)
  match a with
  | ⟨0, _⟩ => show win2_0.index t (0 : Fin 2) * 10000 + 1 * (y 0).val = (z 0).val; rw [e00, hz0']; omega
  | ⟨1, _⟩ => show win2_0.index t (1 : Fin 2) * 64 + 1 * (y 1).val = (z 1).val; rw [e01, hz1']; omega

/-- The loaded block of the propagated projection at point t is rows [10000 t, 10000 t + 10000) of its array. -/
theorem blk_l3_1 (c : Dev nD) (t : Fin cfg2.N) (y : S10000x2.Idx) (z : S100000x2.Idx)
    (hz0' : (z 0).val = t.val * 10000 + (y 0).val) (hz1' : (z 1).val = (y 1).val) :
    (iblk2 V c 1 t : S10000x2.Idx → EReal) y = V c main_v83 z := by
  obtain ⟨e00, e01, e10, e11, e20, e21, e30, e31, e40, e41⟩ := idx_facts_l3 t
  unfold iblk2
  rw [View.read_apply]
  show V c main_v83 (((cfg2.win 1).blk t).view.emb y) = V c main_v83 z
  refine congrArg (V c main_v83) (funext fun a => Fin.ext ?_)
  match a with
  | ⟨0, _⟩ => show win2_1.index t (0 : Fin 2) * 10000 + 1 * (y 0).val = (z 0).val; rw [e10, hz0']; omega
  | ⟨1, _⟩ => show win2_1.index t (1 : Fin 2) * 2 + 1 * (y 1).val = (z 1).val; rw [e11, hz1']; omega

/-- The loaded weights at every point are the whole weight matrix. -/
theorem blk_l3_2 (c : Dev nD) (t : Fin cfg2.N) : (iblk2 V c 2 t : S64x2.Idx → EReal) = V c main_v85 := by
  obtain ⟨e00, e01, e10, e11, e20, e21, e30, e31, e40, e41⟩ := idx_facts_l3 t
  funext y
  unfold iblk2
  rw [View.read_apply]
  show V c main_v85 (((cfg2.win 2).blk t).view.emb y) = V c main_v85 y
  refine congrArg (V c main_v85) (funext fun a => Fin.ext ?_)
  match a with
  | ⟨0, _⟩ => show win2_2.index t (0 : Fin 2) * 64 + 1 * (y 0).val = (y 0).val; rw [e20]; omega
  | ⟨1, _⟩ => show win2_2.index t (1 : Fin 2) * 2 + 1 * (y 1).val = (y 1).val; rw [e21]; omega

/-- The loaded bias row at every point is the whole bias row. -/
theorem blk_l3_3 (c : Dev nD) (t : Fin cfg2.N) : (iblk2 V c 3 t : S1x2.Idx → EReal) = V c main_v86 := by
  obtain ⟨e00, e01, e10, e11, e20, e21, e30, e31, e40, e41⟩ := idx_facts_l3 t
  funext y
  unfold iblk2
  rw [View.read_apply]
  show V c main_v86 (((cfg2.win 3).blk t).view.emb y) = V c main_v86 y
  refine congrArg (V c main_v86) (funext fun a => Fin.ext ?_)
  match a with
  | ⟨0, _⟩ => show win2_3.index t (0 : Fin 2) * 1 + 1 * (y 0).val = (y 0).val; rw [e30]; omega
  | ⟨1, _⟩ => show win2_3.index t (1 : Fin 2) * 2 + 1 * (y 1).val = (y 1).val; rw [e31]; omega

/-- WHAT POINT t WRITES BACK is block t of the layer's output array of the arrays as the region finds them. -/
theorem flushed_l3_eq (c : Dev nD) (t : Fin cfg2.N) :
    (dat2 (F := Ideal) V c).flushed 4 t
      = ((cfg2.win 4).blk t).view.read (Elt Ideal) (GNN.Spec3.layer3k (V c main_v65_0) (V c main_v83) (V c main_v85) (V c main_v86)) := by
  show (cfg2.win 4).cut (grid2.coords t) ((dat2 V c).after 4 t) = _
  rw [after2_4]
  unfold out2_4
  rw [View.canon_unit_zero hz_l3]
  simp only [View.ld_unit_zero (S := S10000x64) hz_l3, View.ld_unit_zero (S := S10000x2) hz_l3, View.ld_unit_zero (S := S64x2) hz_l3, View.ld_unit_zero (S := S1x2) hz_l3]
  obtain ⟨e00, e01, e10, e11, e20, e21, e30, e31, e40, e41⟩ := idx_facts_l3 t
  funext j
  show (k2_pay1 (F := Ideal) (iblk2 V c 0 t) (iblk2 V c 2 t) (iblk2 V c 1 t) (iblk2 V c 3 t) : S10000x2.Idx → EReal) j
    = GNN.Spec3.layer3k (V c main_v65_0) (V c main_v83) (V c main_v85) (V c main_v86) (((cfg2.win 4).blk t).view.emb j)
  refine block_value_l3 (V c main_v65_0) (V c main_v83) (V c main_v85) (V c main_v86) (iblk2 V c 0 t) (iblk2 V c 1 t) (iblk2 V c 2 t) (iblk2 V c 3 t)
    j (((cfg2.win 4).blk t).view.emb j) t.val ?_ ?_ (blk_l3_0 V c t) (blk_l3_1 V c t) (blk_l3_2 V c t) (blk_l3_3 V c t)
  · show win2_4.index t (0 : Fin 2) * 10000 + 1 * (j 0).val = t.val * 10000 + (j 0).val
    rw [e40]; omega
  · show win2_4.index t (1 : Fin 2) * 2 + 1 * (j 1).val = (j 1).val
    rw [e41]; omega

/-- An index of the output array is in point t's block iff each coordinate is in the block's range on its axis. -/
theorem mem_blk_l3 (t : Fin cfg2.N) (i : S100000x2.Idx) :
    i ∈ ((cfg2.win 4).blk t).view.set ↔ ∀ a : Fin 2, win2_4.index t a * S10000x2.size a ≤ (i a).val ∧ (i a).val < win2_4.index t a * S10000x2.size a + S10000x2.size a := by
  show i ∈ ((View.whole main_v87).slice (win2_4.rect t)).set ↔ _
  rw [View.set_slice_whole, Rect.mem_set_unit]
  exact Iff.rfl

/-- Every index of the output array is in the block of a point that writes back: row r in point r / 10000's. -/
theorem cover_l3 (i : S100000x2.Idx) : ∃ t : Fin cfg2.N, (cfg2.win 4).flush t = true ∧ i ∈ ((cfg2.win 4).blk t).view.set := by
  have hi0 : (i 0).val < 100000 := (i 0).isLt
  have hi1 : (i 1).val < 2 := (i 1).isLt
  have hN : cfg2.N = 10 := N_2
  let t : Fin cfg2.N := ⟨(i 0).val / 10000, by rw [hN]; omega⟩
  have ht : t.val = (i 0).val / 10000 := rfl
  obtain ⟨e00, e01, e10, e11, e20, e21, e30, e31, e40, e41⟩ := idx_facts_l3 t
  refine ⟨t, flush2_4 t, ?_⟩
  rw [mem_blk_l3]
  intro a
  match a with
  | ⟨0, _⟩ => show win2_4.index t (0 : Fin 2) * 10000 ≤ (i 0).val ∧ (i 0).val < win2_4.index t (0 : Fin 2) * 10000 + 10000; rw [e40, ht]; omega
  | ⟨1, _⟩ => show win2_4.index t (1 : Fin 2) * 2 ≤ (i 1).val ∧ (i 1).val < win2_4.index t (1 : Fin 2) * 2 + 2; rw [e41]; omega

/-- THE OUTPUT ARRAY after the region is the third layer's output of the four arrays as the region finds them. -/
theorem region2_value (c : Dev nD) :
    (dat2 (F := Ideal) V c).arrAt 4 cfg2.N = GNN.Spec3.layer3k (V c main_v65_0) (V c main_v83) (V c main_v85) (V c main_v86) :=
  (dat2 V c).arrAt_eq_of_cover 4 (GNN.Spec3.layer3k (V c main_v65_0) (V c main_v83) (V c main_v85) (V c main_v86))
    (fun t _ => flushed_l3_eq V c t) cover_l3

end Cert.KernelIdeal.Hand

end
-- ==== Proof.BridgeB1.lean ====
/-
  What the kernel program's second and third regions, and the host stretch between them, leave in their result arrays,
  as the network's layer functions of the arrays the program holds at earlier boundaries and of the launch contents of
  the weight and bias arguments:

  * the second region's first output array is the second layer of the first layer's output, its propagated table, the
    two weight matrices and the bias row;
  * its second output array is the projection of the first by the matrix that the third layer applies to propagated
    rows;
  * the host stretch after it leaves the propagated table of that projection;
  * the third region's output array is the third layer (the propagated term handed over already projected) of the
    second layer's output, that propagated table, the third layer's first weight matrix and its bias row.
-/
import proofs.«171083_j730144440440_2_alg».proof.Proof.BridgeB0
import proofs.«171083_j730144440440_2_alg».proof.Proof.KIValue1
import proofs.«171083_j730144440440_2_alg».proof.Proof.KIValue2
import proofs.«171083_j730144440440_2_alg».proof.Proof.KIProp

set_option maxRecDepth 16384

noncomputable section

open scoped BigOperators

namespace Cert.Proof.BridgeB

open Idealize.ShloMosaic Idealize.ShloMosaic.TcCoe Idealize.SL.Sem Idealize.ShloMosaic.StableHlo
open Idealize.ShloMosaic.ValueIdx
open Cert.KernelIdeal.Hand

variable (m : (ℓ : Loc Cert.KernelIdeal.nD Cert.KernelIdeal.τ Cert.KernelIdeal.sig) → Buf (Elt Ideal) ℓ)

/-- THE SECOND LAYER'S OUTPUT after the second region. -/
theorem k6_v65_0 (c : Dev Cert.KernelIdeal.nD) :
    W6 m c (Proc.devRef .tc Cert.KernelIdeal.main_v65_0)
      = GNN.Spec2.layer2 (W4 m c (Proc.devRef .tc Cert.KernelIdeal.main_v37)) (W5 m c (Proc.devRef .tc Cert.KernelIdeal.main_v57))
          (shapeCast Cert.KernelIdeal.S32x64 (extractStridedSlice Cert.KernelIdeal.S1x32x64 ![0, 0, 0] (m ((c.tc : Thread Cert.KernelIdeal.nD Cert.KernelIdeal.τ).loc Cert.KernelIdeal.main_arg5)) Cert.KernelIdeal.Gen.slices_S2x32x64_S1x32x64_0_0_0) Cert.KernelIdeal.Gen.shapeCasts_S1x32x64_S32x64)
          (shapeCast Cert.KernelIdeal.S32x64 (extractStridedSlice Cert.KernelIdeal.S1x32x64 ![1, 0, 0] (m ((c.tc : Thread Cert.KernelIdeal.nD Cert.KernelIdeal.τ).loc Cert.KernelIdeal.main_arg5)) Cert.KernelIdeal.Gen.slices_S2x32x64_S1x32x64_1_0_0) Cert.KernelIdeal.Gen.shapeCasts_S1x32x64_S32x64)
          (shapeCast Cert.KernelIdeal.S1x64 (m ((c.tc : Thread Cert.KernelIdeal.nD Cert.KernelIdeal.τ).loc Cert.KernelIdeal.main_arg6)) Cert.KernelIdeal.Gen.shapeCasts_S64_S1x64) := by
  have h : W6 m c (Proc.devRef .tc Cert.KernelIdeal.main_v65_0) = (dat1 (V5 m) c).arrAt 6 Cert.KernelIdeal.cfg1.N := W6_arr m c 6
  rw [h, region1_value_h2 (V5 m) c]
  show GNN.Spec2.layer2 (W5 m c (Proc.devRef .tc Cert.KernelIdeal.main_v37)) (W5 m c (Proc.devRef .tc Cert.KernelIdeal.main_v57)) (W5 m c (Proc.devRef .tc Cert.KernelIdeal.main_v59)) (W5 m c (Proc.devRef .tc Cert.KernelIdeal.main_v61)) (W5 m c (Proc.devRef .tc Cert.KernelIdeal.main_v64)) = _
  rw [W5_of m c Cert.KernelIdeal.main_v37 (by decide), k5_v59, k5_v61, k5_v64]

/-- THE PROJECTED SECOND LAYER after the second region: the projection of the second layer's output. -/
theorem k6_v65_1 (c : Dev Cert.KernelIdeal.nD) :
    W6 m c (Proc.devRef .tc Cert.KernelIdeal.main_v65_1)
      = GNN.Spec2.project (W6 m c (Proc.devRef .tc Cert.KernelIdeal.main_v65_0))
          (shapeCast Cert.KernelIdeal.S64x2 (extractStridedSlice Cert.KernelIdeal.S1x64x2 ![1, 0, 0] (m ((c.tc : Thread Cert.KernelIdeal.nD Cert.KernelIdeal.τ).loc Cert.KernelIdeal.main_arg7)) Cert.KernelIdeal.Gen.slices_S2x64x2_S1x64x2_1_0_0) Cert.KernelIdeal.Gen.shapeCasts_S1x64x2_S64x2) := by
  have h : W6 m c (Proc.devRef .tc Cert.KernelIdeal.main_v65_1) = (dat1 (V5 m) c).arrAt 7 Cert.KernelIdeal.cfg1.N := W6_arr m c 7
  have h0 : W6 m c (Proc.devRef .tc Cert.KernelIdeal.main_v65_0) = (dat1 (V5 m) c).arrAt 6 Cert.KernelIdeal.cfg1.N := W6_arr m c 6
  rw [h, h0, region1_value_g (V5 m) c, region1_value_h2 (V5 m) c]
  show GNN.Spec2.project _ (W5 m c (Proc.devRef .tc Cert.KernelIdeal.main_v63)) = _
  rw [k5_v63]

/-- The edge weights and the two row-number vectors pass unchanged from the boundary before the first region to the
    one after the second. -/
theorem k6_v34 (c : Dev Cert.KernelIdeal.nD) : W6 m c (Proc.devRef .tc Cert.KernelIdeal.main_v34) = W3 m c (Proc.devRef .tc Cert.KernelIdeal.main_v34) :=
  (W6_of_ne m c Cert.KernelIdeal.main_v34 (by decide)).trans ((W5_of m c Cert.KernelIdeal.main_v34 (by decide)).trans (W4_of_ne m c Cert.KernelIdeal.main_v34 (by decide)))
theorem k6_v1 (c : Dev Cert.KernelIdeal.nD) : W6 m c (Proc.devRef .tc Cert.KernelIdeal.main_v1) = W3 m c (Proc.devRef .tc Cert.KernelIdeal.main_v1) :=
  (W6_of_ne m c Cert.KernelIdeal.main_v1 (by decide)).trans ((W5_of m c Cert.KernelIdeal.main_v1 (by decide)).trans (W4_of_ne m c Cert.KernelIdeal.main_v1 (by decide)))
theorem k6_v3 (c : Dev Cert.KernelIdeal.nD) : W6 m c (Proc.devRef .tc Cert.KernelIdeal.main_v3) = W3 m c (Proc.devRef .tc Cert.KernelIdeal.main_v3) :=
  (W6_of_ne m c Cert.KernelIdeal.main_v3 (by decide)).trans ((W5_of m c Cert.KernelIdeal.main_v3 (by decide)).trans (W4_of_ne m c Cert.KernelIdeal.main_v3 (by decide)))

/-- THE PROPAGATED PROJECTION after the host stretch that follows the second region. -/
theorem k7_v83 (c : Dev Cert.KernelIdeal.nD) :
    W7 m c (Proc.devRef .tc Cert.KernelIdeal.main_v83)
      = SpecProp.propagate (N := 100000) (E := 1200000) (C := 2) Cert.KernelIdeal.Hand.pos_nodes (W3 m c (Proc.devRef .tc Cert.KernelIdeal.main_v34))
          (W3 m c (Proc.devRef .tc Cert.KernelIdeal.main_v1)) (W3 m c (Proc.devRef .tc Cert.KernelIdeal.main_v3)) (W6 m c (Proc.devRef .tc Cert.KernelIdeal.main_v65_1)) := by
  unfold W7
  rw [hostOps2_v83 (W6 m c), k6_v34, k6_v1, k6_v3]

/-- THE THIRD LAYER'S OUTPUT after the third region. -/
theorem k8_v87 (c : Dev Cert.KernelIdeal.nD) :
    W8 m c (Proc.devRef .tc Cert.KernelIdeal.main_v87)
      = GNN.Spec3.layer3k (W6 m c (Proc.devRef .tc Cert.KernelIdeal.main_v65_0)) (W7 m c (Proc.devRef .tc Cert.KernelIdeal.main_v83))
          (shapeCast Cert.KernelIdeal.S64x2 (extractStridedSlice Cert.KernelIdeal.S1x64x2 ![0, 0, 0] (m ((c.tc : Thread Cert.KernelIdeal.nD Cert.KernelIdeal.τ).loc Cert.KernelIdeal.main_arg7)) Cert.KernelIdeal.Gen.slices_S2x64x2_S1x64x2_0_0_0) Cert.KernelIdeal.Gen.shapeCasts_S1x64x2_S64x2)
          (shapeCast Cert.KernelIdeal.S1x2 (m ((c.tc : Thread Cert.KernelIdeal.nD Cert.KernelIdeal.τ).loc Cert.KernelIdeal.main_arg8)) Cert.KernelIdeal.Gen.shapeCasts_S2_S1x2) := by
  have h : W8 m c (Proc.devRef .tc Cert.KernelIdeal.main_v87) = (dat2 (V7 m) c).arrAt 4 Cert.KernelIdeal.cfg2.N := W8_arr m c 4
  rw [h, region2_value (V7 m) c]
  show GNN.Spec3.layer3k (W7 m c (Proc.devRef .tc Cert.KernelIdeal.main_v65_0)) (W7 m c (Proc.devRef .tc Cert.KernelIdeal.main_v83)) (W7 m c (Proc.devRef .tc Cert.KernelIdeal.main_v85)) (W7 m c (Proc.devRef .tc Cert.KernelIdeal.main_v86)) = _
  rw [W7_of m c Cert.KernelIdeal.main_v65_0 (by decide), k7_v85, k7_v86]

end Cert.Proof.BridgeB
-- ==== Proof.RefValue3.lean ====
/- The reference's third layer, read at an index. Of the run's 170 operations ten make the buffer that holds the third
   layer's output: the first slice of the stacked weights [2,64,2] reshaped to [64,2] and the product of the second layer's
   output with it; then, after the 23 operations that propagate the second layer's output along the edges, the second
   slice reshaped likewise, the product of the propagated rows with it, the sum of the two products, the bias [2] placed
   as a row [1,2] and repeated down the 100000 rows, and the last sum. There is no rectifier. Every buffer is written
   once, so each of these buffers ends the run at its operation's function of what its operands end the run at; at the
   extended reals that function, index by index, is the layer with the propagated rows taken as given. -/
import proofs.«171083_j730144440440_2_alg».proof.Proof.RefRun
import proofs.«171083_j730144440440_2_alg».proof.Proof.SpecLayer3
import Idealize.ShloMosaic.PureOps.Ideal.Laws
import Idealize.ShloMosaic.Lib.ValueIdx
import Idealize.ShloMosaic.Lib.ValueLayout
import Idealize.ShloMosaic.Lib.Pipeline.Value

set_option Elab.async false

noncomputable section

open scoped BigOperators

namespace Cert.ReferenceIdeal.RefLayer3

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

variable {F : FTy → Type} [FloatOps F]

/-- Operations 32 … 34 of the second window: the first weight slice, reshaped, and the second layer's output times it. -/
abbrev opsL3a : List (HloOp τ sig (Elt F)) :=
  [ unary main_arg7 main_v70 ((extractStridedSlice S1x64x2 ![0, 0, 0] · slices_S2x64x2_S1x64x2_0_0_0) : (⟨S2x64x2, .f32⟩ : BufTy).Contents (Elt F) → (⟨S1x64x2, .f32⟩ : BufTy).Contents (Elt F)),
    reshape main_v70 main_v71 rfl shapeCasts_S1x64x2_S64x2,
    binary main_v69 main_v71 main_v72 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)) ]

/-- Operations 35 … 57 of the second window: the propagation of the second layer's output along the edges. -/
abbrev opsL3mid : List (HloOp τ sig (Elt F)) :=
  [ nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    unary main_v34 main_v74 (broadcastInDim S1200000x1 ![0] bcast_S1200000_S1200000x1_0 : (⟨S1200000, .f32⟩ : BufTy).Contents (Elt F) → (⟨S1200000x1, .f32⟩ : BufTy).Contents (Elt F)),
    nullary main_c_14 (constantI S_ 32 0#32),
    unary main_c_14 main_v75 (broadcastInDim S1200000 ![] bcast_S_S1200000 : (⟨S_, .i32⟩ : BufTy).Contents (Elt F) → (⟨S1200000, .i32⟩ : BufTy).Contents (Elt F)),
    binary main_v1 main_v75 main_v76 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v77 (broadcastInDim S1200000 ![] bcast_S_S1200000 : (⟨S_, .i32⟩ : BufTy).Contents (Elt F) → (⟨S1200000, .i32⟩ : BufTy).Contents (Elt F)),
    binary main_v1 main_v77 main_v78 (addi : (⟨S1200000, .i32⟩ : BufTy).Contents (Elt F) → (⟨S1200000, .i32⟩ : BufTy).Contents (Elt F) → (⟨S1200000, .i32⟩ : BufTy).Contents (Elt F)),
    ternary main_v76 main_v78 main_v1 main_v79 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v79 main_v80 (broadcastInDim S1200000x1 ![0] bcast_S1200000_S1200000x1_0 : (⟨S1200000, .i32⟩ : BufTy).Contents (Elt F) → (⟨S1200000x1, .i32⟩ : BufTy).Contents (Elt F)),
    binary main_v69 main_v80 main_v81 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v74 main_v82 (broadcastInDim S1200000x64 ![0, 1] bcast_S1200000x1_S1200000x64_0_1 : (⟨S1200000x1, .f32⟩ : BufTy).Contents (Elt F) → (⟨S1200000x64, .f32⟩ : BufTy).Contents (Elt F)),
    binary main_v82 main_v81 main_v83 (mulf : (⟨S1200000x64, .f32⟩ : BufTy).Contents (Elt F) → (⟨S1200000x64, .f32⟩ : BufTy).Contents (Elt F) → (⟨S1200000x64, .f32⟩ : BufTy).Contents (Elt F)),
    nullary main_c_16 (constantI S_ 32 0#32),
    unary main_c_16 main_v84 (broadcastInDim S1200000 ![] bcast_S_S1200000 : (⟨S_, .i32⟩ : BufTy).Contents (Elt F) → (⟨S1200000, .i32⟩ : BufTy).Contents (Elt F)),
    binary main_v3 main_v84 main_v85 (cmpi .slt : (⟨S1200000, .i32⟩ : BufTy).Contents (Elt F) → (⟨S1200000, .i32⟩ : BufTy).Contents (Elt F) → (⟨S1200000, .i1⟩ : BufTy).Contents (Elt F)),
    nullary main_c_17 (constantI S_ 32 100000#32),
    unary main_c_17 main_v86 (broadcastInDim S1200000 ![] bcast_S_S1200000 : (⟨S_, .i32⟩ : BufTy).Contents (Elt F) → (⟨S1200000, .i32⟩ : BufTy).Contents (Elt F)),
    binary main_v3 main_v86 main_v87 (addi : (⟨S1200000, .i32⟩ : BufTy).Contents (Elt F) → (⟨S1200000, .i32⟩ : BufTy).Contents (Elt F) → (⟨S1200000, .i32⟩ : BufTy).Contents (Elt F)),
    ternary main_v85 main_v87 main_v3 main_v88 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v88 main_v89 (broadcastInDim S1200000x1 ![0] bcast_S1200000_S1200000x1_0 : (⟨S1200000, .i32⟩ : BufTy).Contents (Elt F) → (⟨S1200000x1, .i32⟩ : BufTy).Contents (Elt F)),
    ternary main_v73 main_v89 main_v83 main_v90 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- Operations 58 … 64 of the second window: the second weight slice, reshaped, the propagated rows times it, the sum, the bias row repeated, the last sum. -/
abbrev opsL3b : List (HloOp τ sig (Elt F)) :=
  [ unary main_arg7 main_v91 ((extractStridedSlice S1x64x2 ![1, 0, 0] · slices_S2x64x2_S1x64x2_1_0_0) : (⟨S2x64x2, .f32⟩ : BufTy).Contents (Elt F) → (⟨S1x64x2, .f32⟩ : BufTy).Contents (Elt F)),
    reshape main_v91 main_v92 rfl shapeCasts_S1x64x2_S64x2,
    binary main_v90 main_v92 main_v93 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    binary main_v72 main_v93 main_v94 (addf : (⟨S100000x2, .f32⟩ : BufTy).Contents (Elt F) → (⟨S100000x2, .f32⟩ : BufTy).Contents (Elt F) → (⟨S100000x2, .f32⟩ : BufTy).Contents (Elt F)),
    unary main_arg8 main_v95 (broadcastInDim S1x2 ![1] bcast_S2_S1x2_1 : (⟨S2, .f32⟩ : BufTy).Contents (Elt F) → (⟨S1x2, .f32⟩ : BufTy).Contents (Elt F)),
    unary main_v95 main_v96 (broadcastInDim S100000x2 ![0, 1] bcast_S1x2_S100000x2_0_1 : (⟨S1x2, .f32⟩ : BufTy).Contents (Elt F) → (⟨S100000x2, .f32⟩ : BufTy).Contents (Elt F)),
    binary main_v94 main_v96 main_v97 (addf : (⟨S100000x2, .f32⟩ : BufTy).Contents (Elt F) → (⟨S100000x2, .f32⟩ : BufTy).Contents (Elt F) → (⟨S100000x2, .f32⟩ : BufTy).Contents (Elt F)) ]

/-- Operations 65 and 66 of the second window: what follows the third layer there. -/
abbrev opsL3tail : List (HloOp τ sig (Elt F)) :=
  [ binary main_v97 main_arg9 main_v98 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    unary main_arg10 main_v99 (broadcastInDim S1x1 ![1] bcast_S1_S1x1_1 : (⟨S1, .f32⟩ : BufTy).Contents (Elt F) → (⟨S1x1, .f32⟩ : BufTy).Contents (Elt F)) ]

set_option maxRecDepth 8192 in
/-- The second window is its first 31 operations, then the three, the 23, the seven and the two. -/
theorem ops1_split : (ops1 : List (HloOp τ sig (Elt F))) = ops1.take 31 ++ (opsL3a ++ (opsL3mid ++ (opsL3b ++ opsL3tail))) := rfl

/-- The first 31 operations write only buffers the window writes. -/
theorem ops1pre_writes : ((ops1 : List (HloOp τ sig (Elt F))).take 31).Forall fun op => op.writes ⊆ (W1.map (Proc.devRef (τ := τ) .tc)).toFinset :=
  List.forall_iff_forall_mem.mpr fun op h => List.forall_iff_forall_mem.mp ops1_writes op (List.mem_of_mem_take h)

/-- The first weight matrix as the reference makes it: slice 0 of the stacked weights, reshaped [1,64,2] → [64,2]. -/
abbrev w0of (a7 : (⟨S2x64x2, .f32⟩ : BufTy).Contents (Elt F)) : (⟨S64x2, .f32⟩ : BufTy).Contents (Elt F) :=
  shapeCast S64x2 (extractStridedSlice S1x64x2 ![0, 0, 0] a7 slices_S2x64x2_S1x64x2_0_0_0) shapeCasts_S1x64x2_S64x2
/-- The second weight matrix: slice 1, reshaped. -/
abbrev w1of (a7 : (⟨S2x64x2, .f32⟩ : BufTy).Contents (Elt F)) : (⟨S64x2, .f32⟩ : BufTy).Contents (Elt F) :=
  shapeCast S64x2 (extractStridedSlice S1x64x2 ![1, 0, 0] a7 slices_S2x64x2_S1x64x2_1_0_0) shapeCasts_S1x64x2_S64x2
/-- The bias placed as a row [1,2]. -/
abbrev bof (a8 : (⟨S2, .f32⟩ : BufTy).Contents (Elt F)) : (⟨S1x2, .f32⟩ : BufTy).Contents (Elt F) :=
  broadcastInDim S1x2 ![1] bcast_S2_S1x2_1 a8

/-- The seven operations' function of the first product, the propagated rows, the stacked weights and the bias. -/
def stage97b (d0 : (⟨S100000x2, .f32⟩ : BufTy).Contents (Elt F)) (P : (⟨S100000x64, .f32⟩ : BufTy).Contents (Elt F))
    (a7 : (⟨S2x64x2, .f32⟩ : BufTy).Contents (Elt F)) (a8 : (⟨S2, .f32⟩ : BufTy).Contents (Elt F)) : (⟨S100000x2, .f32⟩ : BufTy).Contents (Elt F) :=
  addf (addf d0 (Host.dotGeneral dot_S100000x64_S64x2_S100000x2_1_0_0_1_n_n none P (w1of a7))) (broadcastInDim S100000x2 ![0, 1] bcast_S1x2_S100000x2_0_1 (bof a8))

/-- The ten operations' function of the second layer's output, the propagated rows, the stacked weights and the bias. -/
def stage97 (h P : (⟨S100000x64, .f32⟩ : BufTy).Contents (Elt F))
    (a7 : (⟨S2x64x2, .f32⟩ : BufTy).Contents (Elt F)) (a8 : (⟨S2, .f32⟩ : BufTy).Contents (Elt F)) : (⟨S100000x2, .f32⟩ : BufTy).Contents (Elt F) :=
  stage97b (Host.dotGeneral dot_S100000x64_S64x2_S100000x2_1_0_0_1_n_n none h (w0of a7)) P a7 a8

set_option maxRecDepth 8192 in
/-- The three operations, from any contents, leave the first product's buffer at the product of the second layer's
    output with the first weight matrix. -/
theorem opsL3a_v72 (W : Valuation τ sig (Elt F)) :
    after opsL3a W (Proc.devRef .tc main_v72)
      = Host.dotGeneral dot_S100000x64_S64x2_S100000x2_1_0_0_1_n_n none (W (Proc.devRef .tc main_v69)) (w0of (W (Proc.devRef .tc main_arg7))) := by
  after_results <;> rfl

set_option maxRecDepth 8192 in
/-- The seven operations, from any contents, leave the output buffer at their function of the first product's buffer,
    the propagated rows' buffer and the two arguments. -/
theorem opsL3b_v97 (W : Valuation τ sig (Elt F)) :
    after opsL3b W (Proc.devRef .tc main_v97)
      = stage97b (W (Proc.devRef .tc main_v72)) (W (Proc.devRef .tc main_v90)) (W (Proc.devRef .tc main_arg7)) (W (Proc.devRef .tc main_arg8)) := by
  after_results <;> rfl

/-- The buffers those pieces write, in order. -/
abbrev WL3a : List (Ref sig .tc) := [main_v70, main_v71, main_v72]
abbrev WL3mid : List (Ref sig .tc) := [main_cst_13, main_v73, main_v74, main_c_14, main_v75, main_v76, main_c_15, main_v77, main_v78, main_v79, main_v80, main_v81, main_v82, main_v83, main_c_16, main_v84, main_v85, main_c_17, main_v86, main_v87, main_v88, main_v89, main_v90]
abbrev WL3b : List (Ref sig .tc) := [main_v91, main_v92, main_v93, main_v94, main_v95, main_v96, main_v97]
abbrev WL3tail : List (Ref sig .tc) := [main_v98, main_v99]

set_option maxRecDepth 8192 in
/-- The three operations write only their own three buffers. -/
theorem opsL3a_writes : (opsL3a : List (HloOp τ sig (Elt F))).Forall fun op => op.writes ⊆ (WL3a.map (Proc.devRef (τ := τ) .tc)).toFinset := by
  simp only [List.Forall]
  refine ⟨?_, ?_, ?_⟩ <;>
    (simp only [nullary_writes, unary_writes, binary_writes, ternary_writes, quaternary_writes, reshape_writes, Finset.singleton_subset_iff, List.mem_toFinset]; exact List.mem_map_of_mem (by decide))

set_option maxRecDepth 8192 in
/-- The propagation writes only its own 23 buffers. -/
theorem opsL3mid_writes : (opsL3mid : List (HloOp τ sig (Elt F))).Forall fun op => op.writes ⊆ (WL3mid.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

set_option maxRecDepth 8192 in
/-- The seven operations write only their own seven buffers. -/
theorem opsL3b_writes : (opsL3b : List (HloOp τ sig (Elt F))).Forall fun op => op.writes ⊆ (WL3b.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

set_option maxRecDepth 8192 in
/-- The last two operations write only their own two buffers. -/
theorem opsL3tail_writes : (opsL3tail : List (HloOp τ sig (Elt F))).Forall fun op => op.writes ⊆ (WL3tail.map (Proc.devRef (τ := τ) .tc)).toFinset := by
  simp only [List.Forall]
  refine ⟨?_, ?_⟩ <;>
    (simp only [nullary_writes, unary_writes, binary_writes, ternary_writes, quaternary_writes, reshape_writes, Finset.singleton_subset_iff, List.mem_toFinset]; exact List.mem_map_of_mem (by decide))

set_option maxRecDepth 8192 in
/-- THE OUTPUT BUFFER OF THE THIRD LAYER after the whole run, from any contents: the ten operations' function of what the
    second layer's output buffer and the propagated rows' buffer hold after the whole run and of the two arguments'
    launch contents. Every buffer involved is written once: nothing after its own operation touches it. -/
theorem v97_full (V : Valuation τ sig (Elt F)) :
    after ops V (Proc.devRef .tc main_v97)
      = stage97 (after ops V (Proc.devRef .tc main_v69)) (after ops V (Proc.devRef .tc main_v90)) (V (Proc.devRef .tc main_arg7)) (V (Proc.devRef .tc main_arg8)) := by
  have e7 : after ((ops1 : List (HloOp τ sig (Elt F))).take 31) (after ops0 V) (Proc.devRef .tc main_arg7) = V (Proc.devRef .tc main_arg7) :=
    (after_of_writes_sub _ _ ops1pre_writes (by decide : main_arg7 ∉ W1)).trans (after_of_writes_sub ops0 V ops0_writes (by decide : main_arg7 ∉ W0))
  have e8 : after ((ops1 : List (HloOp τ sig (Elt F))).take 31) (after ops0 V) (Proc.devRef .tc main_arg8) = V (Proc.devRef .tc main_arg8) :=
    (after_of_writes_sub _ _ ops1pre_writes (by decide : main_arg8 ∉ W1)).trans (after_of_writes_sub ops0 V ops0_writes (by decide : main_arg8 ∉ W0))
  rw [after_ops, ops1_split]
  simp only [after_append]
  generalize after ((ops1 : List (HloOp τ sig (Elt F))).take 31) (after ops0 V) = Wp at e7 e8 ⊢
  rw [after_of_writes_sub ops2 _ ops2_writes (by decide : main_v97 ∉ W2),
    after_of_writes_sub ops2 _ ops2_writes (by decide : main_v69 ∉ W2),
    after_of_writes_sub ops2 _ ops2_writes (by decide : main_v90 ∉ W2),
    after_of_writes_sub opsL3tail _ opsL3tail_writes (by decide : main_v97 ∉ WL3tail),
    after_of_writes_sub opsL3tail _ opsL3tail_writes (by decide : main_v69 ∉ WL3tail),
    after_of_writes_sub opsL3tail _ opsL3tail_writes (by decide : main_v90 ∉ WL3tail),
    opsL3b_v97,
    after_of_writes_sub opsL3b _ opsL3b_writes (by decide : main_v69 ∉ WL3b),
    after_of_writes_sub opsL3b _ opsL3b_writes (by decide : main_v90 ∉ WL3b),
    after_of_writes_sub opsL3mid _ opsL3mid_writes (by decide : main_v72 ∉ WL3mid),
    after_of_writes_sub opsL3mid _ opsL3mid_writes (by decide : main_v69 ∉ WL3mid),
    after_of_writes_sub opsL3mid _ opsL3mid_writes (by decide : main_arg7 ∉ WL3mid),
    after_of_writes_sub opsL3mid _ opsL3mid_writes (by decide : main_arg8 ∉ WL3mid),
    opsL3a_v72,
    after_of_writes_sub opsL3a _ opsL3a_writes (by decide : main_v69 ∉ WL3a),
    after_of_writes_sub opsL3a _ opsL3a_writes (by decide : main_arg7 ∉ WL3a),
    after_of_writes_sub opsL3a _ opsL3a_writes (by decide : main_arg8 ∉ WL3a),
    e7, e8]
  unfold stage97
  rfl

/-! ## At the extended reals, index by index -/

/-- The left operand's index at output index i and contraction index k: row from i, column from k. -/
theorem lhs3_0 (i : S100000x2.Idx) (k : dot_S100000x64_S64x2_S100000x2_1_0_0_1_n_n.contr.Idx) : (dot_S100000x64_S64x2_S100000x2_1_0_0_1_n_n.lhsIdx i k 0).val = (i 0).val := by
  unfold DotDims.lhsIdx
  rw [dif_neg (show ¬(0 : Fin S100000x64.rank) ∈ dot_S100000x64_S64x2_S100000x2_1_0_0_1_n_n.lhsBatch by decide),
    dif_pos (show (0 : Fin S100000x64.rank) ∈ dot_S100000x64_S64x2_S100000x2_1_0_0_1_n_n.lhsNonContracting by decide)]
  rfl
theorem lhs3_1 (i : S100000x2.Idx) (k : dot_S100000x64_S64x2_S100000x2_1_0_0_1_n_n.contr.Idx) : (dot_S100000x64_S64x2_S100000x2_1_0_0_1_n_n.lhsIdx i k 1).val = (k ⟨0, by decide⟩).val :=
  dot_S100000x64_S64x2_S100000x2_1_0_0_1_n_n.lhsIdx_val_of_single rfl i k
/-- The right operand's: row from k, column from i. -/
theorem rhs3_0 (i : S100000x2.Idx) (k : dot_S100000x64_S64x2_S100000x2_1_0_0_1_n_n.contr.Idx) : (dot_S100000x64_S64x2_S100000x2_1_0_0_1_n_n.rhsIdx i k 0).val = (k ⟨0, by decide⟩).val :=
  dot_S100000x64_S64x2_S100000x2_1_0_0_1_n_n.rhsIdx_val_of_single rfl i k
theorem rhs3_1 (i : S100000x2.Idx) (k : dot_S100000x64_S64x2_S100000x2_1_0_0_1_n_n.contr.Idx) : (dot_S100000x64_S64x2_S100000x2_1_0_0_1_n_n.rhsIdx i k 1).val = (i 1).val := by
  unfold DotDims.rhsIdx
  rw [dif_neg (show ¬(1 : Fin S64x2.rank) ∈ dot_S100000x64_S64x2_S100000x2_1_0_0_1_n_n.rhsBatch by decide),
    dif_pos (show (1 : Fin S64x2.rank) ∈ dot_S100000x64_S64x2_S100000x2_1_0_0_1_n_n.rhsNonContracting by decide)]
  rfl

/-- The host's product at (r, c): the inner product of row r and column c over the 64 features. -/
theorem dot3_apply (a : FVec Ideal S100000x64 .f32) (w : FVec Ideal S64x2 .f32) (r : Fin 100000) (c : Fin 2) :
    (Host.dotGeneral (F := Ideal) dot_S100000x64_S64x2_S100000x2_1_0_0_1_n_n none a w : S100000x2.Idx → EReal) (ix2 r c) = ∑ k : Fin 64, a (ix2 r k) * w (ix2 k c) := by
  simp only [Host.dotGeneral]
  rw [Ideal.dotGeneral_apply, ← Equiv.sum_comp (contrEquiv1 dot_S100000x64_S64x2_S100000x2_1_0_0_1_n_n 64 rfl rfl).symm]
  refine Finset.sum_congr rfl fun k _ => ?_
  have hk := contrEquiv1_symm_val dot_S100000x64_S64x2_S100000x2_1_0_0_1_n_n 64 rfl rfl k
  have el : dot_S100000x64_S64x2_S100000x2_1_0_0_1_n_n.lhsIdx (ix2 r c) ((contrEquiv1 dot_S100000x64_S64x2_S100000x2_1_0_0_1_n_n 64 rfl rfl).symm k) = ix2 r k :=
    funext fun ax => Fin.ext (by
      match ax with
      | ⟨0, _⟩ => exact lhs3_0 _ _
      | ⟨1, _⟩ => exact (lhs3_1 _ _).trans hk)
  have er : dot_S100000x64_S64x2_S100000x2_1_0_0_1_n_n.rhsIdx (ix2 r c) ((contrEquiv1 dot_S100000x64_S64x2_S100000x2_1_0_0_1_n_n 64 rfl rfl).symm k) = ix2 k c :=
    funext fun ax => Fin.ext (by
      match ax with
      | ⟨0, _⟩ => exact (rhs3_0 _ _).trans hk
      | ⟨1, _⟩ => exact rhs3_1 _ _)
  rw [el, er]

/-- A row [1,2] repeated down the 100000 rows reads, at (r, c), the row at c. -/
theorem rows3_apply (b : S1x2.Idx → EReal) (r : Fin 100000) (c : Fin 2) :
    (broadcastInDim S100000x2 ![0, 1] bcast_S1x2_S100000x2_0_1 b : S100000x2.Idx → EReal) (ix2 r c) = b (ix2 (0 : Fin 1) c) :=
  broadcastInDim_apply _ bcast_S1x2_S100000x2_0_1 b (ix2 r c) (ix2 (0 : Fin 1) c) (fun ax => match ax with
    | ⟨0, _⟩ => rfl
    | ⟨1, _⟩ => rfl)

/-- The seven operations' function at the extended reals, at (r, c): the first product's entry, plus (row r of the
    propagated rows) . (column c of the second weight matrix), plus the bias at c. -/
theorem stage97b_apply (d0 : S100000x2.Idx → EReal) (P : S100000x64.Idx → EReal) (a7 : S2x64x2.Idx → EReal) (a8 : S2.Idx → EReal)
    (r : Fin 100000) (c : Fin 2) :
    (stage97b (F := Ideal) d0 P a7 a8 : S100000x2.Idx → EReal) (ix2 r c)
      = (d0 (ix2 r c) + ∑ k : Fin 64, P (ix2 r k) * (w1of (F := Ideal) a7 : S64x2.Idx → EReal) (ix2 k c))
        + (bof (F := Ideal) a8 : S1x2.Idx → EReal) (ix2 (0 : Fin 1) c) := by
  unfold stage97b
  rw [addf_apply, addf_apply, dot3_apply, rows3_apply]

/-- The ten operations' function at the extended reals IS the third layer of the second layer's output, the propagated
    rows, the two reshaped weight slices and the bias placed as a row. -/
theorem stage97_eq_layer3r (h P : S100000x64.Idx → EReal) (a7 : S2x64x2.Idx → EReal) (a8 : S2.Idx → EReal) :
    (stage97 (F := Ideal) h P a7 a8 : S100000x2.Idx → EReal)
      = GNN.Spec3.layer3r h P (w0of (F := Ideal) a7) (w1of (F := Ideal) a7) (bof (F := Ideal) a8) := by
  funext i
  obtain ⟨r, c, rfl⟩ : ∃ (r : Fin 100000) (c : Fin 2), i = ix2 r c := ⟨i 0, i 1, eq_ix2 i⟩
  unfold stage97
  rw [stage97b_apply, dot3_apply, GNN.Spec3.layer3r_ix2]

/-- THE REFERENCE'S THIRD LAYER after the run is the layer of what the second layer's output buffer and the propagated
    rows' buffer hold after the run, of the two reshaped slices of the stacked weights' launch contents and of the bias's
    launch contents placed as a row. -/
theorem ref_layer3_full (m : (ℓ : Loc nD τ sig) → Buf (Elt Ideal) ℓ) (c : Dev nD) :
    after ops (launchContents m c) (Proc.devRef .tc main_v97)
      = GNN.Spec3.layer3r (after ops (launchContents m c) (Proc.devRef .tc main_v69)) (after ops (launchContents m c) (Proc.devRef .tc main_v90))
          (shapeCast S64x2 (extractStridedSlice S1x64x2 ![0, 0, 0] (m ((c.tc : Thread nD τ).loc main_arg7)) slices_S2x64x2_S1x64x2_0_0_0) shapeCasts_S1x64x2_S64x2)
          (shapeCast S64x2 (extractStridedSlice S1x64x2 ![1, 0, 0] (m ((c.tc : Thread nD τ).loc main_arg7)) slices_S2x64x2_S1x64x2_1_0_0) shapeCasts_S1x64x2_S64x2)
          (broadcastInDim S1x2 ![1] bcast_S2_S1x2_1 (m ((c.tc : Thread nD τ).loc main_arg8))) :=
  (v97_full (F := Ideal) (launchContents m c)).trans (stage97_eq_layer3r _ _ _ _)

/-- The same over the 33 operations of the stage alone, from ANY contents W at its start: the output buffer ends at the
    layer of W's second-layer buffer, of the propagated rows as the stage's own 23 propagation operations leave them, and
    of W's two arguments. -/
theorem ref_layer3_stage (W : Valuation τ sig (Elt Ideal)) :
    after (opsL3a ++ (opsL3mid ++ opsL3b)) W (Proc.devRef .tc main_v97)
      = GNN.Spec3.layer3r (W (Proc.devRef .tc main_v69)) (after (opsL3a ++ opsL3mid) W (Proc.devRef .tc main_v90))
          (w0of (W (Proc.devRef .tc main_arg7))) (w1of (W (Proc.devRef .tc main_arg7))) (bof (W (Proc.devRef .tc main_arg8))) := by
  simp only [after_append]
  rw [opsL3b_v97,
    after_of_writes_sub opsL3mid _ opsL3mid_writes (by decide : main_v72 ∉ WL3mid),
    after_of_writes_sub opsL3mid _ opsL3mid_writes (by decide : main_arg7 ∉ WL3mid),
    after_of_writes_sub opsL3mid _ opsL3mid_writes (by decide : main_arg8 ∉ WL3mid),
    opsL3a_v72,
    after_of_writes_sub opsL3a _ opsL3a_writes (by decide : main_arg7 ∉ WL3a),
    after_of_writes_sub opsL3a _ opsL3a_writes (by decide : main_arg8 ∉ WL3a)]
  exact stage97_eq_layer3r _ _ _ _

/-- The last seven operations alone, from ANY contents W whose first-product buffer holds the product of some array h
    with the first weight matrix: the output buffer ends at the layer of h and of W's propagated rows. -/
theorem ref_layer3 (W : Valuation τ sig (Elt Ideal)) (h : S100000x64.Idx → EReal)
    (hW : W (Proc.devRef .tc main_v72) = Host.dotGeneral (F := Ideal) (φ₁ := .f32) (φ₂ := .f32) dot_S100000x64_S64x2_S100000x2_1_0_0_1_n_n none h (w0of (F := Ideal) (W (Proc.devRef .tc main_arg7)))) :
    after opsL3b W (Proc.devRef .tc main_v97)
      = GNN.Spec3.layer3r h (W (Proc.devRef .tc main_v90)) (w0of (W (Proc.devRef .tc main_arg7))) (w1of (W (Proc.devRef .tc main_arg7))) (bof (W (Proc.devRef .tc main_arg8))) := by
  rw [opsL3b_v97, hW]
  exact stage97_eq_layer3r _ _ _ _

end Cert.ReferenceIdeal.RefLayer3

end
-- ==== Proof.LibPropagateLinear.lean ====
/-
  MESSAGE PASSING IS LINEAR: PROPAGATING THEN PROJECTING EQUALS PROJECTING THEN PROPAGATING.

  A graph has edges e : E, each with a source node src e, an edge weight lw e, and a destination. Message passing
  sends a node-feature table x : N → K → ℝ to
      y n k = ∑ over the edges e that arrive at n of lw e * x (src e) k
  (gather the source rows, scale each by its edge weight, scatter-add at the destinations; an edge whose destination
  is no node arrives nowhere and is dropped). "Arrives at n" is kept abstract as a decidable predicate p on edges
  (for a fixed n), so that the statements apply to a destination map dst with p e := (dst e = n), to a destination
  read from a machine word with p e := (the word's integer value = n), and so on. The sum over the arriving edges is
  spelt either ∑ e ∈ univ.filter p, f e or ∑ e, if p e then f e else 0; the two are equal.

  For a projection w : K → C → ℝ,
      ∑ k, (∑ e arriving, lw e * x (src e) k) * w k c = ∑ e arriving, (∑ k, x (src e) k * w k c) * lw e:
  both sides are the double sum of lw e * x (src e) k * w k c.

  The last section restates this for extended reals that are coercions of reals, with the extended reals' own + and *
  (whose product does not distribute over sums in general; on coerced reals it does).
-/
import Mathlib.Algebra.BigOperators.Ring.Finset
import Mathlib.Algebra.BigOperators.Group.Finset.Sigma
import Mathlib.Data.EReal.Operations

noncomputable section

open scoped BigOperators

namespace PropagateLinear

/-! ## The two spellings of a sum over the arriving edges -/

/-- ∑ e, (if p e then f e else 0) = ∑ e ∈ univ.filter p, f e, in any commutative additive monoid. -/
theorem sum_ite_eq_sum_filter {E M : Type*} [Fintype E] [AddCommMonoid M] (p : E → Prop) [DecidablePred p]
    (f : E → M) : (∑ e, if p e then f e else 0) = ∑ e ∈ Finset.univ.filter p, f e :=
  (Finset.sum_filter p f).symm

/-- The same for a destination map: ∑ e, (if dst e = n then f e else 0) = ∑ e ∈ univ.filter (dst · = n), f e. -/
theorem sum_ite_dst_eq_sum_filter {E D M : Type*} [Fintype E] [DecidableEq D] [AddCommMonoid M] (dst : E → D) (n : D)
    (f : E → M) : (∑ e, if dst e = n then f e else 0) = ∑ e ∈ Finset.univ.filter (fun e => dst e = n), f e :=
  sum_ite_eq_sum_filter (fun e => dst e = n) f

/-! ## Over the reals (stated in any commutative semiring) -/

section Semiring

variable {E N K C A : Type*} [Fintype K] [CommSemiring A]

/-- The abstract form, over any finite set s of edges and any families a (per edge) and b (per edge and
    contracted index): ∑ k, (∑ e ∈ s, a e * b e k) * w k = ∑ e ∈ s, a e * ∑ k, b e k * w k. -/
theorem sum_mul_sum_comm (s : Finset E) (a : E → A) (b : E → K → A) (w : K → A) :
    ∑ k, (∑ e ∈ s, a e * b e k) * w k = ∑ e ∈ s, a e * ∑ k, b e k * w k := by
  simp only [Finset.sum_mul, Finset.mul_sum]
  rw [Finset.sum_comm]
  exact Finset.sum_congr rfl fun e _ => Finset.sum_congr rfl fun k _ => mul_assoc _ _ _

variable [Fintype E]

/-- Propagating then projecting equals projecting then propagating, with the factor orders of the two programs:
    ∑ k, (∑ e ∈ univ.filter p, lw e * x (src e) k) * w k c = ∑ e ∈ univ.filter p, (∑ k, x (src e) k * w k c) * lw e. -/
theorem propagate_project (p : E → Prop) [DecidablePred p] (src : E → N) (lw : E → A) (x : N → K → A)
    (w : K → C → A) (c : C) :
    ∑ k, (∑ e ∈ Finset.univ.filter p, lw e * x (src e) k) * w k c
      = ∑ e ∈ Finset.univ.filter p, (∑ k, x (src e) k * w k c) * lw e := by
  rw [sum_mul_sum_comm]
  exact Finset.sum_congr rfl fun e _ => mul_comm _ _

/-- The same with both edge weights on the left:
    ∑ k, (∑ e ∈ univ.filter p, lw e * x (src e) k) * w k c = ∑ e ∈ univ.filter p, lw e * ∑ k, x (src e) k * w k c. -/
theorem propagate_project_left (p : E → Prop) [DecidablePred p] (src : E → N) (lw : E → A) (x : N → K → A)
    (w : K → C → A) (c : C) :
    ∑ k, (∑ e ∈ Finset.univ.filter p, lw e * x (src e) k) * w k c
      = ∑ e ∈ Finset.univ.filter p, lw e * ∑ k, x (src e) k * w k c :=
  sum_mul_sum_comm _ _ _ _

/-- The same with both edge weights on the right:
    ∑ k, (∑ e ∈ univ.filter p, x (src e) k * lw e) * w k c = ∑ e ∈ univ.filter p, (∑ k, x (src e) k * w k c) * lw e. -/
theorem propagate_project_right (p : E → Prop) [DecidablePred p] (src : E → N) (lw : E → A) (x : N → K → A)
    (w : K → C → A) (c : C) :
    ∑ k, (∑ e ∈ Finset.univ.filter p, x (src e) k * lw e) * w k c
      = ∑ e ∈ Finset.univ.filter p, (∑ k, x (src e) k * w k c) * lw e := by
  rw [← propagate_project p src lw x w c]
  exact Finset.sum_congr rfl fun k _ => by
    congr 1; exact Finset.sum_congr rfl fun e _ => mul_comm _ _

/-- The same with the weight on the right before and on the left after:
    ∑ k, (∑ e ∈ univ.filter p, x (src e) k * lw e) * w k c = ∑ e ∈ univ.filter p, lw e * ∑ k, x (src e) k * w k c. -/
theorem propagate_project_swap (p : E → Prop) [DecidablePred p] (src : E → N) (lw : E → A) (x : N → K → A)
    (w : K → C → A) (c : C) :
    ∑ k, (∑ e ∈ Finset.univ.filter p, x (src e) k * lw e) * w k c
      = ∑ e ∈ Finset.univ.filter p, lw e * ∑ k, x (src e) k * w k c := by
  rw [propagate_project_right]
  exact Finset.sum_congr rfl fun e _ => mul_comm _ _

/-- Propagating then projecting equals projecting then propagating, the sums over the arriving edges spelt with
    if-then-else, factor orders of the two programs:
    ∑ k, (∑ e, if p e then lw e * x (src e) k else 0) * w k c
      = ∑ e, if p e then (∑ k, x (src e) k * w k c) * lw e else 0. -/
theorem propagate_project_ite (p : E → Prop) [DecidablePred p] (src : E → N) (lw : E → A) (x : N → K → A)
    (w : K → C → A) (c : C) :
    ∑ k, (∑ e, if p e then lw e * x (src e) k else 0) * w k c
      = ∑ e, if p e then (∑ k, x (src e) k * w k c) * lw e else 0 := by
  simp only [sum_ite_eq_sum_filter]
  exact propagate_project p src lw x w c

/-- The statement for a destination map dst : E → D (D any type with decidable equality, n : D):
    ∑ k, (∑ e ∈ univ.filter (dst · = n), lw e * x (src e) k) * w k c
      = ∑ e ∈ univ.filter (dst · = n), (∑ k, x (src e) k * w k c) * lw e. -/
theorem propagate_project_dst {D : Type*} [DecidableEq D] (dst : E → D) (n : D) (src : E → N) (lw : E → A)
    (x : N → K → A) (w : K → C → A) (c : C) :
    ∑ k, (∑ e ∈ Finset.univ.filter (fun e => dst e = n), lw e * x (src e) k) * w k c
      = ∑ e ∈ Finset.univ.filter (fun e => dst e = n), (∑ k, x (src e) k * w k c) * lw e :=
  propagate_project (fun e => dst e = n) src lw x w c

end Semiring

/-! ## Over the extended reals, for real-valued data -/

section ExtendedReals

variable {E N K C : Type*} [Fintype K]

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Closure: a finite sum of products of coerced reals is a coerced real, the real sum of products:
    ∑ i ∈ s, ↑(a i) * ↑(b i) = ↑(∑ i ∈ s, a i * b i). -/
theorem coe_finset_sum_mul {ι : Type*} (s : Finset ι) (a b : ι → ℝ) :
    (∑ i ∈ s, (a i : EReal) * (b i : EReal)) = ((∑ i ∈ s, a i * b i : ℝ) : EReal) := by
  rw [← coe_finset_sum]; exact Finset.sum_congr rfl fun i _ => (EReal.coe_mul _ _).symm

/-- A sum of coerced reals over the arriving edges, spelt with if-then-else, is a coerced real. -/
theorem coe_sum_ite [Fintype E] (p : E → Prop) [DecidablePred p] (f : E → ℝ) :
    (∑ e, if p e then (f e : EReal) else 0) = ((∑ e, if p e then f e else 0 : ℝ) : EReal) := by
  rw [← coe_finset_sum]
  exact Finset.sum_congr rfl fun e _ => by split_ifs <;> simp

/-- The propagate-then-project side over the extended reals is the coercion of the real expression. -/
theorem propagate_then_project_eq_coe (s : Finset E) (src : E → N) (lw : E → ℝ) (x : N → K → ℝ) (w : K → C → ℝ)
    (c : C) :
    (∑ k, (∑ e ∈ s, (lw e : EReal) * (x (src e) k : EReal)) * (w k c : EReal))
      = ((∑ k, (∑ e ∈ s, lw e * x (src e) k) * w k c : ℝ) : EReal) := by
  rw [← coe_finset_sum_mul]
  exact Finset.sum_congr rfl fun k _ => by rw [coe_finset_sum_mul]

/-- The project-then-propagate side over the extended reals is the coercion of the real expression. -/
theorem project_then_propagate_eq_coe (s : Finset E) (src : E → N) (lw : E → ℝ) (x : N → K → ℝ) (w : K → C → ℝ)
    (c : C) :
    (∑ e ∈ s, (∑ k, (x (src e) k : EReal) * (w k c : EReal)) * (lw e : EReal))
      = ((∑ e ∈ s, (∑ k, x (src e) k * w k c) * lw e : ℝ) : EReal) := by
  rw [← coe_finset_sum_mul]
  exact Finset.sum_congr rfl fun e _ => by rw [coe_finset_sum_mul]

variable [Fintype E]

/-- Propagating then projecting equals projecting then propagating over the extended reals, for real-valued data,
    with the factor orders of the two programs:
    ∑ k, (∑ e ∈ univ.filter p, ↑(lw e) * ↑(x (src e) k)) * ↑(w k c)
      = ∑ e ∈ univ.filter p, (∑ k, ↑(x (src e) k) * ↑(w k c)) * ↑(lw e). -/
theorem propagate_project_ereal (p : E → Prop) [DecidablePred p] (src : E → N) (lw : E → ℝ) (x : N → K → ℝ)
    (w : K → C → ℝ) (c : C) :
    (∑ k, (∑ e ∈ Finset.univ.filter p, (lw e : EReal) * (x (src e) k : EReal)) * (w k c : EReal))
      = ∑ e ∈ Finset.univ.filter p, (∑ k, (x (src e) k : EReal) * (w k c : EReal)) * (lw e : EReal) := by
  rw [propagate_then_project_eq_coe, project_then_propagate_eq_coe, propagate_project p src lw x w c]

/-- The same with the sums over the arriving edges spelt with if-then-else:
    ∑ k, (∑ e, if p e then ↑(lw e) * ↑(x (src e) k) else 0) * ↑(w k c)
      = ∑ e, if p e then (∑ k, ↑(x (src e) k) * ↑(w k c)) * ↑(lw e) else 0. -/
theorem propagate_project_ite_ereal (p : E → Prop) [DecidablePred p] (src : E → N) (lw : E → ℝ) (x : N → K → ℝ)
    (w : K → C → ℝ) (c : C) :
    (∑ k, (∑ e, if p e then (lw e : EReal) * (x (src e) k : EReal) else 0) * (w k c : EReal))
      = ∑ e, if p e then (∑ k, (x (src e) k : EReal) * (w k c : EReal)) * (lw e : EReal) else 0 := by
  simp only [sum_ite_eq_sum_filter]
  exact propagate_project_ereal p src lw x w c

/-- The statement over the extended reals for a destination map dst : E → D and a node n : D. -/
theorem propagate_project_dst_ereal {D : Type*} [DecidableEq D] (dst : E → D) (n : D) (src : E → N) (lw : E → ℝ)
    (x : N → K → ℝ) (w : K → C → ℝ) (c : C) :
    (∑ k, (∑ e ∈ Finset.univ.filter (fun e => dst e = n), (lw e : EReal) * (x (src e) k : EReal)) * (w k c : EReal))
      = ∑ e ∈ Finset.univ.filter (fun e => dst e = n),
          (∑ k, (x (src e) k : EReal) * (w k c : EReal)) * (lw e : EReal) :=
  propagate_project_ereal (fun e => dst e = n) src lw x w c

end ExtendedReals

end PropagateLinear
-- ==== Proof.PropLinear.lean ====
/-
  PROPAGATING PROJECTED ROWS IS PROJECTING PROPAGATED ROWS, AT THE EXTENDED REALS, FOR REAL-VALUED DATA.

  Message passing (SpecProp.propagate) sends a node table h : [N, K] to the table whose row n is the sum, over the
  edges arriving at n, of the edge's weight times the edge's source row. A projection w : [K, C] sends a table to the
  table of its rows' products with w: project h w (n, c) = ∑ k, h (n, k) * w (k, c). The two commute:

      ∑ k, propagate lw src dst h (n, k) * w (k, c) = propagate lw src dst (project h w) (n, c),

  both sides being the double sum, over the arriving edges e and over k, of lw e * h (source row of e, k) * w (k, c).
  Over the extended reals the product does not distribute over sums in general, so the statement takes every entry of
  lw, h and w to be a real number; the row numbers are arbitrary.
-/
import proofs.«171083_j730144440440_2_alg».proof.Proof.SpecProp
import proofs.«171083_j730144440440_2_alg».proof.Proof.LibPropagateLinear

noncomputable section

open scoped BigOperators

namespace PropLinear

open Idealize.ShloMosaic Idealize.ShloMosaic.ValueIdx

/-- The projection of a table h : [N, K] by w : [K, C] at row n and column c: ∑ k, h (n, k) * w (k, c). -/
def projectAt {N K C : Nat} (h : (⟨2, ![N, K]⟩ : Shape).Idx → EReal) (w : (⟨2, ![K, C]⟩ : Shape).Idx → EReal)
    (n : Fin N) (c : Fin C) : EReal :=
  ∑ k : Fin K, h (ix2 n k) * w (ix2 k c)

/-- The projected table, as an array over the raw shape [N, C]. -/
def project {N K C : Nat} (h : (⟨2, ![N, K]⟩ : Shape).Idx → EReal) (w : (⟨2, ![K, C]⟩ : Shape).Idx → EReal) :
    (⟨2, ![N, C]⟩ : Shape).Idx → EReal :=
  fun j => projectAt h w (j 0) (j 1)

/-- The projected table read at (n, c). -/
theorem project_apply {N K C : Nat} (h : (⟨2, ![N, K]⟩ : Shape).Idx → EReal) (w : (⟨2, ![K, C]⟩ : Shape).Idx → EReal)
    (n : Fin N) (c : Fin C) : project h w (ix2 n c) = ∑ k : Fin K, h (ix2 n k) * w (ix2 k c) := rfl

/-- LINEARITY OF MESSAGE PASSING, any extents: for real-valued weights lw, table h and projection w (every entry the
    coercion of a real number) and arbitrary row numbers,
    ∑ k, propagate lw src dst h (n, k) * w (k, c) = propagate lw src dst (project h w) (n, c). -/
theorem propagate_project {N E K C : Nat} (hN : 0 < N) (lw : (⟨1, ![E]⟩ : Shape).Idx → EReal)
    (src dst : IVec ⟨1, ![E]⟩ 32) (h : (⟨2, ![N, K]⟩ : Shape).Idx → EReal) (w : (⟨2, ![K, C]⟩ : Shape).Idx → EReal)
    (hlw : ∀ i, ∃ r : ℝ, lw i = (r : EReal)) (hh : ∀ i, ∃ r : ℝ, h i = (r : EReal))
    (hw : ∀ i, ∃ r : ℝ, w i = (r : EReal)) (n : Fin N) (c : Fin C) :
    ∑ k : Fin K, SpecProp.propagate hN lw src dst h (ix2 n k) * w (ix2 k c)
      = SpecProp.propagate hN lw src dst (project h w) (ix2 n c) := by
  choose lwr hlwr using hlw
  choose hr hhr using hh
  choose wr hwr using hw
  obtain rfl : lw = fun i => (lwr i : EReal) := funext hlwr
  obtain rfl : h = fun i => (hr i : EReal) := funext hhr
  obtain rfl : w = fun i => (wr i : EReal) := funext hwr
  refine (PropagateLinear.propagate_project_ite_ereal
    (fun e : Fin E => (SpecProp.wrap (BitVec.ofNat 32 N) (dst (ix1 e))).toInt = (n.val : Int))
    (fun e : Fin E => SpecProp.clampRow hN (SpecProp.wrap (BitVec.ofNat 32 N) (src (ix1 e))))
    (fun e : Fin E => lwr (ix1 e)) (fun (m : Fin N) (k : Fin K) => hr (ix2 m k))
    (fun (k : Fin K) (c' : Fin C) => wr (ix2 k c')) c).trans ?_
  exact Finset.sum_congr rfl fun e _ => if_congr Iff.rfl (mul_comm _ _) rfl

/-- LINEARITY OF MESSAGE PASSING at the graph's extents: 100000 nodes, 1200000 edges, a [100000, 64] table projected
    by a [64, 2] matrix. -/
theorem propagate_project_64_2 (hN : 0 < 100000) (lw : (⟨1, ![1200000]⟩ : Shape).Idx → EReal)
    (src dst : IVec ⟨1, ![1200000]⟩ 32) (h : (⟨2, ![100000, 64]⟩ : Shape).Idx → EReal)
    (w : (⟨2, ![64, 2]⟩ : Shape).Idx → EReal)
    (hlw : ∀ i, ∃ r : ℝ, lw i = (r : EReal)) (hh : ∀ i, ∃ r : ℝ, h i = (r : EReal))
    (hw : ∀ i, ∃ r : ℝ, w i = (r : EReal)) (n : Fin 100000) (c : Fin 2) :
    ∑ k : Fin 64, SpecProp.propagate hN lw src dst h (ix2 n k) * w (ix2 k c)
      = SpecProp.propagate hN lw src dst (project h w) (ix2 n c) :=
  propagate_project hN lw src dst h w hlw hh hw n c

end PropLinear
-- ==== Proof.BridgeB2.lean ====
/-
  THE SECOND HALF OF THE COMPARISON OF THE TWO PROGRAMS, from what the first half establishes.

  Given that the two programs agree on the edge weights, the two row-number vectors, the first layer's output and its
  propagated table, that the launch memories agree on the weight and bias arguments of the second and third layers, and
  that all of these are arrays of reals:

  * THE SECOND LAYERS AGREE: each program applies the second layer to agreeing arrays; the weight matrices are the same
    reshaped slices of the same argument, and the bias row is the argument reshaped to a row in one program and placed
    as a row by a broadcast in the other, which is one array.
  * THE PROPAGATED TERM OF THE THIRD LAYER AGREES: one program propagates the second layer's 64-wide output and then
    multiplies by the [64, 2] matrix, the other multiplies first and propagates the 2-wide product. Message passing is
    linear, and every entry involved is a real, so the two are one array.
  * THE THIRD LAYERS AGREE, and the third layer's output is an array of reals.
-/
import proofs.«171083_j730144440440_2_alg».proof.Proof.BridgeB1
import proofs.«171083_j730144440440_2_alg».proof.Proof.RefValue3
import proofs.«171083_j730144440440_2_alg».proof.Proof.RefPropFull
import proofs.«171083_j730144440440_2_alg».proof.Proof.PropLinear
import proofs.«171083_j730144440440_2_alg».proof.Proof.LibColumnForms

set_option maxRecDepth 16384

noncomputable section

open scoped BigOperators

namespace Cert.Proof.BridgeB

open Idealize.ShloMosaic Idealize.ShloMosaic.TcCoe Idealize.SL.Sem Idealize.ShloMosaic.StableHlo
open Idealize.ShloMosaic.ValueIdx
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open SpecReal (IsReal)

/-- The second layer's output in the kernel program is an array of reals. -/
theorem k6_v65_0_real (c : Dev Cert.KernelIdeal.nD)
    (r5 : ∀ i : Cert.KernelIdeal.S2x32x64.Idx, IsReal ((m ((c.tc : Thread Cert.KernelIdeal.nD Cert.KernelIdeal.τ).loc Cert.KernelIdeal.main_arg5) : Cert.KernelIdeal.S2x32x64.Idx → EReal) i))
    (r6 : ∀ i : Cert.KernelIdeal.S64.Idx, IsReal ((m ((c.tc : Thread Cert.KernelIdeal.nD Cert.KernelIdeal.τ).loc Cert.KernelIdeal.main_arg6) : Cert.KernelIdeal.S64.Idx → EReal) i))
    (hh1 : ∀ i : Cert.KernelIdeal.S100000x32.Idx, IsReal ((W4 m c (Proc.devRef .tc Cert.KernelIdeal.main_v37) : Cert.KernelIdeal.S100000x32.Idx → EReal) i))
    (hp1 : ∀ i : Cert.KernelIdeal.S100000x32.Idx, IsReal ((W5 m c (Proc.devRef .tc Cert.KernelIdeal.main_v57) : Cert.KernelIdeal.S100000x32.Idx → EReal) i))
    (i : Cert.KernelIdeal.S100000x64.Idx) : IsReal ((W6 m c (Proc.devRef .tc Cert.KernelIdeal.main_v65_0) : Cert.KernelIdeal.S100000x64.Idx → EReal) i) := by
  rw [k6_v65_0 m c]
  exact layer2_real _ _ _ _ _ hh1 hp1 (slice_reshape_real _ _ _ _ r5) (slice_reshape_real _ _ _ _ r5) (reshape_real _ _ r6) i

/-- S5. THE PROPAGATED TERMS OF THE THIRD LAYER AGREE: the reference's propagated second layer, projected by the third
    layer's second weight matrix, is the kernel program's propagated projection. -/
theorem prop2_agree (c : Dev Cert.KernelIdeal.nD)
    (s1 : after Cert.ReferenceIdeal.RefRun.ops (launchContents m' c) (Proc.devRef .tc Cert.ReferenceIdeal.main_v1) = W3 m c (Proc.devRef .tc Cert.KernelIdeal.main_v1))
    (s3 : after Cert.ReferenceIdeal.RefRun.ops (launchContents m' c) (Proc.devRef .tc Cert.ReferenceIdeal.main_v3) = W3 m c (Proc.devRef .tc Cert.KernelIdeal.main_v3))
    (s34 : after Cert.ReferenceIdeal.RefRun.ops (launchContents m' c) (Proc.devRef .tc Cert.ReferenceIdeal.main_v34) = W3 m c (Proc.devRef .tc Cert.KernelIdeal.main_v34))
    (a69 : after Cert.ReferenceIdeal.RefRun.ops (launchContents m' c) (Proc.devRef .tc Cert.ReferenceIdeal.main_v69) = W6 m c (Proc.devRef .tc Cert.KernelIdeal.main_v65_0))
    (hlw : ∀ e : Cert.KernelIdeal.S1200000.Idx, IsReal ((W3 m c (Proc.devRef .tc Cert.KernelIdeal.main_v34) : Cert.KernelIdeal.S1200000.Idx → EReal) e))
    (hh2 : ∀ i : Cert.KernelIdeal.S100000x64.Idx, IsReal ((W6 m c (Proc.devRef .tc Cert.KernelIdeal.main_v65_0) : Cert.KernelIdeal.S100000x64.Idx → EReal) i))
    (r7 : ∀ i : Cert.KernelIdeal.S2x64x2.Idx, IsReal ((m ((c.tc : Thread Cert.KernelIdeal.nD Cert.KernelIdeal.τ).loc Cert.KernelIdeal.main_arg7) : Cert.KernelIdeal.S2x64x2.Idx → EReal) i)) :
    GNN.Spec3.proj (after Cert.ReferenceIdeal.RefRun.ops (launchContents m' c) (Proc.devRef .tc Cert.ReferenceIdeal.main_v90))
        (shapeCast Cert.KernelIdeal.S64x2 (extractStridedSlice Cert.KernelIdeal.S1x64x2 ![1, 0, 0] (m ((c.tc : Thread Cert.KernelIdeal.nD Cert.KernelIdeal.τ).loc Cert.KernelIdeal.main_arg7)) Cert.KernelIdeal.Gen.slices_S2x64x2_S1x64x2_1_0_0) Cert.KernelIdeal.Gen.shapeCasts_S1x64x2_S64x2)
      = W7 m c (Proc.devRef .tc Cert.KernelIdeal.main_v83) := by
  funext j
  obtain ⟨n, q, rfl⟩ : ∃ (n : Fin 100000) (q : Fin 2), j = ix2 n q := ⟨j 0, j 1, eq_ix2 j⟩
  rw [GNN.Spec3.proj_ix2, Cert.ReferenceIdeal.RefProp.ref_prop2_full m' c, s34, s1, s3, a69, k7_v83 m c, k6_v65_1 m c]
  exact PropLinear.propagate_project_64_2 _ _ _ _ _ _ hlw hh2 (slice_reshape_real _ _ _ _ r7) n q

/-- S6. THE THIRD LAYERS' OUTPUTS AGREE. -/
theorem layer3_agree (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a69 : after Cert.ReferenceIdeal.RefRun.ops (launchContents m' c) (Proc.devRef .tc Cert.ReferenceIdeal.main_v69) = W6 m c (Proc.devRef .tc Cert.KernelIdeal.main_v65_0))
    (aq : GNN.Spec3.proj (after Cert.ReferenceIdeal.RefRun.ops (launchContents m' c) (Proc.devRef .tc Cert.ReferenceIdeal.main_v90))
        (shapeCast Cert.KernelIdeal.S64x2 (extractStridedSlice Cert.KernelIdeal.S1x64x2 ![1, 0, 0] (m ((c.tc : Thread Cert.KernelIdeal.nD Cert.KernelIdeal.τ).loc Cert.KernelIdeal.main_arg7)) Cert.KernelIdeal.Gen.slices_S2x64x2_S1x64x2_1_0_0) Cert.KernelIdeal.Gen.shapeCasts_S1x64x2_S64x2)
      = W7 m c (Proc.devRef .tc Cert.KernelIdeal.main_v83)) :
    after Cert.ReferenceIdeal.RefRun.ops (launchContents m' c) (Proc.devRef .tc Cert.ReferenceIdeal.main_v97) = W8 m c (Proc.devRef .tc Cert.KernelIdeal.main_v87) := by
  rw [Cert.ReferenceIdeal.RefLayer3.ref_layer3_full m' c, GNN.Spec3.layer3r_eq_layer3k, a69, h7, h8, k8_v87 m c, ← aq,
    ColumnForms.shapeCast_a_1a_eq_broadcastInDim _ Cert.KernelIdeal.Gen.shapeCasts_S2_S1x2 Cert.ReferenceIdeal.Gen.bcast_S2_S1x2_1]

/-- The third layer's output in the kernel program is an array of reals. -/
theorem k8_v87_real (c : Dev Cert.KernelIdeal.nD)
    (hlw : ∀ e : Cert.KernelIdeal.S1200000.Idx, IsReal ((W3 m c (Proc.devRef .tc Cert.KernelIdeal.main_v34) : Cert.KernelIdeal.S1200000.Idx → EReal) e))
    (hh2 : ∀ i : Cert.KernelIdeal.S100000x64.Idx, IsReal ((W6 m c (Proc.devRef .tc Cert.KernelIdeal.main_v65_0) : Cert.KernelIdeal.S100000x64.Idx → EReal) i))
    (r7 : ∀ i : Cert.KernelIdeal.S2x64x2.Idx, IsReal ((m ((c.tc : Thread Cert.KernelIdeal.nD Cert.KernelIdeal.τ).loc Cert.KernelIdeal.main_arg7) : Cert.KernelIdeal.S2x64x2.Idx → EReal) i))
    (r8 : ∀ i : Cert.KernelIdeal.S2.Idx, IsReal ((m ((c.tc : Thread Cert.KernelIdeal.nD Cert.KernelIdeal.τ).loc Cert.KernelIdeal.main_arg8) : Cert.KernelIdeal.S2.Idx → EReal) i))
    (i : Cert.KernelIdeal.S100000x2.Idx) : IsReal ((W8 m c (Proc.devRef .tc Cert.KernelIdeal.main_v87) : Cert.KernelIdeal.S100000x2.Idx → EReal) i) := by
  rw [k8_v87 m c, k7_v83 m c, k6_v65_1 m c]
  exact layer3k_real _ _ _ _ hh2
    (propagate_real _ _ _ _ _ hlw (project_real _ _ hh2 (slice_reshape_real _ _ _ _ r7)))
    (slice_reshape_real _ _ _ _ r7) (reshape_real _ _ r8) i

end Cert.Proof.BridgeB
-- ==== Proof.RefValue2.lean ====
/- The reference's second layer, read at an index. Seventeen of the run's 170 operations matter for the buffer that holds
   the second layer's output. Three stand right after the first layer: the first 32 x 64 slice of the stacked weights,
   its reshape [1,32,64] → [32,64], and the product of the first layer's output with it. Fourteen stand after the
   propagation of the first layer: the second slice and its reshape, the product of the propagated array with it, the sum
   of the two products, the bias [64] placed as a row [1,64] and repeated down the 100000 rows, the sum, and the outlined
   leaky rectifier (zero and slope constants broadcast, comparison, product, choice). No operation between or after them
   writes a buffer they read or the buffer they end in, so that buffer ends at the seventeen operations' composed function
   of the first layer's output, its propagation and the two arguments; at the extended reals that function, index by
   index, is the second layer. -/
import proofs.«171083_j730144440440_2_alg».proof.Proof.RefRun
import proofs.«171083_j730144440440_2_alg».proof.Proof.SpecLayer2
import Idealize.ShloMosaic.PureOps.Ideal.Laws
import Idealize.ShloMosaic.Lib.ValueIdx
import Idealize.ShloMosaic.Lib.ValueLayout
import Idealize.ShloMosaic.Lib.Pipeline.Value

set_option Elab.async false

noncomputable section

open scoped BigOperators

namespace Cert.ReferenceIdeal.RefLayer2

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

variable {F : FTy → Type} [FloatOps F]

/-! ## The operations of the stage, and the windows cut around them -/

/-- Operations 60 … 62 of the first window: the first weight slice, its reshape, the first product. -/
abbrev opsL2a : List (HloOp τ sig (Elt F)) :=
  [ unary main_arg5 main_v41 ((extractStridedSlice S1x32x64 ![0, 0, 0] · slices_S2x32x64_S1x32x64_0_0_0) : (⟨S2x32x64, .f32⟩ : BufTy).Contents (Elt F) → (⟨S1x32x64, .f32⟩ : BufTy).Contents (Elt F)),
    reshape main_v41 main_v42 rfl shapeCasts_S1x32x64_S32x64,
    binary main_v40 main_v42 main_v43 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ]

/-- Operations 63 … 68 of the first window: what follows there. -/
abbrev ops0post : List (HloOp τ sig (Elt F)) :=
  [ nullary main_cst_8 (constant S_ .f32 0x00000000#32),
    unary main_cst_8 main_v44 (broadcastInDim S100000x32 ![] bcast_S_S100000x32 : (⟨S_, .f32⟩ : BufTy).Contents (Elt F) → (⟨S100000x32, .f32⟩ : BufTy).Contents (Elt F)),
    unary main_v34 main_v45 (broadcastInDim S1200000x1 ![0] bcast_S1200000_S1200000x1_0 : (⟨S1200000, .f32⟩ : BufTy).Contents (Elt F) → (⟨S1200000x1, .f32⟩ : BufTy).Contents (Elt F)),
    nullary main_c_9 (constantI S_ 32 0#32),
    unary main_c_9 main_v46 (broadcastInDim S1200000 ![] bcast_S_S1200000 : (⟨S_, .i32⟩ : BufTy).Contents (Elt F) → (⟨S1200000, .i32⟩ : BufTy).Contents (Elt F)),
    binary main_v1 main_v46 main_v47 (cmpi .slt : (⟨S1200000, .i32⟩ : BufTy).Contents (Elt F) → (⟨S1200000, .i32⟩ : BufTy).Contents (Elt F) → (⟨S1200000, .i1⟩ : BufTy).Contents (Elt F)) ]

/-- Operations 18 … 31 of the second window: the second slice and product, the sums, the bias row, the rectifier. -/
abbrev opsL2b : List (HloOp τ sig (Elt F)) :=
  [ unary main_arg5 main_v62 ((extractStridedSlice S1x32x64 ![1, 0, 0] · slices_S2x32x64_S1x32x64_1_0_0) : (⟨S2x32x64, .f32⟩ : BufTy).Contents (Elt F) → (⟨S1x32x64, .f32⟩ : BufTy).Contents (Elt F)),
    reshape main_v62 main_v63 rfl shapeCasts_S1x32x64_S32x64,
    binary main_v61 main_v63 main_v64 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v43 main_v64 main_v65 (addf : (⟨S100000x64, .f32⟩ : BufTy).Contents (Elt F) → (⟨S100000x64, .f32⟩ : BufTy).Contents (Elt F) → (⟨S100000x64, .f32⟩ : BufTy).Contents (Elt F)),
    unary main_arg6 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v68) (TRef.of (T := ⟨S100000x64, .f32⟩) main_call2_v0) (TRef.of (T := ⟨S100000x64, .i1⟩) main_call2_v1) (cmpf .oge),
    TRef.nullary (TRef.of (T := ⟨S_, .f32⟩) main_call2_cst_0) (constant S_ .f32 0x3C23D70A#32),
    TRef.unary (TRef.of (T := ⟨S_, .f32⟩) main_call2_cst_0) (TRef.of (T := ⟨S100000x64, .f32⟩) main_call2_v2) (broadcastInDim S100000x64 ![] bcast_S_S100000x64),
    TRef.binary (TRef.of (T := ⟨S100000x64, .f32⟩) main_call2_v2) (TRef.of (T := ⟨S100000x64, .f32⟩) main_v68) (TRef.of (T := ⟨S100000x64, .f32⟩) main_call2_v3) mulf,
    TRef.ternary (TRef.of (T := ⟨S100000x64, .i1⟩) main_call2_v1) (TRef.of (T := ⟨S100000x64, .f32⟩) main_v68) (TRef.of (T := ⟨S100000x64, .f32⟩) main_call2_v3) (TRef.of (T := ⟨S100000x64, .f32⟩) main_v69) select ]

/-- Operations 32 … 66 of the second window: what follows there. -/
abbrev ops1post : List (HloOp τ sig (Elt F)) :=
  [ unary main_arg7 main_v70 ((extractStridedSlice S1x64x2 ![0, 0, 0] · slices_S2x64x2_S1x64x2_0_0_0) : (⟨S2x64x2, .f32⟩ : BufTy).Contents (Elt F) → (⟨S1x64x2, .f32⟩ : BufTy).Contents (Elt F)),
    reshape main_v70 main_v71 rfl shapeCasts_S1x64x2_S64x2,
    binary main_v69 main_v71 main_v72 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    unary main_v34 main_v74 (broadcastInDim S1200000x1 ![0] bcast_S1200000_S1200000x1_0 : (⟨S1200000, .f32⟩ : BufTy).Contents (Elt F) → (⟨S1200000x1, .f32⟩ : BufTy).Contents (Elt F)),
    nullary main_c_14 (constantI S_ 32 0#32),
    unary main_c_14 main_v75 (broadcastInDim S1200000 ![] bcast_S_S1200000 : (⟨S_, .i32⟩ : BufTy).Contents (Elt F) → (⟨S1200000, .i32⟩ : BufTy).Contents (Elt F)),
    binary main_v1 main_v75 main_v76 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v77 (broadcastInDim S1200000 ![] bcast_S_S1200000 : (⟨S_, .i32⟩ : BufTy).Contents (Elt F) → (⟨S1200000, .i32⟩ : BufTy).Contents (Elt F)),
    binary main_v1 main_v77 main_v78 (addi : (⟨S1200000, .i32⟩ : BufTy).Contents (Elt F) → (⟨S1200000, .i32⟩ : BufTy).Contents (Elt F) → (⟨S1200000, .i32⟩ : BufTy).Contents (Elt F)),
    ternary main_v76 main_v78 main_v1 main_v79 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v79 main_v80 (broadcastInDim S1200000x1 ![0] bcast_S1200000_S1200000x1_0 : (⟨S1200000, .i32⟩ : BufTy).Contents (Elt F) → (⟨S1200000x1, .i32⟩ : BufTy).Contents (Elt F)),
    binary main_v69 main_v80 main_v81 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v74 main_v82 (broadcastInDim S1200000x64 ![0, 1] bcast_S1200000x1_S1200000x64_0_1 : (⟨S1200000x1, .f32⟩ : BufTy).Contents (Elt F) → (⟨S1200000x64, .f32⟩ : BufTy).Contents (Elt F)),
    binary main_v82 main_v81 main_v83 (mulf : (⟨S1200000x64, .f32⟩ : BufTy).Contents (Elt F) → (⟨S1200000x64, .f32⟩ : BufTy).Contents (Elt F) → (⟨S1200000x64, .f32⟩ : BufTy).Contents (Elt F)),
    nullary main_c_16 (constantI S_ 32 0#32),
    unary main_c_16 main_v84 (broadcastInDim S1200000 ![] bcast_S_S1200000 : (⟨S_, .i32⟩ : BufTy).Contents (Elt F) → (⟨S1200000, .i32⟩ : BufTy).Contents (Elt F)),
    binary main_v3 main_v84 main_v85 (cmpi .slt : (⟨S1200000, .i32⟩ : BufTy).Contents (Elt F) → (⟨S1200000, .i32⟩ : BufTy).Contents (Elt F) → (⟨S1200000, .i1⟩ : BufTy).Contents (Elt F)),
    nullary main_c_17 (constantI S_ 32 100000#32),
    unary main_c_17 main_v86 (broadcastInDim S1200000 ![] bcast_S_S1200000 : (⟨S_, .i32⟩ : BufTy).Contents (Elt F) → (⟨S1200000, .i32⟩ : BufTy).Contents (Elt F)),
    binary main_v3 main_v86 main_v87 (addi : (⟨S1200000, .i32⟩ : BufTy).Contents (Elt F) → (⟨S1200000, .i32⟩ : BufTy).Contents (Elt F) → (⟨S1200000, .i32⟩ : BufTy).Contents (Elt F)),
    ternary main_v85 main_v87 main_v3 main_v88 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v88 main_v89 (broadcastInDim S1200000x1 ![0] bcast_S1200000_S1200000x1_0 : (⟨S1200000, .i32⟩ : BufTy).Contents (Elt F) → (⟨S1200000x1, .i32⟩ : BufTy).Contents (Elt F)),
    ternary main_v73 main_v89 main_v83 main_v90 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v91 ((extractStridedSlice S1x64x2 ![1, 0, 0] · slices_S2x64x2_S1x64x2_1_0_0) : (⟨S2x64x2, .f32⟩ : BufTy).Contents (Elt F) → (⟨S1x64x2, .f32⟩ : BufTy).Contents (Elt F)),
    reshape main_v91 main_v92 rfl shapeCasts_S1x64x2_S64x2,
    binary main_v90 main_v92 main_v93 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    binary main_v72 main_v93 main_v94 (addf : (⟨S100000x2, .f32⟩ : BufTy).Contents (Elt F) → (⟨S100000x2, .f32⟩ : BufTy).Contents (Elt F) → (⟨S100000x2, .f32⟩ : BufTy).Contents (Elt F)),
    unary main_arg8 main_v95 (broadcastInDim S1x2 ![1] bcast_S2_S1x2_1 : (⟨S2, .f32⟩ : BufTy).Contents (Elt F) → (⟨S1x2, .f32⟩ : BufTy).Contents (Elt F)),
    unary main_v95 main_v96 (broadcastInDim S100000x2 ![0, 1] bcast_S1x2_S100000x2_0_1 : (⟨S1x2, .f32⟩ : BufTy).Contents (Elt F) → (⟨S100000x2, .f32⟩ : BufTy).Contents (Elt F)),
    binary main_v94 main_v96 main_v97 (addf : (⟨S100000x2, .f32⟩ : BufTy).Contents (Elt F) → (⟨S100000x2, .f32⟩ : BufTy).Contents (Elt F) → (⟨S100000x2, .f32⟩ : BufTy).Contents (Elt F)),
    binary main_v97 main_arg9 main_v98 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    unary main_arg10 main_v99 (broadcastInDim S1x1 ![1] bcast_S1_S1x1_1 : (⟨S1, .f32⟩ : BufTy).Contents (Elt F) → (⟨S1x1, .f32⟩ : BufTy).Contents (Elt F)) ]

/-- The buffers each of those four lists writes. -/
abbrev WL2a : List (Ref sig .tc) := [main_v41, main_v42, main_v43]
abbrev WPost0 : List (Ref sig .tc) := [main_cst_8, main_v44, main_v45, main_c_9, main_v46, main_v47]
abbrev WL2b : List (Ref sig .tc) := [main_v62, main_v63, main_v64, main_v65, main_v66, main_v67, main_v68, main_call2_cst, main_call2_v0, main_call2_v1, main_call2_cst_0, main_call2_v2, main_call2_v3, main_v69]
abbrev WPost1 : List (Ref sig .tc) := [main_v70, main_v71, main_v72, main_cst_13, main_v73, main_v74, main_c_14, main_v75, main_v76, main_c_15, main_v77, main_v78, main_v79, main_v80, main_v81, main_v82, main_v83, main_c_16, main_v84, main_v85, main_c_17, main_v86, main_v87, main_v88, main_v89, main_v90, main_v91, main_v92, main_v93, main_v94, main_v95, main_v96, main_v97, main_v98, main_v99]

set_option maxRecDepth 8192 in
/-- The first window is its first 59 operations, then the stage's three, then the six after. -/
theorem ops0_split2 : (ops0 : List (HloOp τ sig (Elt F))) = ops0.take 59 ++ (opsL2a ++ ops0post) := rfl

set_option maxRecDepth 8192 in
/-- The second window is its first 17 operations, then the stage's fourteen, then the 35 after. -/
theorem ops1_split2 : (ops1 : List (HloOp τ sig (Elt F))) = ops1.take 17 ++ (opsL2b ++ ops1post) := rfl

set_option maxRecDepth 8192 in
theorem opsL2a_writes : (opsL2a : List (HloOp τ sig (Elt F))).Forall fun op => op.writes ⊆ (WL2a.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops0post_writes : (ops0post : List (HloOp τ sig (Elt F))).Forall fun op => op.writes ⊆ (WPost0.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem opsL2b_writes : (opsL2b : List (HloOp τ sig (Elt F))).Forall fun op => op.writes ⊆ (WL2b.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
theorem ops1post_writes : (ops1post : List (HloOp τ sig (Elt F))).Forall fun op => op.writes ⊆ (WPost1.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The first 59 operations of the first window write only buffers the window writes. -/
theorem ops0pre_writes : ((ops0 : List (HloOp τ sig (Elt F))).take 59).Forall fun op => op.writes ⊆ (W0.map (Proc.devRef (τ := τ) .tc)).toFinset :=
  List.forall_iff_forall_mem.mpr fun op h => List.forall_iff_forall_mem.mp ops0_writes op (List.mem_of_mem_take h)

/-- The first 17 operations of the second window write only buffers the window writes. -/
theorem ops1pre_writes : ((ops1 : List (HloOp τ sig (Elt F))).take 17).Forall fun op => op.writes ⊆ (W1.map (Proc.devRef (τ := τ) .tc)).toFinset :=
  List.forall_iff_forall_mem.mpr fun op h => List.forall_iff_forall_mem.mp ops1_writes op (List.mem_of_mem_take h)

/-! ## The stage's functions -/

/-- The leaky rectifier as the outlined function computes it on an array: the comparison against the broadcast zero, the
    product by the broadcast slope, the choice. -/
def lrelu2 (z : (⟨S100000x64, .f32⟩ : BufTy).Contents (Elt F)) : (⟨S100000x64, .f32⟩ : BufTy).Contents (Elt F) :=
  select (cmpf .oge z (broadcastInDim S100000x64 ![] bcast_S_S100000x64 (constant S_ .f32 0x00000000#32)))
    z (mulf (broadcastInDim S100000x64 ![] bcast_S_S100000x64 (constant S_ .f32 0x3C23D70A#32)) z)

/-- What the fourteen later operations make of the first product, the propagated array, the second weight matrix and the
    bias row: the second product added to the first, the bias row repeated down the rows added to that, the rectifier. -/
def stageB (xw : (⟨S100000x64, .f32⟩ : BufTy).Contents (Elt F)) (p : (⟨S100000x32, .f32⟩ : BufTy).Contents (Elt F))
    (w1 : (⟨S32x64, .f32⟩ : BufTy).Contents (Elt F)) (b : (⟨S1x64, .f32⟩ : BufTy).Contents (Elt F)) : (⟨S100000x64, .f32⟩ : BufTy).Contents (Elt F) :=
  lrelu2 (addf (addf xw (Host.dotGeneral dot_S100000x32_S32x64_S100000x64_1_0_0_1_n_n none p w1)) (broadcastInDim S100000x64 ![0, 1] bcast_S1x64_S100000x64_0_1 b))

set_option maxRecDepth 8192 in
/-- The three earlier operations, from any contents, leave the first product's buffer at the product of the first
    layer's output with the reshaped first slice of the stacked weights. -/
theorem opsL2a_v43 (Wv : Valuation τ sig (Elt F)) :
    after opsL2a Wv (Proc.devRef .tc main_v43)
      = Host.dotGeneral dot_S100000x32_S32x64_S100000x64_1_0_0_1_n_n none (Wv (Proc.devRef .tc main_v40)) (shapeCast S32x64 (extractStridedSlice S1x32x64 ![0, 0, 0] (Wv (Proc.devRef .tc main_arg5)) slices_S2x32x64_S1x32x64_0_0_0) shapeCasts_S1x32x64_S32x64) := by
  after_results <;> rfl

set_option maxRecDepth 8192 in
/-- The fourteen later operations, from any contents, leave the second layer's buffer at that function of the first
    product's, the propagated array's and the two arguments' contents. -/
theorem opsL2b_v69 (Wv : Valuation τ sig (Elt F)) :
    after opsL2b Wv (Proc.devRef .tc main_v69)
      = stageB (Wv (Proc.devRef .tc main_v43)) (Wv (Proc.devRef .tc main_v61)) (shapeCast S32x64 (extractStridedSlice S1x32x64 ![1, 0, 0] (Wv (Proc.devRef .tc main_arg5)) slices_S2x32x64_S1x32x64_1_0_0) shapeCasts_S1x32x64_S32x64) (broadcastInDim S1x64 ![1] bcast_S64_S1x64_1 (Wv (Proc.devRef .tc main_arg6))) := by
  after_results <;> rfl

/-! ## The whole run -/

/-- The first layer's buffer ends as the first 59 operations leave it. -/
theorem v40_read (V : Valuation τ sig (Elt F)) :
    after ops V (Proc.devRef .tc main_v40) = after ((ops0 : List (HloOp τ sig (Elt F))).take 59) V (Proc.devRef .tc main_v40) := by
  rw [after_ops, after_of_writes_sub ops2 _ ops2_writes (by decide : main_v40 ∉ W2),
    after_of_writes_sub ops1 _ ops1_writes (by decide : main_v40 ∉ W1)]
  refine (congrArg (fun l => after l V (Proc.devRef .tc main_v40)) ops0_split2).trans ?_
  show after ((ops0 : List (HloOp τ sig (Elt F))).take 59 ++ (opsL2a ++ ops0post)) V (Proc.devRef .tc main_v40) = _
  rw [after_append, after_append, after_of_writes_sub ops0post _ ops0post_writes (by decide : main_v40 ∉ WPost0),
    after_of_writes_sub opsL2a _ opsL2a_writes (by decide : main_v40 ∉ WL2a)]

/-- The propagated array's buffer ends as the first 17 operations of the second window leave it. -/
theorem v61_read (V : Valuation τ sig (Elt F)) :
    after ops V (Proc.devRef .tc main_v61) = after ((ops1 : List (HloOp τ sig (Elt F))).take 17) (after ops0 V) (Proc.devRef .tc main_v61) := by
  rw [after_ops, after_of_writes_sub ops2 _ ops2_writes (by decide : main_v61 ∉ W2)]
  refine (congrArg (fun l => after l (after ops0 V) (Proc.devRef .tc main_v61)) ops1_split2).trans ?_
  show after ((ops1 : List (HloOp τ sig (Elt F))).take 17 ++ (opsL2b ++ ops1post)) (after ops0 V) (Proc.devRef .tc main_v61) = _
  rw [after_append, after_append, after_of_writes_sub ops1post _ ops1post_writes (by decide : main_v61 ∉ WPost1),
    after_of_writes_sub opsL2b _ opsL2b_writes (by decide : main_v61 ∉ WL2b)]

/-- The first product's buffer after the first window: the product of the first layer's output, as the first 59
    operations leave it, with the reshaped first slice of the stacked weights' launch contents. -/
theorem v43_read (V : Valuation τ sig (Elt F)) :
    after ops0 V (Proc.devRef .tc main_v43)
      = Host.dotGeneral dot_S100000x32_S32x64_S100000x64_1_0_0_1_n_n none (after ((ops0 : List (HloOp τ sig (Elt F))).take 59) V (Proc.devRef .tc main_v40)) (shapeCast S32x64 (extractStridedSlice S1x32x64 ![0, 0, 0] (V (Proc.devRef .tc main_arg5)) slices_S2x32x64_S1x32x64_0_0_0) shapeCasts_S1x32x64_S32x64) := by
  refine (congrArg (fun l => after l V (Proc.devRef .tc main_v43)) ops0_split2).trans ?_
  show after ((ops0 : List (HloOp τ sig (Elt F))).take 59 ++ (opsL2a ++ ops0post)) V (Proc.devRef .tc main_v43) = _
  rw [after_append, after_append, after_of_writes_sub ops0post _ ops0post_writes (by decide : main_v43 ∉ WPost0), opsL2a_v43,
    after_of_writes_sub ((ops0 : List (HloOp τ sig (Elt F))).take 59) V ops0pre_writes (by decide : main_arg5 ∉ W0)]

/-- THE SECOND LAYER'S BUFFER after the whole run, from any contents: the seventeen operations' function of the first
    layer's buffer and the propagated array's buffer as the run leaves them and of the two arguments' launch contents. -/
theorem v69_eq (V : Valuation τ sig (Elt F)) :
    after ops V (Proc.devRef .tc main_v69)
      = stageB (Host.dotGeneral dot_S100000x32_S32x64_S100000x64_1_0_0_1_n_n none (after ops V (Proc.devRef .tc main_v40)) (shapeCast S32x64 (extractStridedSlice S1x32x64 ![0, 0, 0] (V (Proc.devRef .tc main_arg5)) slices_S2x32x64_S1x32x64_0_0_0) shapeCasts_S1x32x64_S32x64))
          (after ops V (Proc.devRef .tc main_v61)) (shapeCast S32x64 (extractStridedSlice S1x32x64 ![1, 0, 0] (V (Proc.devRef .tc main_arg5)) slices_S2x32x64_S1x32x64_1_0_0) shapeCasts_S1x32x64_S32x64) (broadcastInDim S1x64 ![1] bcast_S64_S1x64_1 (V (Proc.devRef .tc main_arg6))) := by
  rw [v40_read, v61_read, ← v43_read, after_ops, after_of_writes_sub ops2 _ ops2_writes (by decide : main_v69 ∉ W2)]
  refine (congrArg (fun l => after l (after ops0 V) (Proc.devRef .tc main_v69)) ops1_split2).trans ?_
  show after ((ops1 : List (HloOp τ sig (Elt F))).take 17 ++ (opsL2b ++ ops1post)) (after ops0 V) (Proc.devRef .tc main_v69) = _
  rw [after_append, after_append, after_of_writes_sub ops1post _ ops1post_writes (by decide : main_v69 ∉ WPost1), opsL2b_v69,
    after_of_writes_sub ((ops1 : List (HloOp τ sig (Elt F))).take 17) _ ops1pre_writes (by decide : main_v43 ∉ W1),
    after_of_writes_sub ((ops1 : List (HloOp τ sig (Elt F))).take 17) _ ops1pre_writes (by decide : main_arg5 ∉ W1),
    after_of_writes_sub ((ops1 : List (HloOp τ sig (Elt F))).take 17) _ ops1pre_writes (by decide : main_arg6 ∉ W1),
    after_of_writes_sub ops0 V ops0_writes (by decide : main_arg5 ∉ W0),
    after_of_writes_sub ops0 V ops0_writes (by decide : main_arg6 ∉ W0)]

/-! ## At the extended reals, index by index -/

/-- A scalar constant broadcast to the array reads its word everywhere. -/
theorem bcast_const_apply (w : BitVec 32) (i : S100000x64.Idx) :
    (broadcastInDim S100000x64 ![] bcast_S_S100000x64 (constant (F := Ideal) S_ .f32 w) : S100000x64.Idx → EReal) i = Ideal.ofBits .f32 w := by
  rw [broadcastInDim_apply _ bcast_S_S100000x64 _ i ix0 (fun a => a.elim0)]
  rfl

/-- The array rectifier at an index is the scalar one. -/
theorem lrelu2_apply (z : S100000x64.Idx → EReal) (i : S100000x64.Idx) :
    (lrelu2 (F := Ideal) z : S100000x64.Idx → EReal) i = GNN.Spec2.leaky (z i) := by
  unfold lrelu2 GNN.Spec2.leaky
  show Scalar.select (Ideal.cmp .oge (z i) ((broadcastInDim S100000x64 ![] bcast_S_S100000x64 (constant (F := Ideal) S_ .f32 0x00000000#32) : S100000x64.Idx → EReal) i)) (z i)
      ((broadcastInDim S100000x64 ![] bcast_S_S100000x64 (constant (F := Ideal) S_ .f32 0x3C23D70A#32) : S100000x64.Idx → EReal) i * z i) = _
  rw [bcast_const_apply, bcast_const_apply]

/-- The left operand's index at output index i and contraction index k: row from i, column from k. -/
theorem lhs2_0 (i : S100000x64.Idx) (k : dot_S100000x32_S32x64_S100000x64_1_0_0_1_n_n.contr.Idx) : (dot_S100000x32_S32x64_S100000x64_1_0_0_1_n_n.lhsIdx i k 0).val = (i 0).val := by
  unfold DotDims.lhsIdx
  rw [dif_neg (show ¬(0 : Fin S100000x32.rank) ∈ dot_S100000x32_S32x64_S100000x64_1_0_0_1_n_n.lhsBatch by decide),
    dif_pos (show (0 : Fin S100000x32.rank) ∈ dot_S100000x32_S32x64_S100000x64_1_0_0_1_n_n.lhsNonContracting by decide)]
  rfl
theorem lhs2_1 (i : S100000x64.Idx) (k : dot_S100000x32_S32x64_S100000x64_1_0_0_1_n_n.contr.Idx) : (dot_S100000x32_S32x64_S100000x64_1_0_0_1_n_n.lhsIdx i k 1).val = (k ⟨0, by decide⟩).val :=
  dot_S100000x32_S32x64_S100000x64_1_0_0_1_n_n.lhsIdx_val_of_single rfl i k
/-- The right operand's: row from k, column from i. -/
theorem rhs2_0 (i : S100000x64.Idx) (k : dot_S100000x32_S32x64_S100000x64_1_0_0_1_n_n.contr.Idx) : (dot_S100000x32_S32x64_S100000x64_1_0_0_1_n_n.rhsIdx i k 0).val = (k ⟨0, by decide⟩).val :=
  dot_S100000x32_S32x64_S100000x64_1_0_0_1_n_n.rhsIdx_val_of_single rfl i k
theorem rhs2_1 (i : S100000x64.Idx) (k : dot_S100000x32_S32x64_S100000x64_1_0_0_1_n_n.contr.Idx) : (dot_S100000x32_S32x64_S100000x64_1_0_0_1_n_n.rhsIdx i k 1).val = (i 1).val := by
  unfold DotDims.rhsIdx
  rw [dif_neg (show ¬(1 : Fin S32x64.rank) ∈ dot_S100000x32_S32x64_S100000x64_1_0_0_1_n_n.rhsBatch by decide),
    dif_pos (show (1 : Fin S32x64.rank) ∈ dot_S100000x32_S32x64_S100000x64_1_0_0_1_n_n.rhsNonContracting by decide)]
  rfl

/-- The host's product at (r, q): the inner product of row r and column q over the 32 features. -/
theorem dot2_apply (a : FVec Ideal S100000x32 .f32) (w : FVec Ideal S32x64 .f32) (r : Fin 100000) (q : Fin 64) :
    (Host.dotGeneral (F := Ideal) dot_S100000x32_S32x64_S100000x64_1_0_0_1_n_n none a w : S100000x64.Idx → EReal) (ix2 r q) = ∑ k : Fin 32, a (ix2 r k) * w (ix2 k q) := by
  simp only [Host.dotGeneral]
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have el : dot_S100000x32_S32x64_S100000x64_1_0_0_1_n_n.lhsIdx (ix2 r q) ((contrEquiv1 dot_S100000x32_S32x64_S100000x64_1_0_0_1_n_n 32 rfl rfl).symm k) = ix2 r k :=
    funext fun ax => Fin.ext (by
      match ax with
      | ⟨0, _⟩ => exact lhs2_0 _ _
      | ⟨1, _⟩ => exact (lhs2_1 _ _).trans hk)
  have er : dot_S100000x32_S32x64_S100000x64_1_0_0_1_n_n.rhsIdx (ix2 r q) ((contrEquiv1 dot_S100000x32_S32x64_S100000x64_1_0_0_1_n_n 32 rfl rfl).symm k) = ix2 k q :=
    funext fun ax => Fin.ext (by
      match ax with
      | ⟨0, _⟩ => exact (rhs2_0 _ _).trans hk
      | ⟨1, _⟩ => exact rhs2_1 _ _)
  rw [el, er]

/-- A row [1,64] repeated down the 100000 rows reads, at (r, q), the row at q. -/
theorem rows_apply (b : S1x64.Idx → EReal) (r : Fin 100000) (q : Fin 64) :
    (broadcastInDim S100000x64 ![0, 1] bcast_S1x64_S100000x64_0_1 b : S100000x64.Idx → EReal) (ix2 r q) = b (ix2 (0 : Fin 1) q) :=
  broadcastInDim_apply _ bcast_S1x64_S100000x64_0_1 b (ix2 r q) (ix2 (0 : Fin 1) q) (fun ax => match ax with
    | ⟨0, _⟩ => rfl
    | ⟨1, _⟩ => rfl)

/-- The stage's function at (r, q), its first operand the product of h with w0: the second layer's entry. -/
theorem stageB_apply (h p : FVec Ideal S100000x32 .f32) (w0 w1 : FVec Ideal S32x64 .f32) (b : FVec Ideal S1x64 .f32) (r : Fin 100000) (q : Fin 64) :
    (stageB (F := Ideal) (Host.dotGeneral (F := Ideal) dot_S100000x32_S32x64_S100000x64_1_0_0_1_n_n none h w0) p w1 b : S100000x64.Idx → EReal) (ix2 r q)
      = GNN.Spec2.layer2At h p w0 w1 b r q := by
  unfold stageB
  rw [lrelu2_apply, addf_apply, addf_apply, dot2_apply, dot2_apply, rows_apply]
  rfl

/-- The stage's function at the extended reals IS the second layer of the two arrays, the two weight matrices and the
    bias row. -/
theorem stageB_eq_layer2 (h p : FVec Ideal S100000x32 .f32) (w0 w1 : FVec Ideal S32x64 .f32) (b : FVec Ideal S1x64 .f32) :
    (stageB (F := Ideal) (Host.dotGeneral (F := Ideal) dot_S100000x32_S32x64_S100000x64_1_0_0_1_n_n none h w0) p w1 b : S100000x64.Idx → EReal)
      = GNN.Spec2.layer2 h p w0 w1 b := by
  funext i
  obtain ⟨r, q, rfl⟩ : ∃ (r : Fin 100000) (q : Fin 64), i = ix2 r q := ⟨i 0, i 1, eq_ix2 i⟩
  rw [stageB_apply, GNN.Spec2.layer2_ix2]

/-- THE REFERENCE'S SECOND LAYER, FROM ANY CONTENTS AT THE START OF ITS FOURTEEN LATER OPERATIONS in which the first
    product's buffer holds the product of the first layer's buffer with the reshaped first weight slice: those operations
    leave the layer's buffer at the second layer of the first layer's buffer, the propagated array's buffer, the two
    reshaped slices of the stacked weights and the bias placed as a row. -/
theorem ref_layer2 (Wv : Valuation τ sig (Elt Ideal))
    (h43 : Wv (Proc.devRef .tc main_v43) = Host.dotGeneral (F := Ideal) (φ₁ := .f32) (φ₂ := .f32) dot_S100000x32_S32x64_S100000x64_1_0_0_1_n_n none (Wv (Proc.devRef .tc main_v40) : FVec Ideal S100000x32 .f32) (shapeCast S32x64 (extractStridedSlice S1x32x64 ![0, 0, 0] (Wv (Proc.devRef .tc main_arg5) : FVec Ideal S2x32x64 .f32) slices_S2x32x64_S1x32x64_0_0_0 : FVec Ideal S1x32x64 .f32) shapeCasts_S1x32x64_S32x64 : FVec Ideal S32x64 .f32)) :
    after opsL2b Wv (Proc.devRef .tc main_v69)
      = GNN.Spec2.layer2 (Wv (Proc.devRef .tc main_v40) : FVec Ideal S100000x32 .f32) (Wv (Proc.devRef .tc main_v61) : FVec Ideal S100000x32 .f32)
          (shapeCast S32x64 (extractStridedSlice S1x32x64 ![0, 0, 0] (Wv (Proc.devRef .tc main_arg5) : FVec Ideal S2x32x64 .f32) slices_S2x32x64_S1x32x64_0_0_0 : FVec Ideal S1x32x64 .f32) shapeCasts_S1x32x64_S32x64 : FVec Ideal S32x64 .f32)
          (shapeCast S32x64 (extractStridedSlice S1x32x64 ![1, 0, 0] (Wv (Proc.devRef .tc main_arg5) : FVec Ideal S2x32x64 .f32) slices_S2x32x64_S1x32x64_1_0_0 : FVec Ideal S1x32x64 .f32) shapeCasts_S1x32x64_S32x64 : FVec Ideal S32x64 .f32)
          (broadcastInDim S1x64 ![1] bcast_S64_S1x64_1 (Wv (Proc.devRef .tc main_arg6) : FVec Ideal S64 .f32) : FVec Ideal S1x64 .f32) := by
  rw [opsL2b_v69, h43]
  exact stageB_eq_layer2 _ _ _ _ _

/-- THE REFERENCE'S SECOND LAYER AFTER THE WHOLE RUN, every buffer read off the run: the second layer of the first
    layer's buffer, the propagated array's buffer, the two reshaped slices of the stacked weights' launch contents and
    the bias's launch contents placed as a row. -/
theorem ref_layer2_full (m : (ℓ : Loc nD τ sig) → Buf (Elt Ideal) ℓ) (c : Dev nD) :
    after ops (launchContents m c) (Proc.devRef .tc main_v69)
      = GNN.Spec2.layer2 (after ops (launchContents m c) (Proc.devRef .tc main_v40) : FVec Ideal S100000x32 .f32)
          (after ops (launchContents m c) (Proc.devRef .tc main_v61) : FVec Ideal S100000x32 .f32)
          (shapeCast S32x64 (extractStridedSlice S1x32x64 ![0, 0, 0] (m ((c.tc : Thread nD τ).loc main_arg5) : FVec Ideal S2x32x64 .f32) slices_S2x32x64_S1x32x64_0_0_0 : FVec Ideal S1x32x64 .f32) shapeCasts_S1x32x64_S32x64 : FVec Ideal S32x64 .f32)
          (shapeCast S32x64 (extractStridedSlice S1x32x64 ![1, 0, 0] (m ((c.tc : Thread nD τ).loc main_arg5) : FVec Ideal S2x32x64 .f32) slices_S2x32x64_S1x32x64_1_0_0 : FVec Ideal S1x32x64 .f32) shapeCasts_S1x32x64_S32x64 : FVec Ideal S32x64 .f32)
          (broadcastInDim S1x64 ![1] bcast_S64_S1x64_1 (m ((c.tc : Thread nD τ).loc main_arg6) : FVec Ideal S64 .f32) : FVec Ideal S1x64 .f32) :=
  (v69_eq (F := Ideal) (launchContents m c)).trans (stageB_eq_layer2 _ _ _ _ _)

end Cert.ReferenceIdeal.RefLayer2

end
-- ==== Proof.BridgeB3.lean ====
/-
  THE SECOND HALF OF THE COMPARISON OF THE TWO PROGRAMS: from launch memories that agree on the arguments, all finite,
  and real edge weights, the reference's third-layer output after its run is the kernel program's after its third
  region, and it is an array of reals.

  The second layers agree because each program applies the second layer to arrays that the first half shows equal (the
  first layer's output and its propagated table) and to the same reshaped slices of the same weight argument; the bias
  row is the bias argument reshaped to a row in one program and placed as a row by a broadcast in the other, which is
  one array. The rest is assembled from the agreements of the propagated term and of the third layer.
-/
import proofs.«171083_j730144440440_2_alg».proof.Proof.BridgeB2
import proofs.«171083_j730144440440_2_alg».proof.Proof.RefValue2
import proofs.«171083_j730144440440_2_alg».proof.Proof.BridgeA
import proofs.«171083_j730144440440_2_alg».proof.Proof.FiniteInputs

set_option maxRecDepth 16384

noncomputable section

open scoped BigOperators

namespace Cert.Proof.BridgeB

open Idealize.ShloMosaic Idealize.ShloMosaic.TcCoe Idealize.SL.Sem Idealize.ShloMosaic.StableHlo
open Idealize.ShloMosaic.ValueIdx
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- S4. THE SECOND LAYERS' OUTPUTS AGREE. -/
theorem layer2_agree (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (s40 : after Cert.ReferenceIdeal.RefRun.ops (launchContents m' c) (Proc.devRef .tc Cert.ReferenceIdeal.main_v40) = W4 m c (Proc.devRef .tc Cert.KernelIdeal.main_v37))
    (s61 : after Cert.ReferenceIdeal.RefRun.ops (launchContents m' c) (Proc.devRef .tc Cert.ReferenceIdeal.main_v61) = W5 m c (Proc.devRef .tc Cert.KernelIdeal.main_v57)) :
    after Cert.ReferenceIdeal.RefRun.ops (launchContents m' c) (Proc.devRef .tc Cert.ReferenceIdeal.main_v69) = W6 m c (Proc.devRef .tc Cert.KernelIdeal.main_v65_0) := by
  rw [Cert.ReferenceIdeal.RefLayer2.ref_layer2_full m' c, k6_v65_0 m c, s40, s61, h5, h6,
    ColumnForms.shapeCast_a_1a_eq_broadcastInDim _ Cert.KernelIdeal.Gen.shapeCasts_S64_S1x64 Cert.ReferenceIdeal.Gen.bcast_S64_S1x64_1]

/-- THE SECOND HALF, from what the first half establishes, each fact a hypothesis: the weight and bias arguments of the
    second and third layers agree (h5 … h8); the row-number vectors, the edge weights, the first layer's output and its
    propagated table agree (s1, s3, s34, s40, s61); the edge weights, the first layer's output and its propagated
    table are arrays of reals; the kernel program's arguments are finite. Then the third layers' outputs agree, and
    the kernel program's is an array of reals. -/
theorem second_half_of (c : Dev Cert.KernelIdeal.nD)
    (hpre : Cert.Pre_KernelIdeal (hPre_finite_inputs := Cert.Pre_finite_inputs.Gen.facts) m)
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (s1 : after Cert.ReferenceIdeal.RefRun.ops (launchContents m' c) (Proc.devRef .tc Cert.ReferenceIdeal.main_v1) = W3 m c (Proc.devRef .tc Cert.KernelIdeal.main_v1))
    (s3 : after Cert.ReferenceIdeal.RefRun.ops (launchContents m' c) (Proc.devRef .tc Cert.ReferenceIdeal.main_v3) = W3 m c (Proc.devRef .tc Cert.KernelIdeal.main_v3))
    (s34 : after Cert.ReferenceIdeal.RefRun.ops (launchContents m' c) (Proc.devRef .tc Cert.ReferenceIdeal.main_v34) = W3 m c (Proc.devRef .tc Cert.KernelIdeal.main_v34))
    (s40 : after Cert.ReferenceIdeal.RefRun.ops (launchContents m' c) (Proc.devRef .tc Cert.ReferenceIdeal.main_v40) = W4 m c (Proc.devRef .tc Cert.KernelIdeal.main_v37))
    (s61 : after Cert.ReferenceIdeal.RefRun.ops (launchContents m' c) (Proc.devRef .tc Cert.ReferenceIdeal.main_v61) = W5 m c (Proc.devRef .tc Cert.KernelIdeal.main_v57))
    (hlw : ∀ e : Cert.KernelIdeal.S1200000.Idx, ∃ r : ℝ, (W3 m c (Proc.devRef .tc Cert.KernelIdeal.main_v34) : Cert.KernelIdeal.S1200000.Idx → EReal) e = (r : EReal))
    (hh1 : ∀ i : Cert.KernelIdeal.S100000x32.Idx, ∃ r : ℝ, (W4 m c (Proc.devRef .tc Cert.KernelIdeal.main_v37) : Cert.KernelIdeal.S100000x32.Idx → EReal) i = (r : EReal))
    (hp1 : ∀ i : Cert.KernelIdeal.S100000x32.Idx, ∃ r : ℝ, (W5 m c (Proc.devRef .tc Cert.KernelIdeal.main_v57) : Cert.KernelIdeal.S100000x32.Idx → EReal) i = (r : EReal)) :
    after Cert.ReferenceIdeal.RefRun.ops (launchContents m' c) (Proc.devRef .tc Cert.ReferenceIdeal.main_v97) = W8 m c (Proc.devRef .tc Cert.KernelIdeal.main_v87)
    ∧ ∀ i : Cert.KernelIdeal.S100000x2.Idx, ∃ r : ℝ, (W8 m c (Proc.devRef .tc Cert.KernelIdeal.main_v87) : Cert.KernelIdeal.S100000x2.Idx → EReal) i = (r : EReal) := by
  obtain ⟨-, -, -, -, r5, r6, r7, r8, -, -⟩ := Cert.Proof.Finite.finite_of_pre m hpre c
  have a69 := layer2_agree m m' c h5 h6 s40 s61
  have hh2 := k6_v65_0_real m c r5 r6 hh1 hp1
  have aq := prop2_agree m m' c s1 s3 s34 a69 hlw hh2 r7
  exact ⟨layer3_agree m m' c h7 h8 a69 aq, k8_v87_real m c hlw hh2 r7 r8⟩

/-- THE SECOND HALF: from launch memories that agree on the eleven arguments, the kernel program's finite, and real edge
    weights, the reference's third-layer output after its run is what the kernel program's third region leaves in
    its output array, and every entry of it is a real. -/
theorem second_half (hagree : Cert.Proof.BridgeA.Agree m m')
    (hpre : Cert.Pre_KernelIdeal (hPre_finite_inputs := Cert.Pre_finite_inputs.Gen.facts) m) (c : Dev Cert.KernelIdeal.nD)
    (hlw : ∀ e : Cert.KernelIdeal.S1200000.Idx, ∃ r : ℝ, (W3 m c (Proc.devRef .tc Cert.KernelIdeal.main_v34) : Cert.KernelIdeal.S1200000.Idx → EReal) e = (r : EReal)) :
    after Cert.ReferenceIdeal.RefRun.ops (launchContents m' c) (Proc.devRef .tc Cert.ReferenceIdeal.main_v97) = W8 m c (Proc.devRef .tc Cert.KernelIdeal.main_v87)
    ∧ ∀ i : Cert.KernelIdeal.S100000x2.Idx, ∃ r : ℝ, (W8 m c (Proc.devRef .tc Cert.KernelIdeal.main_v87) : Cert.KernelIdeal.S100000x2.Idx → EReal) i = (r : EReal) :=
  second_half_of m m' c hpre (hagree c).2.2.2.2.2.1 (hagree c).2.2.2.2.2.2.1 (hagree c).2.2.2.2.2.2.2.1
    (hagree c).2.2.2.2.2.2.2.2.1
    (Cert.Proof.BridgeA.src_index m m' hagree c) (Cert.Proof.BridgeA.dst_index m m' hagree c)
    (Cert.Proof.BridgeA.edge_weights m m' hagree c) (Cert.Proof.BridgeA.layer1_agree m m' hagree c)
    (Cert.Proof.BridgeA.prop1_agree m m' hagree c) hlw (Cert.Proof.BridgeA.W4_v37_real m hpre c)
    (Cert.Proof.BridgeA.W5_v57_real m hpre c hlw)

end Cert.Proof.BridgeB
-- ==== Proof.KIChains.lean ====
/-
  Buffers that an item of the program does not write keep their contents across it: the arguments at every boundary,
  and each intermediate array from the boundary where it is made to the boundary where it is last read.
-/
import proofs.«171083_j730144440440_2_alg».proof.Proof.KIFrame

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem W1_arg0 (c : Dev nD) : W1 m c (Proc.devRef .tc main_arg0) = m ((c : Thread nD τ).loc main_arg0) := (W1_of m c main_arg0 (by decide)).trans (rfl)
theorem W1_arg1 (c : Dev nD) : W1 m c (Proc.devRef .tc main_arg1) = m ((c : Thread nD τ).loc main_arg1) := (W1_of m c main_arg1 (by decide)).trans (rfl)
theorem W1_arg2 (c : Dev nD) : W1 m c (Proc.devRef .tc main_arg2) = m ((c : Thread nD τ).loc main_arg2) := (W1_of m c main_arg2 (by decide)).trans (rfl)
theorem W1_arg3 (c : Dev nD) : W1 m c (Proc.devRef .tc main_arg3) = m ((c : Thread nD τ).loc main_arg3) := (W1_of m c main_arg3 (by decide)).trans (rfl)
theorem W1_arg4 (c : Dev nD) : W1 m c (Proc.devRef .tc main_arg4) = m ((c : Thread nD τ).loc main_arg4) := (W1_of m c main_arg4 (by decide)).trans (rfl)
theorem W1_arg5 (c : Dev nD) : W1 m c (Proc.devRef .tc main_arg5) = m ((c : Thread nD τ).loc main_arg5) := (W1_of m c main_arg5 (by decide)).trans (rfl)
theorem W1_arg6 (c : Dev nD) : W1 m c (Proc.devRef .tc main_arg6) = m ((c : Thread nD τ).loc main_arg6) := (W1_of m c main_arg6 (by decide)).trans (rfl)
theorem W1_arg7 (c : Dev nD) : W1 m c (Proc.devRef .tc main_arg7) = m ((c : Thread nD τ).loc main_arg7) := (W1_of m c main_arg7 (by decide)).trans (rfl)
theorem W1_arg8 (c : Dev nD) : W1 m c (Proc.devRef .tc main_arg8) = m ((c : Thread nD τ).loc main_arg8) := (W1_of m c main_arg8 (by decide)).trans (rfl)
theorem W1_arg9 (c : Dev nD) : W1 m c (Proc.devRef .tc main_arg9) = m ((c : Thread nD τ).loc main_arg9) := (W1_of m c main_arg9 (by decide)).trans (rfl)
theorem W1_arg10 (c : Dev nD) : W1 m c (Proc.devRef .tc main_arg10) = m ((c : Thread nD τ).loc main_arg10) := (W1_of m c main_arg10 (by decide)).trans (rfl)
theorem W2_arg0 (c : Dev nD) : W2 m c (Proc.devRef .tc main_arg0) = m ((c : Thread nD τ).loc main_arg0) := (W2_of m c main_arg0 (by decide)).trans (W1_arg0 m c)
theorem W2_arg1 (c : Dev nD) : W2 m c (Proc.devRef .tc main_arg1) = m ((c : Thread nD τ).loc main_arg1) := (W2_of m c main_arg1 (by decide)).trans (W1_arg1 m c)
theorem W2_arg2 (c : Dev nD) : W2 m c (Proc.devRef .tc main_arg2) = m ((c : Thread nD τ).loc main_arg2) := (W2_of m c main_arg2 (by decide)).trans (W1_arg2 m c)
theorem W2_arg3 (c : Dev nD) : W2 m c (Proc.devRef .tc main_arg3) = m ((c : Thread nD τ).loc main_arg3) := (W2_of m c main_arg3 (by decide)).trans (W1_arg3 m c)
theorem W2_arg4 (c : Dev nD) : W2 m c (Proc.devRef .tc main_arg4) = m ((c : Thread nD τ).loc main_arg4) := (W2_of m c main_arg4 (by decide)).trans (W1_arg4 m c)
theorem W2_arg5 (c : Dev nD) : W2 m c (Proc.devRef .tc main_arg5) = m ((c : Thread nD τ).loc main_arg5) := (W2_of m c main_arg5 (by decide)).trans (W1_arg5 m c)
theorem W2_arg6 (c : Dev nD) : W2 m c (Proc.devRef .tc main_arg6) = m ((c : Thread nD τ).loc main_arg6) := (W2_of m c main_arg6 (by decide)).trans (W1_arg6 m c)
theorem W2_arg7 (c : Dev nD) : W2 m c (Proc.devRef .tc main_arg7) = m ((c : Thread nD τ).loc main_arg7) := (W2_of m c main_arg7 (by decide)).trans (W1_arg7 m c)
theorem W2_arg8 (c : Dev nD) : W2 m c (Proc.devRef .tc main_arg8) = m ((c : Thread nD τ).loc main_arg8) := (W2_of m c main_arg8 (by decide)).trans (W1_arg8 m c)
theorem W2_arg9 (c : Dev nD) : W2 m c (Proc.devRef .tc main_arg9) = m ((c : Thread nD τ).loc main_arg9) := (W2_of m c main_arg9 (by decide)).trans (W1_arg9 m c)
theorem W2_arg10 (c : Dev nD) : W2 m c (Proc.devRef .tc main_arg10) = m ((c : Thread nD τ).loc main_arg10) := (W2_of m c main_arg10 (by decide)).trans (W1_arg10 m c)
theorem W3_arg0 (c : Dev nD) : W3 m c (Proc.devRef .tc main_arg0) = m ((c : Thread nD τ).loc main_arg0) := (W3_of m c main_arg0 (by decide)).trans (W2_arg0 m c)
theorem W3_arg1 (c : Dev nD) : W3 m c (Proc.devRef .tc main_arg1) = m ((c : Thread nD τ).loc main_arg1) := (W3_of m c main_arg1 (by decide)).trans (W2_arg1 m c)
theorem W3_arg2 (c : Dev nD) : W3 m c (Proc.devRef .tc main_arg2) = m ((c : Thread nD τ).loc main_arg2) := (W3_of m c main_arg2 (by decide)).trans (W2_arg2 m c)
theorem W3_arg3 (c : Dev nD) : W3 m c (Proc.devRef .tc main_arg3) = m ((c : Thread nD τ).loc main_arg3) := (W3_of m c main_arg3 (by decide)).trans (W2_arg3 m c)
theorem W3_arg4 (c : Dev nD) : W3 m c (Proc.devRef .tc main_arg4) = m ((c : Thread nD τ).loc main_arg4) := (W3_of m c main_arg4 (by decide)).trans (W2_arg4 m c)
theorem W3_arg5 (c : Dev nD) : W3 m c (Proc.devRef .tc main_arg5) = m ((c : Thread nD τ).loc main_arg5) := (W3_of m c main_arg5 (by decide)).trans (W2_arg5 m c)
theorem W3_arg6 (c : Dev nD) : W3 m c (Proc.devRef .tc main_arg6) = m ((c : Thread nD τ).loc main_arg6) := (W3_of m c main_arg6 (by decide)).trans (W2_arg6 m c)
theorem W3_arg7 (c : Dev nD) : W3 m c (Proc.devRef .tc main_arg7) = m ((c : Thread nD τ).loc main_arg7) := (W3_of m c main_arg7 (by decide)).trans (W2_arg7 m c)
theorem W3_arg8 (c : Dev nD) : W3 m c (Proc.devRef .tc main_arg8) = m ((c : Thread nD τ).loc main_arg8) := (W3_of m c main_arg8 (by decide)).trans (W2_arg8 m c)
theorem W3_arg9 (c : Dev nD) : W3 m c (Proc.devRef .tc main_arg9) = m ((c : Thread nD τ).loc main_arg9) := (W3_of m c main_arg9 (by decide)).trans (W2_arg9 m c)
theorem W3_arg10 (c : Dev nD) : W3 m c (Proc.devRef .tc main_arg10) = m ((c : Thread nD τ).loc main_arg10) := (W3_of m c main_arg10 (by decide)).trans (W2_arg10 m c)
theorem W4_arg0 (c : Dev nD) : W4 m c (Proc.devRef .tc main_arg0) = m ((c : Thread nD τ).loc main_arg0) := ((W4_arr m c 0).trans (((dat0 (V3 m) c).arrAt_in 0 rfl _).trans (A_eq0 (V3 m) c 0))).trans (W3_arg0 m c)
theorem W4_arg1 (c : Dev nD) : W4 m c (Proc.devRef .tc main_arg1) = m ((c : Thread nD τ).loc main_arg1) := (W4_of_ne m c main_arg1 (by decide)).trans (W3_arg1 m c)
theorem W4_arg2 (c : Dev nD) : W4 m c (Proc.devRef .tc main_arg2) = m ((c : Thread nD τ).loc main_arg2) := (W4_of_ne m c main_arg2 (by decide)).trans (W3_arg2 m c)
theorem W4_arg3 (c : Dev nD) : W4 m c (Proc.devRef .tc main_arg3) = m ((c : Thread nD τ).loc main_arg3) := (W4_of_ne m c main_arg3 (by decide)).trans (W3_arg3 m c)
theorem W4_arg4 (c : Dev nD) : W4 m c (Proc.devRef .tc main_arg4) = m ((c : Thread nD τ).loc main_arg4) := (W4_of_ne m c main_arg4 (by decide)).trans (W3_arg4 m c)
theorem W4_arg5 (c : Dev nD) : W4 m c (Proc.devRef .tc main_arg5) = m ((c : Thread nD τ).loc main_arg5) := (W4_of_ne m c main_arg5 (by decide)).trans (W3_arg5 m c)
theorem W4_arg6 (c : Dev nD) : W4 m c (Proc.devRef .tc main_arg6) = m ((c : Thread nD τ).loc main_arg6) := (W4_of_ne m c main_arg6 (by decide)).trans (W3_arg6 m c)
theorem W4_arg7 (c : Dev nD) : W4 m c (Proc.devRef .tc main_arg7) = m ((c : Thread nD τ).loc main_arg7) := (W4_of_ne m c main_arg7 (by decide)).trans (W3_arg7 m c)
theorem W4_arg8 (c : Dev nD) : W4 m c (Proc.devRef .tc main_arg8) = m ((c : Thread nD τ).loc main_arg8) := (W4_of_ne m c main_arg8 (by decide)).trans (W3_arg8 m c)
theorem W4_arg9 (c : Dev nD) : W4 m c (Proc.devRef .tc main_arg9) = m ((c : Thread nD τ).loc main_arg9) := (W4_of_ne m c main_arg9 (by decide)).trans (W3_arg9 m c)
theorem W4_arg10 (c : Dev nD) : W4 m c (Proc.devRef .tc main_arg10) = m ((c : Thread nD τ).loc main_arg10) := (W4_of_ne m c main_arg10 (by decide)).trans (W3_arg10 m c)
theorem W5_arg0 (c : Dev nD) : W5 m c (Proc.devRef .tc main_arg0) = m ((c : Thread nD τ).loc main_arg0) := (W5_of m c main_arg0 (by decide)).trans (W4_arg0 m c)
theorem W5_arg1 (c : Dev nD) : W5 m c (Proc.devRef .tc main_arg1) = m ((c : Thread nD τ).loc main_arg1) := (W5_of m c main_arg1 (by decide)).trans (W4_arg1 m c)
theorem W5_arg2 (c : Dev nD) : W5 m c (Proc.devRef .tc main_arg2) = m ((c : Thread nD τ).loc main_arg2) := (W5_of m c main_arg2 (by decide)).trans (W4_arg2 m c)
theorem W5_arg3 (c : Dev nD) : W5 m c (Proc.devRef .tc main_arg3) = m ((c : Thread nD τ).loc main_arg3) := (W5_of m c main_arg3 (by decide)).trans (W4_arg3 m c)
theorem W5_arg4 (c : Dev nD) : W5 m c (Proc.devRef .tc main_arg4) = m ((c : Thread nD τ).loc main_arg4) := (W5_of m c main_arg4 (by decide)).trans (W4_arg4 m c)
theorem W5_arg5 (c : Dev nD) : W5 m c (Proc.devRef .tc main_arg5) = m ((c : Thread nD τ).loc main_arg5) := (W5_of m c main_arg5 (by decide)).trans (W4_arg5 m c)
theorem W5_arg6 (c : Dev nD) : W5 m c (Proc.devRef .tc main_arg6) = m ((c : Thread nD τ).loc main_arg6) := (W5_of m c main_arg6 (by decide)).trans (W4_arg6 m c)
theorem W5_arg7 (c : Dev nD) : W5 m c (Proc.devRef .tc main_arg7) = m ((c : Thread nD τ).loc main_arg7) := (W5_of m c main_arg7 (by decide)).trans (W4_arg7 m c)
theorem W5_arg8 (c : Dev nD) : W5 m c (Proc.devRef .tc main_arg8) = m ((c : Thread nD τ).loc main_arg8) := (W5_of m c main_arg8 (by decide)).trans (W4_arg8 m c)
theorem W5_arg9 (c : Dev nD) : W5 m c (Proc.devRef .tc main_arg9) = m ((c : Thread nD τ).loc main_arg9) := (W5_of m c main_arg9 (by decide)).trans (W4_arg9 m c)
theorem W5_arg10 (c : Dev nD) : W5 m c (Proc.devRef .tc main_arg10) = m ((c : Thread nD τ).loc main_arg10) := (W5_of m c main_arg10 (by decide)).trans (W4_arg10 m c)
theorem W6_arg0 (c : Dev nD) : W6 m c (Proc.devRef .tc main_arg0) = m ((c : Thread nD τ).loc main_arg0) := (W6_of_ne m c main_arg0 (by decide)).trans (W5_arg0 m c)
theorem W6_arg1 (c : Dev nD) : W6 m c (Proc.devRef .tc main_arg1) = m ((c : Thread nD τ).loc main_arg1) := (W6_of_ne m c main_arg1 (by decide)).trans (W5_arg1 m c)
theorem W6_arg2 (c : Dev nD) : W6 m c (Proc.devRef .tc main_arg2) = m ((c : Thread nD τ).loc main_arg2) := (W6_of_ne m c main_arg2 (by decide)).trans (W5_arg2 m c)
theorem W6_arg3 (c : Dev nD) : W6 m c (Proc.devRef .tc main_arg3) = m ((c : Thread nD τ).loc main_arg3) := (W6_of_ne m c main_arg3 (by decide)).trans (W5_arg3 m c)
theorem W6_arg4 (c : Dev nD) : W6 m c (Proc.devRef .tc main_arg4) = m ((c : Thread nD τ).loc main_arg4) := (W6_of_ne m c main_arg4 (by decide)).trans (W5_arg4 m c)
theorem W6_arg5 (c : Dev nD) : W6 m c (Proc.devRef .tc main_arg5) = m ((c : Thread nD τ).loc main_arg5) := (W6_of_ne m c main_arg5 (by decide)).trans (W5_arg5 m c)
theorem W6_arg6 (c : Dev nD) : W6 m c (Proc.devRef .tc main_arg6) = m ((c : Thread nD τ).loc main_arg6) := (W6_of_ne m c main_arg6 (by decide)).trans (W5_arg6 m c)
theorem W6_arg7 (c : Dev nD) : W6 m c (Proc.devRef .tc main_arg7) = m ((c : Thread nD τ).loc main_arg7) := (W6_of_ne m c main_arg7 (by decide)).trans (W5_arg7 m c)
theorem W6_arg8 (c : Dev nD) : W6 m c (Proc.devRef .tc main_arg8) = m ((c : Thread nD τ).loc main_arg8) := (W6_of_ne m c main_arg8 (by decide)).trans (W5_arg8 m c)
theorem W6_arg9 (c : Dev nD) : W6 m c (Proc.devRef .tc main_arg9) = m ((c : Thread nD τ).loc main_arg9) := (W6_of_ne m c main_arg9 (by decide)).trans (W5_arg9 m c)
theorem W6_arg10 (c : Dev nD) : W6 m c (Proc.devRef .tc main_arg10) = m ((c : Thread nD τ).loc main_arg10) := (W6_of_ne m c main_arg10 (by decide)).trans (W5_arg10 m c)
theorem W7_arg0 (c : Dev nD) : W7 m c (Proc.devRef .tc main_arg0) = m ((c : Thread nD τ).loc main_arg0) := (W7_of m c main_arg0 (by decide)).trans (W6_arg0 m c)
theorem W7_arg1 (c : Dev nD) : W7 m c (Proc.devRef .tc main_arg1) = m ((c : Thread nD τ).loc main_arg1) := (W7_of m c main_arg1 (by decide)).trans (W6_arg1 m c)
theorem W7_arg2 (c : Dev nD) : W7 m c (Proc.devRef .tc main_arg2) = m ((c : Thread nD τ).loc main_arg2) := (W7_of m c main_arg2 (by decide)).trans (W6_arg2 m c)
theorem W7_arg3 (c : Dev nD) : W7 m c (Proc.devRef .tc main_arg3) = m ((c : Thread nD τ).loc main_arg3) := (W7_of m c main_arg3 (by decide)).trans (W6_arg3 m c)
theorem W7_arg4 (c : Dev nD) : W7 m c (Proc.devRef .tc main_arg4) = m ((c : Thread nD τ).loc main_arg4) := (W7_of m c main_arg4 (by decide)).trans (W6_arg4 m c)
theorem W7_arg5 (c : Dev nD) : W7 m c (Proc.devRef .tc main_arg5) = m ((c : Thread nD τ).loc main_arg5) := (W7_of m c main_arg5 (by decide)).trans (W6_arg5 m c)
theorem W7_arg6 (c : Dev nD) : W7 m c (Proc.devRef .tc main_arg6) = m ((c : Thread nD τ).loc main_arg6) := (W7_of m c main_arg6 (by decide)).trans (W6_arg6 m c)
theorem W7_arg7 (c : Dev nD) : W7 m c (Proc.devRef .tc main_arg7) = m ((c : Thread nD τ).loc main_arg7) := (W7_of m c main_arg7 (by decide)).trans (W6_arg7 m c)
theorem W7_arg8 (c : Dev nD) : W7 m c (Proc.devRef .tc main_arg8) = m ((c : Thread nD τ).loc main_arg8) := (W7_of m c main_arg8 (by decide)).trans (W6_arg8 m c)
theorem W7_arg9 (c : Dev nD) : W7 m c (Proc.devRef .tc main_arg9) = m ((c : Thread nD τ).loc main_arg9) := (W7_of m c main_arg9 (by decide)).trans (W6_arg9 m c)
theorem W7_arg10 (c : Dev nD) : W7 m c (Proc.devRef .tc main_arg10) = m ((c : Thread nD τ).loc main_arg10) := (W7_of m c main_arg10 (by decide)).trans (W6_arg10 m c)
theorem W8_arg0 (c : Dev nD) : W8 m c (Proc.devRef .tc main_arg0) = m ((c : Thread nD τ).loc main_arg0) := (W8_of_ne m c main_arg0 (by decide)).trans (W7_arg0 m c)
theorem W8_arg1 (c : Dev nD) : W8 m c (Proc.devRef .tc main_arg1) = m ((c : Thread nD τ).loc main_arg1) := (W8_of_ne m c main_arg1 (by decide)).trans (W7_arg1 m c)
theorem W8_arg2 (c : Dev nD) : W8 m c (Proc.devRef .tc main_arg2) = m ((c : Thread nD τ).loc main_arg2) := (W8_of_ne m c main_arg2 (by decide)).trans (W7_arg2 m c)
theorem W8_arg3 (c : Dev nD) : W8 m c (Proc.devRef .tc main_arg3) = m ((c : Thread nD τ).loc main_arg3) := (W8_of_ne m c main_arg3 (by decide)).trans (W7_arg3 m c)
theorem W8_arg4 (c : Dev nD) : W8 m c (Proc.devRef .tc main_arg4) = m ((c : Thread nD τ).loc main_arg4) := (W8_of_ne m c main_arg4 (by decide)).trans (W7_arg4 m c)
theorem W8_arg5 (c : Dev nD) : W8 m c (Proc.devRef .tc main_arg5) = m ((c : Thread nD τ).loc main_arg5) := (W8_of_ne m c main_arg5 (by decide)).trans (W7_arg5 m c)
theorem W8_arg6 (c : Dev nD) : W8 m c (Proc.devRef .tc main_arg6) = m ((c : Thread nD τ).loc main_arg6) := (W8_of_ne m c main_arg6 (by decide)).trans (W7_arg6 m c)
theorem W8_arg7 (c : Dev nD) : W8 m c (Proc.devRef .tc main_arg7) = m ((c : Thread nD τ).loc main_arg7) := (W8_of_ne m c main_arg7 (by decide)).trans (W7_arg7 m c)
theorem W8_arg8 (c : Dev nD) : W8 m c (Proc.devRef .tc main_arg8) = m ((c : Thread nD τ).loc main_arg8) := (W8_of_ne m c main_arg8 (by decide)).trans (W7_arg8 m c)
theorem W8_arg9 (c : Dev nD) : W8 m c (Proc.devRef .tc main_arg9) = m ((c : Thread nD τ).loc main_arg9) := (W8_of_ne m c main_arg9 (by decide)).trans (W7_arg9 m c)
theorem W8_arg10 (c : Dev nD) : W8 m c (Proc.devRef .tc main_arg10) = m ((c : Thread nD τ).loc main_arg10) := (W8_of_ne m c main_arg10 (by decide)).trans (W7_arg10 m c)
theorem W9_arg0 (c : Dev nD) : W9 m c (Proc.devRef .tc main_arg0) = m ((c : Thread nD τ).loc main_arg0) := (W9_of m c main_arg0 (by decide)).trans (W8_arg0 m c)
theorem W9_arg1 (c : Dev nD) : W9 m c (Proc.devRef .tc main_arg1) = m ((c : Thread nD τ).loc main_arg1) := (W9_of m c main_arg1 (by decide)).trans (W8_arg1 m c)
theorem W9_arg2 (c : Dev nD) : W9 m c (Proc.devRef .tc main_arg2) = m ((c : Thread nD τ).loc main_arg2) := (W9_of m c main_arg2 (by decide)).trans (W8_arg2 m c)
theorem W9_arg3 (c : Dev nD) : W9 m c (Proc.devRef .tc main_arg3) = m ((c : Thread nD τ).loc main_arg3) := (W9_of m c main_arg3 (by decide)).trans (W8_arg3 m c)
theorem W9_arg4 (c : Dev nD) : W9 m c (Proc.devRef .tc main_arg4) = m ((c : Thread nD τ).loc main_arg4) := (W9_of m c main_arg4 (by decide)).trans (W8_arg4 m c)
theorem W9_arg5 (c : Dev nD) : W9 m c (Proc.devRef .tc main_arg5) = m ((c : Thread nD τ).loc main_arg5) := (W9_of m c main_arg5 (by decide)).trans (W8_arg5 m c)
theorem W9_arg6 (c : Dev nD) : W9 m c (Proc.devRef .tc main_arg6) = m ((c : Thread nD τ).loc main_arg6) := (W9_of m c main_arg6 (by decide)).trans (W8_arg6 m c)
theorem W9_arg7 (c : Dev nD) : W9 m c (Proc.devRef .tc main_arg7) = m ((c : Thread nD τ).loc main_arg7) := (W9_of m c main_arg7 (by decide)).trans (W8_arg7 m c)
theorem W9_arg8 (c : Dev nD) : W9 m c (Proc.devRef .tc main_arg8) = m ((c : Thread nD τ).loc main_arg8) := (W9_of m c main_arg8 (by decide)).trans (W8_arg8 m c)
theorem W9_arg9 (c : Dev nD) : W9 m c (Proc.devRef .tc main_arg9) = m ((c : Thread nD τ).loc main_arg9) := (W9_of m c main_arg9 (by decide)).trans (W8_arg9 m c)
theorem W9_arg10 (c : Dev nD) : W9 m c (Proc.devRef .tc main_arg10) = m ((c : Thread nD τ).loc main_arg10) := (W9_of m c main_arg10 (by decide)).trans (W8_arg10 m c)
theorem W10_arg0 (c : Dev nD) : W10 m c (Proc.devRef .tc main_arg0) = m ((c : Thread nD τ).loc main_arg0) := (W10_of_ne m c main_arg0 (by decide)).trans (W9_arg0 m c)
theorem W10_arg1 (c : Dev nD) : W10 m c (Proc.devRef .tc main_arg1) = m ((c : Thread nD τ).loc main_arg1) := (W10_of_ne m c main_arg1 (by decide)).trans (W9_arg1 m c)
theorem W10_arg2 (c : Dev nD) : W10 m c (Proc.devRef .tc main_arg2) = m ((c : Thread nD τ).loc main_arg2) := (W10_of_ne m c main_arg2 (by decide)).trans (W9_arg2 m c)
theorem W10_arg3 (c : Dev nD) : W10 m c (Proc.devRef .tc main_arg3) = m ((c : Thread nD τ).loc main_arg3) := (W10_of_ne m c main_arg3 (by decide)).trans (W9_arg3 m c)
theorem W10_arg4 (c : Dev nD) : W10 m c (Proc.devRef .tc main_arg4) = m ((c : Thread nD τ).loc main_arg4) := (W10_of_ne m c main_arg4 (by decide)).trans (W9_arg4 m c)
theorem W10_arg5 (c : Dev nD) : W10 m c (Proc.devRef .tc main_arg5) = m ((c : Thread nD τ).loc main_arg5) := (W10_of_ne m c main_arg5 (by decide)).trans (W9_arg5 m c)
theorem W10_arg6 (c : Dev nD) : W10 m c (Proc.devRef .tc main_arg6) = m ((c : Thread nD τ).loc main_arg6) := (W10_of_ne m c main_arg6 (by decide)).trans (W9_arg6 m c)
theorem W10_arg7 (c : Dev nD) : W10 m c (Proc.devRef .tc main_arg7) = m ((c : Thread nD τ).loc main_arg7) := (W10_of_ne m c main_arg7 (by decide)).trans (W9_arg7 m c)
theorem W10_arg8 (c : Dev nD) : W10 m c (Proc.devRef .tc main_arg8) = m ((c : Thread nD τ).loc main_arg8) := (W10_of_ne m c main_arg8 (by decide)).trans (W9_arg8 m c)
theorem W10_arg9 (c : Dev nD) : W10 m c (Proc.devRef .tc main_arg9) = m ((c : Thread nD τ).loc main_arg9) := ((W10_arr m c 1).trans (((dat3 (V9 m) c).arrAt_in 1 rfl _).trans (A_eq3 (V9 m) c 1))).trans (W9_arg9 m c)
theorem W10_arg10 (c : Dev nD) : W10 m c (Proc.devRef .tc main_arg10) = m ((c : Thread nD τ).loc main_arg10) := (W10_of_ne m c main_arg10 (by decide)).trans (W9_arg10 m c)

theorem W4_keep_v1 (c : Dev nD) : W4 m c (Proc.devRef .tc main_v1) = W3 m c (Proc.devRef .tc main_v1) := W4_of_ne m c main_v1 (by decide)
theorem W5_keep_v1 (c : Dev nD) : W5 m c (Proc.devRef .tc main_v1) = W4 m c (Proc.devRef .tc main_v1) := W5_of m c main_v1 (by decide)
theorem W6_keep_v1 (c : Dev nD) : W6 m c (Proc.devRef .tc main_v1) = W5 m c (Proc.devRef .tc main_v1) := W6_of_ne m c main_v1 (by decide)
theorem W7_keep_v1 (c : Dev nD) : W7 m c (Proc.devRef .tc main_v1) = W6 m c (Proc.devRef .tc main_v1) := W7_of m c main_v1 (by decide)
theorem W4_keep_v3 (c : Dev nD) : W4 m c (Proc.devRef .tc main_v3) = W3 m c (Proc.devRef .tc main_v3) := W4_of_ne m c main_v3 (by decide)
theorem W5_keep_v3 (c : Dev nD) : W5 m c (Proc.devRef .tc main_v3) = W4 m c (Proc.devRef .tc main_v3) := W5_of m c main_v3 (by decide)
theorem W6_keep_v3 (c : Dev nD) : W6 m c (Proc.devRef .tc main_v3) = W5 m c (Proc.devRef .tc main_v3) := W6_of_ne m c main_v3 (by decide)
theorem W7_keep_v3 (c : Dev nD) : W7 m c (Proc.devRef .tc main_v3) = W6 m c (Proc.devRef .tc main_v3) := W7_of m c main_v3 (by decide)
theorem W4_keep_v34 (c : Dev nD) : W4 m c (Proc.devRef .tc main_v34) = W3 m c (Proc.devRef .tc main_v34) := W4_of_ne m c main_v34 (by decide)
theorem W5_keep_v34 (c : Dev nD) : W5 m c (Proc.devRef .tc main_v34) = W4 m c (Proc.devRef .tc main_v34) := W5_of m c main_v34 (by decide)
theorem W6_keep_v34 (c : Dev nD) : W6 m c (Proc.devRef .tc main_v34) = W5 m c (Proc.devRef .tc main_v34) := W6_of_ne m c main_v34 (by decide)
theorem W7_keep_v34 (c : Dev nD) : W7 m c (Proc.devRef .tc main_v34) = W6 m c (Proc.devRef .tc main_v34) := W7_of m c main_v34 (by decide)
theorem W5_keep_v37 (c : Dev nD) : W5 m c (Proc.devRef .tc main_v37) = W4 m c (Proc.devRef .tc main_v37) := W5_of m c main_v37 (by decide)
theorem W7_keep_v65_0 (c : Dev nD) : W7 m c (Proc.devRef .tc main_v65_0) = W6 m c (Proc.devRef .tc main_v65_0) := W7_of m c main_v65_0 (by decide)
theorem W9_keep_v87 (c : Dev nD) : W9 m c (Proc.devRef .tc main_v87) = W8 m c (Proc.devRef .tc main_v87) := W9_of m c main_v87 (by decide)

end Cert.KernelIdeal.Hand

end
-- ==== Proof.RefPoolRun.lean ====
/- The reference's last stage as one function on arrays. Of the run's 170 operations the last 38 compute the result from
   the third layer's output h [100000,2], the gate weights [2,1] and the gate bias [1]: the gate logits (the product
   h · w plus the bias repeated down the rows), their maximum over the nodes, the exponentials of the logits less that
   maximum, their sum, the quotient (the softmax over the nodes), the gate-weighted sum of h over the nodes (the pooled
   row [1,2]), and the outlined log-softmax of that row (its larger entry subtracted, then the logarithm of the sum of
   the exponentials subtracted). Those operations, from ANY buffer contents, leave the result buffer at one composed
   function of the three operands' contents, for any float values. The operations before them leave the two gate
   arguments untouched, and nothing after h's defining operation writes h, so the same holds read off the whole run. -/
import proofs.«171083_j730144440440_2_alg».proof.Proof.RefRun

set_option Elab.async false

noncomputable section

namespace Cert.ReferenceIdeal.RefPool

open Cert.ReferenceIdeal Cert.ReferenceIdeal.Gen Idealize.ShloMosaic Idealize.ShloMosaic.TcCoe Idealize.SL.Sem Idealize.ShloMosaic.StableHlo
open Cert.ReferenceIdeal.RefRun

section AnyFloat

variable {F : FTy → Type} [FloatOps F]

/-! ## The stage's operations within the run -/

/-- Operations 65 and 66 of the second window: the product of the third layer's output with the gate weights, and the
    gate bias placed as a [1,1] array. The third window follows them. -/
abbrev opsTail : List (HloOp τ sig (Elt F)) :=
  [ binary main_v97 main_arg9 main_v98 ((fun l r => Host.dotGeneral dot_S100000x2_S2x1_S100000x1_1_0_0_1_n_n none l r) : (⟨S100000x2, .f32⟩ : BufTy).Contents (Elt F) → (⟨S2x1, .f32⟩ : BufTy).Contents (Elt F) → (⟨S100000x1, .f32⟩ : BufTy).Contents (Elt F)),
    unary main_arg10 main_v99 (broadcastInDim S1x1 ![1] bcast_S1_S1x1_1 : (⟨S1, .f32⟩ : BufTy).Contents (Elt F) → (⟨S1x1, .f32⟩ : BufTy).Contents (Elt F)) ]

/-- The buffers those two operations write. -/
abbrev WTail : List (Ref sig .tc) := [main_v98, main_v99]

set_option maxRecDepth 8192 in
/-- The second window is its first 64 operations, then those two. -/
theorem ops1_split : (ops1 : List (HloOp τ sig (Elt F))) = ops1.take 64 ++ opsTail := rfl

theorem opsTail_writes : (opsTail : List (HloOp τ sig (Elt F))).Forall fun op => op.writes ⊆ (WTail.map (Proc.devRef (τ := τ) .tc)).toFinset := by
  simp only [List.Forall]
  exact ⟨by simp only [unary_writes, binary_writes, Finset.singleton_subset_iff, List.mem_toFinset]; exact List.mem_map_of_mem (by decide),
    by simp only [unary_writes, binary_writes, Finset.singleton_subset_iff, List.mem_toFinset]; exact List.mem_map_of_mem (by decide)⟩

/-- The second window's first 64 operations write only buffers the window writes. -/
theorem ops1pre_writes : ((ops1 : List (HloOp τ sig (Elt F))).take 64).Forall fun op => op.writes ⊆ (W1.map (Proc.devRef (τ := τ) .tc)).toFinset :=
  List.forall_iff_forall_mem.mpr fun op h => List.forall_iff_forall_mem.mp ops1_writes op (List.mem_of_mem_take h)

/-! ## The stage as functions on arrays -/

/-- The gate logits: the product of the nodes' features with the gate weights, plus the bias repeated down the rows. -/
def logitsA (h : (⟨S100000x2, .f32⟩ : BufTy).Contents (Elt F)) (gw : (⟨S2x1, .f32⟩ : BufTy).Contents (Elt F))
    (gb : (⟨S1, .f32⟩ : BufTy).Contents (Elt F)) : (⟨S100000x1, .f32⟩ : BufTy).Contents (Elt F) :=
  addf (Host.dotGeneral dot_S100000x2_S2x1_S100000x1_1_0_0_1_n_n none h gw)
    (broadcastInDim S100000x1 ![0, 1] bcast_S1x1_S100000x1_0_1 (broadcastInDim S1x1 ![1] bcast_S1_S1x1_1 gb))

/-- The maximum of a column over its rows: the reduce from -∞, then the maximum with a broadcast -∞. -/
def colMaxA (L : (⟨S100000x1, .f32⟩ : BufTy).Contents (Elt F)) : (⟨S1, .f32⟩ : BufTy).Contents (Elt F) :=
  maximumf (broadcastInDim S1 ![] bcast_S_S1 (constant S_ .f32 0xFF800000#32))
    (Host.reduce FloatOps.maximumf L (constant S_ .f32 0xFF800000#32) reducesTo_S100000x1_S1_d0 h_S_)

/-- The exponentials of a column less its maximum. -/
def weightsA (L : (⟨S100000x1, .f32⟩ : BufTy).Contents (Elt F)) : (⟨S100000x1, .f32⟩ : BufTy).Contents (Elt F) :=
  Host.exp (subf L (broadcastInDim S100000x1 ![0, 1] bcast_S1x1_S100000x1_0_1 (broadcastInDim S1x1 ![1] bcast_S1_S1x1_1 (colMaxA L))))

/-- A column divided by its sum over the rows. -/
def gateA (E : (⟨S100000x1, .f32⟩ : BufTy).Contents (Elt F)) : (⟨S100000x1, .f32⟩ : BufTy).Contents (Elt F) :=
  Host.divf E (broadcastInDim S100000x1 ![0, 1] bcast_S1x1_S100000x1_0_1 (broadcastInDim S1x1 ![1] bcast_S1_S1x1_1
    (Host.reduceAdd E (constant S_ .f32 0x00000000#32) reducesTo_S100000x1_S1_d0 h_S_)))

/-- The pooled row: the column repeated along the features, times the features, summed over the rows, as a [1,2] array. -/
def pooledA (G : (⟨S100000x1, .f32⟩ : BufTy).Contents (Elt F)) (h : (⟨S100000x2, .f32⟩ : BufTy).Contents (Elt F)) :
    (⟨S1x2, .f32⟩ : BufTy).Contents (Elt F) :=
  broadcastInDim S1x2 ![1] bcast_S2_S1x2_1
    (Host.reduceAdd (mulf (broadcastInDim S100000x2 ![0, 1] bcast_S100000x1_S100000x2_0_1 G) h) (constant S_ .f32 0x00000000#32)
      reducesTo_S100000x2_S2_d0 h_S_)

/-- The maximum of a one-row array over its columns. -/
def rowMaxA (p : (⟨S1x2, .f32⟩ : BufTy).Contents (Elt F)) : (⟨S1, .f32⟩ : BufTy).Contents (Elt F) :=
  maximumf (broadcastInDim S1 ![] bcast_S_S1 (constant S_ .f32 0xFF800000#32))
    (Host.reduce FloatOps.maximumf p (constant S_ .f32 0xFF800000#32) reducesTo_S1x2_S1_d1 h_S_)

/-- A one-row array less its maximum. -/
def shiftedA (p : (⟨S1x2, .f32⟩ : BufTy).Contents (Elt F)) : (⟨S1x2, .f32⟩ : BufTy).Contents (Elt F) :=
  subf p (broadcastInDim S1x2 ![0, 1] bcast_S1x1_S1x2_0_1 (broadcastInDim S1x1 ![0] bcast_S1_S1x1_0 (rowMaxA p)))

/-- The log-softmax of a one-row array: the shifted row less the logarithm of the sum of its exponentials. -/
def logSoftmaxA (p : (⟨S1x2, .f32⟩ : BufTy).Contents (Elt F)) : (⟨S1x2, .f32⟩ : BufTy).Contents (Elt F) :=
  subf (shiftedA p) (broadcastInDim S1x2 ![0, 1] bcast_S1x1_S1x2_0_1 (Host.log (broadcastInDim S1x1 ![0] bcast_S1_S1x1_0
    (Host.reduceAdd (Host.exp (shiftedA p)) (constant S_ .f32 0x00000000#32) reducesTo_S1x2_S1_d1 h_S_))))

/-- The 38 operations' composed function of the three operands they read. -/
def stage117 (h : (⟨S100000x2, .f32⟩ : BufTy).Contents (Elt F)) (gw : (⟨S2x1, .f32⟩ : BufTy).Contents (Elt F))
    (gb : (⟨S1, .f32⟩ : BufTy).Contents (Elt F)) : (⟨S1x2, .f32⟩ : BufTy).Contents (Elt F) :=
  logSoftmaxA (pooledA (gateA (weightsA (logitsA h gw gb))) h)

set_option maxRecDepth 8192 in
/-- The 38 operations, from any contents, leave the result buffer at that function of the three operands' contents. -/
theorem stage_result (Wv : Valuation τ sig (Elt F)) :
    after ops2 (after opsTail Wv) (Proc.devRef .tc main_v117)
      = stage117 (Wv (Proc.devRef .tc main_v97)) (Wv (Proc.devRef .tc main_arg9)) (Wv (Proc.devRef .tc main_arg10)) := by
  after_results_simp
  rfl

/-- THE RESULT BUFFER after the whole run, from any contents V: that function of the third layer's output as the run
    leaves it and of the two gate arguments as V has them. -/
theorem v117_eq (V : Valuation τ sig (Elt F)) :
    after ops V (Proc.devRef .tc main_v117)
      = stage117 (after ops V (Proc.devRef .tc main_v97)) (V (Proc.devRef .tc main_arg9)) (V (Proc.devRef .tc main_arg10)) := by
  rw [after_ops, ops1_split, after_append]
  have h9 : after ((ops1 : List (HloOp τ sig (Elt F))).take 64) (after ops0 V) (Proc.devRef .tc main_arg9) = V (Proc.devRef .tc main_arg9) :=
    (after_of_writes_sub _ _ ops1pre_writes (by decide : main_arg9 ∉ W1)).trans
      (after_of_writes_sub ops0 V ops0_writes (by decide : main_arg9 ∉ W0))
  have h10 : after ((ops1 : List (HloOp τ sig (Elt F))).take 64) (after ops0 V) (Proc.devRef .tc main_arg10) = V (Proc.devRef .tc main_arg10) :=
    (after_of_writes_sub _ _ ops1pre_writes (by decide : main_arg10 ∉ W1)).trans
      (after_of_writes_sub ops0 V ops0_writes (by decide : main_arg10 ∉ W0))
  generalize after ((ops1 : List (HloOp τ sig (Elt F))).take 64) (after ops0 V) = Wv at h9 h10 ⊢
  rw [stage_result Wv, h9, h10,
    after_of_writes_sub ops2 _ ops2_writes (by decide : main_v97 ∉ W2),
    after_of_writes_sub opsTail Wv opsTail_writes (by decide : main_v97 ∉ WTail)]

end AnyFloat

end Cert.ReferenceIdeal.RefPool

end
-- ==== Proof.SpecPool.lean ====
/- The network's last stage as one function of its three arrays, index by index, over literal shapes: attention
   pooling over the nodes followed by a log-softmax over the two classes. Each node's gate logit is the inner
   product of its two features with the gate weights plus the gate bias; the gate is the softmax of the logits over
   all nodes, computed the numerically careful way (subtract the largest logit, exponentiate, divide by the sum);
   the pooled row is the gate-weighted sum of the nodes' features; the result is the pooled row minus its larger
   entry, minus the logarithm of the sum of the exponentials of that difference. Everything is over the extended
   reals, with the exponential, logarithm and quotient of the ideal float instance; a maximum over a range is the fold of
   max from -∞ over the range. -/
import Idealize.ShloMosaic.PureOps.Ideal
import Idealize.ShloMosaic.Lib.ValueIdx

noncomputable section

open scoped BigOperators

namespace SpecPool

open Idealize.ShloMosaic Idealize.ShloMosaic.ValueIdx

variable (h : (⟨2, ![100000, 2]⟩ : Shape).Idx → EReal) (gw : (⟨2, ![2, 1]⟩ : Shape).Idx → EReal)
  (gb : (⟨1, ![1]⟩ : Shape).Idx → EReal)

/-- Node n's gate logit: its two features against the gate weights, plus the gate bias. -/
def logit (n : Fin 100000) : EReal :=
  (∑ k : Fin 2, h (ix2 n k) * gw (ix2 k (0 : Fin 1))) + gb (ix1 (0 : Fin 1))

/-- The largest gate logit over the nodes. -/
def top : EReal := (Finset.univ : Finset (Fin 100000)).fold max ⊥ (logit h gw gb)

/-- Node n's unnormalised gate: the exponential of its logit less the largest. -/
def weight (n : Fin 100000) : EReal := Ideal.exp (logit h gw gb n - top h gw gb)

/-- The sum of the unnormalised gates. -/
def total : EReal := ∑ n : Fin 100000, weight h gw gb n

/-- Node n's gate: the softmax of the logits over the nodes. -/
def gate (n : Fin 100000) : EReal := Ideal.div (weight h gw gb n) (total h gw gb)

/-- Entry c of the pooled row: the gate-weighted sum of feature c over the nodes. -/
def pooled (c : Fin 2) : EReal := ∑ n : Fin 100000, gate h gw gb n * h (ix2 n c)

/-- The larger of the pooled row's two entries. -/
def rowTop : EReal := (Finset.univ : Finset (Fin 2)).fold max ⊥ (pooled h gw gb)

/-- Entry c of the pooled row less the larger entry. -/
def shifted (c : Fin 2) : EReal := pooled h gw gb c - rowTop h gw gb

/-- Entry c of the result: the log-softmax of the pooled row. -/
def logSoftmax (c : Fin 2) : EReal :=
  shifted h gw gb c - Ideal.log (∑ c' : Fin 2, Ideal.exp (shifted h gw gb c'))

/-- The stage's output array, one row of two entries. -/
def poolSpec : (⟨2, ![1, 2]⟩ : Shape).Idx → EReal := fun i => logSoftmax h gw gb (i 1)

/-- The array at an index given by its two coordinates. -/
theorem poolSpec_ix2 (u : Fin 1) (c : Fin 2) : poolSpec h gw gb (ix2 u c) = logSoftmax h gw gb c := rfl

end SpecPool

end
-- ==== Proof.PoolForms.lean ====
/-
  Small host operations on rank-two arrays, read at an index, for any extents, over the extended reals.

  * the f32 word of -∞ denotes -∞;
  * a maximum-reduce from -∞ over the rows (axis 0) or over the columns (axis 1) of an array is, at each remaining
    coordinate, the fold of max from -∞ over the reduced coordinate;
  * a float sum-reduce from zero over the rows or over the columns is the sum over the reduced coordinate;
  * a column [a,1] placed into [a,b] by a broadcast in dimensions (0, 1) reads the column's entry of the same row;
  * the product of an [a,k] matrix with a [k,1] column is the sum over the contracted coordinate.
-/
import Idealize.ShloMosaic.PureOps.Ideal.Laws
import Idealize.ShloMosaic.PureOps.Reduce
import Idealize.ShloMosaic.Lib.IdealHost
import Idealize.ShloMosaic.Lib.StackMember
import Idealize.ShloMosaic.Lib.KernelVsHost
import Idealize.ShloMosaic.Lib.Pipeline.Value

noncomputable section

open scoped BigOperators

namespace PoolForms

open Idealize.ShloMosaic Idealize.ShloMosaic.ValueIdx

/-- The f32 word with sign bit set, all exponent bits set and no fraction bit denotes -∞. -/
theorem ofBits_negInf_f32 : Ideal.ofBits .f32 0xFF800000#32 = (⊥ : EReal) := by
  simp [Ideal.ofBits, Ideal.ieee]

/-! ## The reduced coordinate put back -/

/-- Reducing over the rows: the column index t with row k put back is (k, t). -/
theorem lift_axis0 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Reducing over the columns: the row index r with column k put back is (r, k). -/
theorem lift_axis1 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-! ## Maximum-reduce from -∞ -/

/-- Over the rows: at column t, the fold of max from -∞ over the rows' entries in that column. -/
theorem hostMax_axis0_apply {m n : ℕ} (x : FVec Ideal ⟨2, ![m, n]⟩ .f32)
    (h' : (⟨2, ![m, n]⟩ : Shape).ReducesTo [0] (⟨1, ![n]⟩ : Shape)) (hu : 0 < (⟨0, ![]⟩ : Shape).numel) (t : Fin n) :
    Host.reduce FloatOps.maximumf x (constant (⟨0, ![]⟩ : Shape) .f32 0xFF800000#32) h' hu (ix1 t)
      = (Finset.univ : Finset (Fin m)).fold max (⊥ : EReal) (fun k => x (ix2 k t)) := by
  have h : (⟨2, ![m, n]⟩ : Shape).Reduces [0] (⟨1, ![n]⟩ : Shape) := ⟨h'.1, Nat.one_pos, h'.2⟩
  rw [Host.reduce_eq_fold_single FloatOps.maximumf x _ h' h hu]
  have hf : (x ∘ h.lift (ix1 t)) = fun k : Fin m => x (ix2 k t) := funext fun k => congrArg x (lift_axis0 h t k)
  refine Eq.trans ?_ (congrArg (fun b : EReal => Finset.fold max b (fun k : Fin m => x (ix2 k t)) Finset.univ) ofBits_negInf_f32)
  exact congrArg (fun f => Finset.fold max (Ideal.ofBits .f32 0xFF800000#32) f (Finset.univ : Finset (Fin m))) hf

/-- Over the columns: at row r, the fold of max from -∞ over the row's entries. -/
theorem hostMax_axis1_apply {m n : ℕ} (x : FVec Ideal ⟨2, ![m, n]⟩ .f32)
    (h' : (⟨2, ![m, n]⟩ : Shape).ReducesTo [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun k => x (ix2 r k)) := by
  have h : (⟨2, ![m, n]⟩ : Shape).Reduces [1] (⟨1, ![m]⟩ : Shape) := ⟨h'.1, Nat.one_pos, h'.2⟩
  rw [Host.reduce_eq_fold_single FloatOps.maximumf x _ h' h hu]
  have hf : (x ∘ h.lift (ix1 r)) = fun k : Fin n => x (ix2 r k) := funext fun k => congrArg x (lift_axis1 h r k)
  refine Eq.trans ?_ (congrArg (fun b : EReal => Finset.fold max b (fun k : Fin n => x (ix2 r k)) Finset.univ) ofBits_negInf_f32)
  exact congrArg (fun f => Finset.fold max (Ideal.ofBits .f32 0xFF800000#32) f (Finset.univ : Finset (Fin n))) hf

/-! ## Float sum-reduce from zero -/

/-- Over the rows: at column t, the sum over the rows' entries in that column. -/
theorem hostSum_axis0_apply {m n : ℕ} (x : FVec Ideal ⟨2, ![m, n]⟩ .f32)
    (h' : (⟨2, ![m, n]⟩ : Shape).ReducesTo [0] (⟨1, ![n]⟩ : Shape)) (hu : 0 < (⟨0, ![]⟩ : Shape).numel) (t : Fin n) :
    Host.reduceAdd x (constant (⟨0, ![]⟩ : Shape) .f32 0x00000000#32) h' hu (ix1 t) = ∑ k : Fin m, x (ix2 k t) := by
  have h : (⟨2, ![m, n]⟩ : Shape).Reduces [0] (⟨1, ![n]⟩ : Shape) := ⟨h'.1, Nat.one_pos, h'.2⟩
  rw [hostReduceAdd_apply, Ideal.hostReduceAdd_single h' h]
  show Ideal.ofBits .f32 0x00000000#32 + _ = _
  rw [Ideal.ofBits_zero_f32, zero_add]
  exact Finset.sum_congr rfl fun k _ => congrArg x (lift_axis0 h t k)

/-- Over the columns: at row r, the sum over the row's entries. -/
theorem hostSum_axis1_apply {m n : ℕ} (x : FVec Ideal ⟨2, ![m, n]⟩ .f32)
    (h' : (⟨2, ![m, n]⟩ : Shape).ReducesTo [1] (⟨1, ![m]⟩ : Shape)) (hu : 0 < (⟨0, ![]⟩ : Shape).numel) (r : Fin m) :
    Host.reduceAdd x (constant (⟨0, ![]⟩ : Shape) .f32 0x00000000#32) h' hu (ix1 r) = ∑ k : Fin n, x (ix2 r k) := by
  have h : (⟨2, ![m, n]⟩ : Shape).Reduces [1] (⟨1, ![m]⟩ : Shape) := ⟨h'.1, Nat.one_pos, h'.2⟩
  rw [hostReduceAdd_apply, Ideal.hostReduceAdd_single h' h]
  show Ideal.ofBits .f32 0x00000000#32 + _ = _
  rw [Ideal.ofBits_zero_f32, zero_add]
  exact Finset.sum_congr rfl fun k _ => congrArg x (lift_axis1 h r k)

/-! ## Broadcasts -/

variable {α : Type}

/-- A column [a,1] broadcast in dimensions (0, 1) to [a,b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- The -∞ word broadcast from a scalar to any shape reads -∞ everywhere. -/
theorem broadcastInDim_negInf_apply {T : Shape} (h : (⟨0, ![]⟩ : Shape).BroadcastsInDim T ![]) (j : T.Idx) :
    broadcastInDim T ![] h (constant (F := Ideal) (⟨0, ![]⟩ : Shape) .f32 0xFF800000#32) j = (⊥ : EReal) :=
  (broadcastInDim_scalar_apply h _ j).trans ofBits_negInf_f32

/-! ## A matrix times a column -/

/-- The product of an [a,k] matrix with a [k,1] column, at (p, u), is the sum over the contracted coordinate of the
    products of row p's entries with the column's. -/
theorem dot_column_apply {a k : ℕ} (prec : Option ContractPrecision) (A : FVec Ideal ⟨2, ![a, k]⟩ .f32)
    (B : FVec Ideal ⟨2, ![k, 1]⟩ .f32) (p : Fin a) (u : Fin 1) :
    Host.dotGeneral (DotDims.plain a k 1) prec A B (ix2 p u) = ∑ c : Fin k, A (ix2 p c) * B (ix2 c (0 : Fin 1)) := by
  have hu : u = 0 := Subsingleton.elim _ _
  subst hu
  exact StackMember.dotGeneral_plain_apply prec A B p 0

end PoolForms

end
-- ==== Proof.RefPool.lean ====
/- The reference's last stage at the extended reals, index by index: each of the stage's array functions read at an
   index, and their composition identified with the pooling specification; then the two statements about the run — from
   an arbitrary start of the stage, and read off the whole run. -/
import proofs.«171083_j730144440440_2_alg».proof.Proof.RefPoolRun
import proofs.«171083_j730144440440_2_alg».proof.Proof.SpecPool
import proofs.«171083_j730144440440_2_alg».proof.Proof.PoolForms
import proofs.«171083_j730144440440_2_alg».proof.Proof.LibColumnForms
import Idealize.ShloMosaic.Lib.ValueIdx
import Idealize.ShloMosaic.Lib.IdealHost
import Idealize.ShloMosaic.Lib.KernelVsHost

set_option Elab.async false

noncomputable section

open scoped BigOperators

namespace Cert.ReferenceIdeal.RefPool

open Cert.ReferenceIdeal Cert.ReferenceIdeal.Gen Idealize.ShloMosaic Idealize.ShloMosaic.TcCoe Idealize.SL.Sem Idealize.ShloMosaic.StableHlo
open Cert.ReferenceIdeal.RefRun
open Idealize.ShloMosaic.ValueIdx

/-! ## Each array function at an index -/

/-- The program's product record is the plain rows-by-columns one. -/
theorem dot_eq_plain : dot_S100000x2_S2x1_S100000x1_1_0_0_1_n_n = DotDims.plain 100000 2 1 := rfl

/-- The host's exponential and logarithm at an index are the ideal instance's on the element. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- A one-entry vector placed as a [1,1] array and repeated down the rows reads that entry everywhere. -/
theorem bcast_column_apply (x : S1.Idx → EReal) (n : Fin 100000) (u : Fin 1) :
    (broadcastInDim S100000x1 ![0, 1] bcast_S1x1_S100000x1_0_1 (broadcastInDim S1x1 ![1] bcast_S1_S1x1_1 x) : S100000x1.Idx → EReal) (ix2 n u)
      = x (ix1 (0 : Fin 1)) := by
  have hu : u = 0 := Subsingleton.elim _ _
  subst hu
  rw [broadcastInDim_oneRow_apply, ColumnForms.broadcastInDim_a_1a_apply]

/-- A one-entry vector placed as a [1,1] array and repeated along the row reads that entry everywhere. -/
theorem bcast_row_apply (x : S1.Idx → EReal) (u : Fin 1) (c : Fin 2) :
    (broadcastInDim S1x2 ![0, 1] bcast_S1x1_S1x2_0_1 (broadcastInDim S1x1 ![0] bcast_S1_S1x1_0 x) : S1x2.Idx → EReal) (ix2 u c)
      = x (ix1 (0 : Fin 1)) := by
  have hu : u = 0 := Subsingleton.elim _ _
  subst hu
  rw [PoolForms.broadcastInDim_a1_ab_apply, ColumnForms.broadcastInDim_a_a1_apply]

/-- Node n's gate logit. -/
theorem logitsA_apply (h : S100000x2.Idx → EReal) (gw : S2x1.Idx → EReal) (gb : S1.Idx → EReal) (n : Fin 100000) (u : Fin 1) :
    (logitsA (F := Ideal) h gw gb : S100000x1.Idx → EReal) (ix2 n u) = SpecPool.logit h gw gb n := by
  unfold logitsA SpecPool.logit
  rw [addf_apply, bcast_column_apply, dot_eq_plain, PoolForms.dot_column_apply]

/-- The largest entry of a column. -/
theorem colMaxA_apply (L : S100000x1.Idx → EReal) (u : Fin 1) :
    (colMaxA (F := Ideal) L : S1.Idx → EReal) (ix1 u)
      = (Finset.univ : Finset (Fin 100000)).fold max (⊥ : EReal) (fun n => L (ix2 n (0 : Fin 1))) := by
  have hu : u = 0 := Subsingleton.elim _ _
  subst hu
  unfold colMaxA
  rw [maximumf_apply, PoolForms.broadcastInDim_negInf_apply, PoolForms.hostMax_axis0_apply, max_bot_left]

/-- The exponential of a column's entry less the column's largest. -/
theorem weightsA_apply (L : S100000x1.Idx → EReal) (n : Fin 100000) (u : Fin 1) :
    (weightsA (F := Ideal) L : S100000x1.Idx → EReal) (ix2 n u)
      = Ideal.exp (L (ix2 n (0 : Fin 1)) - (Finset.univ : Finset (Fin 100000)).fold max (⊥ : EReal) (fun m => L (ix2 m (0 : Fin 1)))) := by
  have hu : u = 0 := Subsingleton.elim _ _
  subst hu
  unfold weightsA
  rw [hostExp_apply, subf_apply, bcast_column_apply, colMaxA_apply]

/-- A column's entry divided by the column's sum. -/
theorem gateA_apply (E : S100000x1.Idx → EReal) (n : Fin 100000) (u : Fin 1) :
    (gateA (F := Ideal) E : S100000x1.Idx → EReal) (ix2 n u)
      = Ideal.div (E (ix2 n (0 : Fin 1))) (∑ m : Fin 100000, E (ix2 m (0 : Fin 1))) := by
  have hu : u = 0 := Subsingleton.elim _ _
  subst hu
  unfold gateA
  rw [hostDivf_apply, bcast_column_apply, PoolForms.hostSum_axis0_apply]

/-- Entry c of the pooled row: the column-weighted sum of feature c over the rows. -/
theorem pooledA_apply (G : S100000x1.Idx → EReal) (h : S100000x2.Idx → EReal) (u : Fin 1) (c : Fin 2) :
    (pooledA (F := Ideal) G h : S1x2.Idx → EReal) (ix2 u c) = ∑ n : Fin 100000, G (ix2 n (0 : Fin 1)) * h (ix2 n c) := by
  unfold pooledA
  rw [ColumnForms.broadcastInDim_a_1a_apply, PoolForms.hostSum_axis0_apply]
  refine Finset.sum_congr rfl fun n _ => ?_
  rw [mulf_apply, PoolForms.broadcastInDim_a1_ab_apply]

/-- The larger entry of a one-row array. -/
theorem rowMaxA_apply (p : S1x2.Idx → EReal) (u : Fin 1) :
    (rowMaxA (F := Ideal) p : S1.Idx → EReal) (ix1 u)
      = (Finset.univ : Finset (Fin 2)).fold max (⊥ : EReal) (fun c => p (ix2 (0 : Fin 1) c)) := by
  have hu : u = 0 := Subsingleton.elim _ _
  subst hu
  unfold rowMaxA
  rw [maximumf_apply, PoolForms.broadcastInDim_negInf_apply, PoolForms.hostMax_axis1_apply, max_bot_left]

/-- A one-row array's entry less the row's larger entry. -/
theorem shiftedA_apply (p : S1x2.Idx → EReal) (u : Fin 1) (c : Fin 2) :
    (shiftedA (F := Ideal) p : S1x2.Idx → EReal) (ix2 u c)
      = p (ix2 (0 : Fin 1) c) - (Finset.univ : Finset (Fin 2)).fold max (⊥ : EReal) (fun c' => p (ix2 (0 : Fin 1) c')) := by
  have hu : u = 0 := Subsingleton.elim _ _
  subst hu
  unfold shiftedA
  rw [subf_apply, bcast_row_apply, rowMaxA_apply]

/-- The log-softmax of a one-row array at entry c. -/
theorem logSoftmaxA_apply (p : S1x2.Idx → EReal) (u : Fin 1) (c : Fin 2) :
    (logSoftmaxA (F := Ideal) p : S1x2.Idx → EReal) (ix2 u c)
      = (shiftedA (F := Ideal) p : S1x2.Idx → EReal) (ix2 (0 : Fin 1) c)
        - Ideal.log (∑ c' : Fin 2, Ideal.exp ((shiftedA (F := Ideal) p : S1x2.Idx → EReal) (ix2 (0 : Fin 1) c'))) := by
  have hu : u = 0 := Subsingleton.elim _ _
  subst hu
  unfold logSoftmaxA
  rw [subf_apply, PoolForms.broadcastInDim_a1_ab_apply, hostLog_apply, ColumnForms.broadcastInDim_a_a1_apply,
    PoolForms.hostSum_axis1_apply]
  rfl

/-! ## The composition is the specification -/

/-- The stage's composed function, at the extended reals, is the pooling specification. -/
theorem stage117_eq (h : S100000x2.Idx → EReal) (gw : S2x1.Idx → EReal) (gb : S1.Idx → EReal) :
    (stage117 (F := Ideal) h gw gb : S1x2.Idx → EReal) = SpecPool.poolSpec h gw gb := by
  funext i
  obtain ⟨u, c, rfl⟩ : ∃ (u : Fin 1) (c : Fin 2), i = ix2 u c := ⟨i 0, i 1, eq_ix2 i⟩
  rw [SpecPool.poolSpec_ix2]
  unfold stage117 SpecPool.logSoftmax
  rw [logSoftmaxA_apply]
  have hs : ∀ c' : Fin 2, (shiftedA (F := Ideal) (pooledA (F := Ideal) (gateA (F := Ideal) (weightsA (F := Ideal) (logitsA (F := Ideal) h gw gb))) h) : S1x2.Idx → EReal) (ix2 (0 : Fin 1) c')
      = SpecPool.shifted h gw gb c' := by
    intro c'
    have hp : ∀ c'' : Fin 2, (pooledA (F := Ideal) (gateA (F := Ideal) (weightsA (F := Ideal) (logitsA (F := Ideal) h gw gb))) h : S1x2.Idx → EReal) (ix2 (0 : Fin 1) c'')
        = SpecPool.pooled h gw gb c'' := by
      intro c''
      rw [pooledA_apply]
      unfold SpecPool.pooled
      refine Finset.sum_congr rfl fun n _ => ?_
      have hw : ∀ m : Fin 100000, (weightsA (F := Ideal) (logitsA (F := Ideal) h gw gb) : S100000x1.Idx → EReal) (ix2 m (0 : Fin 1))
          = SpecPool.weight h gw gb m := by
        intro m
        rw [weightsA_apply]
        unfold SpecPool.weight SpecPool.top
        rw [logitsA_apply]
        exact congrArg (fun f : Fin 100000 → EReal => Ideal.exp (SpecPool.logit h gw gb m - Finset.univ.fold max (⊥ : EReal) f))
          (funext fun m' => logitsA_apply h gw gb m' 0)
      rw [gateA_apply]
      unfold SpecPool.gate SpecPool.total
      rw [hw n]
      exact congrArg (fun f : Fin 100000 → EReal => Ideal.div (SpecPool.weight h gw gb n) (∑ m, f m) * h (ix2 n c''))
        (funext fun m => hw m)
    rw [shiftedA_apply, hp c']
    unfold SpecPool.shifted SpecPool.rowTop
    exact congrArg (fun f : Fin 2 → EReal => SpecPool.pooled h gw gb c' - Finset.univ.fold max (⊥ : EReal) f) (funext fun c'' => hp c'')
  rw [hs c]
  exact congrArg (fun f : Fin 2 → EReal => SpecPool.shifted h gw gb c - Ideal.log (∑ c', Ideal.exp (f c'))) (funext fun c' => hs c')

/-! ## The two statements about the run -/

/-- FROM AN ARBITRARY START: whatever the buffers hold when the product with the gate weights starts, the 38
    operations from there on leave the result buffer at the pooling specification of the third layer's output, the
    gate weights and the gate bias as held then. -/
theorem ref_pool (W : Valuation τ sig (Elt Ideal)) :
    after ops2 (after opsTail W) (Proc.devRef .tc main_v117)
      = SpecPool.poolSpec (W (Proc.devRef .tc main_v97)) (W (Proc.devRef .tc main_arg9)) (W (Proc.devRef .tc main_arg10)) :=
  (stage_result W).trans (stage117_eq _ _ _)

/-- READ OFF THE WHOLE RUN, from any contents V: the result buffer ends at the pooling specification of the third
    layer's output as the run leaves it and of the two gate arguments as V has them. -/
theorem ref_pool_after (V : Valuation τ sig (Elt Ideal)) :
    after ops V (Proc.devRef .tc main_v117)
      = SpecPool.poolSpec (after ops V (Proc.devRef .tc main_v97)) (V (Proc.devRef .tc main_arg9)) (V (Proc.devRef .tc main_arg10)) :=
  (v117_eq V).trans (stage117_eq _ _ _)

/-- The same from a launch: the gate arguments are the memory's argument buffers. -/
theorem ref_pool_full (m : (ℓ : Loc nD τ sig) → Buf (Elt Ideal) ℓ) (c : Dev nD) :
    after ops (launchContents m c) (Proc.devRef .tc main_v117)
      = SpecPool.poolSpec (after ops (launchContents m c) (Proc.devRef .tc main_v97))
          (m ((c.tc : Thread nD τ).loc main_arg9)) (m ((c.tc : Thread nD τ).loc main_arg10)) :=
  ref_pool_after (launchContents m c)

end Cert.ReferenceIdeal.RefPool

end
-- ==== Proof.BridgeC.lean ====
/- The last stage across the two programs. The reference ends at the attention pool and log-softmax of its third layer's
   output, the gate weights and the gate bias. The kernel program's last region finds the third layer's output and the gate
   weights untouched by the host stretch before it, and the gate bias reshaped to a 1 x 1 block whose one entry is the
   bias's one entry; what the region leaves in its output array is the same pool of what it finds. The third layers'
   outputs agree by hypothesis and the gate arguments by the launch memories' agreement. -/
import proofs.«171083_j730144440440_2_alg».proof.Proof.BridgeA0
import proofs.«171083_j730144440440_2_alg».proof.Proof.KIChains
import proofs.«171083_j730144440440_2_alg».proof.Proof.KIHostOperands
import proofs.«171083_j730144440440_2_alg».proof.Proof.RefPool
import proofs.«171083_j730144440440_2_alg».proof.Proof.FiniteInputs
import proofs.«171083_j730144440440_2_alg».proof.Proof.LibColumnForms

set_option maxRecDepth 16384

noncomputable section

namespace Cert.Proof.BridgeC

open Idealize.ShloMosaic Idealize.ShloMosaic.TcCoe Idealize.SL.Sem Idealize.ShloMosaic.StableHlo Idealize.ShloMosaic.ValueIdx
open Cert.KernelIdeal.Hand Cert.Proof.BridgeA

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the last region finds as the gate bias: the bias argument reshaped to a 1 x 1 block. -/
theorem V9_v88 (c : Dev Cert.KernelIdeal.nD) :
    V9 m c Cert.KernelIdeal.main_v88 = shapeCast Cert.KernelIdeal.S1x1 (m ((c.tc : Thread Cert.KernelIdeal.nD Cert.KernelIdeal.τ).loc Cert.KernelIdeal.main_arg10)) Cert.KernelIdeal.Gen.shapeCasts_S1_S1x1 := by
  show W9 m c (Proc.devRef .tc Cert.KernelIdeal.main_v88) = _
  unfold W9
  rw [Cert.KernelIdeal.Hand.hostOps3_v88 (W8 m c), W8_arg10 m c]

/-- Its one entry is the bias's one entry. -/
theorem V9_v88_entry (c : Dev Cert.KernelIdeal.nD) :
    (V9 m c Cert.KernelIdeal.main_v88 : Cert.KernelIdeal.S1x1.Idx → EReal) (ix2 (0 : Fin 1) (0 : Fin 1))
      = (m ((c.tc : Thread Cert.KernelIdeal.nD Cert.KernelIdeal.τ).loc Cert.KernelIdeal.main_arg10) : Cert.KernelIdeal.S1.Idx → EReal) (ix1 (0 : Fin 1)) := by
  rw [V9_v88 m c]
  exact ColumnForms.shapeCast_a_a1_apply _ Cert.KernelIdeal.Gen.shapeCasts_S1_S1x1 (0 : Fin 1) (0 : Fin 1)

/-- The last region finds the third layer's output as the region before it left it, -/
theorem V9_v87 (c : Dev Cert.KernelIdeal.nD) : V9 m c Cert.KernelIdeal.main_v87 = W8 m c (Proc.devRef .tc Cert.KernelIdeal.main_v87) := W9_keep_v87 m c
/-- and the gate weights as launched. -/
theorem V9_arg9 (c : Dev Cert.KernelIdeal.nD) : V9 m c Cert.KernelIdeal.main_arg9 = m ((c.tc : Thread Cert.KernelIdeal.nD Cert.KernelIdeal.τ).loc Cert.KernelIdeal.main_arg9) := W9_arg9 m c

/-- THE POOL STAGE AGREES, given what the last region's value lemma will state: for a gate bias gb that the region's 1 x 1
    bias block holds, with the third layer's output, the gate weights and the bias all arrays of reals, the region leaves
    in its output array the pooling specification of what it finds. -/
theorem pool_agree_of (hagree : Agree m m') (c : Dev Cert.KernelIdeal.nD)
    (s97 : after Cert.ReferenceIdeal.RefRun.ops (launchContents m' c) (Proc.devRef .tc Cert.ReferenceIdeal.main_v97) = W8 m c (Proc.devRef .tc Cert.KernelIdeal.main_v87))
    (hh3 : ∀ i, ∃ r : ℝ, (W8 m c (Proc.devRef .tc Cert.KernelIdeal.main_v87) : Cert.KernelIdeal.S100000x2.Idx → EReal) i = (r : EReal))
    (hpre : Cert.Pre_KernelIdeal (hPre_finite_inputs := Cert.Pre_finite_inputs.Gen.facts) m)
    (hregion : ∀ gb : (⟨1, ![1]⟩ : Shape).Idx → EReal,
      (V9 m c Cert.KernelIdeal.main_v88 : Cert.KernelIdeal.S1x1.Idx → EReal) (ix2 (0 : Fin 1) (0 : Fin 1)) = gb (ix1 (0 : Fin 1)) →
      (∀ i, ∃ r : ℝ, (V9 m c Cert.KernelIdeal.main_v87 : Cert.KernelIdeal.S100000x2.Idx → EReal) i = (r : EReal)) →
      (∀ i, ∃ r : ℝ, (V9 m c Cert.KernelIdeal.main_arg9 : Cert.KernelIdeal.S2x1.Idx → EReal) i = (r : EReal)) →
      (∀ i, ∃ r : ℝ, gb i = (r : EReal)) →
      (dat3 (V9 m) c).arrAt 3 Cert.KernelIdeal.cfg3.N = SpecPool.poolSpec (V9 m c Cert.KernelIdeal.main_v87) (V9 m c Cert.KernelIdeal.main_arg9) gb) :
    after Cert.ReferenceIdeal.RefRun.ops (launchContents m' c) (Proc.devRef .tc Cert.ReferenceIdeal.main_v117) = (dat3 (V9 m) c).arrAt 3 Cert.KernelIdeal.cfg3.N := by
  obtain ⟨-, -, -, -, -, -, -, -, h9, h10⟩ := Cert.Proof.Finite.finite_of_pre m hpre c
  have hv : ∀ i, ∃ r : ℝ, (V9 m c Cert.KernelIdeal.main_v87 : Cert.KernelIdeal.S100000x2.Idx → EReal) i = (r : EReal) := by
    rw [V9_v87 m c]; exact hh3
  have hw : ∀ i, ∃ r : ℝ, (V9 m c Cert.KernelIdeal.main_arg9 : Cert.KernelIdeal.S2x1.Idx → EReal) i = (r : EReal) := by
    rw [V9_arg9 m c]; exact h9
  rw [Cert.ReferenceIdeal.RefPool.ref_pool_full m' c, s97, (hagree c).2.2.2.2.2.2.2.2.2.1, (hagree c).2.2.2.2.2.2.2.2.2.2,
    hregion (m ((c.tc : Thread Cert.KernelIdeal.nD Cert.KernelIdeal.τ).loc Cert.KernelIdeal.main_arg10)) (V9_v88_entry m c) hv hw h10, V9_v87 m c, V9_arg9 m c]

end Cert.Proof.BridgeC

end
-- ==== Proof.KIRegion3Pay.lean ====
/- Region 3 (the attention-pool kernel): what each control case leaves in the three scratch buffers and in the output
   block, as the kernel's stored payloads applied to the loaded input blocks and to the scratch contents the body found. -/
import proofs.«171083_j730144440440_2_alg».proof.Proof.KIRegion3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz3 : (![0, 0] : Fin 2 → Nat) = fun _ => 0 := funext fun a => by fin_cases a <;> rfl

/-- Case A: the running maximum the body leaves, as the stored payload of the loaded blocks (the reset values read back). -/
theorem sout3_A_0_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) :
    sout3_A_0 c i arg1 harg1 arg2 harg2 arg3 harg3 arg4 harg4 arg5 harg5 arg6 harg6 arg7 harg7 hc0 hc1 x0 x1 x2 = k3_pay3 (k3_pay10 i x0 x1 x2 (k3_pay5 (F := F))) := by
  unfold sout3_A_0
  rw [View.read_writes_eq_canon _ _ _ (scover3_A_0 c i arg1 harg1 arg2 harg2 arg3 harg3 arg4 harg4 arg5 harg5 arg6 harg6 arg7 harg7 hc0 hc1 x0 x1 x2)]
  unfold kernelRun3_A
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case A: the running sum the body leaves, as the stored payload of the loaded blocks (the reset values read back). -/
theorem sout3_A_1_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) :
    sout3_A_1 c i arg1 harg1 arg2 harg2 arg3 harg3 arg4 harg4 arg5 harg5 arg6 harg6 arg7 harg7 hc0 hc1 x0 x1 x2 = k3_pay1 (k3_pay13 i x0 x1 x2 (k3_pay5 (F := F)) (k3_pay5 (F := F)) (k3_pay6 (F := F))) := by
  unfold sout3_A_1
  rw [View.read_writes_eq_canon _ _ _ (scover3_A_1 c i arg1 harg1 arg2 harg2 arg3 harg3 arg4 harg4 arg5 harg5 arg6 harg6 arg7 harg7 hc0 hc1 x0 x1 x2)]
  unfold kernelRun3_A
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case A: the accumulator the body leaves, as the stored payload of the loaded blocks (the reset values read back). -/
theorem sout3_A_2_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : cond3_0 i) (hc1 : ¬cond3_1 i)
    (x0 : Vec F S10000x2 .f32) (x1 : Vec F S2x1 .f32) (x2 : Vec F S1x1 .f32) :
    sout3_A_2 c i arg1 harg1 arg2 harg2 arg3 harg3 arg4 harg4 arg5 harg5 arg6 harg6 arg7 harg7 hc0 hc1 x0 x1 x2 = k3_pay2 (k3_pay8 x0) (k3_pay11 i x0 x1 x2 (k3_pay5 (F := F)) (k3_pay5 (F := F))) (k3_pay12 i x0 x1 x2 (k3_pay5 (F := F))) (k3_pay7 (F := F)) := by
  unfold sout3_A_2
  rw [View.read_writes_eq_canon _ _ _ (scover3_A_2 c i arg1 harg1 arg2 harg2 arg3 harg3 arg4 harg4 arg5 harg5 arg6 harg6 arg7 harg7 hc0 hc1 x0 x1 x2)]
  unfold kernelRun3_A
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case B: the running maximum the body leaves, as the stored payload of the loaded blocks and of what the point before left. -/
theorem sout3_B_0_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_B_0 c i arg1 harg1 arg2 harg2 arg3 harg3 arg4 harg4 arg5 harg5 arg6 harg6 arg7 harg7 hc0 hc1 x0 x1 x2 xs0 xs1 xs2 = k3_pay3 (k3_pay10 i x0 x1 x2 xs0) := by
  unfold sout3_B_0
  rw [View.read_writes_eq_canon _ _ _ (scover3_B_0 c i arg1 harg1 arg2 harg2 arg3 harg3 arg4 harg4 arg5 harg5 arg6 harg6 arg7 harg7 hc0 hc1 x0 x1 x2 xs0 xs1 xs2)]
  unfold kernelRun3_B
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case B: the running sum the body leaves, as the stored payload of the loaded blocks and of what the point before left. -/
theorem sout3_B_1_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_B_1 c i arg1 harg1 arg2 harg2 arg3 harg3 arg4 harg4 arg5 harg5 arg6 harg6 arg7 harg7 hc0 hc1 x0 x1 x2 xs0 xs1 xs2 = k3_pay1 (k3_pay13 i x0 x1 x2 xs0 xs0 xs1) := by
  unfold sout3_B_1
  rw [View.read_writes_eq_canon _ _ _ (scover3_B_1 c i arg1 harg1 arg2 harg2 arg3 harg3 arg4 harg4 arg5 harg5 arg6 harg6 arg7 harg7 hc0 hc1 x0 x1 x2 xs0 xs1 xs2)]
  unfold kernelRun3_B
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case B: the accumulator the body leaves, as the stored payload of the loaded blocks and of what the point before left. -/
theorem sout3_B_2_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : ¬cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_B_2 c i arg1 harg1 arg2 harg2 arg3 harg3 arg4 harg4 arg5 harg5 arg6 harg6 arg7 harg7 hc0 hc1 x0 x1 x2 xs0 xs1 xs2 = k3_pay2 (k3_pay8 x0) (k3_pay11 i x0 x1 x2 xs0 xs0) (k3_pay12 i x0 x1 x2 xs0) xs2 := by
  unfold sout3_B_2
  rw [View.read_writes_eq_canon _ _ _ (scover3_B_2 c i arg1 harg1 arg2 harg2 arg3 harg3 arg4 harg4 arg5 harg5 arg6 harg6 arg7 harg7 hc0 hc1 x0 x1 x2 xs0 xs1 xs2)]
  unfold kernelRun3_B
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case C: the running maximum the body leaves, as the stored payload of the loaded blocks and of what the point before left. -/
theorem sout3_C_0_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_C_0 c i arg1 harg1 arg2 harg2 arg3 harg3 arg4 harg4 arg5 harg5 arg6 harg6 arg7 harg7 hc0 hc1 x0 x1 x2 xs0 xs1 xs2 = k3_pay3 (k3_pay10 i x0 x1 x2 xs0) := by
  unfold sout3_C_0
  rw [View.read_writes_eq_canon _ _ _ (scover3_C_0 c i arg1 harg1 arg2 harg2 arg3 harg3 arg4 harg4 arg5 harg5 arg6 harg6 arg7 harg7 hc0 hc1 x0 x1 x2 xs0 xs1 xs2)]
  unfold kernelRun3_C
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case C: the running sum the body leaves, as the stored payload of the loaded blocks and of what the point before left. -/
theorem sout3_C_1_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_C_1 c i arg1 harg1 arg2 harg2 arg3 harg3 arg4 harg4 arg5 harg5 arg6 harg6 arg7 harg7 hc0 hc1 x0 x1 x2 xs0 xs1 xs2 = k3_pay1 (k3_pay13 i x0 x1 x2 xs0 xs0 xs1) := by
  unfold sout3_C_1
  rw [View.read_writes_eq_canon _ _ _ (scover3_C_1 c i arg1 harg1 arg2 harg2 arg3 harg3 arg4 harg4 arg5 harg5 arg6 harg6 arg7 harg7 hc0 hc1 x0 x1 x2 xs0 xs1 xs2)]
  unfold kernelRun3_C
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case C: the accumulator the body leaves, as the stored payload of the loaded blocks and of what the point before left. -/
theorem sout3_C_2_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    sout3_C_2 c i arg1 harg1 arg2 harg2 arg3 harg3 arg4 harg4 arg5 harg5 arg6 harg6 arg7 harg7 hc0 hc1 x0 x1 x2 xs0 xs1 xs2 = k3_pay2 (k3_pay8 x0) (k3_pay11 i x0 x1 x2 xs0 xs0) (k3_pay12 i x0 x1 x2 xs0) xs2 := by
  unfold sout3_C_2
  rw [View.read_writes_eq_canon _ _ _ (scover3_C_2 c i arg1 harg1 arg2 harg2 arg3 harg3 arg4 harg4 arg5 harg5 arg6 harg6 arg7 harg7 hc0 hc1 x0 x1 x2 xs0 xs1 xs2)]
  unfold kernelRun3_C
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

/-- Case C: the output block the body stores, as the payload of the accumulator and the running sum it has just stored. -/
theorem out3_C_3_eq (c : Dev nD) (i : grid3.Coords) (arg1 : Memref sig .tc .vmem S10000x2 .f32) (harg1 : arg1.IsWhole) (arg2 : Memref sig .tc .vmem S2x1 .f32) (harg2 : arg2.IsWhole) (arg3 : Memref sig .tc .vmem S1x1 .f32) (harg3 : arg3.IsWhole) (arg4 : Memref sig .tc .vmem S1x2 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2 .f32) (harg7 : arg7.IsWhole) (hc0 : ¬cond3_0 i) (hc1 : cond3_1 i)
    (x0 : Vec F S10000x2 .f32) (x1 : Vec F S2x1 .f32) (x2 : Vec F S1x1 .f32) (xs0 : Vec F S1x1 .f32) (xs1 : Vec F S1x1 .f32) (xs2 : Vec F S1x2 .f32) :
    out3_C_3 c i arg1 harg1 arg2 harg2 arg3 harg3 arg4 harg4 arg5 harg5 arg6 harg6 arg7 harg7 hc0 hc1 x0 x1 x2 xs0 xs1 xs2 = k3_pay4 (k3_pay2 (k3_pay8 x0) (k3_pay11 i x0 x1 x2 xs0 xs0) (k3_pay12 i x0 x1 x2 xs0) xs2) (k3_pay1 (k3_pay13 i x0 x1 x2 xs0 xs0 xs1)) := by
  unfold out3_C_3
  rw [View.read_writes_eq_canon _ _ _ (cover3_C_3 c i arg1 harg1 arg2 harg2 arg3 harg3 arg4 harg4 arg5 harg5 arg6 harg6 arg7 harg7 hc0 hc1 x0 x1 x2 xs0 xs1 xs2)]
  unfold kernelRun3_C
  dsimp only
  sl_unfold_words
  first
    | rw [View.canon_unit_zero hz3]
    | rw [View.canon_cons_unit_zero hz3]
    | fail "canon step"
  simp only [View.readAt_eq_ld, harg1.read_unread, harg2.read_unread, harg3.read_unread, harg4.read_unread, harg5.read_unread, harg6.read_unread, harg7.read_unread,
    View.readCov_unit_zero (S := S1x1) _ hz3, View.readCov_unit_zero (S := S1x2) _ hz3,
    View.ld_unit_zero (S := S10000x2) hz3, View.ld_unit_zero (S := S2x1) hz3, View.ld_unit_zero (S := S1x1) hz3, View.ld_unit_zero (S := S1x2) hz3]

end Cert.KernelIdeal.Hand

end
-- ==== Proof.KIRegion3PayIdx.lean ====
/- Region 3 (the attention-pool kernel): the body's payloads at an index, over the extended reals. The gate logit of row
   r is the inner product of the row with the gate weights plus the gate bias (the row mask always holds: the global row
   number is below the row count); the running maximum, the correction factor, the shifted exponentials, the running sum
   and the accumulator are the online-softmax update, entry by entry; the output row is the log-softmax of the
   accumulator divided by the running sum. -/
import proofs.«171083_j730144440440_2_alg».proof.Proof.Gen.KernelIdeal.Skeleton
import proofs.«171083_j730144440440_2_alg».proof.Proof.LibColumnForms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

set_option maxRecDepth 16384

noncomputable section

open scoped BigOperators

namespace Cert.KernelIdeal.Hand

open Cert.KernelIdeal Cert.KernelIdeal.Gen
open Idealize.ShloMosaic Idealize.ShloMosaic.ValueIdx

/-- The row mask holds at every row of every tile: tile a, row r is global row 10000 a + r < 100000. -/
theorem mask3 (a : Fin 10) (r : Fin 10000) :
    Scalar.cmpi .slt (Scalar.addi (Scalar.muli (BitVec.ofNat 32 a.val) 10000#32) (BitVec.ofNat 32 (0 * 10000 + r.val))) 100000#32 = 1#1 :=
  Affine.slt_holds
    (Affine.addi (Affine.muli (Affine.ofNat a.val ⟨rfl, by have := a.isLt; omega⟩) (Affine.ofNat 10000 ⟨rfl, by norm_num⟩)
        ⟨rfl, by have := a.isLt; omega, by have := a.isLt; omega⟩)
      (Affine.ofNat (0 * 10000 + r.val) ⟨rfl, by have := r.isLt; omega⟩)
      ⟨rfl, by have := a.isLt; have := r.isLt; omega, by have := a.isLt; have := r.isLt; omega⟩)
    (Affine.ofNat 100000 ⟨rfl, by norm_num⟩) (by have := a.isLt; have := r.isLt; omega)

/-- The gate product into the zero accumulator, at row r: the inner product of the row with the weight column. -/
theorem mm3_apply (a : FVec Ideal S10000x2 .f32) (b : FVec Ideal S2x1 .f32) (r : Fin 10000) :
    matmul dot_S10000x2_S2x1_S10000x1_1_0_0_1_n_n none a b (constant S10000x1 .f32 0x00000000#32) (ix2 r (0 : Fin 1))
      = ∑ k : Fin 2, a (ix2 r k) * b (ix2 k (0 : Fin 1)) := by
  simp only [matmul]
  rw [Ideal.matmul_constant_zero_apply,
    ← Equiv.sum_comp (contrEquiv1 dot_S10000x2_S2x1_S10000x1_1_0_0_1_n_n 2 rfl rfl).symm]
  refine Finset.sum_congr rfl fun k _ => ?_
  have hk := contrEquiv1_symm_val dot_S10000x2_S2x1_S10000x1_1_0_0_1_n_n 2 rfl rfl k
  have el : dot_S10000x2_S2x1_S10000x1_1_0_0_1_n_n.lhsIdx (ix2 r (0 : Fin 1)) ((contrEquiv1 dot_S10000x2_S2x1_S10000x1_1_0_0_1_n_n 2 rfl rfl).symm k) = ix2 r k :=
    funext fun ax => Fin.ext (by
      match ax with
      | ⟨0, _⟩ =>
        show (dot_S10000x2_S2x1_S10000x1_1_0_0_1_n_n.lhsIdx _ _ 0).val = r.val
        unfold DotDims.lhsIdx
        rw [dif_neg (show ¬(0 : Fin S10000x2.rank) ∈ dot_S10000x2_S2x1_S10000x1_1_0_0_1_n_n.lhsBatch by decide),
          dif_pos (show (0 : Fin S10000x2.rank) ∈ dot_S10000x2_S2x1_S10000x1_1_0_0_1_n_n.lhsNonContracting by decide)]
        rfl
      | ⟨1, _⟩ => exact (dot_S10000x2_S2x1_S10000x1_1_0_0_1_n_n.lhsIdx_val_of_single rfl _ _).trans hk)
  have er : dot_S10000x2_S2x1_S10000x1_1_0_0_1_n_n.rhsIdx (ix2 r (0 : Fin 1)) ((contrEquiv1 dot_S10000x2_S2x1_S10000x1_1_0_0_1_n_n 2 rfl rfl).symm k) = ix2 k (0 : Fin 1) :=
    funext fun ax => Fin.ext (by
      match ax with
      | ⟨0, _⟩ => exact (dot_S10000x2_S2x1_S10000x1_1_0_0_1_n_n.rhsIdx_val_of_single rfl _ _).trans hk
      | ⟨1, _⟩ =>
        show (dot_S10000x2_S2x1_S10000x1_1_0_0_1_n_n.rhsIdx _ _ 1).val = (0 : Fin 1).val
        unfold DotDims.rhsIdx
        rw [dif_neg (show ¬(1 : Fin S2x1.rank) ∈ dot_S10000x2_S2x1_S10000x1_1_0_0_1_n_n.rhsBatch by decide),
          dif_pos (show (1 : Fin S2x1.rank) ∈ dot_S10000x2_S2x1_S10000x1_1_0_0_1_n_n.rhsNonContracting by decide)]
        rfl)
  rw [el, er]

/-- The gate logit of row r of a tile: the row's inner product with the gate weights plus the gate bias. -/
def logit3 (x0 : Vec Ideal S10000x2 .f32) (x1 : Vec Ideal S2x1 .f32) (x2 : Vec Ideal S1x1 .f32) (r : Fin 10000) : EReal :=
  (∑ k : Fin 2, (x0 : S10000x2.Idx → EReal) (ix2 r k) * (x1 : S2x1.Idx → EReal) (ix2 k (0 : Fin 1))) + (x2 : S1x1.Idx → EReal) (ix2 (0 : Fin 1) (0 : Fin 1))

/-- The masked logits the body computes are the logits: the mask holds at every row. -/
theorem pool_pay9_apply (i : grid3.Coords) (x0 : Vec Ideal S10000x2 .f32) (x1 : Vec Ideal S2x1 .f32) (x2 : Vec Ideal S1x1 .f32) (r : Fin 10000) :
    (k3_pay9 (F := Ideal) i x0 x1 x2 : S10000x1.Idx → EReal) (ix2 r (0 : Fin 1)) = logit3 x0 x1 x2 r := by
  unfold k3_pay9 k3_pay8 logit3
  dsimp only
  rw [select_apply]
  rw [show (cmpi .slt (addi (broadcast S10000x1 (Scalar.muli (BitVec.ofNat 32 (i 0).val) 10000#32)) (iota .tc S10000x1 32 [0] iota_S10000x1_d0_w32)) (broadcast S10000x1 100000#32) : IVec S10000x1 1) (ix2 r (0 : Fin 1)) = 1#1 from mask3 (i 0) r]
  rw [select_one, addf_apply, shapeCast_self, shapeCast_self, shapeCast_self, mm3_apply, broadcastTo_1b_ab_apply]

/-! ## Bit patterns -/

theorem pool_ofBits_neginf_f32 : Ideal.ofBits .f32 0xFF800000#32 = (⊥ : EReal) := by simp [Ideal.ofBits, Ideal.ieee]

/-- The reset value of the running maximum (a large negative finite float) is a real number. -/
theorem neg3_real : ∃ m0 : ℝ, Ideal.ofBits .f32 0xFF333332#32 = (m0 : EReal) := by
  unfold Ideal.ofBits Ideal.ieee
  dsimp only
  rw [if_neg (by decide), if_neg (by decide)]
  exact ⟨_, rfl⟩

/-! ## The reductions at an index -/

theorem lift3_col (r : Fin 10000) : reduces_S10000x1_S1.lift (ix1 (0 : Fin 1)) r = ix2 r (0 : Fin 1) := by
  funext c; apply Fin.ext
  match c with
  | ⟨0, _⟩ => rfl
  | ⟨1, _⟩ => rfl

theorem lift3_col2 (q : Fin 2) (r : Fin 10000) : reduces_S10000x2_S2.lift (ix1 q) r = ix2 r q := by
  funext c; apply Fin.ext
  match c with
  | ⟨0, _⟩ => rfl
  | ⟨1, _⟩ => rfl

theorem lift3_row (q : Fin 2) : reduces_S1x2_S1.lift (ix1 (0 : Fin 1)) q = ix2 (0 : Fin 1) q := by
  funext c; apply Fin.ext
  match c with
  | ⟨0, _⟩ => rfl
  | ⟨1, _⟩ => rfl

/-- The column maximum of a [10000,1] vector: the fold of max from -∞ over its rows. -/
theorem colmax3 (src : FVec Ideal S10000x1 .f32) (hφ : FKind.Formats FTy.f32)
    (hacc : (0xFF800000#32 : BitVec 32) = FKind.neutral .maximumf .f32 hφ) :
    multiReduction .maximumf [0] S1 src 0xFF800000#32 reduces_S10000x1_S1 hφ hacc (ix1 (0 : Fin 1))
      = Finset.univ.fold max (⊥ : EReal) (fun r : Fin 10000 => src (ix2 r (0 : Fin 1))) := by
  refine (Ideal.multiReduction_maximumf_single src _ reduces_S10000x1_S1 hφ hacc (ix1 (0 : Fin 1))).trans ?_
  rw [show (FloatOps.ofBits .f32 0xFF800000#32 : Ideal .f32) = (⊥ : EReal) from pool_ofBits_neginf_f32]
  exact congrArg (fun f : Fin 10000 → EReal => Finset.univ.fold max (⊥ : EReal) f) (funext fun r => congrArg src (lift3_col r))

/-- The column sum of a [10000,1] vector. -/
theorem colsum3 (src : FVec Ideal S10000x1 .f32) (hφ : FKind.Formats FTy.f32)
    (hacc : (0x00000000#32 : BitVec 32) = FKind.neutral .add .f32 hφ) :
    multiReduction .add [0] S1 src 0x00000000#32 reduces_S10000x1_S1 hφ hacc (ix1 (0 : Fin 1))
      = ∑ r : Fin 10000, src (ix2 r (0 : Fin 1)) := by
  refine (Ideal.multiReduction_add_single src _ reduces_S10000x1_S1 hφ hacc (ix1 (0 : Fin 1))).trans ?_
  exact Finset.sum_congr rfl fun r _ => congrArg src (lift3_col r)

/-- The column sums of a [10000,2] vector. -/
theorem colsum3x2 (src : FVec Ideal S10000x2 .f32) (hφ : FKind.Formats FTy.f32)
    (hacc : (0x00000000#32 : BitVec 32) = FKind.neutral .add .f32 hφ) (q : Fin 2) :
    multiReduction .add [0] S2 src 0x00000000#32 reduces_S10000x2_S2 hφ hacc (ix1 q)
      = ∑ r : Fin 10000, src (ix2 r q) := by
  refine (Ideal.multiReduction_add_single src _ reduces_S10000x2_S2 hφ hacc (ix1 q)).trans ?_
  exact Finset.sum_congr rfl fun r _ => congrArg src (lift3_col2 q r)

/-- The row maximum of a [1,2] vector. -/
theorem rowmax3 (src : FVec Ideal S1x2 .f32) (hφ : FKind.Formats FTy.f32)
    (hacc : (0xFF800000#32 : BitVec 32) = FKind.neutral .maximumf .f32 hφ) :
    multiReduction .maximumf [1] S1 src 0xFF800000#32 reduces_S1x2_S1 hφ hacc (ix1 (0 : Fin 1))
      = Finset.univ.fold max (⊥ : EReal) (fun q : Fin 2 => src (ix2 (0 : Fin 1) q)) := by
  refine (Ideal.multiReduction_maximumf_single src _ reduces_S1x2_S1 hφ hacc (ix1 (0 : Fin 1))).trans ?_
  rw [show (FloatOps.ofBits .f32 0xFF800000#32 : Ideal .f32) = (⊥ : EReal) from pool_ofBits_neginf_f32]
  exact congrArg (fun f : Fin 2 → EReal => Finset.univ.fold max (⊥ : EReal) f) (funext fun q => congrArg src (lift3_row q))

/-- The row sum of a [1,2] vector. -/
theorem rowsum3 (src : FVec Ideal S1x2 .f32) (hφ : FKind.Formats FTy.f32)
    (hacc : (0x00000000#32 : BitVec 32) = FKind.neutral .add .f32 hφ) :
    multiReduction .add [1] S1 src 0x00000000#32 reduces_S1x2_S1 hφ hacc (ix1 (0 : Fin 1))
      = ∑ q : Fin 2, src (ix2 (0 : Fin 1) q) := by
  refine (Ideal.multiReduction_add_single src _ reduces_S1x2_S1 hφ hacc (ix1 (0 : Fin 1))).trans ?_
  exact Finset.sum_congr rfl fun q _ => congrArg src (lift3_row q)

/-! ## The payloads at an index -/

theorem add_congr_right3 {a b c : EReal} (h : b = c) : a + b = a + c := by rw [h]
theorem sub_congr_right3 {a b c : EReal} (h : b = c) : a - b = a - c := by rw [h]

theorem pool_pay5_apply : (k3_pay5 (F := Ideal) : S1x1.Idx → EReal) (ix2 (0 : Fin 1) (0 : Fin 1)) = Ideal.ofBits .f32 0xFF333332#32 := rfl
theorem pool_pay6_apply : (k3_pay6 (F := Ideal) : S1x1.Idx → EReal) (ix2 (0 : Fin 1) (0 : Fin 1)) = 0 := Ideal.ofBits_zero_f32
theorem pool_pay7_apply (q : Fin 2) : (k3_pay7 (F := Ideal) : S1x2.Idx → EReal) (ix2 (0 : Fin 1) q) = 0 := Ideal.ofBits_zero_f32
theorem pool_pay1_eq (v : FVec Ideal S1x1 .f32) : k3_pay1 (F := Ideal) v = v := shapeCast_self _ _
theorem pool_pay3_eq (v : FVec Ideal S1x1 .f32) : k3_pay3 (F := Ideal) v = v := shapeCast_self _ _
theorem pool_pay8_eq (v : Vec Ideal S10000x2 .f32) : k3_pay8 (F := Ideal) v = v := shapeCast_self _ _

/-- The new running maximum: the maximum of the old one and of the tile's logits. -/
theorem pool_pay10_apply (i : grid3.Coords) (x0 : Vec Ideal S10000x2 .f32) (x1 : Vec Ideal S2x1 .f32) (x2 : Vec Ideal S1x1 .f32) (m : Vec Ideal S1x1 .f32) :
    (k3_pay10 (F := Ideal) i x0 x1 x2 m : S1x1.Idx → EReal) (ix2 (0 : Fin 1) (0 : Fin 1))
      = max ((m : S1x1.Idx → EReal) (ix2 (0 : Fin 1) (0 : Fin 1))) (Finset.univ.fold max (⊥ : EReal) (fun r : Fin 10000 => logit3 x0 x1 x2 r)) := by
  unfold k3_pay10
  (try dsimp only)
  rw [maximumf_apply]
  refine congrArg (max _) ?_
  refine (shapeCast_a_1a_apply (a := 1) _ _ (0 : Fin 1) (0 : Fin 1)).trans ?_
  refine (colmax3 _ _ _).trans ?_
  exact congrArg (fun f : Fin 10000 → EReal => Finset.univ.fold max (⊥ : EReal) f) (funext fun r => pool_pay9_apply i x0 x1 x2 r)

/-- The correction factor: exp (old maximum - new maximum). -/
theorem pool_pay11_apply (i : grid3.Coords) (x0 : Vec Ideal S10000x2 .f32) (x1 : Vec Ideal S2x1 .f32) (x2 : Vec Ideal S1x1 .f32) (m m' : Vec Ideal S1x1 .f32) :
    (k3_pay11 (F := Ideal) i x0 x1 x2 m m' : S1x1.Idx → EReal) (ix2 (0 : Fin 1) (0 : Fin 1))
      = Ideal.exp ((m' : S1x1.Idx → EReal) (ix2 (0 : Fin 1) (0 : Fin 1)) - (k3_pay10 (F := Ideal) i x0 x1 x2 m : S1x1.Idx → EReal) (ix2 (0 : Fin 1) (0 : Fin 1))) := rfl

/-- The shifted exponential of row r. -/
theorem pool_pay12_apply (i : grid3.Coords) (x0 : Vec Ideal S10000x2 .f32) (x1 : Vec Ideal S2x1 .f32) (x2 : Vec Ideal S1x1 .f32) (m : Vec Ideal S1x1 .f32) (r : Fin 10000) :
    (k3_pay12 (F := Ideal) i x0 x1 x2 m : S10000x1.Idx → EReal) (ix2 r (0 : Fin 1))
      = Ideal.exp (logit3 x0 x1 x2 r - (k3_pay10 (F := Ideal) i x0 x1 x2 m : S1x1.Idx → EReal) (ix2 (0 : Fin 1) (0 : Fin 1))) := by
  unfold k3_pay12
  (try dsimp only)
  show Ideal.exp ((k3_pay9 (F := Ideal) i x0 x1 x2 : S10000x1.Idx → EReal) (ix2 r (0 : Fin 1)) - broadcastTo S10000x1 (k3_pay10 (F := Ideal) i x0 x1 x2 m) broadcasts_S1x1_S10000x1 (ix2 r (0 : Fin 1))) = _
  rw [pool_pay9_apply, broadcastTo_1b_ab_apply]

/-- The new running sum: the old one times the correction factor plus the tile's shifted exponentials. -/
theorem pool_pay13_apply (i : grid3.Coords) (x0 : Vec Ideal S10000x2 .f32) (x1 : Vec Ideal S2x1 .f32) (x2 : Vec Ideal S1x1 .f32) (m m' l : Vec Ideal S1x1 .f32) :
    (k3_pay13 (F := Ideal) i x0 x1 x2 m m' l : S1x1.Idx → EReal) (ix2 (0 : Fin 1) (0 : Fin 1))
      = (l : S1x1.Idx → EReal) (ix2 (0 : Fin 1) (0 : Fin 1)) * (k3_pay11 (F := Ideal) i x0 x1 x2 m m' : S1x1.Idx → EReal) (ix2 (0 : Fin 1) (0 : Fin 1))
        + ∑ r : Fin 10000, (k3_pay12 (F := Ideal) i x0 x1 x2 m : S10000x1.Idx → EReal) (ix2 r (0 : Fin 1)) := by
  unfold k3_pay13
  (try dsimp only)
  rw [addf_apply, mulf_apply]
  refine add_congr_right3 ?_
  refine (shapeCast_a_1a_apply (a := 1) _ _ (0 : Fin 1) (0 : Fin 1)).trans ?_
  exact colsum3 _ _ _

/-- The new accumulator, column q: the old one times the correction factor plus the tile's weighted features. -/
theorem pool_pay2_apply (v4 : FVec Ideal S10000x2 .f32) (v26 : FVec Ideal S1x1 .f32) (v29 : FVec Ideal S10000x1 .f32) (v40 : Vec Ideal S1x2 .f32) (q : Fin 2) :
    (k3_pay2 (F := Ideal) v4 v26 v29 v40 : S1x2.Idx → EReal) (ix2 (0 : Fin 1) q)
      = (v40 : S1x2.Idx → EReal) (ix2 (0 : Fin 1) q) * (v26 : S1x1.Idx → EReal) (ix2 (0 : Fin 1) (0 : Fin 1))
        + ∑ r : Fin 10000, (v29 : S10000x1.Idx → EReal) (ix2 r (0 : Fin 1)) * (v4 : S10000x2.Idx → EReal) (ix2 r q) := by
  unfold k3_pay2
  (try dsimp only)
  rw [shapeCast_self, addf_apply, mulf_apply]
  refine congrArg₂ (· + ·) (congrArg (_ * ·) (ColumnForms.broadcastTo_a1_ab_apply (a := 1) (b := 2) _ _ (0 : Fin 1) q)) ?_
  refine (shapeCast_a_1a_apply (a := 2) _ _ (0 : Fin 1) q).trans ?_
  refine (colsum3x2 _ _ _ q).trans ?_
  refine Finset.sum_congr rfl fun r _ => ?_
  rw [mulf_apply]
  exact congrArg (· * _) (ColumnForms.broadcastTo_a1_ab_apply (a := 10000) (b := 2) _ _ r q)

/-- The pooled value of column q: the accumulator over the running sum. -/
def pooled3 (acc : Vec Ideal S1x2 .f32) (l : Vec Ideal S1x1 .f32) (q : Fin 2) : EReal :=
  Ideal.div ((acc : S1x2.Idx → EReal) (ix2 (0 : Fin 1) q)) ((l : S1x1.Idx → EReal) (ix2 (0 : Fin 1) (0 : Fin 1)))

/-- The output row, column q: the pooled value minus (row maximum + log of the sum of shifted exponentials). -/
theorem pool_pay4_apply (acc : Vec Ideal S1x2 .f32) (l : Vec Ideal S1x1 .f32) (q : Fin 2) :
    (k3_pay4 (F := Ideal) acc l : S1x2.Idx → EReal) (ix2 (0 : Fin 1) q)
      = pooled3 acc l q - (Finset.univ.fold max (⊥ : EReal) (pooled3 acc l)
          + Ideal.log (∑ q' : Fin 2, Ideal.exp (pooled3 acc l q' - Finset.univ.fold max (⊥ : EReal) (pooled3 acc l)))) := by
  have hp : ∀ q' : Fin 2, (divf (acc : FVec Ideal S1x2 .f32) (broadcastTo S1x2 (l : FVec Ideal S1x1 .f32) broadcasts_S1x1_S1x2) : FVec Ideal S1x2 .f32) (ix2 (0 : Fin 1) q') = pooled3 acc l q' := fun q' => by
    rw [divf_apply]; unfold pooled3
    exact congrArg (Ideal.div _) (ColumnForms.broadcastTo_a1_ab_apply (a := 1) (b := 2) _ _ (0 : Fin 1) q')
  have hmax : (shapeCast S1x1 (multiReduction .maximumf [1] S1 (divf (acc : FVec Ideal S1x2 .f32) (broadcastTo S1x2 (l : FVec Ideal S1x1 .f32) broadcasts_S1x1_S1x2)) 0xFF800000#32 reduces_S1x2_S1 (.inl rfl) rfl) shapeCasts_S1_S1x1 : FVec Ideal S1x1 .f32) (ix2 (0 : Fin 1) (0 : Fin 1))
      = Finset.univ.fold max (⊥ : EReal) (pooled3 acc l) := by
    refine (shapeCast_a_1a_apply (a := 1) _ _ (0 : Fin 1) (0 : Fin 1)).trans ?_
    refine (rowmax3 _ _ _).trans ?_
    exact congrArg (fun f : Fin 2 → EReal => Finset.univ.fold max (⊥ : EReal) f) (funext hp)
  unfold k3_pay4
  (try dsimp only)
  rw [subf_apply, hp]
  refine sub_congr_right3 ?_
  refine (ColumnForms.broadcastTo_a1_ab_apply (a := 1) (b := 2) _ _ (0 : Fin 1) q).trans ?_
  rw [addf_apply, hmax]
  refine add_congr_right3 ?_
  show Ideal.log _ = _
  refine congrArg Ideal.log ?_
  refine (shapeCast_a_1a_apply (a := 1) _ _ (0 : Fin 1) (0 : Fin 1)).trans ?_
  refine (rowsum3 _ _ _).trans ?_
  refine Finset.sum_congr rfl fun q' _ => ?_
  show Ideal.exp _ = _
  refine congrArg Ideal.exp ?_
  rw [subf_apply, hp]
  refine sub_congr_right3 ?_
  exact (ColumnForms.broadcastTo_a1_ab_apply (a := 1) (b := 2) _ _ (0 : Fin 1) q').trans hmax

/-! ## One online-softmax step, entry by entry -/

/-- The tile's new shift: the maximum of the old shift and of the tile's logits. -/
def shift3 (x0 : Vec Ideal S10000x2 .f32) (x1 : Vec Ideal S2x1 .f32) (x2 : Vec Ideal S1x1 .f32) (m00 : EReal) : EReal :=
  max m00 (Finset.univ.fold max (⊥ : EReal) (fun r : Fin 10000 => logit3 x0 x1 x2 r))

/-- The running maximum the body stores. -/
theorem stepM3 (i : grid3.Coords) (x0 : Vec Ideal S10000x2 .f32) (x1 : Vec Ideal S2x1 .f32) (x2 : Vec Ideal S1x1 .f32) (m : Vec Ideal S1x1 .f32) :
    (k3_pay3 (F := Ideal) (k3_pay10 i x0 x1 x2 m) : S1x1.Idx → EReal) (ix2 (0 : Fin 1) (0 : Fin 1))
      = shift3 x0 x1 x2 ((m : S1x1.Idx → EReal) (ix2 (0 : Fin 1) (0 : Fin 1))) := by
  rw [pool_pay3_eq]; exact pool_pay10_apply i x0 x1 x2 m

/-- The running sum the body stores. -/
theorem stepL3 (i : grid3.Coords) (x0 : Vec Ideal S10000x2 .f32) (x1 : Vec Ideal S2x1 .f32) (x2 : Vec Ideal S1x1 .f32) (m l : Vec Ideal S1x1 .f32) :
    (k3_pay1 (F := Ideal) (k3_pay13 i x0 x1 x2 m m l) : S1x1.Idx → EReal) (ix2 (0 : Fin 1) (0 : Fin 1))
      = (l : S1x1.Idx → EReal) (ix2 (0 : Fin 1) (0 : Fin 1))
          * Ideal.exp ((m : S1x1.Idx → EReal) (ix2 (0 : Fin 1) (0 : Fin 1)) - shift3 x0 x1 x2 ((m : S1x1.Idx → EReal) (ix2 (0 : Fin 1) (0 : Fin 1))))
        + ∑ r : Fin 10000, Ideal.exp (logit3 x0 x1 x2 r - shift3 x0 x1 x2 ((m : S1x1.Idx → EReal) (ix2 (0 : Fin 1) (0 : Fin 1)))) := by
  unfold shift3
  rw [pool_pay1_eq, pool_pay13_apply, pool_pay11_apply, pool_pay10_apply]
  refine add_congr_right3 ?_
  refine Finset.sum_congr rfl fun r _ => ?_
  rw [pool_pay12_apply, pool_pay10_apply]

/-- The accumulator the body stores, column q. -/
theorem stepA3 (i : grid3.Coords) (x0 : Vec Ideal S10000x2 .f32) (x1 : Vec Ideal S2x1 .f32) (x2 : Vec Ideal S1x1 .f32) (m : Vec Ideal S1x1 .f32)
    (acc : Vec Ideal S1x2 .f32) (q : Fin 2) :
    (k3_pay2 (F := Ideal) (k3_pay8 x0) (k3_pay11 i x0 x1 x2 m m) (k3_pay12 i x0 x1 x2 m) acc : S1x2.Idx → EReal) (ix2 (0 : Fin 1) q)
      = (acc : S1x2.Idx → EReal) (ix2 (0 : Fin 1) q)
          * Ideal.exp ((m : S1x1.Idx → EReal) (ix2 (0 : Fin 1) (0 : Fin 1)) - shift3 x0 x1 x2 ((m : S1x1.Idx → EReal) (ix2 (0 : Fin 1) (0 : Fin 1))))
        + ∑ r : Fin 10000, Ideal.exp (logit3 x0 x1 x2 r - shift3 x0 x1 x2 ((m : S1x1.Idx → EReal) (ix2 (0 : Fin 1) (0 : Fin 1))))
            * (x0 : S10000x2.Idx → EReal) (ix2 r q) := by
  unfold shift3
  rw [pool_pay2_apply, pool_pay11_apply, pool_pay10_apply, pool_pay8_eq]
  refine add_congr_right3 ?_
  refine Finset.sum_congr rfl fun r _ => ?_
  rw [pool_pay12_apply, pool_pay10_apply]

end Cert.KernelIdeal.Hand

end
-- ==== Proof.LibOnlineSoftmax.lean ====
/-
  ONLINE SOFTMAX POOLING AGAINST THE TWO-PASS SOFTMAX, OVER THE REALS AND OVER THE EXTENDED REALS.

  Nodes are indexed by a tile number k (T tiles) and a row r within the tile (R rows per tile); the flat node number
  is n = k * R + r. Each node carries a logit z and, for one feature column at a time, a feature value h.

  * The two-pass (reference) pooling fixes a shift M (the true maximum of the logits, but any real number gives the
    same value), puts e i = exp (z i - M), S = ∑ i, e i, and returns ∑ i, (e i / S) * h i.
  * The online (one-pass) pooling carries a running shift m, a running denominator l and a running numerator acc.
    From (m0, 0, 0) it visits the tiles in order; at tile k it picks a new shift m' (the maximum of m and of the
    tile's logits, but the algebra never uses that), and sets
      l'   = l   * exp (m - m') + ∑ r, exp (z k r - m'),
      acc' = acc * exp (m - m') + ∑ r, exp (z k r - m') * h k r.
    At the end it returns acc / l.

  The two agree because exp (z - m) * exp (m - m') = exp (z - m'): after k tiles, l and acc are the sums over the
  first k tiles of exp (z - m_k) and of exp (z - m_k) * h, whatever the shifts were; and a quotient of two such sums
  does not depend on the shift.

  The last section restates everything for extended reals that are coercions of reals, with the extended reals' own
  + and *, and with exp, log and division as the ideal float instance defines them.
-/
import Mathlib.Analysis.SpecialFunctions.Log.Basic
import Mathlib.Algebra.BigOperators.Fin
import Mathlib.Logic.Equiv.Fin.Basic
import Mathlib.Data.Finset.Fold
import Idealize.ShloMosaic.PureOps.Ideal

noncomputable section

open scoped BigOperators

namespace OnlineSoftmax

/-! ## Over the reals -/

section Reals

variable {R : Type*} [Fintype R]

/-- Changing the shift of a sum of shifted exponentials:
    (∑ i ∈ s, exp (z i - m)) * exp (m - m') = ∑ i ∈ s, exp (z i - m'). -/
theorem sum_exp_rescale {ι : Type*} (s : Finset ι) (z : ι → ℝ) (m m' : ℝ) :
    (∑ i ∈ s, Real.exp (z i - m)) * Real.exp (m - m') = ∑ i ∈ s, Real.exp (z i - m') := by
  rw [Finset.sum_mul]
  refine Finset.sum_congr rfl fun i _ => ?_
  rw [← Real.exp_add]; congr 1; ring

/-- Changing the shift of a weighted sum of shifted exponentials:
    (∑ i ∈ s, exp (z i - m) * h i) * exp (m - m') = ∑ i ∈ s, exp (z i - m') * h i. -/
theorem sum_exp_mul_rescale {ι : Type*} (s : Finset ι) (z h : ι → ℝ) (m m' : ℝ) :
    (∑ i ∈ s, Real.exp (z i - m) * h i) * Real.exp (m - m') = ∑ i ∈ s, Real.exp (z i - m') * h i := by
  rw [Finset.sum_mul]
  refine Finset.sum_congr rfl fun i _ => ?_
  rw [mul_right_comm, ← Real.exp_add]; congr 2; ring

/-- The invariant of the running denominator, tiles numbered by natural numbers. If l 0 = 0 and, for every k < T,
    l (k+1) = l k * exp (m_k - m_{k+1}) + ∑ r, exp (z k r - m_{k+1}), then for every k ≤ T
    l k = ∑ j < k, ∑ r, exp (z j r - m_k). The shifts m_k are ARBITRARY reals. -/
theorem l_invariant (T : ℕ) (mk l : ℕ → ℝ) (z : ℕ → R → ℝ) (hl0 : l 0 = 0)
    (hl : ∀ k, k < T → l (k + 1) = l k * Real.exp (mk k - mk (k + 1)) + ∑ r, Real.exp (z k r - mk (k + 1))) :
    ∀ k, k ≤ T → l k = ∑ j ∈ Finset.range k, ∑ r, Real.exp (z j r - mk k) := by
  intro k
  induction k with
  | zero => intro _; simp [hl0]
  | succ k ih =>
    intro hk
    rw [hl k hk, ih (Nat.le_of_succ_le hk), Finset.sum_range_succ, Finset.sum_mul]
    congr 1
    exact Finset.sum_congr rfl fun j _ => sum_exp_rescale Finset.univ (z j) (mk k) (mk (k + 1))

/-- The invariant of the running numerator, tiles numbered by natural numbers. If acc 0 = 0 and, for every k < T,
    acc (k+1) = acc k * exp (m_k - m_{k+1}) + ∑ r, exp (z k r - m_{k+1}) * h k r, then for every k ≤ T
    acc k = ∑ j < k, ∑ r, exp (z j r - m_k) * h j r. The shifts m_k are ARBITRARY reals. -/
theorem acc_invariant (T : ℕ) (mk acc : ℕ → ℝ) (z h : ℕ → R → ℝ) (hacc0 : acc 0 = 0)
    (hacc : ∀ k, k < T →
      acc (k + 1) = acc k * Real.exp (mk k - mk (k + 1)) + ∑ r, Real.exp (z k r - mk (k + 1)) * h k r) :
    ∀ k, k ≤ T → acc k = ∑ j ∈ Finset.range k, ∑ r, Real.exp (z j r - mk k) * h j r := by
  intro k
  induction k with
  | zero => intro _; simp [hacc0]
  | succ k ih =>
    intro hk
    rw [hacc k hk, ih (Nat.le_of_succ_le hk), Finset.sum_range_succ, Finset.sum_mul]
    congr 1
    exact Finset.sum_congr rfl fun j _ => sum_exp_mul_rescale Finset.univ (z j) (h j) (mk k) (mk (k + 1))

/-- Extending data given on the first T tiles to all natural numbers (zero beyond). -/
def extend {α : Type*} [Zero α] (T : ℕ) (f : Fin T → R → α) : ℕ → R → α :=
  fun k r => if hk : k < T then f ⟨k, hk⟩ r else 0

/-- On the first T tiles the extension is the data itself: extend T f k r = f ⟨k, hk⟩ r for k < T. -/
theorem extend_of_lt {α : Type*} [Zero α] {T : ℕ} (f : Fin T → R → α) {k : ℕ} (hk : k < T) (r : R) :
    extend T f k r = f ⟨k, hk⟩ r := by
  simp [extend, hk]

/-- The running denominator after all T tiles, tiles indexed by Fin T:
    l T = ∑ k : Fin T, ∑ r, exp (z k r - m_T). -/
theorem l_final (T : ℕ) (mk l : ℕ → ℝ) (z : Fin T → R → ℝ) (hl0 : l 0 = 0)
    (hl : ∀ k (hk : k < T),
      l (k + 1) = l k * Real.exp (mk k - mk (k + 1)) + ∑ r, Real.exp (z ⟨k, hk⟩ r - mk (k + 1))) :
    l T = ∑ k : Fin T, ∑ r, Real.exp (z k r - mk T) := by
  have h1 := l_invariant T mk l (extend T z) hl0
    (fun k hk => by rw [hl k hk]; simp only [extend_of_lt z hk]) T le_rfl
  rw [h1, ← Fin.sum_univ_eq_sum_range (fun k => ∑ r, Real.exp (extend T z k r - mk T)) T]
  exact Finset.sum_congr rfl fun k _ => by simp only [extend_of_lt z k.isLt]

/-- The running numerator after all T tiles, tiles indexed by Fin T:
    acc T = ∑ k : Fin T, ∑ r, exp (z k r - m_T) * h k r. -/
theorem acc_final (T : ℕ) (mk acc : ℕ → ℝ) (z h : Fin T → R → ℝ) (hacc0 : acc 0 = 0)
    (hacc : ∀ k (hk : k < T),
      acc (k + 1) = acc k * Real.exp (mk k - mk (k + 1))
        + ∑ r, Real.exp (z ⟨k, hk⟩ r - mk (k + 1)) * h ⟨k, hk⟩ r) :
    acc T = ∑ k : Fin T, ∑ r, Real.exp (z k r - mk T) * h k r := by
  have h1 := acc_invariant T mk acc (extend T z) (extend T h) hacc0
    (fun k hk => by rw [hacc k hk]; simp only [extend_of_lt z hk, extend_of_lt h hk]) T le_rfl
  rw [h1, ← Fin.sum_univ_eq_sum_range
    (fun k => ∑ r, Real.exp (extend T z k r - mk T) * extend T h k r) T]
  exact Finset.sum_congr rfl fun k _ => by simp only [extend_of_lt z k.isLt, extend_of_lt h k.isLt]

/-- A sum of exponentials over a nonempty finite type is positive. -/
theorem sum_exp_pos {ι : Type*} [Fintype ι] [Nonempty ι] (z : ι → ℝ) (m : ℝ) :
    0 < ∑ i, Real.exp (z i - m) :=
  Finset.sum_pos (fun i _ => Real.exp_pos _) Finset.univ_nonempty

/-- Shift invariance of the exponentially weighted mean:
    (∑ i, exp (z i - m) * h i) / (∑ i, exp (z i - m)) = (∑ i, exp (z i) * h i) / (∑ i, exp (z i)). -/
theorem pooled_shift {ι : Type*} [Fintype ι] (z h : ι → ℝ) (m : ℝ) :
    (∑ i, Real.exp (z i - m) * h i) / (∑ i, Real.exp (z i - m))
      = (∑ i, Real.exp (z i) * h i) / (∑ i, Real.exp (z i)) := by
  have e1 : ∑ i, Real.exp (z i - m) * h i = Real.exp (-m) * ∑ i, Real.exp (z i) * h i := by
    rw [Finset.mul_sum]
    refine Finset.sum_congr rfl fun i _ => ?_
    rw [sub_eq_add_neg, Real.exp_add]; ring
  have e2 : ∑ i, Real.exp (z i - m) = Real.exp (-m) * ∑ i, Real.exp (z i) := by
    rw [Finset.mul_sum]
    refine Finset.sum_congr rfl fun i _ => ?_
    rw [sub_eq_add_neg, Real.exp_add]; ring
  rw [e1, e2, mul_div_mul_left _ _ (Real.exp_ne_zero _)]

/-- The one-pass quotient is the two-pass softmax pooling, for any two shifts m and M:
    (∑ i, exp (z i - m) * h i) / (∑ i, exp (z i - m)) = ∑ i, (exp (z i - M) / ∑ j, exp (z j - M)) * h i. -/
theorem pooled_eq_softmax {ι : Type*} [Fintype ι] (z h : ι → ℝ) (m M : ℝ) :
    (∑ i, Real.exp (z i - m) * h i) / (∑ i, Real.exp (z i - m))
      = ∑ i, (Real.exp (z i - M) / ∑ j, Real.exp (z j - M)) * h i := by
  rw [pooled_shift z h m, ← pooled_shift z h M, Finset.sum_div]
  exact Finset.sum_congr rfl fun i _ => by ring

/-- The online pooling equals the softmax pooling; nodes indexed by pairs (k, r) : Fin T × R (tile, row in tile),
    so that with R = Fin R' the flat node number is n = k * R' + r. For sequences l, acc : ℕ → ℝ that start at 0 and
    follow the online recurrences with arbitrary real shifts m_k, and any real M,
    acc T / l T = ∑ (k, r), (exp (z k r - M) / ∑ (k', r'), exp (z k' r' - M)) * h k r. -/
theorem online_eq_softmax (T : ℕ) (mk l acc : ℕ → ℝ) (z h : Fin T → R → ℝ) (M : ℝ)
    (hl0 : l 0 = 0) (hacc0 : acc 0 = 0)
    (hl : ∀ k (hk : k < T),
      l (k + 1) = l k * Real.exp (mk k - mk (k + 1)) + ∑ r, Real.exp (z ⟨k, hk⟩ r - mk (k + 1)))
    (hacc : ∀ k (hk : k < T),
      acc (k + 1) = acc k * Real.exp (mk k - mk (k + 1))
        + ∑ r, Real.exp (z ⟨k, hk⟩ r - mk (k + 1)) * h ⟨k, hk⟩ r) :
    acc T / l T
      = ∑ i : Fin T × R, (Real.exp (z i.1 i.2 - M) / ∑ j : Fin T × R, Real.exp (z j.1 j.2 - M)) * h i.1 i.2 := by
  rw [l_final T mk l z hl0 hl, acc_final T mk acc z h hacc0 hacc,
    ← pooled_eq_softmax (fun i : Fin T × R => z i.1 i.2) (fun i : Fin T × R => h i.1 i.2) (mk T) M,
    Fintype.sum_prod_type, Fintype.sum_prod_type]

/-- The same with a FLAT node index n : Fin (T * R'), the pair (k, r) being the node n = r + R' * k = k * R' + r
    (finProdFinEquiv): the tile k reads the logits zf (k * R' + r) and features hf (k * R' + r), r < R'. -/
theorem online_eq_softmax_flat (T R' : ℕ) (mk l acc : ℕ → ℝ) (zf hf : Fin (T * R') → ℝ) (M : ℝ)
    (hl0 : l 0 = 0) (hacc0 : acc 0 = 0)
    (hl : ∀ k (hk : k < T),
      l (k + 1) = l k * Real.exp (mk k - mk (k + 1))
        + ∑ r : Fin R', Real.exp (zf (finProdFinEquiv (⟨k, hk⟩, r)) - mk (k + 1)))
    (hacc : ∀ k (hk : k < T),
      acc (k + 1) = acc k * Real.exp (mk k - mk (k + 1))
        + ∑ r : Fin R', Real.exp (zf (finProdFinEquiv (⟨k, hk⟩, r)) - mk (k + 1))
            * hf (finProdFinEquiv (⟨k, hk⟩, r))) :
    acc T / l T = ∑ n, (Real.exp (zf n - M) / ∑ n', Real.exp (zf n' - M)) * hf n := by
  rw [online_eq_softmax T mk l acc (fun k r => zf (finProdFinEquiv (k, r)))
    (fun k r => hf (finProdFinEquiv (k, r))) M hl0 hacc0 hl hacc]
  rw [← Equiv.sum_comp finProdFinEquiv (fun n => Real.exp (zf n - M)),
    ← Equiv.sum_comp finProdFinEquiv (fun n => (Real.exp (zf n - M) / _) * hf n)]

/-- The log-softmax of a row p with the shift pm folded into the log-sum-exp, against the shifted form:
    p c - (pm + log (∑ c', exp (p c' - pm))) = (p c - pm) - log (∑ c', exp (p c' - pm)), for any real pm. -/
theorem log_softmax_rearrange {C : Type*} [Fintype C] (p : C → ℝ) (pm : ℝ) (c : C) :
    p c - (pm + Real.log (∑ c', Real.exp (p c' - pm)))
      = (p c - pm) - Real.log (∑ c', Real.exp (p c' - pm)) := by
  ring

/-- The shifted log-softmax does not depend on the shift:
    (p c - pm) - log (∑ c', exp (p c' - pm)) = p c - log (∑ c', exp (p c')). -/
theorem log_softmax_shift {C : Type*} [Fintype C] [Nonempty C] (p : C → ℝ) (pm : ℝ) (c : C) :
    (p c - pm) - Real.log (∑ c', Real.exp (p c' - pm)) = p c - Real.log (∑ c', Real.exp (p c')) := by
  have e : ∑ c', Real.exp (p c' - pm) = Real.exp (-pm) * ∑ c', Real.exp (p c') := by
    rw [Finset.mul_sum]
    refine Finset.sum_congr rfl fun i _ => ?_
    rw [sub_eq_add_neg, Real.exp_add]; ring
  have hpos : 0 < ∑ c', Real.exp (p c') := by simpa using sum_exp_pos p 0
  rw [e, Real.log_mul (Real.exp_ne_zero _) hpos.ne', Real.log_exp]; ring

end Reals

/-! ## Over the extended reals, for real-valued data

Every quantity below is the coercion of a real number; + and * are the extended reals' own, and exp, log and
division are the ideal float instance's (on coerced reals: the real exponential; the real logarithm of a positive
number; the product with the reciprocal of a nonzero number). Each extended-real expression is shown to be the
coercion of the corresponding real expression (the lemmas named ..._eq_coe), and the identities of the previous
section follow between the extended-real expressions themselves. -/

section ExtendedReals

open Idealize.ShloMosaic

variable {R : Type*} [Fintype R]

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is the coercion of the real sum of products. -/
theorem coe_finset_sum_mul {ι : Type*} (s : Finset ι) (a b : ι → ℝ) :
    (∑ i ∈ s, (a i : EReal) * (b i : EReal)) = ((∑ i ∈ s, a i * b i : ℝ) : EReal) := by
  rw [← coe_finset_sum]; exact Finset.sum_congr rfl fun i _ => (EReal.coe_mul _ _).symm

/-- The maximum of two coerced reals is the coercion of their maximum. -/
theorem coe_max (a b : ℝ) : max (a : EReal) (b : EReal) = ((max a b : ℝ) : EReal) :=
  (EReal.coe_strictMono.monotone.map_max).symm

/-- Folding max over coerced reals from a coerced real gives the coercion of the real fold. -/
theorem fold_max_coe {ι : Type*} (s : Finset ι) (b : ℝ) (f : ι → ℝ) :
    s.fold max (b : EReal) (fun i => (f i : EReal)) = ((s.fold max b f : ℝ) : EReal) := by
  classical
  induction s using Finset.induction_on with
  | empty => simp
  | insert a s ha ih => rw [Finset.fold_insert ha, Finset.fold_insert ha, ih, coe_max]

/-- Folding max over coerced reals from -∞ over a NONEMPTY finite set gives a real number: the coercion of the
    set's real supremum. -/
theorem fold_max_bot_coe {ι : Type*} (s : Finset ι) (hs : s.Nonempty) (f : ι → ℝ) :
    s.fold max (⊥ : EReal) (fun i => (f i : EReal)) = ((s.sup' hs f : ℝ) : EReal) := by
  apply le_antisymm
  · exact (Finset.fold_max_le _).mpr ⟨bot_le, fun i hi => EReal.coe_le_coe_iff.mpr (Finset.le_sup' f hi)⟩
  · obtain ⟨i, hi, hsup⟩ := Finset.exists_mem_eq_sup' hs f
    rw [hsup]
    exact (Finset.le_fold_max _).mpr (Or.inr ⟨i, hi, le_rfl⟩)

/-- The ideal exponential of a difference of coerced reals. -/
theorem exp_sub_coe (a b : ℝ) : Ideal.exp ((a : EReal) - (b : EReal)) = ((Real.exp (a - b) : ℝ) : EReal) := by
  rw [← EReal.coe_sub, Ideal.exp_coe]

/-- The ideal quotient of two coerced reals with a nonzero divisor is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The ideal logarithm of a coerced positive real is the coercion of the real logarithm. -/
theorem log_coe_pos {a : ℝ} (ha : 0 < a) : Ideal.log (a : EReal) = ((Real.log a : ℝ) : EReal) := by
  rw [Ideal.log_coe, if_neg (not_le.mpr ha)]

/-- A sum of ideal exponentials of shifted coerced reals:
    ∑ i ∈ s, exp (↑(z i) - ↑m) = ↑(∑ i ∈ s, exp (z i - m)). -/
theorem sum_exp_eq_coe {ι : Type*} (s : Finset ι) (z : ι → ℝ) (m : ℝ) :
    (∑ i ∈ s, Ideal.exp ((z i : EReal) - (m : EReal))) = ((∑ i ∈ s, Real.exp (z i - m) : ℝ) : EReal) := by
  rw [← coe_finset_sum]; exact Finset.sum_congr rfl fun i _ => exp_sub_coe _ _

/-- A weighted sum of ideal exponentials of shifted coerced reals:
    ∑ i ∈ s, exp (↑(z i) - ↑m) * ↑(h i) = ↑(∑ i ∈ s, exp (z i - m) * h i). -/
theorem sum_exp_mul_eq_coe {ι : Type*} (s : Finset ι) (z h : ι → ℝ) (m : ℝ) :
    (∑ i ∈ s, Ideal.exp ((z i : EReal) - (m : EReal)) * (h i : EReal))
      = ((∑ i ∈ s, Real.exp (z i - m) * h i : ℝ) : EReal) := by
  rw [← coe_finset_sum_mul]; exact Finset.sum_congr rfl fun i _ => by rw [exp_sub_coe]

/-- One step of the running denominator on coerced reals is the coercion of the real step. -/
theorem l_step_eq_coe (lk m m' : ℝ) (z : R → ℝ) :
    (lk : EReal) * Ideal.exp ((m : EReal) - (m' : EReal)) + ∑ r, Ideal.exp ((z r : EReal) - (m' : EReal))
      = ((lk * Real.exp (m - m') + ∑ r, Real.exp (z r - m') : ℝ) : EReal) := by
  rw [exp_sub_coe, sum_exp_eq_coe, ← EReal.coe_mul, ← EReal.coe_add]

/-- One step of the running numerator on coerced reals is the coercion of the real step. -/
theorem acc_step_eq_coe (ak m m' : ℝ) (z h : R → ℝ) :
    (ak : EReal) * Ideal.exp ((m : EReal) - (m' : EReal))
        + ∑ r, Ideal.exp ((z r : EReal) - (m' : EReal)) * (h r : EReal)
      = ((ak * Real.exp (m - m') + ∑ r, Real.exp (z r - m') * h r : ℝ) : EReal) := by
  rw [exp_sub_coe, sum_exp_mul_eq_coe, ← EReal.coe_mul, ← EReal.coe_add]

/-- The invariant of the running denominator over the extended reals, tiles numbered by natural numbers: if L 0 = 0
    and, for k < T, L (k+1) = L k * exp (↑m_k - ↑m_{k+1}) + ∑ r, exp (↑(z k r) - ↑m_{k+1}), then for k ≤ T the value
    L k is the real number ∑ j < k, ∑ r, exp (z j r - m_k). The shifts m_k are arbitrary reals. -/
theorem l_invariant_ereal (T : ℕ) (mk : ℕ → ℝ) (L : ℕ → EReal) (z : ℕ → R → ℝ) (hL0 : L 0 = 0)
    (hL : ∀ k, k < T → L (k + 1) = L k * Ideal.exp ((mk k : EReal) - (mk (k + 1) : EReal))
      + ∑ r, Ideal.exp ((z k r : EReal) - (mk (k + 1) : EReal))) :
    ∀ k, k ≤ T → L k = ((∑ j ∈ Finset.range k, ∑ r, Real.exp (z j r - mk k) : ℝ) : EReal) := by
  intro k
  induction k with
  | zero => intro _; simp [hL0]
  | succ k ih =>
    intro hk
    rw [hL k hk, ih (Nat.le_of_succ_le hk), l_step_eq_coe, Finset.sum_range_succ, Finset.sum_mul]
    congr 2
    exact Finset.sum_congr rfl fun j _ => sum_exp_rescale Finset.univ (z j) (mk k) (mk (k + 1))

/-- The invariant of the running numerator over the extended reals, tiles numbered by natural numbers: if A 0 = 0
    and, for k < T, A (k+1) = A k * exp (↑m_k - ↑m_{k+1}) + ∑ r, exp (↑(z k r) - ↑m_{k+1}) * ↑(h k r), then for
    k ≤ T the value A k is the real number ∑ j < k, ∑ r, exp (z j r - m_k) * h j r. -/
theorem acc_invariant_ereal (T : ℕ) (mk : ℕ → ℝ) (A : ℕ → EReal) (z h : ℕ → R → ℝ) (hA0 : A 0 = 0)
    (hA : ∀ k, k < T → A (k + 1) = A k * Ideal.exp ((mk k : EReal) - (mk (k + 1) : EReal))
      + ∑ r, Ideal.exp ((z k r : EReal) - (mk (k + 1) : EReal)) * (h k r : EReal)) :
    ∀ k, k ≤ T → A k = ((∑ j ∈ Finset.range k, ∑ r, Real.exp (z j r - mk k) * h j r : ℝ) : EReal) := by
  intro k
  induction k with
  | zero => intro _; simp [hA0]
  | succ k ih =>
    intro hk
    rw [hA k hk, ih (Nat.le_of_succ_le hk), acc_step_eq_coe, Finset.sum_range_succ, Finset.sum_mul]
    congr 2
    exact Finset.sum_congr rfl fun j _ => sum_exp_mul_rescale Finset.univ (z j) (h j) (mk k) (mk (k + 1))

/-- The running denominator over the extended reals after all T tiles, tiles indexed by Fin T:
    L T = ↑(∑ k : Fin T, ∑ r, exp (z k r - m_T)). -/
theorem l_final_ereal (T : ℕ) (mk : ℕ → ℝ) (L : ℕ → EReal) (z : Fin T → R → ℝ) (hL0 : L 0 = 0)
    (hL : ∀ k (hk : k < T), L (k + 1) = L k * Ideal.exp ((mk k : EReal) - (mk (k + 1) : EReal))
      + ∑ r, Ideal.exp ((z ⟨k, hk⟩ r : EReal) - (mk (k + 1) : EReal))) :
    L T = ((∑ k : Fin T, ∑ r, Real.exp (z k r - mk T) : ℝ) : EReal) := by
  have h1 := l_invariant_ereal T mk L (extend T z) hL0
    (fun k hk => by rw [hL k hk]; simp only [extend_of_lt z hk]) T le_rfl
  rw [h1, ← Fin.sum_univ_eq_sum_range (fun k => ∑ r, Real.exp (extend T z k r - mk T)) T]
  congr 1
  exact Finset.sum_congr rfl fun k _ => by simp only [extend_of_lt z k.isLt]

/-- The running numerator over the extended reals after all T tiles, tiles indexed by Fin T:
    A T = ↑(∑ k : Fin T, ∑ r, exp (z k r - m_T) * h k r). -/
theorem acc_final_ereal (T : ℕ) (mk : ℕ → ℝ) (A : ℕ → EReal) (z h : Fin T → R → ℝ) (hA0 : A 0 = 0)
    (hA : ∀ k (hk : k < T), A (k + 1) = A k * Ideal.exp ((mk k : EReal) - (mk (k + 1) : EReal))
      + ∑ r, Ideal.exp ((z ⟨k, hk⟩ r : EReal) - (mk (k + 1) : EReal)) * (h ⟨k, hk⟩ r : EReal)) :
    A T = ((∑ k : Fin T, ∑ r, Real.exp (z k r - mk T) * h k r : ℝ) : EReal) := by
  have h1 := acc_invariant_ereal T mk A (extend T z) (extend T h) hA0
    (fun k hk => by rw [hA k hk]; simp only [extend_of_lt z hk, extend_of_lt h hk]) T le_rfl
  rw [h1, ← Fin.sum_univ_eq_sum_range
    (fun k => ∑ r, Real.exp (extend T z k r - mk T) * extend T h k r) T]
  congr 1
  exact Finset.sum_congr rfl fun k _ => by simp only [extend_of_lt z k.isLt, extend_of_lt h k.isLt]

/-- The one-pass quotient over the extended reals is the coercion of the real quotient (the index type is
    nonempty, so the denominator is a positive real):
    div (∑ i, exp (↑(z i) - ↑m) * ↑(h i)) (∑ i, exp (↑(z i) - ↑m))
      = ↑((∑ i, exp (z i - m) * h i) / ∑ i, exp (z i - m)). -/
theorem pooled_eq_coe {ι : Type*} [Fintype ι] [Nonempty ι] (z h : ι → ℝ) (m : ℝ) :
    Ideal.div (∑ i, Ideal.exp ((z i : EReal) - (m : EReal)) * (h i : EReal))
        (∑ i, Ideal.exp ((z i : EReal) - (m : EReal)))
      = (((∑ i, Real.exp (z i - m) * h i) / (∑ i, Real.exp (z i - m)) : ℝ) : EReal) := by
  rw [sum_exp_mul_eq_coe, sum_exp_eq_coe, div_coe_coe _ (sum_exp_pos z m).ne']

/-- The two-pass softmax pooling over the extended reals is the coercion of the real one:
    ∑ i, div (exp (↑(z i) - ↑M)) (∑ j, exp (↑(z j) - ↑M)) * ↑(h i)
      = ↑(∑ i, (exp (z i - M) / ∑ j, exp (z j - M)) * h i). -/
theorem softmax_pool_eq_coe {ι : Type*} [Fintype ι] [Nonempty ι] (z h : ι → ℝ) (M : ℝ) :
    (∑ i, Ideal.div (Ideal.exp ((z i : EReal) - (M : EReal))) (∑ j, Ideal.exp ((z j : EReal) - (M : EReal)))
        * (h i : EReal))
      = ((∑ i, (Real.exp (z i - M) / ∑ j, Real.exp (z j - M)) * h i : ℝ) : EReal) := by
  rw [← coe_finset_sum_mul]
  refine Finset.sum_congr rfl fun i _ => ?_
  rw [sum_exp_eq_coe, exp_sub_coe, div_coe_coe _ (sum_exp_pos z M).ne']

/-- The one-pass quotient equals the two-pass softmax pooling, over the extended reals, for real-valued data and
    any two real shifts m and M. -/
theorem pooled_eq_softmax_ereal {ι : Type*} [Fintype ι] [Nonempty ι] (z h : ι → ℝ) (m M : ℝ) :
    Ideal.div (∑ i, Ideal.exp ((z i : EReal) - (m : EReal)) * (h i : EReal))
        (∑ i, Ideal.exp ((z i : EReal) - (m : EReal)))
      = ∑ i, Ideal.div (Ideal.exp ((z i : EReal) - (M : EReal))) (∑ j, Ideal.exp ((z j : EReal) - (M : EReal)))
          * (h i : EReal) := by
  rw [pooled_eq_coe, softmax_pool_eq_coe, pooled_eq_softmax z h m M]

/-- The online pooling equals the softmax pooling over the extended reals; nodes indexed by pairs
    (k, r) : Fin T × R (tile, row in tile), T > 0 tiles of a nonempty row type. For sequences L, A : ℕ → EReal that
    start at 0 and follow the online recurrences on coerced real data with arbitrary real shifts m_k, and any real M,
    div (A T) (L T) = ∑ (k, r), div (exp (↑(z k r) - ↑M)) (∑ (k', r'), exp (↑(z k' r') - ↑M)) * ↑(h k r). -/
theorem online_eq_softmax_ereal (T : ℕ) [NeZero T] [Nonempty R] (mk : ℕ → ℝ) (L A : ℕ → EReal)
    (z h : Fin T → R → ℝ) (M : ℝ) (hL0 : L 0 = 0) (hA0 : A 0 = 0)
    (hL : ∀ k (hk : k < T), L (k + 1) = L k * Ideal.exp ((mk k : EReal) - (mk (k + 1) : EReal))
      + ∑ r, Ideal.exp ((z ⟨k, hk⟩ r : EReal) - (mk (k + 1) : EReal)))
    (hA : ∀ k (hk : k < T), A (k + 1) = A k * Ideal.exp ((mk k : EReal) - (mk (k + 1) : EReal))
      + ∑ r, Ideal.exp ((z ⟨k, hk⟩ r : EReal) - (mk (k + 1) : EReal)) * (h ⟨k, hk⟩ r : EReal)) :
    Ideal.div (A T) (L T)
      = ∑ i : Fin T × R, Ideal.div (Ideal.exp ((z i.1 i.2 : EReal) - (M : EReal)))
          (∑ j : Fin T × R, Ideal.exp ((z j.1 j.2 : EReal) - (M : EReal))) * (h i.1 i.2 : EReal) := by
  rw [l_final_ereal T mk L z hL0 hL, acc_final_ereal T mk A z h hA0 hA,
    ← pooled_eq_softmax_ereal (fun i : Fin T × R => z i.1 i.2) (fun i : Fin T × R => h i.1 i.2) (mk T) M,
    pooled_eq_coe, Fintype.sum_prod_type, Fintype.sum_prod_type]
  have hpos : (0 : ℝ) < ∑ k : Fin T, ∑ r, Real.exp (z k r - mk T) := by
    have := sum_exp_pos (fun i : Fin T × R => z i.1 i.2) (mk T)
    rwa [Fintype.sum_prod_type] at this
  rw [div_coe_coe _ hpos.ne']

/-- The same with a FLAT node index n : Fin (T * R'), the pair (k, r) being the node n = r + R' * k = k * R' + r
    (finProdFinEquiv). -/
theorem online_eq_softmax_flat_ereal (T R' : ℕ) [NeZero T] [NeZero R'] (mk : ℕ → ℝ) (L A : ℕ → EReal)
    (zf hf : Fin (T * R') → ℝ) (M : ℝ) (hL0 : L 0 = 0) (hA0 : A 0 = 0)
    (hL : ∀ k (hk : k < T), L (k + 1) = L k * Ideal.exp ((mk k : EReal) - (mk (k + 1) : EReal))
      + ∑ r : Fin R', Ideal.exp ((zf (finProdFinEquiv (⟨k, hk⟩, r)) : EReal) - (mk (k + 1) : EReal)))
    (hA : ∀ k (hk : k < T), A (k + 1) = A k * Ideal.exp ((mk k : EReal) - (mk (k + 1) : EReal))
      + ∑ r : Fin R', Ideal.exp ((zf (finProdFinEquiv (⟨k, hk⟩, r)) : EReal) - (mk (k + 1) : EReal))
          * (hf (finProdFinEquiv (⟨k, hk⟩, r)) : EReal)) :
    Ideal.div (A T) (L T)
      = ∑ n, Ideal.div (Ideal.exp ((zf n : EReal) - (M : EReal)))
          (∑ n', Ideal.exp ((zf n' : EReal) - (M : EReal))) * (hf n : EReal) := by
  rw [online_eq_softmax_ereal T mk L A (fun k r => zf (finProdFinEquiv (k, r)))
    (fun k r => hf (finProdFinEquiv (k, r))) M hL0 hA0 hL hA]
  rw [← Equiv.sum_comp finProdFinEquiv (fun n => Ideal.exp ((zf n : EReal) - (M : EReal))),
    ← Equiv.sum_comp finProdFinEquiv
      (fun n => Ideal.div (Ideal.exp ((zf n : EReal) - (M : EReal))) _ * (hf n : EReal))]

/-- The log-softmax with the shift folded into the log-sum-exp, over the extended reals, is the coercion of the
    real expression (C nonempty, so the sum of exponentials is a positive real). -/
theorem log_softmax_folded_eq_coe {C : Type*} [Fintype C] [Nonempty C] (p : C → ℝ) (pm : ℝ) (c : C) :
    (p c : EReal) - ((pm : EReal) + Ideal.log (∑ c', Ideal.exp ((p c' : EReal) - (pm : EReal))))
      = ((p c - (pm + Real.log (∑ c', Real.exp (p c' - pm))) : ℝ) : EReal) := by
  rw [sum_exp_eq_coe, log_coe_pos (sum_exp_pos p pm), ← EReal.coe_add, ← EReal.coe_sub]

/-- The shifted log-softmax over the extended reals is the coercion of the real expression. -/
theorem log_softmax_shifted_eq_coe {C : Type*} [Fintype C] [Nonempty C] (p : C → ℝ) (pm : ℝ) (c : C) :
    ((p c : EReal) - (pm : EReal)) - Ideal.log (∑ c', Ideal.exp ((p c' : EReal) - (pm : EReal)))
      = (((p c - pm) - Real.log (∑ c', Real.exp (p c' - pm)) : ℝ) : EReal) := by
  rw [sum_exp_eq_coe, log_coe_pos (sum_exp_pos p pm), ← EReal.coe_sub, ← EReal.coe_sub]

/-- The log-softmax rearrangement over the extended reals, for a row of coerced reals and any real pm:
    ↑(p c) - (↑pm + log (∑ c', exp (↑(p c') - ↑pm))) = (↑(p c) - ↑pm) - log (∑ c', exp (↑(p c') - ↑pm)). -/
theorem log_softmax_rearrange_ereal {C : Type*} [Fintype C] [Nonempty C] (p : C → ℝ) (pm : ℝ) (c : C) :
    (p c : EReal) - ((pm : EReal) + Ideal.log (∑ c', Ideal.exp ((p c' : EReal) - (pm : EReal))))
      = ((p c : EReal) - (pm : EReal)) - Ideal.log (∑ c', Ideal.exp ((p c' : EReal) - (pm : EReal))) := by
  rw [log_softmax_folded_eq_coe, log_softmax_shifted_eq_coe, log_softmax_rearrange]

/-! ### The running shift given as an extended real

The online pooling's own running shift is an extended real: it starts at a coerced real and each step takes the
maximum with the tile's maximum. The statements above ask for the real numbers m_k it is the coercion of; the lemmas
below supply them (any real number will do: the identities hold for arbitrary real shifts). -/

/-- The maximum of a coerced real and the fold of max from -∞ over a nonempty row of coerced reals is a real
    number: max ↑m (fold max ⊥ (↑ ∘ z)) = ↑(max m (sup' z)). -/
theorem max_fold_max_coe [Nonempty R] (m : ℝ) (z : R → ℝ) :
    max (m : EReal) (Finset.univ.fold max (⊥ : EReal) (fun r => (z r : EReal)))
      = ((max m (Finset.univ.sup' Finset.univ_nonempty z) : ℝ) : EReal) := by
  rw [fold_max_bot_coe _ Finset.univ_nonempty, coe_max]

/-- A sequence of extended reals that starts at a real number and at each step takes the maximum with a real
    number consists of real numbers. -/
theorem exists_real_shifts (T : ℕ) (Mx : ℕ → EReal) (m0 : ℝ) (hM0 : Mx 0 = (m0 : EReal))
    (hM : ∀ k, k < T → ∃ t : ℝ, Mx (k + 1) = max (Mx k) (t : EReal)) :
    ∀ k, k ≤ T → ∃ m : ℝ, Mx k = (m : EReal) := by
  intro k
  induction k with
  | zero => intro _; exact ⟨m0, hM0⟩
  | succ k ih =>
    intro hk
    obtain ⟨m, hm⟩ := ih (Nat.le_of_succ_le hk)
    obtain ⟨t, ht⟩ := hM k hk
    exact ⟨max m t, by rw [ht, hm, coe_max]⟩

/-- The online pooling equals the softmax pooling over the extended reals, the running shifts given as extended
    reals Mx k that are real numbers (for instance by exists_real_shifts): for sequences L, A : ℕ → EReal that start
    at 0 and follow the online recurrences with the shifts Mx, and any real M,
    div (A T) (L T) = ∑ (k, r), div (exp (↑(z k r) - ↑M)) (∑ (k', r'), exp (↑(z k' r') - ↑M)) * ↑(h k r). -/
theorem online_eq_softmax_ereal_of_real_shifts (T : ℕ) [NeZero T] [Nonempty R] (Mx L A : ℕ → EReal)
    (z h : Fin T → R → ℝ) (M : ℝ) (hMx : ∀ k, k ≤ T → ∃ m : ℝ, Mx k = (m : EReal))
    (hL0 : L 0 = 0) (hA0 : A 0 = 0)
    (hL : ∀ k (hk : k < T), L (k + 1) = L k * Ideal.exp (Mx k - Mx (k + 1))
      + ∑ r, Ideal.exp ((z ⟨k, hk⟩ r : EReal) - Mx (k + 1)))
    (hA : ∀ k (hk : k < T), A (k + 1) = A k * Ideal.exp (Mx k - Mx (k + 1))
      + ∑ r, Ideal.exp ((z ⟨k, hk⟩ r : EReal) - Mx (k + 1)) * (h ⟨k, hk⟩ r : EReal)) :
    Ideal.div (A T) (L T)
      = ∑ i : Fin T × R, Ideal.div (Ideal.exp ((z i.1 i.2 : EReal) - (M : EReal)))
          (∑ j : Fin T × R, Ideal.exp ((z j.1 j.2 : EReal) - (M : EReal))) * (h i.1 i.2 : EReal) := by
  classical
  let mk : ℕ → ℝ := fun k => if hk : k ≤ T then Classical.choose (hMx k hk) else 0
  have hmk : ∀ k, k ≤ T → Mx k = (mk k : EReal) := fun k hk => by
    simp only [mk, dif_pos hk]; exact Classical.choose_spec (hMx k hk)
  refine online_eq_softmax_ereal T mk L A z h M hL0 hA0 (fun k hk => ?_) (fun k hk => ?_)
  · rw [hL k hk, hmk k hk.le, hmk (k + 1) (Nat.succ_le_of_lt hk)]
  · rw [hA k hk, hmk k hk.le, hmk (k + 1) (Nat.succ_le_of_lt hk)]

/-- The same with a FLAT node index n : Fin (T * R'), the pair (k, r) being the node n = r + R' * k = k * R' + r
    (finProdFinEquiv). -/
theorem online_eq_softmax_flat_ereal_of_real_shifts (T R' : ℕ) [NeZero T] [NeZero R'] (Mx L A : ℕ → EReal)
    (zf hf : Fin (T * R') → ℝ) (M : ℝ) (hMx : ∀ k, k ≤ T → ∃ m : ℝ, Mx k = (m : EReal))
    (hL0 : L 0 = 0) (hA0 : A 0 = 0)
    (hL : ∀ k (hk : k < T), L (k + 1) = L k * Ideal.exp (Mx k - Mx (k + 1))
      + ∑ r : Fin R', Ideal.exp ((zf (finProdFinEquiv (⟨k, hk⟩, r)) : EReal) - Mx (k + 1)))
    (hA : ∀ k (hk : k < T), A (k + 1) = A k * Ideal.exp (Mx k - Mx (k + 1))
      + ∑ r : Fin R', Ideal.exp ((zf (finProdFinEquiv (⟨k, hk⟩, r)) : EReal) - Mx (k + 1))
          * (hf (finProdFinEquiv (⟨k, hk⟩, r)) : EReal)) :
    Ideal.div (A T) (L T)
      = ∑ n, Ideal.div (Ideal.exp ((zf n : EReal) - (M : EReal)))
          (∑ n', Ideal.exp ((zf n' : EReal) - (M : EReal))) * (hf n : EReal) := by
  classical
  let mk : ℕ → ℝ := fun k => if hk : k ≤ T then Classical.choose (hMx k hk) else 0
  have hmk : ∀ k, k ≤ T → Mx k = (mk k : EReal) := fun k hk => by
    simp only [mk, dif_pos hk]; exact Classical.choose_spec (hMx k hk)
  refine online_eq_softmax_flat_ereal T R' mk L A zf hf M hL0 hA0 (fun k hk => ?_) (fun k hk => ?_)
  · rw [hL k hk, hmk k hk.le, hmk (k + 1) (Nat.succ_le_of_lt hk)]
  · rw [hA k hk, hmk k hk.le, hmk (k + 1) (Nat.succ_le_of_lt hk)]

end ExtendedReals

end OnlineSoftmax
-- ==== Proof.KIRegion3Value.lean ====
/- Region 3 (the attention-pool kernel) read as one array, over the extended reals. Over the ten grid points the body
   carries the running maximum, the running sum and the accumulator of an online softmax pooling of the nodes' features
   with the gate logits, tile by tile; at the last point it stores the log-softmax of the accumulator over the running
   sum. For arrays of real numbers the online pooling is the one-pass softmax pooling of the whole array, so the output
   array ends holding the pooling stage's result of the three arrays as the region finds them. -/
import proofs.«171083_j730144440440_2_alg».proof.Proof.KIRegion3Pay
import proofs.«171083_j730144440440_2_alg».proof.Proof.KIRegion3PayIdx
import proofs.«171083_j730144440440_2_alg».proof.Proof.LibOnlineSoftmax
import proofs.«171083_j730144440440_2_alg».proof.Proof.SpecPool
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The windows' blocks as parts of their arrays -/

/-- The printed index maps over the grid: the features' block moves down with the point, the others stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The features' block at point t is rows [10000 t, 10000 t + 10000) of the feature array. -/
theorem iblk3_0_apply (c : Dev nD) (t : Fin cfg3.N) (y : S10000x2.Idx) (z : S100000x2.Idx)
    (h0 : (z 0).val = t.val * 10000 + (y 0).val) (h1 : (z 1).val = (y 1).val) :
    (iblk3 V c 0 t : S10000x2.Idx → EReal) y = (V c main_v87 : S100000x2.Idx → EReal) z := by
  obtain ⟨e00, e01, -⟩ := idx_facts3 t
  unfold iblk3
  rw [View.read_apply]
  show V c main_v87 (((cfg3.win 0).blk t).view.emb y) = V c main_v87 z
  refine congrArg (V c main_v87) (funext fun a => Fin.ext ?_)
  match a with
  | ⟨0, _⟩ => show win3_0.index t (0 : Fin 2) * 10000 + 1 * (y 0).val = (z 0).val; rw [e00, h0]; omega
  | ⟨1, _⟩ => show win3_0.index t (1 : Fin 2) * 2 + 1 * (y 1).val = (z 1).val; rw [e01, h1]; omega

/-- The gate weights' block is the whole weight array, at every point. -/
theorem iblk3_1_eq (c : Dev nD) (t : Fin cfg3.N) : (iblk3 V c 1 t : S2x1.Idx → EReal) = V c main_arg9 := by
  obtain ⟨-, -, e10, e11, -⟩ := idx_facts3 t
  funext y
  unfold iblk3
  rw [View.read_apply]
  show V c main_arg9 (((cfg3.win 1).blk t).view.emb y) = V c main_arg9 y
  refine congrArg (V c main_arg9) (funext fun a => Fin.ext ?_)
  match a with
  | ⟨0, _⟩ => show win3_1.index t (0 : Fin 2) * 2 + 1 * (y 0).val = (y 0).val; rw [e10]; omega
  | ⟨1, _⟩ => show win3_1.index t (1 : Fin 2) * 1 + 1 * (y 1).val = (y 1).val; rw [e11]; omega

/-- The gate bias's block is the whole bias array, at every point. -/
theorem iblk3_2_eq (c : Dev nD) (t : Fin cfg3.N) : (iblk3 V c 2 t : S1x1.Idx → EReal) = V c main_v88 := by
  obtain ⟨-, -, -, -, e20, e21, -⟩ := idx_facts3 t
  funext y
  unfold iblk3
  rw [View.read_apply]
  show V c main_v88 (((cfg3.win 2).blk t).view.emb y) = V c main_v88 y
  refine congrArg (V c main_v88) (funext fun a => Fin.ext ?_)
  match a with
  | ⟨0, _⟩ => show win3_2.index t (0 : Fin 2) * 1 + 1 * (y 0).val = (y 0).val; rw [e20]; omega
  | ⟨1, _⟩ => show win3_2.index t (1 : Fin 2) * 1 + 1 * (y 1).val = (y 1).val; rw [e21]; omega

/-! ## The scratch contents point by point, as payloads -/

/-- What the body finds in the three scratch buffers at point t once the first point's reset has run: the reset values
    at the first point, what the point before left otherwise. -/
def prev3 (c : Dev nD) (t : Fin cfg3.N) : Vec Ideal S1x1 .f32 × Vec Ideal S1x1 .f32 × Vec Ideal S1x2 .f32 :=
  if h : t.val = 0 then (k3_pay5 (F := Ideal), k3_pay6 (F := Ideal), k3_pay7 (F := Ideal))
  else (outsAt3 V c (t.val - 1) (Nat.lt_of_le_of_lt (Nat.sub_le _ _) t.isLt)).2

/-- What the body leaves in the three scratch buffers at point t: the online-softmax update of what it found, the same
    payloads in all three control cases. -/
theorem outsAt3_scratch (c : Dev nD) (t : Fin cfg3.N) :
    (outsAt3 V c t.val t.isLt).2 =
      (k3_pay3 (k3_pay10 (grid3.coords t) (iblk3 V c 0 t) (iblk3 V c 1 t) (iblk3 V c 2 t) (prev3 V c t).1),
       k3_pay1 (k3_pay13 (grid3.coords t) (iblk3 V c 0 t) (iblk3 V c 1 t) (iblk3 V c 2 t) (prev3 V c t).1 (prev3 V c t).1 (prev3 V c t).2.1),
       k3_pay2 (k3_pay8 (iblk3 V c 0 t)) (k3_pay11 (grid3.coords t) (iblk3 V c 0 t) (iblk3 V c 1 t) (iblk3 V c 2 t) (prev3 V c t).1 (prev3 V c t).1) (k3_pay12 (grid3.coords t) (iblk3 V c 0 t) (iblk3 V c 1 t) (iblk3 V c 2 t) (prev3 V c t).1) (prev3 V c t).2.2) := by
  have hN : t.val < 10 := lt_of_lt_of_eq t.isLt (show cfg3.N = 10 from N_3)
  by_cases hz : t.val = 0
  · have h1 : ¬t.val % 10 = 9 := by omega
    rw [outsAt3_A V c t hz h1]
    unfold prev3; rw [dif_pos hz]
    dsimp only
    rw [sout3_A_0_eq, sout3_A_1_eq, sout3_A_2_eq]
  · unfold prev3; rw [dif_neg hz]
    by_cases h1 : t.val % 10 = 9
    · rw [outsAt3_C V c t hz h1]
      dsimp only
      rw [sout3_C_0_eq, sout3_C_1_eq, sout3_C_2_eq]
    · rw [outsAt3_B V c t hz h1]
      dsimp only
      rw [sout3_B_0_eq, sout3_B_1_eq, sout3_B_2_eq]

/-- What the body leaves in the output's staging buffer at the last point: the log-softmax payload of the accumulator
    and the running sum it has just stored. -/
theorem outsAt3_out (c : Dev nD) (t : Fin cfg3.N) (h1 : t.val % 10 = 9) :
    (outsAt3 V c t.val t.isLt).1 = k3_pay4 (outsAt3 V c t.val t.isLt).2.2.2 (outsAt3 V c t.val t.isLt).2.2.1 := by
  have hz : t.val ≠ 0 := by omega
  rw [outsAt3_scratch V c t]
  unfold prev3; rw [dif_neg hz]
  rw [outsAt3_C V c t hz h1]
  dsimp only
  rw [out3_C_3_eq]

/-! ## The online-softmax state after n points -/

/-- The running maximum after n points (n = 0: the reset value). -/
def Mx3 (c : Dev nD) : ℕ → EReal
  | 0 => Ideal.ofBits .f32 0xFF333332#32
  | n + 1 => if h : n < cfg3.N then ((outsAt3 V c n h).2.1 : S1x1.Idx → EReal) (ix2 (0 : Fin 1) (0 : Fin 1)) else 0
/-- The running sum after n points. -/
def L3 (c : Dev nD) : ℕ → EReal
  | 0 => 0
  | n + 1 => if h : n < cfg3.N then ((outsAt3 V c n h).2.2.1 : S1x1.Idx → EReal) (ix2 (0 : Fin 1) (0 : Fin 1)) else 0
/-- The accumulator's column q after n points. -/
def A3 (c : Dev nD) (q : Fin 2) : ℕ → EReal
  | 0 => 0
  | n + 1 => if h : n < cfg3.N then ((outsAt3 V c n h).2.2.2 : S1x2.Idx → EReal) (ix2 (0 : Fin 1) q) else 0

theorem Mx3_prev (c : Dev nD) : ∀ (n : ℕ) (hn : n < cfg3.N), Mx3 V c n = ((prev3 V c ⟨n, hn⟩).1 : S1x1.Idx → EReal) (ix2 (0 : Fin 1) (0 : Fin 1))
  | 0, hn => by unfold prev3; rw [dif_pos rfl]; rfl
  | n + 1, hn => by
    unfold prev3; rw [dif_neg (Nat.succ_ne_zero n)]
    show (if h : n < cfg3.N then ((outsAt3 V c n h).2.1 : S1x1.Idx → EReal) (ix2 (0 : Fin 1) (0 : Fin 1)) else 0) = _
    rw [dif_pos (Nat.lt_of_succ_lt hn)]; rfl
theorem L3_prev (c : Dev nD) : ∀ (n : ℕ) (hn : n < cfg3.N), L3 V c n = ((prev3 V c ⟨n, hn⟩).2.1 : S1x1.Idx → EReal) (ix2 (0 : Fin 1) (0 : Fin 1))
  | 0, hn => by unfold prev3; rw [dif_pos rfl]; exact pool_pay6_apply.symm
  | n + 1, hn => by
    unfold prev3; rw [dif_neg (Nat.succ_ne_zero n)]
    show (if h : n < cfg3.N then ((outsAt3 V c n h).2.2.1 : S1x1.Idx → EReal) (ix2 (0 : Fin 1) (0 : Fin 1)) else 0) = _
    rw [dif_pos (Nat.lt_of_succ_lt hn)]; rfl
theorem A3_prev (c : Dev nD) (q : Fin 2) : ∀ (n : ℕ) (hn : n < cfg3.N), A3 V c q n = ((prev3 V c ⟨n, hn⟩).2.2 : S1x2.Idx → EReal) (ix2 (0 : Fin 1) q)
  | 0, hn => by unfold prev3; rw [dif_pos rfl]; exact (pool_pay7_apply q).symm
  | n + 1, hn => by
    unfold prev3; rw [dif_neg (Nat.succ_ne_zero n)]
    show (if h : n < cfg3.N then ((outsAt3 V c n h).2.2.2 : S1x2.Idx → EReal) (ix2 (0 : Fin 1) q) else 0) = _
    rw [dif_pos (Nat.lt_of_succ_lt hn)]; rfl

/-- ONE STEP of the running maximum: the maximum of the old one and of the tile's logits. -/
theorem Mx3_step (c : Dev nD) (t : Fin cfg3.N) :
    Mx3 V c (t.val + 1) = shift3 (iblk3 V c 0 t) (iblk3 V c 1 t) (iblk3 V c 2 t) (Mx3 V c t.val) := by
  show (if h : t.val < cfg3.N then ((outsAt3 V c t.val h).2.1 : S1x1.Idx → EReal) (ix2 (0 : Fin 1) (0 : Fin 1)) else 0) = _
  rw [dif_pos t.isLt, Mx3_prev V c t.val t.isLt]
  exact (congrArg (fun s : Vec Ideal S1x1 .f32 × Vec Ideal S1x1 .f32 × Vec Ideal S1x2 .f32 => (s.1 : S1x1.Idx → EReal) (ix2 (0 : Fin 1) (0 : Fin 1))) (outsAt3_scratch V c t)).trans
    (stepM3 _ _ _ _ _)

/-- ONE STEP of the running sum. -/
theorem L3_step (c : Dev nD) (t : Fin cfg3.N) :
    L3 V c (t.val + 1) = L3 V c t.val * Ideal.exp (Mx3 V c t.val - Mx3 V c (t.val + 1))
      + ∑ r : Fin 10000, Ideal.exp (logit3 (iblk3 V c 0 t) (iblk3 V c 1 t) (iblk3 V c 2 t) r - Mx3 V c (t.val + 1)) := by
  rw [Mx3_step V c t]
  show (if h : t.val < cfg3.N then ((outsAt3 V c t.val h).2.2.1 : S1x1.Idx → EReal) (ix2 (0 : Fin 1) (0 : Fin 1)) else 0) = _
  rw [dif_pos t.isLt, Mx3_prev V c t.val t.isLt, L3_prev V c t.val t.isLt]
  exact (congrArg (fun s : Vec Ideal S1x1 .f32 × Vec Ideal S1x1 .f32 × Vec Ideal S1x2 .f32 => (s.2.1 : S1x1.Idx → EReal) (ix2 (0 : Fin 1) (0 : Fin 1))) (outsAt3_scratch V c t)).trans
    (stepL3 _ _ _ _ _ _)

/-- ONE STEP of the accumulator's column q. -/
theorem A3_step (c : Dev nD) (q : Fin 2) (t : Fin cfg3.N) :
    A3 V c q (t.val + 1) = A3 V c q t.val * Ideal.exp (Mx3 V c t.val - Mx3 V c (t.val + 1))
      + ∑ r : Fin 10000, Ideal.exp (logit3 (iblk3 V c 0 t) (iblk3 V c 1 t) (iblk3 V c 2 t) r - Mx3 V c (t.val + 1)) * (iblk3 V c 0 t : S10000x2.Idx → EReal) (ix2 r q) := by
  rw [Mx3_step V c t]
  show (if h : t.val < cfg3.N then ((outsAt3 V c t.val h).2.2.2 : S1x2.Idx → EReal) (ix2 (0 : Fin 1) q) else 0) = _
  rw [dif_pos t.isLt, Mx3_prev V c t.val t.isLt, A3_prev V c q t.val t.isLt]
  exact (congrArg (fun s : Vec Ideal S1x1 .f32 × Vec Ideal S1x1 .f32 × Vec Ideal S1x2 .f32 => (s.2.2 : S1x2.Idx → EReal) (ix2 (0 : Fin 1) q)) (outsAt3_scratch V c t)).trans
    (stepA3 _ _ _ _ _ _ q)

/-! ## The steps over the whole arrays -/

section Arrays

variable (gb : (⟨1, ![1]⟩ : Shape).Idx → EReal)

theorem add_congr_left3 {a b c : EReal} (h : a = b) : a + c = b + c := by rw [h]

/-- A tile's logit of row r is the array's logit of node 10000 t + r (the bias block's one entry being the bias). -/
theorem logit3_eq (c : Dev nD) (hgb : (V c main_v88 : S1x1.Idx → EReal) (ix2 (0 : Fin 1) (0 : Fin 1)) = gb (ix1 (0 : Fin 1)))
    (t : Fin cfg3.N) (r : Fin 10000) (n : Fin 100000) (hn : n.val = 10000 * t.val + r.val) :
    logit3 (iblk3 V c 0 t) (iblk3 V c 1 t) (iblk3 V c 2 t) r = SpecPool.logit (V c main_v87) (V c main_arg9) gb n := by
  unfold logit3 SpecPool.logit
  rw [iblk3_1_eq, iblk3_2_eq, hgb]
  refine add_congr_left3 (Finset.sum_congr rfl fun k _ => ?_)
  exact congrArg (fun x : EReal => x * _) (iblk3_0_apply V c t (ix2 r k) (ix2 n k) (by show n.val = t.val * 10000 + r.val; omega) rfl)

/-- A tile's feature entry is the array's. -/
theorem feat3_eq (c : Dev nD) (t : Fin cfg3.N) (r : Fin 10000) (q : Fin 2) (n : Fin 100000) (hn : n.val = 10000 * t.val + r.val) :
    (iblk3 V c 0 t : S10000x2.Idx → EReal) (ix2 r q) = (V c main_v87 : S100000x2.Idx → EReal) (ix2 n q) :=
  iblk3_0_apply V c t (ix2 r q) (ix2 n q) (by show n.val = t.val * 10000 + r.val; omega) rfl

theorem Mx3_zero (c : Dev nD) : Mx3 V c 0 = Ideal.ofBits .f32 0xFF333332#32 := rfl
theorem L3_zero (c : Dev nD) : L3 V c 0 = 0 := rfl
theorem A3_zero (c : Dev nD) (q : Fin 2) : A3 V c q 0 = 0 := rfl

/-- THE RECURSION of the running maximum over the whole array: tile k's logits are nodes 10000 k + r. -/
theorem Mx3_rec (node : (k : ℕ) → k < 10 → Fin 10000 → Fin 100000) (hnode : ∀ k hk r, (node k hk r).val = 10000 * k + r.val) (c : Dev nD) (hgb : (V c main_v88 : S1x1.Idx → EReal) (ix2 (0 : Fin 1) (0 : Fin 1)) = gb (ix1 (0 : Fin 1))) (k : ℕ) (hk : k < 10) :
    Mx3 V c (k + 1) = max (Mx3 V c k) (Finset.univ.fold max (⊥ : EReal) (fun r : Fin 10000 => SpecPool.logit (V c main_v87) (V c main_arg9) gb (node k hk r))) := by
  have hk' : k < cfg3.N := lt_of_lt_of_eq hk (show cfg3.N = 10 from N_3).symm
  rw [Mx3_step V c ⟨k, hk'⟩]
  unfold shift3
  refine congrArg (max _) (congrArg (fun f : Fin 10000 → EReal => Finset.univ.fold max (⊥ : EReal) f) (funext fun r => ?_))
  exact logit3_eq V gb c hgb ⟨k, hk'⟩ r (node k hk r) (hnode k hk r)

/-- THE RECURSION of the running sum over the whole array. -/
theorem L3_rec (node : (k : ℕ) → k < 10 → Fin 10000 → Fin 100000) (hnode : ∀ k hk r, (node k hk r).val = 10000 * k + r.val) (c : Dev nD) (hgb : (V c main_v88 : S1x1.Idx → EReal) (ix2 (0 : Fin 1) (0 : Fin 1)) = gb (ix1 (0 : Fin 1))) (k : ℕ) (hk : k < 10) :
    L3 V c (k + 1) = L3 V c k * Ideal.exp (Mx3 V c k - Mx3 V c (k + 1))
      + ∑ r : Fin 10000, Ideal.exp (SpecPool.logit (V c main_v87) (V c main_arg9) gb (node k hk r) - Mx3 V c (k + 1)) := by
  have hk' : k < cfg3.N := lt_of_lt_of_eq hk (show cfg3.N = 10 from N_3).symm
  rw [L3_step V c ⟨k, hk'⟩]
  refine add_congr_right3 (Finset.sum_congr rfl fun r _ => ?_)
  rw [logit3_eq V gb c hgb ⟨k, hk'⟩ r (node k hk r) (hnode k hk r)]

/-- THE RECURSION of the accumulator's column q over the whole array. -/
theorem A3_rec (node : (k : ℕ) → k < 10 → Fin 10000 → Fin 100000) (hnode : ∀ k hk r, (node k hk r).val = 10000 * k + r.val) (c : Dev nD) (hgb : (V c main_v88 : S1x1.Idx → EReal) (ix2 (0 : Fin 1) (0 : Fin 1)) = gb (ix1 (0 : Fin 1))) (q : Fin 2) (k : ℕ) (hk : k < 10) :
    A3 V c q (k + 1) = A3 V c q k * Ideal.exp (Mx3 V c k - Mx3 V c (k + 1))
      + ∑ r : Fin 10000, Ideal.exp (SpecPool.logit (V c main_v87) (V c main_arg9) gb (node k hk r) - Mx3 V c (k + 1)) * (V c main_v87 : S100000x2.Idx → EReal) (ix2 (node k hk r) q) := by
  have hk' : k < cfg3.N := lt_of_lt_of_eq hk (show cfg3.N = 10 from N_3).symm
  rw [A3_step V c q ⟨k, hk'⟩]
  refine add_congr_right3 (Finset.sum_congr rfl fun r _ => ?_)
  rw [logit3_eq V gb c hgb ⟨k, hk'⟩ r (node k hk r) (hnode k hk r), feat3_eq V c ⟨k, hk'⟩ r q (node k hk r) (hnode k hk r)]

end Arrays

/-! ## The output block and the output array -/

/-- The pooled row after the ten points: the accumulator over the running sum. -/
def P3 (c : Dev nD) (q : Fin 2) : EReal := Ideal.div (A3 V c q 10) (L3 V c 10)

/-- The row the last point stores, from the pooled row: its log-softmax with the shift folded into the logarithm's side. -/
def out3Row (c : Dev nD) (q : Fin 2) : EReal :=
  P3 V c q - (Finset.univ.fold max (⊥ : EReal) (P3 V c) + Ideal.log (∑ q' : Fin 2, Ideal.exp (P3 V c q' - Finset.univ.fold max (⊥ : EReal) (P3 V c))))

theorem L3_succ (c : Dev nD) (t : Fin cfg3.N) : L3 V c (t.val + 1) = ((outsAt3 V c t.val t.isLt).2.2.1 : S1x1.Idx → EReal) (ix2 (0 : Fin 1) (0 : Fin 1)) := by
  show (if h : t.val < cfg3.N then ((outsAt3 V c t.val h).2.2.1 : S1x1.Idx → EReal) (ix2 (0 : Fin 1) (0 : Fin 1)) else 0) = _
  rw [dif_pos t.isLt]
theorem A3_succ (c : Dev nD) (q : Fin 2) (t : Fin cfg3.N) : A3 V c q (t.val + 1) = ((outsAt3 V c t.val t.isLt).2.2.2 : S1x2.Idx → EReal) (ix2 (0 : Fin 1) q) := by
  show (if h : t.val < cfg3.N then ((outsAt3 V c t.val h).2.2.2 : S1x2.Idx → EReal) (ix2 (0 : Fin 1) q) else 0) = _
  rw [dif_pos t.isLt]

/-- WHAT THE LAST POINT STORES in the output's staging buffer. -/
theorem out3_apply (c : Dev nD) (t : Fin cfg3.N) (h9 : t.val = 9) (q : Fin 2) :
    ((outsAt3 V c t.val t.isLt).1 : S1x2.Idx → EReal) (ix2 (0 : Fin 1) q) = out3Row V c q := by
  have hp : pooled3 (outsAt3 V c t.val t.isLt).2.2.2 (outsAt3 V c t.val t.isLt).2.2.1 = P3 V c := funext fun q' => by
    unfold pooled3 P3
    rw [show (10 : ℕ) = t.val + 1 from by omega, A3_succ, L3_succ]
  rw [outsAt3_out V c t (by rw [h9]), pool_pay4_apply, hp]
  unfold out3Row
  rfl

/-- WHAT THE ONE WRITE-BACK WRITES, for any array Y whose one row is the stored row. -/
theorem flushed3_eq (c : Dev nD) (Y : S1x2.Idx → EReal) (hY : ∀ q : Fin 2, out3Row V c q = Y (ix2 (0 : Fin 1) q))
    (t : Fin cfg3.N) (hf : (cfg3.win 3).flush t = true) :
    (dat3 (F := Ideal) V c).flushed 3 t = ((cfg3.win 3).blk t).view.read (Elt Ideal) Y := by
  have hN : cfg3.N = 10 := N_3
  have h9 : t.val = 9 := by have := (flush3_3 t).mp hf; have := t.isLt; omega
  obtain ⟨-, -, -, -, -, -, e30, e31⟩ := idx_facts3 t
  show (cfg3.win 3).cut (grid3.coords t) ((dat3 V c).after 3 t) = _
  rw [after3_3]
  funext j
  obtain ⟨u, q, rfl⟩ : ∃ (u : Fin 1) (q : Fin 2), j = ix2 u q := ⟨j 0, j 1, eq_ix2 j⟩
  obtain rfl : u = 0 := Subsingleton.elim _ _
  show ((outsAt3 V c t.val t.isLt).1 : S1x2.Idx → EReal) (ix2 (0 : Fin 1) q) = Y (((cfg3.win 3).blk t).view.emb (ix2 (0 : Fin 1) q))
  rw [out3_apply V c t h9 q, hY q]
  refine congrArg Y (funext fun a => Fin.ext ?_)
  match a with
  | ⟨0, _⟩ => show (0 : Fin 1).val = win3_3.index t (0 : Fin 2) * 1 + 1 * (0 : Fin 1).val; rw [e30]; rfl
  | ⟨1, _⟩ => show q.val = win3_3.index t (1 : Fin 2) * 2 + 1 * q.val; rw [e31]; omega

/-- Every index of the output array is in the block of the one point that writes back. -/
theorem cover3 (i : S1x2.Idx) : ∃ t : Fin cfg3.N, (cfg3.win 3).flush t = true ∧ i ∈ ((cfg3.win 3).blk t).view.set := by
  have hi0 : (i 0).val < 1 := (i 0).isLt
  have hi1 : (i 1).val < 2 := (i 1).isLt
  obtain ⟨-, -, -, -, -, -, e30, e31⟩ := idx_facts3 t3_9
  refine ⟨t3_9, (flush3_3 t3_9).mpr rfl, ?_⟩
  show i ∈ ((View.whole main_v89).slice (win3_3.rect t3_9)).set
  rw [View.set_slice_whole, Rect.mem_set_unit]
  intro a
  match a with
  | ⟨0, _⟩ => show win3_3.index t3_9 (0 : Fin 2) * 1 ≤ (i 0).val ∧ (i 0).val < win3_3.index t3_9 (0 : Fin 2) * 1 + 1; rw [e30]; omega
  | ⟨1, _⟩ => show win3_3.index t3_9 (1 : Fin 2) * 2 ≤ (i 1).val ∧ (i 1).val < win3_3.index t3_9 (1 : Fin 2) * 2 + 2; rw [e31]; omega

/-- THE OUTPUT ARRAY after the region is any array whose one row is the row the last point stores. -/
theorem region3_value_of (c : Dev nD) (Y : S1x2.Idx → EReal) (hY : ∀ q : Fin 2, out3Row V c q = Y (ix2 (0 : Fin 1) q)) :
    (dat3 (F := Ideal) V c).arrAt 3 cfg3.N = Y :=
  (dat3 V c).arrAt_eq_of_cover 3 Y (fun t hf => flushed3_eq V c Y hY t hf) cover3

end Cert.KernelIdeal.Hand

end
-- ==== Proof.PoolReal.lean ====
/- The pooling specification on real data. When the third layer's output, the gate weights and the gate bias are
   (coercions of) real numbers, every intermediate value of the specification is a real number too — the maxima are
   taken over nonempty ranges and the two sums of exponentials are positive — and the result is the coercion of the
   textbook expression over the reals: the log-softmax of the softmax-pooled row. -/
import proofs.«171083_j730144440440_2_alg».proof.Proof.SpecPool
import proofs.«171083_j730144440440_2_alg».proof.Proof.LibOnlineSoftmax

noncomputable section

open scoped BigOperators

namespace SpecPool

open Idealize.ShloMosaic Idealize.ShloMosaic.ValueIdx OnlineSoftmax

/-! ## The stage over the reals -/

/-- The range of nodes and the range of classes are not empty. -/
theorem nodes_nonempty : (Finset.univ : Finset (Fin 100000)).Nonempty := ⟨0, Finset.mem_univ _⟩
theorem classes_nonempty : (Finset.univ : Finset (Fin 2)).Nonempty := ⟨0, Finset.mem_univ _⟩

section Reals

variable (x : Fin 100000 → Fin 2 → ℝ) (w : Fin 2 → ℝ) (b : ℝ)

/-- Node n's gate logit. -/
def logitR (n : Fin 100000) : ℝ := (∑ k : Fin 2, x n k * w k) + b

/-- The largest gate logit. -/
def topR : ℝ := (Finset.univ : Finset (Fin 100000)).sup' nodes_nonempty (logitR x w b)

/-- Entry c of the pooled row: the softmax-weighted sum of feature c over the nodes. -/
def pooledR (c : Fin 2) : ℝ :=
  ∑ n : Fin 100000, (Real.exp (logitR x w b n - topR x w b) / ∑ m : Fin 100000, Real.exp (logitR x w b m - topR x w b)) * x n c

/-- The larger entry of the pooled row. -/
def rowTopR : ℝ := (Finset.univ : Finset (Fin 2)).sup' classes_nonempty (pooledR x w b)

/-- Entry c of the log-softmax of the pooled row. -/
def logSoftmaxR (c : Fin 2) : ℝ :=
  (pooledR x w b c - rowTopR x w b) - Real.log (∑ c' : Fin 2, Real.exp (pooledR x w b c' - rowTopR x w b))

end Reals

/-! ## The specification on coerced reals -/

section Coerced

variable (h : (⟨2, ![100000, 2]⟩ : Shape).Idx → EReal) (gw : (⟨2, ![2, 1]⟩ : Shape).Idx → EReal)
  (gb : (⟨1, ![1]⟩ : Shape).Idx → EReal)
variable (x : Fin 100000 → Fin 2 → ℝ) (w : Fin 2 → ℝ) (b : ℝ)
variable (hh : ∀ n k, h (ix2 n k) = (x n k : EReal)) (hw : ∀ k, gw (ix2 k (0 : Fin 1)) = (w k : EReal))
  (hb : gb (ix1 (0 : Fin 1)) = (b : EReal))

include hh hw hb

/-- Each gate logit is the coercion of the real one. -/
theorem logit_coe (n : Fin 100000) : logit h gw gb n = ((logitR x w b n : ℝ) : EReal) := by
  unfold logit logitR
  rw [EReal.coe_add, ← coe_finset_sum_mul Finset.univ (x n) w, hb]
  exact congrArg (· + (b : EReal)) (Finset.sum_congr rfl fun k _ => by rw [hh, hw])

/-- The largest logit is the coercion of the real one: the range of nodes is nonempty. -/
theorem top_coe : top h gw gb = ((topR x w b : ℝ) : EReal) := by
  unfold top topR
  rw [← fold_max_bot_coe]
  exact congrArg (fun f : Fin 100000 → EReal => (Finset.univ : Finset (Fin 100000)).fold max (⊥ : EReal) f)
    (funext fun n => logit_coe h gw gb x w b hh hw hb n)

/-- Each pooled entry is the coercion of the real one: the sum of the exponentials is a positive real. -/
theorem pooled_coe (c : Fin 2) : pooled h gw gb c = ((pooledR x w b c : ℝ) : EReal) := by
  have hl : ∀ n, logit h gw gb n = ((logitR x w b n : ℝ) : EReal) := logit_coe h gw gb x w b hh hw hb
  have ht : top h gw gb = ((topR x w b : ℝ) : EReal) := top_coe h gw gb x w b hh hw hb
  unfold pooled gate total weight pooledR
  simp only [hl, ht, hh]
  exact softmax_pool_eq_coe (logitR x w b) (fun n => x n c) (topR x w b)

/-- The larger pooled entry is the coercion of the real one. -/
theorem rowTop_coe : rowTop h gw gb = ((rowTopR x w b : ℝ) : EReal) := by
  unfold rowTop rowTopR
  rw [← fold_max_bot_coe]
  exact congrArg (fun f : Fin 2 → EReal => (Finset.univ : Finset (Fin 2)).fold max (⊥ : EReal) f)
    (funext fun c => pooled_coe h gw gb x w b hh hw hb c)

/-- Each entry of the result is the coercion of the real log-softmax of the real pooled row. -/
theorem logSoftmax_coe (c : Fin 2) : logSoftmax h gw gb c = ((logSoftmaxR x w b c : ℝ) : EReal) := by
  have hp : ∀ c', pooled h gw gb c' = ((pooledR x w b c' : ℝ) : EReal) := pooled_coe h gw gb x w b hh hw hb
  have hr : rowTop h gw gb = ((rowTopR x w b : ℝ) : EReal) := rowTop_coe h gw gb x w b hh hw hb
  unfold logSoftmax shifted logSoftmaxR
  simp only [hp, hr]
  exact log_softmax_shifted_eq_coe (pooledR x w b) (rowTopR x w b) c

/-- THE SPECIFICATION ON REAL DATA: at (u, c) it is the coercion of the real log-softmax of the softmax-pooled row. -/
theorem poolSpec_coe (u : Fin 1) (c : Fin 2) : poolSpec h gw gb (ix2 u c) = ((logSoftmaxR x w b c : ℝ) : EReal) :=
  (poolSpec_ix2 h gw gb u c).trans (logSoftmax_coe h gw gb x w b hh hw hb c)

end Coerced

/-- The same from finiteness alone: if every entry of the three arrays is a real number, the specification at (u, c) is
    the coercion of the real expression over the entries' real values. -/
theorem poolSpec_of_finite (h : (⟨2, ![100000, 2]⟩ : Shape).Idx → EReal) (gw : (⟨2, ![2, 1]⟩ : Shape).Idx → EReal)
    (gb : (⟨1, ![1]⟩ : Shape).Idx → EReal) (hh : ∀ i, ∃ r : ℝ, h i = (r : EReal)) (hw : ∀ i, ∃ r : ℝ, gw i = (r : EReal))
    (hb : ∀ i, ∃ r : ℝ, gb i = (r : EReal)) (u : Fin 1) (c : Fin 2) :
    poolSpec h gw gb (ix2 u c)
      = ((logSoftmaxR (fun n k => (h (ix2 n k)).toReal) (fun k => (gw (ix2 k (0 : Fin 1))).toReal) (gb (ix1 (0 : Fin 1))).toReal c : ℝ) : EReal) := by
  refine poolSpec_coe h gw gb _ _ _ (fun n k => ?_) (fun k => ?_) ?_ u c
  · obtain ⟨r, hr⟩ := hh (ix2 n k); rw [hr, EReal.toReal_coe]
  · obtain ⟨r, hr⟩ := hw (ix2 k (0 : Fin 1)); rw [hr, EReal.toReal_coe]
  · obtain ⟨r, hr⟩ := hb (ix1 (0 : Fin 1)); rw [hr, EReal.toReal_coe]

end SpecPool

end
-- ==== Proof.LibRealValued.lean ====
/-
  EXTENDED REALS THAT ARE REAL NUMBERS.

  An extended real is "real" when it is the coercion of a real number. Sums, products, negations, finite sums, the
  values of finite float patterns, and a selection between two reals are real; so every quantity a network of products,
  sums and piecewise-linear activations computes from real inputs is real. The laws that fail at the infinities
  (distributivity, cancelling) may then be used after rewriting to coercions.
-/
import Idealize.ShloMosaic.PureOps.Ideal
import Idealize.ShloMosaic.PureOps.Ideal.Laws

noncomputable section

open scoped BigOperators

namespace RealValued

open Idealize.ShloMosaic

/-- The coercion of some real number. -/
def IsReal (x : EReal) : Prop := ∃ r : ℝ, x = (r : EReal)

theorem isReal_coe (r : ℝ) : IsReal (r : EReal) := ⟨r, rfl⟩
theorem isReal_zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The negation of a real is real. -/
theorem IsReal.neg {x : EReal} (hx : IsReal x) : IsReal (-x) := by
  obtain ⟨a, rfl⟩ := hx; exact ⟨-a, (EReal.coe_neg a).symm⟩
/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of terms each zero or real is real. -/
theorem isReal_sum_ite {ι : Type*} (s : Finset ι) (p : ι → Prop) [DecidablePred p] (f : ι → EReal) (h : ∀ i ∈ s, IsReal (f i)) :
    IsReal (∑ i ∈ s, if p i then f i else 0) :=
  isReal_sum s _ fun i hi => by split_ifs; exacts [h i hi, isReal_zero]

/-- A selection between two reals is real. -/
theorem isReal_select (c : BitVec 1) {x y : EReal} (hx : IsReal x) (hy : IsReal y) : IsReal (Scalar.select c x y) := by
  unfold Scalar.select; split_ifs; exacts [hx, hy]

/-- A binary32 pattern whose exponent field is not all ones denotes a real. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  split_ifs <;> first | exact ⟨_, rfl⟩ | exact absurd (by assumption) h

end RealValued

end
-- ==== Proof.PoolOnline.lean ====
/- The one-pass (running) attention pooling equals the pooling specification. The nodes are visited in ten tiles of
   10000 rows, node 10000 k + r being row r of tile k. A running shift, a running denominator and a running numerator
   per class start at a real number, zero and zero; at each tile the shift becomes the maximum of itself and the
   tile's largest logit, and denominator and numerators are rescaled by the exponential of the old shift less the new
   and take on the tile's sums of exponentials. For real data the final quotient numerator / denominator is the
   two-pass softmax pooling of the specification, whatever the shifts were, because
   exp (z - m) * exp (m - m') = exp (z - m') and a quotient of two sums of exponentials does not depend on the shift;
   and the last step — subtract the larger entry plus the logarithm of the sum of the exponentials of the entries
   less the larger — is the log-softmax of the specification, the two ways of bracketing it agreeing on real numbers. -/
import proofs.«171083_j730144440440_2_alg».proof.Proof.SpecPool
import proofs.«171083_j730144440440_2_alg».proof.Proof.PoolReal
import proofs.«171083_j730144440440_2_alg».proof.Proof.LibOnlineSoftmax
import proofs.«171083_j730144440440_2_alg».proof.Proof.LibRealValued

noncomputable section

open scoped BigOperators

namespace SpecPool

open Idealize.ShloMosaic Idealize.ShloMosaic.ValueIdx OnlineSoftmax

/-! ## Tiles -/

/-- Row r of tile k as a node: tile k holds the nodes 10000 k … 10000 k + 9999. -/
def node (k : Fin 10) (r : Fin 10000) : Fin 100000 :=
  ⟨10000 * k.val + r.val, by have := k.isLt; have := r.isLt; omega⟩

theorem node_val (k : Fin 10) (r : Fin 10000) : (node k r).val = 10000 * k.val + r.val := rfl

/-- Every node is one row of one tile. -/
def nodeEquiv : Fin 10 × Fin 10000 ≃ Fin 100000 where
  toFun i := node i.1 i.2
  invFun n := (⟨n.val / 10000, by have := n.isLt; omega⟩, ⟨n.val % 10000, by have := n.isLt; omega⟩)
  left_inv i := by
    obtain ⟨k, r⟩ := i
    have := k.isLt; have := r.isLt
    exact Prod.ext (Fin.ext (by show (10000 * k.val + r.val) / 10000 = k.val; omega))
      (Fin.ext (by show (10000 * k.val + r.val) % 10000 = r.val; omega))
  right_inv n := Fin.ext (by show 10000 * (n.val / 10000) + n.val % 10000 = n.val; omega)

theorem nodeEquiv_apply (i : Fin 10 × Fin 10000) : nodeEquiv i = node i.1 i.2 := rfl

/-- A tile's range of rows is not empty. -/
theorem rows_nonempty : (Finset.univ : Finset (Fin 10000)).Nonempty := ⟨0, Finset.mem_univ _⟩

/-! ## The last step -/

/-- The last step on a row p of two entries: entry c less (the larger entry plus the logarithm of the sum of the
    exponentials of the entries less the larger). -/
def finish (p : Fin 2 → EReal) (c : Fin 2) : EReal :=
  p c - ((Finset.univ : Finset (Fin 2)).fold max ⊥ p
    + Ideal.log (∑ c' : Fin 2, Ideal.exp (p c' - (Finset.univ : Finset (Fin 2)).fold max ⊥ p)))

section Online

variable (h : (⟨2, ![100000, 2]⟩ : Shape).Idx → EReal) (gw : (⟨2, ![2, 1]⟩ : Shape).Idx → EReal)
  (gb : (⟨1, ![1]⟩ : Shape).Idx → EReal)
variable (hh : ∀ i, RealValued.IsReal (h i)) (hw : ∀ i, RealValued.IsReal (gw i)) (hb : ∀ i, RealValued.IsReal (gb i))

/-- The real values of the three arrays' entries. -/
def xR : Fin 100000 → Fin 2 → ℝ := fun n k => (h (ix2 n k)).toReal
def wR : Fin 2 → ℝ := fun k => (gw (ix2 k (0 : Fin 1))).toReal
def bR : ℝ := (gb (ix1 (0 : Fin 1))).toReal

include hh in
theorem h_eq (n : Fin 100000) (k : Fin 2) : h (ix2 n k) = ((xR h n k : ℝ) : EReal) := by
  obtain ⟨r, hr⟩ := hh (ix2 n k); unfold xR; rw [hr, EReal.toReal_coe]
include hw in
theorem gw_eq (k : Fin 2) : gw (ix2 k (0 : Fin 1)) = ((wR gw k : ℝ) : EReal) := by
  obtain ⟨r, hr⟩ := hw (ix2 k (0 : Fin 1)); unfold wR; rw [hr, EReal.toReal_coe]
include hb in
theorem gb_eq : gb (ix1 (0 : Fin 1)) = ((bR gb : ℝ) : EReal) := by
  obtain ⟨r, hr⟩ := hb (ix1 (0 : Fin 1)); unfold bR; rw [hr, EReal.toReal_coe]

include hh hw hb

/-- On real data the last step applied to the specification's pooled row is the specification's log-softmax. -/
theorem finish_pooled (c : Fin 2) : finish (pooled h gw gb) c = logSoftmax h gw gb c := by
  have hp : pooled h gw gb = fun c' => ((pooledR (xR h) (wR gw) (bR gb) c' : ℝ) : EReal) :=
    funext (pooled_coe h gw gb _ _ _ (h_eq h hh) (gw_eq gw hw) (gb_eq gb hb))
  unfold finish logSoftmax shifted rowTop
  rw [hp]
  simp only []
  rw [fold_max_bot_coe _ classes_nonempty]
  exact log_softmax_rearrange_ereal (pooledR (xR h) (wR gw) (bR gb)) _ c

variable (Mx Lx : ℕ → EReal) (Ax : ℕ → Fin 2 → EReal)
variable (hM0 : RealValued.IsReal (Mx 0)) (hL0 : Lx 0 = 0) (hA0 : ∀ c, Ax 0 c = 0)
variable (hM : ∀ k (hk : k < 10), Mx (k + 1)
    = max (Mx k) ((Finset.univ : Finset (Fin 10000)).fold max ⊥ (fun r => logit h gw gb (node ⟨k, hk⟩ r))))
variable (hL : ∀ k (hk : k < 10), Lx (k + 1)
    = Lx k * Ideal.exp (Mx k - Mx (k + 1)) + ∑ r : Fin 10000, Ideal.exp (logit h gw gb (node ⟨k, hk⟩ r) - Mx (k + 1)))
variable (hA : ∀ k (hk : k < 10) (c : Fin 2), Ax (k + 1) c
    = Ax k c * Ideal.exp (Mx k - Mx (k + 1))
      + ∑ r : Fin 10000, Ideal.exp (logit h gw gb (node ⟨k, hk⟩ r) - Mx (k + 1)) * h (ix2 (node ⟨k, hk⟩ r) c))

include hM0 hL0 hA0 hM hL hA

/-- THE RUNNING POOL IS THE SPECIFICATION'S POOLED ROW: after the ten tiles, numerator over denominator is the
    gate-weighted sum of the specification, for real data and any real starting shift. -/
theorem online_pooled_eq (c : Fin 2) : Ideal.div (Ax 10 c) (Lx 10) = pooled h gw gb c := by
  have hl : ∀ n, logit h gw gb n = ((logitR (xR h) (wR gw) (bR gb) n : ℝ) : EReal) :=
    logit_coe h gw gb _ _ _ (h_eq h hh) (gw_eq gw hw) (gb_eq gb hb)
  have ht : top h gw gb = ((topR (xR h) (wR gw) (bR gb) : ℝ) : EReal) :=
    top_coe h gw gb _ _ _ (h_eq h hh) (gw_eq gw hw) (gb_eq gb hb)
  haveI : Nonempty (Fin 10000) := ⟨0⟩
  -- the running shifts are real numbers
  obtain ⟨m0, hm0⟩ := hM0
  have hMx : ∀ k, k ≤ 10 → ∃ m : ℝ, Mx k = (m : EReal) :=
    exists_real_shifts 10 Mx m0 hm0 fun k hk =>
      ⟨(Finset.univ : Finset (Fin 10000)).sup' rows_nonempty (fun r => logitR (xR h) (wR gw) (bR gb) (node ⟨k, hk⟩ r)), by
        rw [hM k hk, ← fold_max_bot_coe]
        exact congrArg (fun f : Fin 10000 → EReal => max (Mx k) ((Finset.univ : Finset (Fin 10000)).fold max (⊥ : EReal) f))
          (funext fun r => hl _)⟩
  -- the library's statement over tiles and rows
  have key := online_eq_softmax_ereal_of_real_shifts (R := Fin 10000) 10 Mx Lx (fun k => Ax k c)
    (fun k r => logitR (xR h) (wR gw) (bR gb) (node k r)) (fun k r => xR h (node k r) c)
    (topR (xR h) (wR gw) (bR gb)) hMx hL0 (hA0 c)
    (fun k hk => by
      rw [hL k hk]
      exact congrArg (fun f : Fin 10000 → EReal => Lx k * Ideal.exp (Mx k - Mx (k + 1)) + ∑ r, Ideal.exp (f r - Mx (k + 1)))
        (funext fun r => hl _))
    (fun k hk => by
      rw [hA k hk c]
      refine congrArg (fun s : EReal => Ax k c * Ideal.exp (Mx k - Mx (k + 1)) + s) (Finset.sum_congr rfl fun r _ => ?_)
      rw [hl, h_eq h hh])
  rw [key]
  -- the specification's sum over nodes, as a sum over tiles and rows
  unfold pooled gate total weight
  rw [ht]
  rw [← Equiv.sum_comp nodeEquiv (fun n => Ideal.div (Ideal.exp (logit h gw gb n - ((topR (xR h) (wR gw) (bR gb) : ℝ) : EReal)))
      (∑ n' : Fin 100000, Ideal.exp (logit h gw gb n' - ((topR (xR h) (wR gw) (bR gb) : ℝ) : EReal))) * h (ix2 n c)),
    ← Equiv.sum_comp nodeEquiv (fun n' => Ideal.exp (logit h gw gb n' - ((topR (xR h) (wR gw) (bR gb) : ℝ) : EReal)))]
  refine Finset.sum_congr rfl fun i _ => ?_
  rw [nodeEquiv_apply, hl, h_eq h hh]
  exact congrArg (fun s : EReal => Ideal.div (Ideal.exp (((logitR (xR h) (wR gw) (bR gb) (node i.1 i.2) : ℝ) : EReal)
      - ((topR (xR h) (wR gw) (bR gb) : ℝ) : EReal))) s * ((xR h (node i.1 i.2) c : ℝ) : EReal))
    (Finset.sum_congr rfl fun j _ => by rw [nodeEquiv_apply, hl]).symm

/-- THE RUNNING POOL'S RESULT IS THE SPECIFICATION: the last step applied to numerator over denominator is the
    specification's log-softmax entry. -/
theorem online_pool_eq (c : Fin 2) : finish (fun c' => Ideal.div (Ax 10 c') (Lx 10)) c = logSoftmax h gw gb c := by
  have hp : (fun c' => Ideal.div (Ax 10 c') (Lx 10)) = pooled h gw gb :=
    funext fun c' => online_pooled_eq h gw gb hh hw hb Mx Lx Ax hM0 hL0 hA0 hM hL hA c'
  rw [hp]
  exact finish_pooled h gw gb hh hw hb c

end Online

end SpecPool

end
-- ==== Proof.KIRegion3Final.lean ====
/- Region 3 (the attention-pool kernel): the output array after the region is the pooling stage's result of the three
   arrays as the region finds them, for arrays of real numbers — the kernel's ten online-softmax steps and its last
   step, read off the payloads, are the hypotheses of the one-pass-against-two-pass theorem. -/
import proofs.«171083_j730144440440_2_alg».proof.Proof.KIRegion3Value
import proofs.«171083_j730144440440_2_alg».proof.Proof.PoolOnline

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The row the last point stores is the last step of the pooling applied to the accumulator over the running sum. -/
theorem out3Row_eq_finish (c : Dev nD) (q : Fin 2) :
    out3Row V c q = SpecPool.finish (fun c' => Ideal.div (A3 V c c' 10) (L3 V c 10)) q := rfl

/-- THE OUTPUT ARRAY after the region is the pooling stage's result of the feature array, the gate weights and the gate
    bias as the region finds them (the bias block's one entry being the bias array's), for real-valued arrays. -/
theorem region3_value (c : Dev nD) (gb : (⟨1, ![1]⟩ : Shape).Idx → EReal)
    (hgb : (V c main_v88 : S1x1.Idx → EReal) (ix2 (0 : Fin 1) (0 : Fin 1)) = gb (ix1 (0 : Fin 1)))
    (hh : ∀ i, RealValued.IsReal ((V c main_v87 : S100000x2.Idx → EReal) i))
    (hw : ∀ i, RealValued.IsReal ((V c main_arg9 : S2x1.Idx → EReal) i))
    (hb : ∀ i, RealValued.IsReal (gb i)) :
    (dat3 (F := Ideal) V c).arrAt 3 cfg3.N = SpecPool.poolSpec (V c main_v87) (V c main_arg9) gb :=
  region3_value_of V c (SpecPool.poolSpec (V c main_v87) (V c main_arg9) gb) fun q => by
    rw [SpecPool.poolSpec_ix2, out3Row_eq_finish]
    have hnode : ∀ (k : ℕ) (hk : k < 10) (r : Fin 10000), (SpecPool.node ⟨k, hk⟩ r).val = 10000 * k + r.val := fun k hk r => rfl
    exact SpecPool.online_pool_eq (V c main_v87) (V c main_arg9) gb hh hw hb (Mx3 V c) (L3 V c) (fun k q' => A3 V c q' k)
      (show RealValued.IsReal (Ideal.ofBits .f32 0xFF333332#32) from neg3_real) rfl (fun _ => rfl)
      (fun k hk => Mx3_rec V gb (fun k hk r => SpecPool.node ⟨k, hk⟩ r) hnode c hgb k hk)
      (fun k hk => L3_rec V gb (fun k hk r => SpecPool.node ⟨k, hk⟩ r) hnode c hgb k hk)
      (fun k hk q' => A3_rec V gb (fun k hk r => SpecPool.node ⟨k, hk⟩ r) hnode c hgb q' k hk) q

end Cert.KernelIdeal.Hand

end
-- ==== Proof.BridgeCFinal.lean ====
/- The last stage across the two programs, closed: the last region's value is the pooling specification of what the
   region finds, so the reference's result is what the kernel program's last region leaves in its output array. -/
import proofs.«171083_j730144440440_2_alg».proof.Proof.BridgeC
import proofs.«171083_j730144440440_2_alg».proof.Proof.KIRegion3Final

set_option maxRecDepth 16384

noncomputable section

namespace Cert.Proof.BridgeC

open Idealize.ShloMosaic Idealize.ShloMosaic.TcCoe Idealize.SL.Sem Idealize.ShloMosaic.StableHlo Idealize.ShloMosaic.ValueIdx
open Cert.KernelIdeal.Hand Cert.Proof.BridgeA

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- THE POOL STAGE AGREES: from launch memories that agree on the arguments, all finite, and third layers' outputs that
    agree and are real, the reference's result is what the kernel program's last region leaves in its output array. -/
theorem pool_agree (hagree : Agree m m') (c : Dev Cert.KernelIdeal.nD)
    (s97 : after Cert.ReferenceIdeal.RefRun.ops (launchContents m' c) (Proc.devRef .tc Cert.ReferenceIdeal.main_v97) = W8 m c (Proc.devRef .tc Cert.KernelIdeal.main_v87))
    (hh3 : ∀ i, ∃ r : ℝ, (W8 m c (Proc.devRef .tc Cert.KernelIdeal.main_v87) : Cert.KernelIdeal.S100000x2.Idx → EReal) i = (r : EReal))
    (hpre : Cert.Pre_KernelIdeal (hPre_finite_inputs := Cert.Pre_finite_inputs.Gen.facts) m) :
    after Cert.ReferenceIdeal.RefRun.ops (launchContents m' c) (Proc.devRef .tc Cert.ReferenceIdeal.main_v117) = (dat3 (V9 m) c).arrAt 3 Cert.KernelIdeal.cfg3.N :=
  pool_agree_of m m' hagree c s97 hh3 hpre fun gb hgb hv hw hb => region3_value (V9 m) c gb hgb hv hw hb

end Cert.Proof.BridgeC

end
-- ==== Proof.LibVecOps.lean ====
/-
  A VECTOR, GATHERED AND SCATTER-ADDED ENTRY BY ENTRY, READ AT AN INDEX.

  A vector `x : [N]` and a column of entry numbers `idx : [E, 1]`.

  * The gather of single entries (no offset axis, collapsed axis 0, start index map [0], slice sizes [1], index
    vector on axis 1) has the element `e` equal to `x` at entry `idx[e, 0]` — read as a signed integer and clamped
    into `[0, N − 1]`.
  * The accumulating scatter of single entries (no update window axis, inserted window axis 0,
    scatter-dims-to-operand-dims [0], index vector on axis 1) has the element `n` equal to `x n` plus the sum, over
    the updates `e` whose entry number `idx[e, 0]`, read signed, is exactly `n`, of `upd e`. An entry number outside
    `[0, N)` equals no `n`, so such an update is dropped.

  Everything is stated for arbitrary extents `N`, `E`; the dimension numbers' side conditions are taken as a
  hypothesis, to be decided at literal extents by whoever applies the lemmas.
-/
import Idealize.ShloMosaic.PureOps.Ideal
import Idealize.ShloMosaic.Lib.ValueIdx

noncomputable section

open scoped BigOperators

namespace VecOps

open Idealize.ShloMosaic Idealize.ShloMosaic.ValueIdx

/-- A rank-1 shape has the one axis 0. -/
theorem fin1_eq (a : Fin 1) : a = 0 := Subsingleton.elim a 0

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of single entries -/

/-- The dimension numbers of a gather of single entries: operand `[N]`, start indices `[E, 1]`, result `[E]`;
    the result has no offset axis, the operand's axis 0 is collapsed and is the axis the start index names, a slice
    is one entry (`[1]`), and the index vector lies along the start indices' axis 1. -/
abbrev gatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]` — read as a signed integer and clamped into
    `[0, N − 1]`. On the operand's one axis the coordinate is the clamped start: there is no batching, and the axis
    is collapsed, so there is no offset. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims N E wf) x idx (ix1 e)
      = x (ix1 (⟨min (idx (ix2 e 0)).toInt.toNat (N - 1), by omega⟩ : Fin N)) := by
  unfold Host.gather
  congr 1
  funext a
  refine Fin.ext ?_
  show (gatherDims N E wf).start (ix1 e) idx a + (gatherDims N E wf).batchCoord (ix1 e) a
    + (gatherDims N E wf).offCoord (ix1 e) a = _
  rw [GatherDims.batchCoord_eq_zero _ _ _ List.not_mem_nil]
  obtain rfl := fin1_eq a
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherDims N E wf).startIndexMap from List.mem_singleton.mpr rfl)]
  have hsi : (gatherDims N E wf).siIdx (ix1 e) ⟨List.idxOf (0 : Fin 1) (gatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulating scatter of single entries -/

/-- The dimension numbers of a scatter of single entries: operand `[N]`, scatter indices `[E, 1]`, updates
    `[E]`; the updates have no window axis, the operand's axis 0 is the inserted one and the axis a scatter index
    names, and the index vector lies along the scatter indices' axis 1. -/
abbrev scatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterVec
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the entry number `idx[e, 0]`, read signed. -/
theorem scatter_start0 :
    (scatterDims N E wf).start (ix1 e) idx (0 : Fin 1) = (idx (ix2 e 0)).toInt := by
  unfold ScatterDims.start
  rw [dif_pos (show (0 : Fin 1) ∈ (scatterDims N E wf).scatterDimsToOperandDims from List.mem_singleton.mpr rfl)]
  have hsi : (scatterDims N E wf).siIdx (ix1 e)
      ⟨List.idxOf (0 : Fin 1) (scatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's one axis, the inserted one, the window coordinate of update `e` is 0. -/
theorem scatter_window0 : (scatterDims N E wf).window (ix1 e) (0 : Fin 1) = 0 := by
  unfold ScatterDims.window
  exact dif_neg (show (0 : Fin 1) ∉ (List.finRange 1).filter (· ∉ [(0 : Fin 1)]) by decide)

/-- WHERE AN UPDATE LANDS: update `e` lands on operand element `n` exactly when its entry number `idx[e, 0]`, read
    signed, is `n`. (The landing index is start plus window coordinate, `idx[e, 0] + 0`, kept only when it lies
    inside the operand.) -/
theorem resultIdx?_vec_iff (n : Fin N) :
    (scatterDims N E wf).resultIdx? (ix1 e) idx = some (ix1 n) ↔ (idx (ix2 e 0)).toInt = (n.val : Int) := by
  unfold ScatterDims.resultIdx?
  constructor
  · intro h
    split at h
    · rename_i hb
      have hf := Option.some.inj h
      have h0 := congrArg Fin.val (congrFun hf (0 : Fin 1))
      have hb0 := hb (0 : Fin 1)
      simp only [scatter_start0, scatter_window0] at h0 hb0
      have e0 : ((ix1 n (0 : Fin 1)) : Nat) = n.val := rfl
      rw [e0] at h0
      omega
    · exact absurd h (by simp)
  · intro h0
    have hb : ∀ a, 0 ≤ (scatterDims N E wf).start (ix1 e) idx a + (scatterDims N E wf).window (ix1 e) a
        ∧ (scatterDims N E wf).start (ix1 e) idx a + (scatterDims N E wf).window (ix1 e) a
          < (⟨1, ![N]⟩ : Shape).size a := by
      intro a
      obtain rfl := fin1_eq a
      rw [scatter_start0, scatter_window0, h0]
      have := n.isLt
      refine ⟨by omega, ?_⟩
      show (n.val : Int) + ((0 : Nat) : Int) < ((N : Nat) : Int)
      omega
    rw [dif_pos hb]
    congr 1
    funext a
    refine Fin.ext ?_
    obtain rfl := fin1_eq a
    show ((scatterDims N E wf).start (ix1 e) idx (0 : Fin 1)
        + (scatterDims N E wf).window (ix1 e) (0 : Fin 1)).toNat = n.val
    rw [scatter_start0, scatter_window0, h0]
    omega

end ScatterVec

/-- THE ENTRY SCATTER-ADD READ AT `n`: the operand's element plus the sum, over the updates `e` whose entry number
    `idx[e, 0]` (read signed) is `n`, of the update's element `e`. The sum over the updates that land on `n` is a
    sum over all updates of an `if`; by `resultIdx?_vec_iff` the condition is "`idx[e, 0] = n`". -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (scatterDims N E wf) x idx upd (ix1 n)
      = x (ix1 n) + ∑ e : Fin E, if (idx (ix2 e 0)).toInt = (n.val : Int) then upd (ix1 e) else 0 := by
  unfold Ideal.hostScatterAdd
  congr 1
  rw [Finset.sum_filter, sum_idx1]
  exact Finset.sum_congr rfl fun e _ => if_congr (resultIdx?_vec_iff wf idx e n) rfl rfl

/-- The same at the host operation's own name: over the extended reals the accumulating scatter is the exact sum. -/
theorem host_scatterAdd_vec_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w)
    (upd : FVec Ideal ⟨1, ![E]⟩ .f32) (n : Fin N) :
    (Host.scatterAdd (F := Ideal) (scatterDims N E wf) x idx upd (ix1 n) : EReal)
      = x (ix1 n) + ∑ e : Fin E, if (idx (ix2 e 0)).toInt = (n.val : Int) then upd (ix1 e) else 0 :=
  scatterAdd_vec_apply wf x idx upd n

end VecOps

end
-- ==== Proof.KILapWeightsReal.lean ====
/-
  THE EDGE WEIGHTS ARE REAL NUMBERS.

  Before its first device call the program turns the edge attributes `attr : [1200000]` and the two rows `src`, `dst` of
  the edge list into the normalised edge weights

      deg n = 0 + ∑ { attr e : src e = n }                    (an accumulating scatter into zeros)
      dis n = if deg n > 0 then 1 / √(max (deg n) tiny) else 0   (tiny = 10633824 · 2⁻¹²³, about 1e-30)
      lw e  = −((dis (src e) · attr e) · dis (dst e))          (two gathers, two products, a negation)

  where a negative entry of `src` or `dst` is first wrapped by adding 100000, the scatter drops an entry number that
  is still outside [0, 100000), and a gather clamps it into that range.

  Over the extended reals every operation is the exact one, so if every attribute is a real number then: every
  `deg n` is a real number (zero plus a finite sum of reals); `max (deg n) tiny` is a real number that is at least
  `tiny > 0`, so its reciprocal square root is the real number `(√·)⁻¹` and not one of the corner values; `dis n` is
  that real or the real 0; a gathered entry of `dis` is an entry of `dis`; and a product of three reals, negated, is a
  real. Nothing here depends on what the entry numbers are: the lemmas below take the two columns of entry numbers as
  arbitrary integer columns.
-/
import proofs.«171083_j730144440440_2_alg».proof.Proof.Gen.KernelIdeal.Launch
import Idealize.ShloMosaic.Lib.IdealHost
import proofs.«171083_j730144440440_2_alg».proof.Proof.LibVecOps

noncomputable section

open scoped BigOperators

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-! ## The chain as pure functions of two integer columns and the attributes -/

/-- The degrees: the attributes scatter-added into zeros at the entry numbers of `col`. -/
def degOf (col : IVec S1200000x1 32) (attr : FVec Ideal S1200000 .f32) : FVec Ideal S100000 .f32 :=
  Host.scatterAdd (F := Ideal) scatter_S100000_S1200000x1_S1200000_n_0_0_1
    (broadcastInDim S100000 ![] bcast_S_S100000 (constant (F := Ideal) S_ .f32 0x00000000#32)) col attr

/-- The inverse square roots of the degrees: `1 / √(max deg tiny)` where the degree is positive, 0 elsewhere. -/
def disOf (deg : FVec Ideal S100000 .f32) : FVec Ideal S100000 .f32 :=
  select (cmpf .ogt deg (broadcastInDim S100000 ![] bcast_S_S100000 (constant (F := Ideal) S_ .f32 0x00000000#32)))
    (Host.rsqrt (maximumf deg (broadcastInDim S100000 ![] bcast_S_S100000 (constant (F := Ideal) S_ .f32 0x0DA24260#32))))
    (broadcastInDim S100000 ![] bcast_S_S100000 (id (constant (F := Ideal) S_ .f32 0x00000000#32)))

/-- The edge weights: `−((dis[scol] · attr) · dis[dcol])`, the degrees taken at the column `scol`. -/
def lwOf (scol dcol : IVec S1200000x1 32) (attr : FVec Ideal S1200000 .f32) : FVec Ideal S1200000 .f32 :=
  Host.negf (mulf (mulf
    (Host.gather gather_S100000_S1200000x1_S1200000_n_0_n_n_0_1_1 (disOf (degOf scol attr)) scol) attr)
    (Host.gather gather_S100000_S1200000x1_S1200000_n_0_n_n_0_1_1 (disOf (degOf scol attr)) dcol))

/-- The printed scatter record is the rank-one entry scatter at extents 100000 and 1200000. -/
theorem scatter_eq : scatter_S100000_S1200000x1_S1200000_n_0_0_1
    = VecOps.scatterDims 100000 1200000 scatter_S100000_S1200000x1_S1200000_n_0_0_1.wf := rfl

/-- The printed gather record is the rank-one entry gather at extents 100000 and 1200000. -/
theorem gather_eq : gather_S100000_S1200000x1_S1200000_n_0_n_n_0_1_1
    = VecOps.gatherDims 100000 1200000 gather_S100000_S1200000x1_S1200000_n_0_n_n_0_1_1.wf := rfl

/-- The host's negation of a vector is entry by entry. -/
theorem host_negf_apply {s : Shape} {φ : FTy} (a : FVec Ideal s φ) (i : s.Idx) : Host.negf a i = -(a i) := rfl

/-- The edge weight of edge `k`: the negated product of the gathered source entry, the attribute and the gathered
    destination entry (negation and products are entry by entry). -/
theorem lwOf_apply (scol dcol : IVec S1200000x1 32) (attr : FVec Ideal S1200000 .f32) (k : Fin 1200000) :
    lwOf scol dcol attr (ix1 k)
      = -((Host.gather gather_S100000_S1200000x1_S1200000_n_0_n_n_0_1_1 (disOf (degOf scol attr)) scol (ix1 k)
            * attr (ix1 k))
          * Host.gather gather_S100000_S1200000x1_S1200000_n_0_n_n_0_1_1 (disOf (degOf scol attr)) dcol (ix1 k)) := by
  unfold lwOf
  rw [host_negf_apply, mulf_apply, mulf_apply]

/-! ## Each stage is real -/

/-- A finite sum of coerced reals is the coerced sum. -/
theorem sum_coe_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The broadcast zero word reads 0 everywhere. -/
theorem zeros_apply (j : S100000.Idx) :
    broadcastInDim S100000 ![] bcast_S_S100000 (constant (F := Ideal) S_ .f32 0x00000000#32) j = (0 : EReal) := by
  rw [broadcastInDim_scalar_apply, constant_apply, Ideal.ofBits_zero_f32]

/-- The word `0x0DA24260` is the positive real `10633824 · 2⁻¹²³`: sign 0, exponent field 27, fraction field 2245216,
    so `(2²³ + 2245216) · 2^(27 − 127 − 23)`. -/
theorem tiny_pos : ∃ t : ℝ, 0 < t ∧ Ideal.ofBits .f32 0x0DA24260#32 = (t : EReal) :=
  ⟨10633824 * (2 : ℝ) ^ (-123 : ℤ), by positivity, by simp [Ideal.ofBits, Ideal.ieee]⟩

/-- EVERY DEGREE IS REAL: zero plus the sum, over the edges whose entry number is `n`, of real attributes. -/
theorem degOf_real (col : IVec S1200000x1 32) (attr : FVec Ideal S1200000 .f32)
    (hattr : ∀ i, ∃ r : ℝ, attr i = ↑r) (n : Fin 100000) : ∃ r : ℝ, degOf col attr (ix1 n) = ↑r := by
  choose f hf using hattr
  refine ⟨∑ e : Fin 1200000, if (col (ix2 e 0)).toInt = (n.val : Int) then f (ix1 e) else 0, ?_⟩
  unfold degOf
  rw [scatter_eq]
  refine (VecOps.host_scatterAdd_vec_apply (N := 100000) (E := 1200000)
    scatter_S100000_S1200000x1_S1200000_n_0_0_1.wf _ col attr n).trans ?_
  rw [zeros_apply, zero_add, ← sum_coe_real]
  refine Finset.sum_congr rfl fun e _ => ?_
  by_cases h : (col (ix2 e 0)).toInt = (n.val : Int)
  · rw [if_pos h, if_pos h]; exact hf _
  · rw [if_neg h, if_neg h]; exact EReal.coe_zero.symm

/-- EVERY INVERSE SQUARE ROOT IS REAL: where the degree is positive, `max deg tiny` is a real at least `tiny > 0`, whose
    reciprocal square root is the real `(√·)⁻¹`; elsewhere the value is the zero word. -/
theorem disOf_real (deg : FVec Ideal S100000 .f32) (hdeg : ∀ j, ∃ r : ℝ, deg j = ↑r) (j : S100000.Idx) :
    ∃ r : ℝ, disOf deg j = ↑r := by
  unfold disOf
  rw [select_apply]
  unfold Scalar.select
  split
  · obtain ⟨a, ha⟩ := hdeg j
    obtain ⟨t, ht, htiny⟩ := tiny_pos
    show ∃ r : ℝ, FloatOps.hostUnary .rsqrt (maximumf deg
      (broadcastInDim S100000 ![] bcast_S_S100000 (constant (F := Ideal) S_ .f32 0x0DA24260#32)) j) = ↑r
    rw [Ideal.hostUnary_rsqrt_def, maximumf_apply, broadcastInDim_scalar_apply, constant_apply, ha, htiny,
      ← EReal.coe_strictMono.monotone.map_max, Ideal.rsqrt_coe]
    have hm : 0 < max a t := lt_max_of_lt_right ht
    rw [if_neg (not_lt.mpr hm.le), if_neg hm.ne']
    exact ⟨_, rfl⟩
  · refine ⟨0, ?_⟩
    rw [broadcastInDim_scalar_apply]
    show constant (F := Ideal) S_ .f32 0x00000000#32 ix0 = _
    rw [constant_apply, Ideal.ofBits_zero_f32, EReal.coe_zero]

/-- EVERY EDGE WEIGHT IS REAL: a gathered entry of the inverse square roots is one of them, and the negated product
    of three reals is a real. -/
theorem lwOf_real (scol dcol : IVec S1200000x1 32) (attr : FVec Ideal S1200000 .f32)
    (hattr : ∀ i, ∃ r : ℝ, attr i = ↑r) (e : S1200000.Idx) : ∃ r : ℝ, lwOf scol dcol attr e = ↑r := by
  obtain ⟨k, rfl⟩ : ∃ k : Fin 1200000, e = ix1 k := ⟨e 0, eq_ix1 e⟩
  have hdeg : ∀ j, ∃ r : ℝ, degOf scol attr j = ↑r := fun j => by
    obtain ⟨n, rfl⟩ : ∃ n : Fin 100000, j = ix1 n := ⟨j 0, eq_ix1 j⟩
    exact degOf_real scol attr hattr n
  have hdis : ∀ j, ∃ r : ℝ, disOf (degOf scol attr) j = ↑r := disOf_real _ hdeg
  rw [lwOf_apply, gather_eq,
    VecOps.gather_vec_apply (N := 100000) (E := 1200000) (by decide)
      gather_S100000_S1200000x1_S1200000_n_0_n_n_0_1_1.wf (disOf (degOf scol attr)) scol k,
    VecOps.gather_vec_apply (N := 100000) (E := 1200000) (by decide)
      gather_S100000_S1200000x1_S1200000_n_0_n_n_0_1_1.wf (disOf (degOf scol attr)) dcol k]
  obtain ⟨a, ha⟩ := hdis (ix1 ⟨min (scol (ix2 k 0)).toInt.toNat (100000 - 1), by omega⟩)
  obtain ⟨c, hc⟩ := hdis (ix1 ⟨min (dcol (ix2 k 0)).toInt.toNat (100000 - 1), by omega⟩)
  obtain ⟨b, hb⟩ := hattr (ix1 k)
  rw [ha, hc, hb, ← EReal.coe_mul, ← EReal.coe_mul, ← EReal.coe_neg]
  exact ⟨_, rfl⟩

end Cert.KernelIdeal.Hand

end
-- ==== Proof.KILapWeights.lean ====
/-
  THE EDGE WEIGHTS THE PROGRAM COMPUTES, AND THAT THEY ARE REAL NUMBERS.

  Three stretches of host operations precede the first device call. The first slices the two rows `src`, `dst` off the
  edge list, scatter-adds the attributes into zeros at the wrapped sources (the degrees), and prepares the comparison
  `deg > 0`, the reciprocal square root of `max deg tiny` and a zero word; the second (an outlined `where`) selects between
  the reciprocal square root and the broadcast zero; the third gathers the selected vector at the wrapped sources and
  at the wrapped destinations, multiplies by the attributes and negates. Each stretch is read off on its own, from an
  arbitrary valuation; composed, the weight buffer holds the edge-weight function `lwOf` at the wrapped source and
  destination columns and the attributes, and that function's values are real numbers when the attributes are.
-/
import proofs.«171083_j730144440440_2_alg».proof.Proof.Gen.KernelIdeal.Launch
import Idealize.ShloMosaic.Lib.StableHlo.Run
import proofs.«171083_j730144440440_2_alg».proof.Proof.KILapWeightsReal

noncomputable section

open scoped BigOperators

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- Row 0 of the edge list, as a vector. -/
def srcVec (V0 : Valuation τ sig (Elt Ideal)) : IVec S1200000 32 :=
  shapeCast S1200000 (extractStridedSlice S1x1200000 ![0, 0]
    (V0 (Proc.devRef .tc main_arg1) : (⟨S2x1200000, .i32⟩ : BufTy).Contents (Elt Ideal))
    slices_S2x1200000_S1x1200000_0_0) shapeCasts_S1x1200000_S1200000

/-- Row 1 of the edge list, as a vector. -/
def dstVec (V0 : Valuation τ sig (Elt Ideal)) : IVec S1200000 32 :=
  shapeCast S1200000 (extractStridedSlice S1x1200000 ![1, 0]
    (V0 (Proc.devRef .tc main_arg1) : (⟨S2x1200000, .i32⟩ : BufTy).Contents (Elt Ideal))
    slices_S2x1200000_S1x1200000_1_0) shapeCasts_S1x1200000_S1200000

/-- A vector of entry numbers with its negative entries wrapped by adding 100000, placed as a column. -/
def wrapCol (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)

/-! ## The first stretch, from the program's start -/

section First
variable (V0 : Valuation τ sig (Elt Ideal))

/-- The source vector. -/
theorem first_v1 : (StableHlo.after (hostOps0 (F := Ideal)) V0 (Proc.devRef .tc main_v1) : IVec S1200000 32) = srcVec V0 := by
  unfold srcVec
  after_results_simp <;> rfl

/-- The destination vector. -/
theorem first_v3 : (StableHlo.after (hostOps0 (F := Ideal)) V0 (Proc.devRef .tc main_v3) : IVec S1200000 32) = dstVec V0 := by
  unfold dstVec
  after_results_simp <;> rfl

/-- The attributes are not written. -/
theorem first_arg2 : (StableHlo.after (hostOps0 (F := Ideal)) V0 (Proc.devRef .tc main_arg2) : FVec Ideal S1200000 .f32)
    = V0 (Proc.devRef .tc main_arg2) := by
  after_results_simp

/-- The comparison `deg > 0`. -/
theorem first_v13 : (StableHlo.after (hostOps0 (F := Ideal)) V0 (Proc.devRef .tc main_v13) : IVec S100000 1)
    = cmpf .ogt (degOf (wrapCol (srcVec V0)) (V0 (Proc.devRef .tc main_arg2)))
        (broadcastInDim S100000 ![] bcast_S_S100000 (constant (F := Ideal) S_ .f32 0x00000000#32)) := by
  unfold degOf wrapCol srcVec
  after_results_simp <;> rfl

/-- The reciprocal square root of `max deg tiny`. -/
theorem first_v16 : (StableHlo.after (hostOps0 (F := Ideal)) V0 (Proc.devRef .tc main_v16) : FVec Ideal S100000 .f32)
    = Host.rsqrt (maximumf (degOf (wrapCol (srcVec V0)) (V0 (Proc.devRef .tc main_arg2)))
        (broadcastInDim S100000 ![] bcast_S_S100000 (constant (F := Ideal) S_ .f32 0x0DA24260#32))) := by
  unfold degOf wrapCol srcVec
  after_results_simp <;> rfl

/-- The zero word the outlined selection broadcasts. -/
theorem first_cst3 : (StableHlo.after (hostOps0 (F := Ideal)) V0 (Proc.devRef .tc main_cst_3) : FVec Ideal S_ .f32)
    = constant (F := Ideal) S_ .f32 0x00000000#32 := by
  after_results_simp

end First

/-! ## The second stretch (the outlined selection), from an arbitrary valuation -/

section Second
variable (W : Valuation τ sig (Elt Ideal))

/-- The selected vector: the second operand where the first holds, the broadcast third elsewhere. The stretch moves
    its values between buffers of the same types; those moves are the identity. -/
theorem second_v17 : (StableHlo.after (hostOps0_1 (F := Ideal)) W (Proc.devRef .tc main_v17) : FVec Ideal S100000 .f32)
    = select (W (Proc.devRef .tc main_v13) : IVec S100000 1) (W (Proc.devRef .tc main_v16) : FVec Ideal S100000 .f32)
        (broadcastInDim S100000 ![] bcast_S_S100000 (id (W (Proc.devRef .tc main_cst_3) : FVec Ideal S_ .f32))) := by
  after_results_simp <;> rfl

/-- The source vector is not written. -/
theorem second_v1 : (StableHlo.after (hostOps0_1 (F := Ideal)) W (Proc.devRef .tc main_v1) : IVec S1200000 32)
    = W (Proc.devRef .tc main_v1) := by
  after_results_simp

/-- The destination vector is not written. -/
theorem second_v3 : (StableHlo.after (hostOps0_1 (F := Ideal)) W (Proc.devRef .tc main_v3) : IVec S1200000 32)
    = W (Proc.devRef .tc main_v3) := by
  after_results_simp

/-- The attributes are not written. -/
theorem second_arg2 : (StableHlo.after (hostOps0_1 (F := Ideal)) W (Proc.devRef .tc main_arg2) : FVec Ideal S1200000 .f32)
    = W (Proc.devRef .tc main_arg2) := by
  after_results_simp

/-! ## The third stretch, from an arbitrary valuation -/

/-- The weights: the selected vector gathered at the wrapped sources, times the attributes, times the selected vector
    gathered at the wrapped destinations, negated. -/
theorem third_v34 : (StableHlo.after (hostOps0_2 (F := Ideal)) W (Proc.devRef .tc main_v34) : FVec Ideal S1200000 .f32)
    = Host.negf (F := Ideal) (φ := .f32) (mulf (mulf
        (Host.gather gather_S100000_S1200000x1_S1200000_n_0_n_n_0_1_1 (W (Proc.devRef .tc main_v17) : FVec Ideal S100000 .f32)
          (wrapCol (W (Proc.devRef .tc main_v1))))
        (W (Proc.devRef .tc main_arg2) : FVec Ideal S1200000 .f32))
        (Host.gather gather_S100000_S1200000x1_S1200000_n_0_n_n_0_1_1 (W (Proc.devRef .tc main_v17) : FVec Ideal S100000 .f32)
          (wrapCol (W (Proc.devRef .tc main_v3))))) := by
  unfold wrapCol
  after_results_simp <;> rfl

end Second

/-! ## Composed -/

/-- THE WEIGHT BUFFER AFTER THE THREE STRETCHES, whatever the contents `V0` they start from: the edge weights of the
    wrapped source and destination columns and the attributes. -/
theorem lw_term (V0 : Valuation τ sig (Elt Ideal)) :
    (StableHlo.after (hostOps0_2 (F := Ideal)) (StableHlo.after (hostOps0_1 (F := Ideal))
        (StableHlo.after (hostOps0 (F := Ideal)) V0)) (Proc.devRef .tc main_v34) : FVec Ideal S1200000 .f32)
      = lwOf (wrapCol (srcVec V0)) (wrapCol (dstVec V0)) (V0 (Proc.devRef .tc main_arg2)) := by
  rw [third_v34, second_v17, second_v1, second_v3, second_arg2,
    first_v13, first_v16, first_cst3, first_v1, first_v3, first_arg2]
  unfold lwOf disOf
  rfl

/-- THE EDGE WEIGHTS THE PROGRAM COMPUTES ARE REAL NUMBERS when the attributes are. -/
theorem lw_real (V0 : Valuation τ sig (Elt Ideal))
    (hattr : ∀ i, ∃ r : ℝ, (V0 (Proc.devRef .tc main_arg2) : S1200000.Idx → EReal) i = ((r : ℝ) : EReal)) :
    ∀ e : S1200000.Idx, ∃ r : ℝ,
      (StableHlo.after (hostOps0_2 (F := Ideal)) (StableHlo.after (hostOps0_1 (F := Ideal))
        (StableHlo.after (hostOps0 (F := Ideal)) V0)) (Proc.devRef .tc main_v34) : S1200000.Idx → EReal) e
        = ((r : ℝ) : EReal) := by
  intro e
  obtain ⟨r, hr⟩ := lwOf_real (wrapCol (srcVec V0)) (wrapCol (dstVec V0)) (V0 (Proc.devRef .tc main_arg2)) hattr e
  exact ⟨r, (congrFun (lw_term V0) e).trans hr⟩

end Cert.KernelIdeal.Hand

end
-- ==== Proof.Algebraic.lean ====
/-
  The two idealized programs compute one function of the argument arrays.

  The kernel program: the edge weights  lw e = -(dis (src e) * attr e * dis (dst e))  with  dis = where (deg > 0, rsqrt (max deg tiny), 0)
  and  deg  the scatter-add of  attr  at  src; three layers  h' = act (h W0 + P h W1 + b)  where  P y  is the message
  passing  (P y) n = sum over edges e with dst e = n of  lw e * y (src e)  — the third layer projecting BEFORE it
  propagates,  P (h2 W1)  in place of  (P h2) W1 —; then the attention pool by a running maximum, a running
  denominator and a running weighted sum over ten blocks of rows, and the log-softmax of the pooled row.
  The reference program: the same edge weights; the same three layers with the third one propagating first; the
  softmax over all rows at once; the same log-softmax.
  They agree on finite inputs: message passing is linear, so it commutes with a product on the right by a matrix of
  reals; and a softmax-weighted sum does not depend on the shift subtracted under the exponentials, so the running form
  equals the one-shot form.
-/
import proofs.«171083_j730144440440_2_alg».proof.Defs
import proofs.«171083_j730144440440_2_alg».proof.Proof.KIFrame
import proofs.«171083_j730144440440_2_alg».proof.Proof.RefRun
import proofs.«171083_j730144440440_2_alg».proof.Proof.FiniteInputs
import proofs.«171083_j730144440440_2_alg».proof.Proof.BridgeA
import proofs.«171083_j730144440440_2_alg».proof.Proof.BridgeB3
import proofs.«171083_j730144440440_2_alg».proof.Proof.BridgeCFinal
import proofs.«171083_j730144440440_2_alg».proof.Proof.KILapWeights

noncomputable section

namespace Cert.Proof.Algebra

open Idealize.ShloMosaic Idealize.ShloMosaic.TcCoe Idealize.SL.Sem

/-- THE BRIDGE, given that the edge weights are real: the first half of the comparison (edge weights, first layer, its
    propagation) feeds the second (second layer, linearity of the propagation, third layer), whose conclusion — the third
    layers' outputs agree and are real — feeds the pool stage. -/
theorem bridge_of_real_weights (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)))
    (c : Dev Cert.KernelIdeal.nD)
    (hlw : ∀ e : Cert.KernelIdeal.S1200000.Idx, ∃ r : ℝ,
      (Cert.KernelIdeal.Hand.W3 m c (Proc.devRef .tc Cert.KernelIdeal.main_v34) : Cert.KernelIdeal.S1200000.Idx → EReal) e = (r : EReal)) :
    StableHlo.after Cert.ReferenceIdeal.RefRun.ops (StableHlo.launchContents m' c) (Proc.devRef .tc Cert.ReferenceIdeal.main_v117)
      = (Cert.KernelIdeal.Hand.dat3 (Cert.KernelIdeal.Hand.V9 m) c).arrAt 3 Cert.KernelIdeal.cfg3.N := by
  obtain ⟨s97, hh3⟩ := Cert.Proof.BridgeB.second_half m m' hagree hpre c hlw
  exact Cert.Proof.BridgeC.pool_agree m m' hagree c s97 hh3 hpre

/-- THE BRIDGE: from memories that agree on the eleven arguments, all finite, the reference's result — the fold of its
    170 host operations read at its result buffer — is what the kernel program's last region leaves in its output array. -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)))
    (c : Dev Cert.KernelIdeal.nD) :
    StableHlo.after Cert.ReferenceIdeal.RefRun.ops (StableHlo.launchContents m' c) (Proc.devRef .tc Cert.ReferenceIdeal.main_v117)
      = (Cert.KernelIdeal.Hand.dat3 (Cert.KernelIdeal.Hand.V9 m) c).arrAt 3 Cert.KernelIdeal.cfg3.N :=
  bridge_of_real_weights m m' hpre hagree c (by
    have h := Cert.KernelIdeal.Hand.lw_real (Cert.KernelIdeal.Hand.W0 m c) (Cert.Proof.Finite.finite_of_pre m hpre c).2.1
    unfold Cert.KernelIdeal.Hand.W3 Cert.KernelIdeal.Hand.W2 Cert.KernelIdeal.Hand.W1
    exact h)

/-- Both idealized programs run to the end, leave their arguments unchanged, and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.dat3 (Cert.KernelIdeal.Hand.V9 m) c).arrAt 3 Cert.KernelIdeal.cfg3.N,
    Cert.KernelIdeal.Hand.run_result m ρ, ?_⟩
  exact (θ_run Cert.ReferenceIdeal.defs _ _).mono (fun r h c =>
    ⟨(h c Cert.ReferenceIdeal.main_v117).trans (bridge m m' hpre hagree c),
      (h c Cert.ReferenceIdeal.main_arg0).trans (Cert.ReferenceIdeal.RefRun.args_kept0 m' c),
      (h c Cert.ReferenceIdeal.main_arg1).trans (Cert.ReferenceIdeal.RefRun.args_kept1 m' c),
      (h c Cert.ReferenceIdeal.main_arg2).trans (Cert.ReferenceIdeal.RefRun.args_kept2 m' c),
      (h c Cert.ReferenceIdeal.main_arg3).trans (Cert.ReferenceIdeal.RefRun.args_kept3 m' c),
      (h c Cert.ReferenceIdeal.main_arg4).trans (Cert.ReferenceIdeal.RefRun.args_kept4 m' c),
      (h c Cert.ReferenceIdeal.main_arg5).trans (Cert.ReferenceIdeal.RefRun.args_kept5 m' c),
      (h c Cert.ReferenceIdeal.main_arg6).trans (Cert.ReferenceIdeal.RefRun.args_kept6 m' c),
      (h c Cert.ReferenceIdeal.main_arg7).trans (Cert.ReferenceIdeal.RefRun.args_kept7 m' c),
      (h c Cert.ReferenceIdeal.main_arg8).trans (Cert.ReferenceIdeal.RefRun.args_kept8 m' c),
      (h c Cert.ReferenceIdeal.main_arg9).trans (Cert.ReferenceIdeal.RefRun.args_kept9 m' c),
      (h c Cert.ReferenceIdeal.main_arg10).trans (Cert.ReferenceIdeal.RefRun.args_kept10 m' c)⟩)
    (Cert.ReferenceIdeal.RefRun.run (F := Ideal) m' ρ')

end Cert.Proof.Algebra

end
-- ==== Proof.lean ====
/-
  The claim: the kernel program, its idealization and the idealized reference each run to the end with their argument
  arrays unchanged, and the two idealized programs end with equal results.

  The kernel program is four kernel regions — three layers  act (h W0 + (P h) W1 + b)  computed one block of rows per grid
  point, and an attention pool that carries a running maximum, denominator and weighted sum across ten grid points —
  among stretches of host operations (the edge weights, and the message passing  (P y) n = sum over edges into n of
  lw e * y (src e)  as a gather, a scaling and a scatter-add). Its frame is one record per region over the launch of
  several regions: a region's arrays are split out of the unscoped buffers, staged block by block, and put back at
  what the write-backs leave; the pool's three scratch buffers ride in its invariant. The same text serves the
  word-level program and its idealization. The reference is a straight line of host operations: its run is the fold
  of their results, and no operation writes an argument.
  The idealization rewrote no operation, so there is nothing to preserve. The two idealized programs agree because
  message passing is linear (the third layer projects before it propagates) and a softmax-weighted sum does not depend
  on the shift under the exponentials (the running pool against the one-shot softmax).
-/
import proofs.«171083_j730144440440_2_alg».proof.Defs
import proofs.«171083_j730144440440_2_alg».proof.Proof.Gen.Kernel
import proofs.«171083_j730144440440_2_alg».proof.Proof.Gen.KernelIdeal
import proofs.«171083_j730144440440_2_alg».proof.Proof.Gen.ReferenceIdeal
import proofs.«171083_j730144440440_2_alg».proof.Proof.Gen.Pre_finite_inputs
import proofs.«171083_j730144440440_2_alg».proof.Proof.KFrame
import proofs.«171083_j730144440440_2_alg».proof.Proof.KIFrame
import proofs.«171083_j730144440440_2_alg».proof.Proof.RefRun
import proofs.«171083_j730144440440_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.RefRun.frame_ri,
    trivial,
    Cert.Proof.Algebra.algebraic⟩

end Cert.Proof

end
